-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000 : Shape := ⟨1, ![100000]⟩
abbrev S4x64x64 : Shape := ⟨3, ![4, 64, 64]⟩
abbrev S4x64 : Shape := ⟨2, ![4, 64]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg8 : FVec F S4x64 .f32) (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_cst_28 : FVec F S_ .f32 := constant S_ .f32 0x00000000#32
  let main_v74 : FVec F S4x64 .f32 := broadcastInDim S4x64 ![] bcast_S_S4x64 main_cst_28
  let main_v75 : IVec S4x64 1 := cmpf .oge main_arg8 main_v74
  let main_c_29 : IVec S_ 1 := constantI S_ 1 1#1
  let main_v76 : IVec S_ 1 := (fun x v => Host.reduce IntOp.andi x v reducesTo_S4x64_S_d0_1 h_S_) main_v75 main_c_29
  let main_v77 : IVec S_ 1 := andi main_v73 main_v76
  main_v77

def fn_part3 {F : FTy → Type} [FloatOps F] (main_arg8 : FVec F S4x64 .f32) (main_arg13 : FVec F S128x64 .f32) (main_arg14 : FVec F S64 .f32) (main_arg15 : FVec F S64x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg15
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg8 main_arg16 main_v63 main_v67

def fn_part2 {F : FTy → Type} [FloatOps F] (main_arg8 : FVec F S4x64 .f32) (main_arg9 : FVec F S256x256 .f32) (main_arg10 : FVec F S256 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_v48 main_v49 main_v50

def fn_part1 {F : FTy → Type} [FloatOps F] (main_arg6 : FVec F S4x64 .f32) (main_arg7 : FVec F S4x64 .f32) (main_arg8 : FVec F S4x64 .f32) (main_arg9 : FVec F S256x256 .f32) (main_arg10 : FVec F S256 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg7
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S4x64 .f32 := Host.absf main_arg8
  let main_cst_10 : FVec F S_ .f32 := constant S_ .f32 0x7F800000#32
  let main_v30 : FVec F S4x64 .f32 := broadcastInDim S4x64 ![] bcast_S_S4x64 main_cst_10
  let main_v31 : IVec S4x64 1 := cmpf .olt main_v29 main_v30
  let main_c_11 : IVec S_ 1 := constantI S_ 1 1#1
  let main_v32 : IVec S_ 1 := (fun x v => Host.reduce IntOp.andi x v reducesTo_S4x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x3200000 32) (main_arg2 : IVec S100000 32) (main_arg3 : FVec F S4x64x64 .f32) (main_arg4 : FVec F S4x64 .f32) (main_arg5 : FVec F S4x64 .f32) (main_arg6 : FVec F S4x64 .f32) (main_arg7 : FVec F S4x64 .f32) (main_arg8 : FVec F S4x64 .f32) (main_arg9 : FVec F S256x256 .f32) (main_arg10 : FVec F S256 .f32) (main_arg11 : FVec F S256x128 .f32) (main_arg12 : FVec F S128 .f32) (main_arg13 : FVec F S128x64 .f32) (main_arg14 : FVec F S64 .f32) (main_arg15 : FVec F S64x1 .f32) (main_arg16 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x64x64 .f32 := Host.absf main_arg3
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg4
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S4x64 .f32 := Host.absf main_arg5
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x3200000 : Shape := ⟨2, ![2, 3200000]⟩
abbrev S100000 : Shape := ⟨1, ![100000]⟩
abbrev S4x64x64 : Shape := ⟨3, ![4, 64, 64]⟩
abbrev S4x64 : Shape := ⟨2, ![4, 64]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S4x1x64 : Shape := ⟨3, ![4, 1, 64]⟩
abbrev S1x64x64 : Shape := ⟨3, ![1, 64, 64]⟩
abbrev S64x64 : Shape := ⟨2, ![64, 64]⟩
abbrev S10000x64 : Shape := ⟨2, ![10000, 64]⟩
abbrev S3300000x64 : Shape := ⟨2, ![3300000, 64]⟩
abbrev S1x64 : Shape := ⟨2, ![1, 64]⟩
abbrev S4x64x256 : Shape := ⟨3, ![4, 64, 256]⟩
abbrev S1x64x256 : Shape := ⟨3, ![1, 64, 256]⟩
abbrev S64x256 : Shape := ⟨2, ![64, 256]⟩
abbrev S1x256 : Shape := ⟨2, ![1, 256]⟩
abbrev S1x128 : Shape := ⟨2, ![1, 128]⟩
abbrev S100000x128 : Shape := ⟨2, ![100000, 128]⟩
abbrev S4000x64 : Shape := ⟨2, ![4000, 64]⟩
abbrev S4000x128 : Shape := ⟨2, ![4000, 128]⟩
abbrev S4000x256 : Shape := ⟨2, ![4000, 256]⟩
abbrev S64x128 : Shape := ⟨2, ![64, 128]⟩
abbrev S100000x1 : Shape := ⟨2, ![100000, 1]⟩
abbrev S1x1 : Shape := ⟨2, ![1, 1]⟩

abbrev nBuf : Space → Nat
  | .hbm => 182
  | .vmem => 65
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S4x64x64, .f32⟩
  | 4 => ⟨S4x64, .f32⟩
  | 5 => ⟨S4x64, .f32⟩
  | 6 => ⟨S4x64, .f32⟩
  | 7 => ⟨S4x64, .f32⟩
  | 8 => ⟨S4x64, .f32⟩
  | 9 => ⟨S256x256, .f32⟩
  | 10 => ⟨S256, .f32⟩
  | 11 => ⟨S256x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S3300000x1, .f32⟩
  | 51 => ⟨S_, .f32⟩
  | 52 => ⟨S4x64, .f32⟩
  | 53 => ⟨S4x64, .f32⟩
  | 54 => ⟨S4x64, .f32⟩
  | 55 => ⟨S4x64, .f32⟩
  | 56 => ⟨S4x64, .f32⟩
  | 57 => ⟨S4x64, .f32⟩
  | 58 => ⟨S4x64, .f32⟩
  | 59 => ⟨S4x1x64, .f32⟩
  | 60 => ⟨S4x64x64, .f32⟩
  | 61 => ⟨S4x64x64, .f32⟩
  | 62 => ⟨S1x64x64, .f32⟩
  | 63 => ⟨S64x64, .f32⟩
  | 64 => ⟨S100000x64, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x64, .f32⟩
  | 74 => ⟨S3300000x64, .f32⟩
  | 75 => ⟨S3300000x64, .f32⟩
  | 76 => ⟨S_, .f32⟩
  | 77 => ⟨S100000x64, .f32⟩
  | 78 => ⟨S3300000x1, .i32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S1x64x64, .f32⟩
  | 85 => ⟨S64x64, .f32⟩
  | 86 => ⟨S100000x64, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000x64, .f32⟩
  | 96 => ⟨S3300000x64, .f32⟩
  | 97 => ⟨S3300000x64, .f32⟩
  | 98 => ⟨S_, .f32⟩
  | 99 => ⟨S100000x64, .f32⟩
  | 100 => ⟨S3300000x1, .i32⟩
  | 101 => ⟨S100000x64, .f32⟩
  | 102 => ⟨S1x64, .f32⟩
  | 103 => ⟨S64, .f32⟩
  | 104 => ⟨S1x64, .f32⟩
  | 105 => ⟨S100000x64, .f32⟩
  | 106 => ⟨S1x64x64, .f32⟩
  | 107 => ⟨S64x64, .f32⟩
  | 108 => ⟨S100000x64, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x64, .f32⟩
  | 118 => ⟨S3300000x64, .f32⟩
  | 119 => ⟨S3300000x64, .f32⟩
  | 120 => ⟨S_, .f32⟩
  | 121 => ⟨S100000x64, .f32⟩
  | 122 => ⟨S3300000x1, .i32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S100000x64, .f32⟩

abbrev hbmTy0_1 (i : Nat) : BufTy := match i % 128 with
  | 0 => ⟨S1x64x64, .f32⟩
  | 1 => ⟨S64x64, .f32⟩
  | 2 => ⟨S100000x64, .f32⟩
  | 3 => ⟨S_, .i32⟩
  | 4 => ⟨S3300000, .i32⟩
  | 5 => ⟨S3300000, .i1⟩
  | 6 => ⟨S_, .i32⟩
  | 7 => ⟨S3300000, .i32⟩
  | 8 => ⟨S3300000, .i32⟩
  | 9 => ⟨S3300000, .i32⟩
  | 10 => ⟨S3300000x1, .i32⟩
  | 11 => ⟨S3300000x64, .f32⟩
  | 12 => ⟨S3300000x64, .f32⟩
  | 13 => ⟨S3300000x64, .f32⟩
  | 14 => ⟨S_, .f32⟩
  | 15 => ⟨S100000x64, .f32⟩
  | 16 => ⟨S3300000x1, .i32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S4x64x256, .f32⟩
  | 23 => ⟨S1x64x256, .f32⟩
  | 24 => ⟨S64x256, .f32⟩
  | 25 => ⟨S1x64x256, .f32⟩
  | 26 => ⟨S64x256, .f32⟩
  | 27 => ⟨S1x64x256, .f32⟩
  | 28 => ⟨S64x256, .f32⟩
  | 29 => ⟨S1x64x256, .f32⟩
  | 30 => ⟨S64x256, .f32⟩
  | 31 => ⟨S1x256, .f32⟩
  | 32 => ⟨S1x128, .f32⟩
  | 33 => ⟨S100000x128, .f32⟩
  | 34 => ⟨S_, .f32⟩
  | 35 => ⟨S64x128, .f32⟩
  | 36 => ⟨S100000x1, .i32⟩
  | 37 => ⟨S64x128, .f32⟩
  | 38 => ⟨S_, .f32⟩
  | 39 => ⟨S100000, .f32⟩
  | 40 => ⟨S_, .f32⟩
  | 41 => ⟨S64, .f32⟩
  | 42 => ⟨S100000x1, .i32⟩
  | 43 => ⟨S64, .f32⟩
  | 44 => ⟨S_, .f32⟩
  | 45 => ⟨S64, .f32⟩
  | 46 => ⟨S64, .f32⟩
  | 47 => ⟨S64x1, .f32⟩
  | 48 => ⟨S64x128, .f32⟩
  | 49 => ⟨S64x128, .f32⟩
  | 50 => ⟨S1x64, .f32⟩
  | 51 => ⟨S1x1, .f32⟩
  | 52 => ⟨S64x1, .f32⟩
  | 53 => ⟨S64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S10000x64, .f32⟩
  | .local _ .vmem, ⟨36, _⟩ => ⟨S10000x64, .f32⟩
  | .local _ .vmem, ⟨37, _⟩ => ⟨S10000x64, .f32⟩
  | .local _ .vmem, ⟨38, _⟩ => ⟨S10000x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x64, .f32⟩
  | .local _ .vmem, ⟨47, _⟩ => ⟨S4000x64, .f32⟩
  | .local _ .vmem, ⟨48, _⟩ => ⟨S4000x64, .f32⟩
  | .local _ .vmem, ⟨49, _⟩ => ⟨S4000x64, .f32⟩
  | .local _ .vmem, ⟨50, _⟩ => ⟨S64x256, .f32⟩
  | .local _ .vmem, ⟨51, _⟩ => ⟨S64x256, .f32⟩
  | .local _ .vmem, ⟨52, _⟩ => ⟨S64x256, .f32⟩
  | .local _ .vmem, ⟨53, _⟩ => ⟨S64x256, .f32⟩
  | .local _ .vmem, ⟨54, _⟩ => ⟨S1x256, .f32⟩
  | .local _ .vmem, ⟨55, _⟩ => ⟨S256x128, .f32⟩
  | .local _ .vmem, ⟨56, _⟩ => ⟨S1x128, .f32⟩
  | .local _ .vmem, ⟨57, _⟩ => ⟨S4000x128, .f32⟩
  | .local _ .vmem, ⟨58, _⟩ => ⟨S4000x128, .f32⟩
  | .local _ .vmem, ⟨59, _⟩ => ⟨S64x128, .f32⟩
  | .local _ .vmem, ⟨60, _⟩ => ⟨S128x64, .f32⟩
  | .local _ .vmem, ⟨61, _⟩ => ⟨S1x64, .f32⟩
  | .local _ .vmem, ⟨62, _⟩ => ⟨S64x1, .f32⟩
  | .local _ .vmem, ⟨63, _⟩ => ⟨S1x1, .f32⟩
  | .local _ .vmem, ⟨64, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_5 : Ref sig .tc := ⟨.hbm, 65, rfl⟩
abbrev main_v41 : Ref sig .tc := ⟨.hbm, 66, rfl⟩
abbrev main_v42 : Ref sig .tc := ⟨.hbm, 67, rfl⟩
abbrev main_c_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_7 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_c_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_10 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_11 : Ref sig .tc := ⟨.hbm, 109, rfl⟩
abbrev main_v79 : Ref sig .tc := ⟨.hbm, 110, rfl⟩
abbrev main_v80 : Ref sig .tc := ⟨.hbm, 111, rfl⟩
abbrev main_c_12 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_13 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_14 : Ref sig .tc := ⟨.hbm, 131, rfl⟩
abbrev main_v98 : Ref sig .tc := ⟨.hbm, 132, rfl⟩
abbrev main_v99 : Ref sig .tc := ⟨.hbm, 133, rfl⟩
abbrev main_c_15 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_cst_17 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_18 : Ref sig .tc := ⟨.hbm, 166, rfl⟩
abbrev main_v129 : Ref sig .tc := ⟨.hbm, 167, rfl⟩
abbrev main_cst_19 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_cst_20 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc5_stg3_0 : Ref sig .tc := ⟨.vmem, 30, rfl⟩
abbrev cc5_stg3_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg1_1 : Ref sig .tc := ⟨.vmem, 45, rfl⟩
abbrev cc8_stg2_0 : Ref sig .tc := ⟨.vmem, 46, rfl⟩
abbrev cc8_stg2_1 : Ref sig .tc := ⟨.vmem, 47, rfl⟩
abbrev cc8_stg3_0 : Ref sig .tc := ⟨.vmem, 48, rfl⟩
abbrev cc8_stg3_1 : Ref sig .tc := ⟨.vmem, 49, rfl⟩
abbrev cc8_stg4_0 : Ref sig .tc := ⟨.vmem, 50, rfl⟩
abbrev cc8_stg5_0 : Ref sig .tc := ⟨.vmem, 51, rfl⟩
abbrev cc8_stg6_0 : Ref sig .tc := ⟨.vmem, 52, rfl⟩
abbrev cc8_stg7_0 : Ref sig .tc := ⟨.vmem, 53, rfl⟩
abbrev cc8_stg8_0 : Ref sig .tc := ⟨.vmem, 54, rfl⟩
abbrev cc8_stg9_0 : Ref sig .tc := ⟨.vmem, 55, rfl⟩
abbrev cc8_stg10_0 : Ref sig .tc := ⟨.vmem, 56, rfl⟩
abbrev cc8_stg11_0 : Ref sig .tc := ⟨.vmem, 57, rfl⟩
abbrev cc8_stg11_1 : Ref sig .tc := ⟨.vmem, 58, rfl⟩
abbrev cc9_stg0_0 : Ref sig .tc := ⟨.vmem, 59, rfl⟩
abbrev cc9_stg1_0 : Ref sig .tc := ⟨.vmem, 60, rfl⟩
abbrev cc9_stg2_0 : Ref sig .tc := ⟨.vmem, 61, rfl⟩
abbrev cc9_stg3_0 : Ref sig .tc := ⟨.vmem, 62, rfl⟩
abbrev cc9_stg4_0 : Ref sig .tc := ⟨.vmem, 63, rfl⟩
abbrev cc9_stg5_0 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc5_sem3_0 : DmaSem sig := 30
abbrev cc5_sem3_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem1_1 : DmaSem sig := 45
abbrev cc8_sem2_0 : DmaSem sig := 46
abbrev cc8_sem2_1 : DmaSem sig := 47
abbrev cc8_sem3_0 : DmaSem sig := 48
abbrev cc8_sem3_1 : DmaSem sig := 49
abbrev cc8_sem4_0 : DmaSem sig := 50
abbrev cc8_sem5_0 : DmaSem sig := 51
abbrev cc8_sem6_0 : DmaSem sig := 52
abbrev cc8_sem7_0 : DmaSem sig := 53
abbrev cc8_sem8_0 : DmaSem sig := 54
abbrev cc8_sem9_0 : DmaSem sig := 55
abbrev cc8_sem10_0 : DmaSem sig := 56
abbrev cc8_sem11_0 : DmaSem sig := 57
abbrev cc8_sem11_1 : DmaSem sig := 58
abbrev cc9_sem0_0 : DmaSem sig := 59
abbrev cc9_sem1_0 : DmaSem sig := 60
abbrev cc9_sem2_0 : DmaSem sig := 61
abbrev cc9_sem3_0 : DmaSem sig := 62
abbrev cc9_sem4_0 : DmaSem sig := 63
abbrev cc9_sem5_0 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S4000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S64x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S64x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64x256 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x256 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S256x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x128 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 2 → Memref sig .tc .vmem S4000x128 .f32 := fun | 0 => Memref.whole cc8_stg11_0 | 1 => Memref.whole cc8_stg11_1 | ⟨_ + 2, h⟩ => absurd h (Nat.not_lt.2 (Nat.le_add_left _ _))
abbrev sem8_11 : Fin 2 → DmaSem sig := fun | 0 => cc8_sem11_0 | 1 => cc8_sem11_1 | ⟨_ + 2, h⟩ => absurd h (Nat.not_lt.2 (Nat.le_add_left _ _))
abbrev reads8_11 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S64x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x1 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S64x1 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S4x64 : S_.BroadcastsInDim S4x64 (![] : Fin 0 → Fin S4x64.rank)
  bcast_S4x64_S4x1x64_0_2 : S4x64.BroadcastsInDim S4x1x64 (![0, 2] : Fin 2 → Fin S4x1x64.rank)
  bcast_S4x1x64_S4x64x64_0_1_2 : S4x1x64.BroadcastsInDim S4x64x64 (![0, 1, 2] : Fin 3 → Fin S4x64x64.rank)
  slices_S4x64x64_S1x64x64_0_0_0 : S4x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  shapeCasts_S256x256_S4x64x256 : S256x256.ShapeCasts S4x64x256
  slices_S4x64x256_S1x64x256_0_0_0 : S4x64x256.Slices ![0, 0, 0] S1x64x256
  shapeCasts_S1x64x256_S64x256 : S1x64x256.ShapeCasts S64x256
  slices_S4x64x256_S1x64x256_1_0_0 : S4x64x256.Slices ![1, 0, 0] S1x64x256
  slices_S4x64x256_S1x64x256_2_0_0 : S4x64x256.Slices ![2, 0, 0] S1x64x256
  slices_S4x64x256_S1x64x256_3_0_0 : S4x64x256.Slices ![3, 0, 0] S1x64x256
  shapeCasts_S256_S1x256 : S256.ShapeCasts S1x256
  shapeCasts_S128_S1x128 : S128.ShapeCasts S1x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x64_S128x64_0_0 : ∀ a, (![0, 0] : Fin 2 → Nat) a + S128x64.size a ≤ S128x64.size a
  h_S128x64 : 0 < S128x64.numel
  broadcasts_S1x64_S64x64 : S1x64.Broadcasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x64_S64x64_S10000x64_1_0_0_1_n_n_wf : DotDims.WF S10000x64 S64x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S4000x64_S64x256_S4000x256_1_0_0_1_n_n_wf : DotDims.WF S4000x64 S64x256 S4000x256 [1] [0] [0] [1] [] []
  dot_S4000x256_S256x128_S4000x128_1_0_0_1_n_n_wf : DotDims.WF S4000x256 S256x128 S4000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x64.size a ≤ S100000x64.size a
  hwx8_1 : ∀ i : grid8.Coords, EltTy.bits .f32 = 32 ∨ (Rect.block (s := S100000x64) S4000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x64.size a ≤ S100000x64.size a
  hwx8_2 : ∀ i : grid8.Coords, EltTy.bits .f32 = 32 ∨ (Rect.block (s := S100000x64) S4000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4000x64.size a ≤ S100000x64.size a
  hwx8_3 : ∀ i : grid8.Coords, EltTy.bits .f32 = 32 ∨ (Rect.block (s := S100000x64) S4000x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x256.size a ≤ S64x256.size a
  hwx8_4 : ∀ i : grid8.Coords, EltTy.bits .f32 = 32 ∨ (Rect.block (s := S64x256) S64x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x256.size a ≤ S64x256.size a
  hwx8_5 : ∀ i : grid8.Coords, EltTy.bits .f32 = 32 ∨ (Rect.block (s := S64x256) S64x256.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S64x256.size a ≤ S64x256.size a
  hwx8_6 : ∀ i : grid8.Coords, EltTy.bits .f32 = 32 ∨ (Rect.block (s := S64x256) S64x256.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64x256.size a ≤ S64x256.size a
  hwx8_7 : ∀ i : grid8.Coords, EltTy.bits .f32 = 32 ∨ (Rect.block (s := S64x256) S64x256.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x256.size a ≤ S1x256.size a
  hwx8_8 : ∀ i : grid8.Coords, EltTy.bits .f32 = 32 ∨ (Rect.block (s := S1x256) S1x256.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S256x128.size a ≤ S256x128.size a
  hwx8_9 : ∀ i : grid8.Coords, EltTy.bits .f32 = 32 ∨ (Rect.block (s := S256x128) S256x128.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x128.size a ≤ S1x128.size a
  hwx8_10 : ∀ i : grid8.Coords, EltTy.bits .f32 = 32 ∨ (Rect.block (s := S1x128) S1x128.size (cc8_transform_10 i) (hinb8_10 i)).WholeWords (EltTy.packing .f32)
  hstage8_11 : ∀ j, (stage8_11 j).IsWhole
  nbuf8_11 : grid8.bufCount reads8_11 false = 2
  hreads8_11 : ∀ i i' : grid8.Coords, (∀ a, reads8_11 a = true → i a = i' a) → cc8_transform_11 i = cc8_transform_11 i'
  hinb8_11 : ∀ (i : grid8.Coords) a, (cc8_transform_11 i a + 1) * S4000x128.size a ≤ S100000x128.size a
  hwx8_11 : ∀ i : grid8.Coords, EltTy.bits .f32 = 32 ∨ (Rect.block (s := S100000x128) S4000x128.size (cc8_transform_11 i) (hinb8_11 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S64x128.size a ≤ S64x128.size a
  hwx9_0 : ∀ i : grid9.Coords, EltTy.bits .f32 = 32 ∨ (Rect.block (s := S64x128) S64x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x64.size a ≤ S128x64.size a
  hwx9_1 : ∀ i : grid9.Coords, EltTy.bits .f32 = 32 ∨ (Rect.block (s := S128x64) S128x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x1.size a ≤ S64x1.size a
  hwx9_3 : ∀ i : grid9.Coords, EltTy.bits .f32 = 32 ∨ (Rect.block (s := S64x1) S64x1.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x1.size a ≤ S1x1.size a
  hwx9_4 : ∀ i : grid9.Coords, EltTy.bits .f32 = 32 ∨ (Rect.block (s := S1x1) S1x1.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S64x1.size a ≤ S64x1.size a
  hwx9_5 : ∀ i : grid9.Coords, EltTy.bits .f32 = 32 ∨ (Rect.block (s := S64x1) S64x1.size (cc9_transform_5 i) (hinb9_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v71) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S10000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v94) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v96) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v97) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v109) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v112) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v113) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v56) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v75) S4000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v94) S4000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v113) S4000x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v116) S64x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v118) S64x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v120) S64x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v122) S64x256.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v123) S1x256.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_arg11) S256x128.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v124) S1x128.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v125) S4000x128.size cc8_transform_11 reads8_11 true false 2 stage8_11 sem8_11
    hrank8 hreads8_11 hinb8_11 nbuf8_11 (Memref.isWhole_whole _) hwx8_11 hstage8_11

abbrev win8 : Fin 12 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | ⟨_ + 12, h⟩ => absurd h (Nat.not_lt.2 (Nat.le_add_left _ _))
abbrev spec8 : Fin 12 → Pipeline.WinSpec sig grid8.rank := fun w => (win8 w).toWinSpec

abbrev win9_0 : Pipeline.Window sig grid9 :=
  Pipeline.Window.ofSpec (Memref.whole main_v137) S64x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg13) S128x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v138) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg15) S64x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v139) S1x1.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v140) S64x1.size cc9_transform_5 reads9_5 true true 1 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S100000 : Shape := ⟨1, ![100000]⟩
abbrev S4x64x64 : Shape := ⟨3, ![4, 64, 64]⟩
abbrev S4x64 : Shape := ⟨2, ![4, 64]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x64x64 : Shape := ⟨3, ![1, 64, 64]⟩
abbrev S64x64 : Shape := ⟨2, ![64, 64]⟩
abbrev S3300000x64 : Shape := ⟨2, ![3300000, 64]⟩
abbrev S1x64 : Shape := ⟨2, ![1, 64]⟩
abbrev S100000x256 : Shape := ⟨2, ![100000, 256]⟩
abbrev S1x256 : Shape := ⟨2, ![1, 256]⟩
abbrev S100000x128 : Shape := ⟨2, ![100000, 128]⟩
abbrev S1x128 : Shape := ⟨2, ![1, 128]⟩
abbrev S64x128 : Shape := ⟨2, ![64, 128]⟩
abbrev S100000x1 : Shape := ⟨2, ![100000, 1]⟩
abbrev S1x1 : Shape := ⟨2, ![1, 1]⟩

abbrev nBuf : Space → Nat
  | .hbm => 287
  | .vmem => 0
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S4x64x64, .f32⟩
  | 4 => ⟨S4x64, .f32⟩
  | 5 => ⟨S4x64, .f32⟩
  | 6 => ⟨S4x64, .f32⟩
  | 7 => ⟨S4x64, .f32⟩
  | 8 => ⟨S4x64, .f32⟩
  | 9 => ⟨S256x256, .f32⟩
  | 10 => ⟨S256, .f32⟩
  | 11 => ⟨S256x128, .f32⟩
  | 12 => ⟨S128, .f32⟩
  | 13 => ⟨S128x64, .f32⟩
  | 14 => ⟨S64, .f32⟩
  | 15 => ⟨S64x1, .f32⟩
  | 16 => ⟨S1, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S3300000x1, .f32⟩
  | 51 => ⟨S1x64x64, .f32⟩
  | 52 => ⟨S64x64, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S64, .f32⟩
  | 83 => ⟨S_, .f32⟩
  | 84 => ⟨S64, .f32⟩
  | 85 => ⟨S64, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64x64, .f32⟩
  | 100 => ⟨S64x64, .f32⟩
  | 101 => ⟨S100000x64, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x64, .f32⟩
  | 111 => ⟨S3300000x64, .f32⟩
  | 112 => ⟨S3300000x64, .f32⟩
  | 113 => ⟨S_, .f32⟩
  | 114 => ⟨S100000x64, .f32⟩
  | 115 => ⟨S3300000x1, .i32⟩
  | 116 => ⟨S100000x64, .f32⟩
  | 117 => ⟨S1x64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S64, .f32⟩
  | 1 => ⟨S1x64, .f32⟩
  | 2 => ⟨S64, .f32⟩
  | 3 => ⟨S_, .f32⟩
  | 4 => ⟨S64, .f32⟩
  | 5 => ⟨S64, .f32⟩
  | 6 => ⟨S64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S1x64x64, .f32⟩
  | 20 => ⟨S64x64, .f32⟩
  | 21 => ⟨S100000x64, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x64, .f32⟩
  | 31 => ⟨S3300000x64, .f32⟩
  | 32 => ⟨S3300000x64, .f32⟩
  | 33 => ⟨S_, .f32⟩
  | 34 => ⟨S100000x64, .f32⟩
  | 35 => ⟨S3300000x1, .i32⟩
  | 36 => ⟨S100000x64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S1x64, .f32⟩
  | 43 => ⟨S64, .f32⟩
  | 44 => ⟨S1x64, .f32⟩
  | 45 => ⟨S100000x64, .f32⟩
  | 46 => ⟨S100000x64, .f32⟩
  | 47 => ⟨S1x64, .f32⟩
  | 48 => ⟨S64, .f32⟩
  | 49 => ⟨S1x64, .f32⟩
  | 50 => ⟨S64, .f32⟩
  | 51 => ⟨S_, .f32⟩
  | 52 => ⟨S64, .f32⟩
  | 53 => ⟨S64, .f32⟩
  | 54 => ⟨S64, .f32⟩
  | 55 => ⟨S64, .f32⟩
  | 56 => ⟨S1x64, .f32⟩
  | 57 => ⟨S100000x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S1x64x64, .f32⟩
  | 69 => ⟨S64x64, .f32⟩
  | 70 => ⟨S100000x64, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x64, .f32⟩
  | 80 => ⟨S3300000x64, .f32⟩
  | 81 => ⟨S3300000x64, .f32⟩
  | 82 => ⟨S_, .f32⟩
  | 83 => ⟨S100000x64, .f32⟩
  | 84 => ⟨S3300000x1, .i32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S64, .f32⟩
  | 100 => ⟨S_, .f32⟩
  | 101 => ⟨S64, .f32⟩
  | 102 => ⟨S64, .f32⟩
  | 103 => ⟨S64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S100000x256, .f32⟩
  | 117 => ⟨S100000x256, .f32⟩
  | 118 => ⟨S1x256, .f32⟩
  | 119 => ⟨S100000x256, .f32⟩
  | 120 => ⟨S100000x256, .f32⟩
  | 121 => ⟨S_, .f32⟩
  | 122 => ⟨S100000x256, .f32⟩
  | 123 => ⟨S100000x256, .f32⟩
  | 124 => ⟨S100000x128, .f32⟩
  | 125 => ⟨S1x128, .f32⟩
  | 126 => ⟨S100000x128, .f32⟩
  | 127 => ⟨S100000x128, .f32⟩
  | _ => ⟨S100000x64, .f32⟩

abbrev hbmTy0_2 (i : Nat) : BufTy := match i % 128 with
  | 0 => ⟨S_, .f32⟩
  | 1 => ⟨S100000x128, .f32⟩
  | 2 => ⟨S100000x128, .f32⟩
  | 3 => ⟨S_, .f32⟩
  | 4 => ⟨S64x128, .f32⟩
  | 5 => ⟨S100000x1, .i32⟩
  | 6 => ⟨S64x128, .f32⟩
  | 7 => ⟨S_, .f32⟩
  | 8 => ⟨S100000, .f32⟩
  | 9 => ⟨S_, .f32⟩
  | 10 => ⟨S64, .f32⟩
  | 11 => ⟨S100000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x64, .f32⟩
  | 20 => ⟨S1x64, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S64x1, .f32⟩
  | 27 => ⟨S1x1, .f32⟩
  | 28 => ⟨S64x1, .f32⟩
  | 29 => ⟨S64x1, .f32⟩
  | 30 => ⟨S64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_4 : Ref sig .tc := ⟨.hbm, 54, rfl⟩
abbrev main_v31 : Ref sig .tc := ⟨.hbm, 55, rfl⟩
abbrev main_v32 : Ref sig .tc := ⟨.hbm, 56, rfl⟩
abbrev main_c_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_7 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call0_cst : Ref sig .tc := ⟨.hbm, 96, rfl⟩
abbrev main_call0_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_8 : Ref sig .tc := ⟨.hbm, 102, rfl⟩
abbrev main_v73 : Ref sig .tc := ⟨.hbm, 103, rfl⟩
abbrev main_v74 : Ref sig .tc := ⟨.hbm, 104, rfl⟩
abbrev main_c_9 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_10 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_11 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_call1_cst : Ref sig .tc := ⟨.hbm, 144, rfl⟩
abbrev main_call1_v0 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_12 : Ref sig .tc := ⟨.hbm, 150, rfl⟩
abbrev main_v115 : Ref sig .tc := ⟨.hbm, 151, rfl⟩
abbrev main_v116 : Ref sig .tc := ⟨.hbm, 152, rfl⟩
abbrev main_c_13 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_14 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_15 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_call2_cst : Ref sig .tc := ⟨.hbm, 192, rfl⟩
abbrev main_call2_v0 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_c_16 : Ref sig .tc := ⟨.hbm, 199, rfl⟩
abbrev main_v158 : Ref sig .tc := ⟨.hbm, 200, rfl⟩
abbrev main_v159 : Ref sig .tc := ⟨.hbm, 201, rfl⟩
abbrev main_c_17 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_18 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_19 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_call3_cst : Ref sig .tc := ⟨.hbm, 241, rfl⟩
abbrev main_call3_v0 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_call4_cst : Ref sig .tc := ⟨.hbm, 249, rfl⟩
abbrev main_call4_v0 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_call5_cst : Ref sig .tc := ⟨.hbm, 256, rfl⟩
abbrev main_call5_v0 : Ref sig .tc := ⟨.hbm, 257, rfl⟩
abbrev main_v207 : Ref sig .tc := ⟨.hbm, 258, rfl⟩
abbrev main_cst_20 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_cst_21 : Ref sig .tc := ⟨.hbm, 263, rfl⟩
abbrev main_v211 : Ref sig .tc := ⟨.hbm, 264, rfl⟩
abbrev main_cst_22 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_cst_23 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_call6_cst : Ref sig .tc := ⟨.hbm, 279, rfl⟩
abbrev main_call6_v0 : Ref sig .tc := ⟨.hbm, 280, rfl⟩
abbrev main_v224 : Ref sig .tc := ⟨.hbm, 281, rfl⟩
abbrev main_v225 : Ref sig .tc := ⟨.hbm, 282, rfl⟩
abbrev main_v226 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  slices_S4x64x64_S1x64x64_0_0_0 : S4x64x64.Slices ![0, 0, 0] S1x64x64
  shapeCasts_S1x64x64_S64x64 : S1x64x64.ShapeCasts S64x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  slices_S4x64_S1x64_0_0 : S4x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S100000x64_S100000x64_S100000x64_S100000x64_S100000x256_d1 : Shape.Concatenates [S100000x64, S100000x64, S100000x64, S100000x64] S100000x256 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x1_S64x1_1_0_0_1_n_n_wf : DotDims.WF S64x64 S64x1 S64x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.RefRunOps.lean ====
/- The reference program's @main as a list of its 270 host operations, cut into six stages (the graph
   normalisation, the four convolution layers, and the tail: concatenate, encoder, per-graph mean, decoder),
   and its run: every weakly fair execution terminates with each buffer at the fold of the operations'
   results over its launch contents. -/
import proofs.«127520_j50629074485391_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The graph normalisation: row and column index vectors (edges followed by self loops), the degree by a scatter-add of ones, its inverse square root gathered at both ends of every edge, their product as a column. -/
abbrev opsG : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)),
    unary main_v26 main_v27 (broadcastInDim S3300000x1 ![0] bcast_S3300000_S3300000x1_0 : (⟨S3300000, .f32⟩ : BufTy).Contents (Elt F) → (⟨S3300000x1, .f32⟩ : BufTy).Contents (Elt F)) ]

/-- Convolution layer 0: weight slice, dense product, gather along rows, scaling by the edge weights, scatter-add, bias, normalisation, rectifier. -/
abbrev opsL0 : List (HloOp τ sig (Elt F)) :=
  [ unary main_arg3 main_v28 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v28 main_v29 rfl shapeCasts_S1x64x64_S64x64,
    binary main_arg0 main_v29 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v38 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v38 main_v39 (mulf : (⟨S3300000x64, .f32⟩ : BufTy).Contents (Elt F) → (⟨S3300000x64, .f32⟩ : BufTy).Contents (Elt F) → (⟨S3300000x64, .f32⟩ : BufTy).Contents (Elt F)),
    nullary main_cst_6 (constant S_ .f32 0x00000000#32),
    unary main_cst_6 main_v40 (broadcastInDim S100000x64 ![] bcast_S_S100000x64 : (⟨S_, .f32⟩ : BufTy).Contents (Elt F) → (⟨S100000x64, .f32⟩ : BufTy).Contents (Elt F)),
    unary main_v6 main_v41 (broadcastInDim S3300000x1 ![0] bcast_S3300000_S3300000x1_0 : (⟨S3300000, .i32⟩ : BufTy).Contents (Elt F) → (⟨S3300000x1, .i32⟩ : BufTy).Contents (Elt F)),
    ternary main_v40 main_v41 main_v39 main_v42 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v43 ((extractStridedSlice S1x64 ![0, 0] · slices_S4x64_S1x64_0_0) : (⟨S4x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v42 main_v46 main_v47 (addf : (⟨S100000x64, .f32⟩ : BufTy).Contents (Elt F) → (⟨S100000x64, .f32⟩ : BufTy).Contents (Elt F) → (⟨S100000x64, .f32⟩ : BufTy).Contents (Elt F)),
    unary main_arg7 main_v48 ((extractStridedSlice S1x64 ![0, 0] · slices_S4x64_S1x64_0_0) : (⟨S4x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v47 main_v51 main_v52 (subf : (⟨S100000x64, .f32⟩ : BufTy).Contents (Elt F) → (⟨S100000x64, .f32⟩ : BufTy).Contents (Elt F) → (⟨S100000x64, .f32⟩ : BufTy).Contents (Elt F)),
    unary main_arg5 main_v53 ((extractStridedSlice S1x64 ![0, 0] · slices_S4x64_S1x64_0_0) : (⟨S4x64, .f32⟩ : BufTy).Contents (Elt F) → (⟨S1x64, .f32⟩ : BufTy).Contents (Elt F)),
    reshape main_v53 main_v54 rfl shapeCasts_S1x64_S64,
    unary main_arg8 main_v55 ((extractStridedSlice S1x64 ![0, 0] · slices_S4x64_S1x64_0_0) : (⟨S4x64, .f32⟩ : BufTy).Contents (Elt F) → (⟨S1x64, .f32⟩ : BufTy).Contents (Elt F)),
    reshape main_v55 main_v56 rfl shapeCasts_S1x64_S64,
    nullary main_cst_7 (constant S_ .f32 0x3727C5AC#32),
    unary main_cst_7 main_v57 (broadcastInDim S64 ![] bcast_S_S64 : (⟨S_, .f32⟩ : BufTy).Contents (Elt F) → (⟨S64, .f32⟩ : BufTy).Contents (Elt F)),
    binary main_v56 main_v57 main_v58 (addf : (⟨S64, .f32⟩ : BufTy).Contents (Elt F) → (⟨S64, .f32⟩ : BufTy).Contents (Elt F) → (⟨S64, .f32⟩ : BufTy).Contents (Elt F)),
    unary main_v58 main_v59 (Host.rsqrt : (⟨S64, .f32⟩ : BufTy).Contents (Elt F) → (⟨S64, .f32⟩ : BufTy).Contents (Elt F)),
    binary main_v54 main_v59 main_v60 (mulf : (⟨S64, .f32⟩ : BufTy).Contents (Elt F) → (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v52 main_v62 main_v63 (mulf : (⟨S100000x64, .f32⟩ : BufTy).Contents (Elt F) → (⟨S100000x64, .f32⟩ : BufTy).Contents (Elt F) → (⟨S100000x64, .f32⟩ : BufTy).Contents (Elt F)),
    unary main_arg6 main_v64 ((extractStridedSlice S1x64 ![0, 0] · slices_S4x64_S1x64_0_0) : (⟨S4x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v68) (TRef.of (T := ⟨S100000x64, .f32⟩) main_call0_v0) (TRef.of (T := ⟨S100000x64, .f32⟩) main_v69) maximumf ]

/-- Convolution layer 1, as layer 0 on layer 0's output. -/
abbrev opsL1 : List (HloOp τ sig (Elt F)) :=
  [ unary main_arg3 main_v70 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v70 main_v71 rfl shapeCasts_S1x64x64_S64x64,
    binary main_v69 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_8 (constantI S_ 32 0#32),
    unary main_c_8 main_v73 (broadcastInDim S3300000 ![] bcast_S_S3300000 : (⟨S_, .i32⟩ : BufTy).Contents (Elt F) → (⟨S3300000, .i32⟩ : BufTy).Contents (Elt F)),
    binary main_v3 main_v73 main_v74 (cmpi .slt : (⟨S3300000, .i32⟩ : BufTy).Contents (Elt F) → (⟨S3300000, .i32⟩ : BufTy).Contents (Elt F) → (⟨S3300000, .i1⟩ : BufTy).Contents (Elt F)),
    nullary main_c_9 (constantI S_ 32 100000#32),
    unary main_c_9 main_v75 (broadcastInDim S3300000 ![] bcast_S_S3300000 : (⟨S_, .i32⟩ : BufTy).Contents (Elt F) → (⟨S3300000, .i32⟩ : BufTy).Contents (Elt F)),
    binary main_v3 main_v75 main_v76 (addi : (⟨S3300000, .i32⟩ : BufTy).Contents (Elt F) → (⟨S3300000, .i32⟩ : BufTy).Contents (Elt F) → (⟨S3300000, .i32⟩ : BufTy).Contents (Elt F)),
    ternary main_v74 main_v76 main_v3 main_v77 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v77 main_v78 (broadcastInDim S3300000x1 ![0] bcast_S3300000_S3300000x1_0 : (⟨S3300000, .i32⟩ : BufTy).Contents (Elt F) → (⟨S3300000x1, .i32⟩ : BufTy).Contents (Elt F)),
    binary main_v72 main_v78 main_v79 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v80 (broadcastInDim S3300000x64 ![0, 1] bcast_S3300000x1_S3300000x64_0_1 : (⟨S3300000x1, .f32⟩ : BufTy).Contents (Elt F) → (⟨S3300000x64, .f32⟩ : BufTy).Contents (Elt F)),
    binary main_v79 main_v80 main_v81 (mulf : (⟨S3300000x64, .f32⟩ : BufTy).Contents (Elt F) → (⟨S3300000x64, .f32⟩ : BufTy).Contents (Elt F) → (⟨S3300000x64, .f32⟩ : BufTy).Contents (Elt F)),
    nullary main_cst_10 (constant S_ .f32 0x00000000#32),
    unary main_cst_10 main_v82 (broadcastInDim S100000x64 ![] bcast_S_S100000x64 : (⟨S_, .f32⟩ : BufTy).Contents (Elt F) → (⟨S100000x64, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v85 ((extractStridedSlice S1x64 ![1, 0] · slices_S4x64_S1x64_1_0) : (⟨S4x64, .f32⟩ : BufTy).Contents (Elt F) → (⟨S1x64, .f32⟩ : BufTy).Contents (Elt F)),
    reshape main_v85 main_v86 rfl shapeCasts_S1x64_S64,
    unary main_v86 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v84 main_v88 main_v89 (addf : (⟨S100000x64, .f32⟩ : BufTy).Contents (Elt F) → (⟨S100000x64, .f32⟩ : BufTy).Contents (Elt F) → (⟨S100000x64, .f32⟩ : BufTy).Contents (Elt F)),
    unary main_arg7 main_v90 ((extractStridedSlice S1x64 ![1, 0] · slices_S4x64_S1x64_1_0) : (⟨S4x64, .f32⟩ : BufTy).Contents (Elt F) → (⟨S1x64, .f32⟩ : BufTy).Contents (Elt F)),
    reshape main_v90 main_v91 rfl shapeCasts_S1x64_S64,
    unary main_v91 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v89 main_v93 main_v94 (subf : (⟨S100000x64, .f32⟩ : BufTy).Contents (Elt F) → (⟨S100000x64, .f32⟩ : BufTy).Contents (Elt F) → (⟨S100000x64, .f32⟩ : BufTy).Contents (Elt F)),
    unary main_arg5 main_v95 ((extractStridedSlice S1x64 ![1, 0] · slices_S4x64_S1x64_1_0) : (⟨S4x64, .f32⟩ : BufTy).Contents (Elt F) → (⟨S1x64, .f32⟩ : BufTy).Contents (Elt F)),
    reshape main_v95 main_v96 rfl shapeCasts_S1x64_S64,
    unary main_arg8 main_v97 ((extractStridedSlice S1x64 ![1, 0] · slices_S4x64_S1x64_1_0) : (⟨S4x64, .f32⟩ : BufTy).Contents (Elt F) → (⟨S1x64, .f32⟩ : BufTy).Contents (Elt F)),
    reshape main_v97 main_v98 rfl shapeCasts_S1x64_S64,
    nullary main_cst_11 (constant S_ .f32 0x3727C5AC#32),
    unary main_cst_11 main_v99 (broadcastInDim S64 ![] bcast_S_S64 : (⟨S_, .f32⟩ : BufTy).Contents (Elt F) → (⟨S64, .f32⟩ : BufTy).Contents (Elt F)),
    binary main_v98 main_v99 main_v100 (addf : (⟨S64, .f32⟩ : BufTy).Contents (Elt F) → (⟨S64, .f32⟩ : BufTy).Contents (Elt F) → (⟨S64, .f32⟩ : BufTy).Contents (Elt F)),
    unary main_v100 main_v101 (Host.rsqrt : (⟨S64, .f32⟩ : BufTy).Contents (Elt F) → (⟨S64, .f32⟩ : BufTy).Contents (Elt F)),
    binary main_v96 main_v101 main_v102 (mulf : (⟨S64, .f32⟩ : BufTy).Contents (Elt F) → (⟨S64, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v94 main_v104 main_v105 (mulf : (⟨S100000x64, .f32⟩ : BufTy).Contents (Elt F) → (⟨S100000x64, .f32⟩ : BufTy).Contents (Elt F) → (⟨S100000x64, .f32⟩ : BufTy).Contents (Elt F)),
    unary main_arg6 main_v106 ((extractStridedSlice S1x64 ![1, 0] · slices_S4x64_S1x64_1_0) : (⟨S4x64, .f32⟩ : BufTy).Contents (Elt F) → (⟨S1x64, .f32⟩ : BufTy).Contents (Elt F)),
    reshape main_v106 main_v107 rfl shapeCasts_S1x64_S64,
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v105 main_v109 main_v110 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v110) (TRef.of (T := ⟨S100000x64, .f32⟩) main_call1_v0) (TRef.of (T := ⟨S100000x64, .f32⟩) main_v111) maximumf ]

/-- Convolution layer 2, as layer 0 on layer 1's output, followed by the residual sum with layer 0's output. -/
abbrev opsL2 : List (HloOp τ sig (Elt F)) :=
  [ unary main_arg3 main_v112 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v112 main_v113 rfl shapeCasts_S1x64x64_S64x64,
    binary main_v111 main_v113 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v115 (broadcastInDim S3300000 ![] bcast_S_S3300000 : (⟨S_, .i32⟩ : BufTy).Contents (Elt F) → (⟨S3300000, .i32⟩ : BufTy).Contents (Elt F)),
    binary main_v3 main_v115 main_v116 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v117 (broadcastInDim S3300000 ![] bcast_S_S3300000 : (⟨S_, .i32⟩ : BufTy).Contents (Elt F) → (⟨S3300000, .i32⟩ : BufTy).Contents (Elt F)),
    binary main_v3 main_v117 main_v118 (addi : (⟨S3300000, .i32⟩ : BufTy).Contents (Elt F) → (⟨S3300000, .i32⟩ : BufTy).Contents (Elt F) → (⟨S3300000, .i32⟩ : BufTy).Contents (Elt F)),
    ternary main_v116 main_v118 main_v3 main_v119 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v119 main_v120 (broadcastInDim S3300000x1 ![0] bcast_S3300000_S3300000x1_0 : (⟨S3300000, .i32⟩ : BufTy).Contents (Elt F) → (⟨S3300000x1, .i32⟩ : BufTy).Contents (Elt F)),
    binary main_v114 main_v120 main_v121 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v122 (broadcastInDim S3300000x64 ![0, 1] bcast_S3300000x1_S3300000x64_0_1 : (⟨S3300000x1, .f32⟩ : BufTy).Contents (Elt F) → (⟨S3300000x64, .f32⟩ : BufTy).Contents (Elt F)),
    binary main_v121 main_v122 main_v123 (mulf : (⟨S3300000x64, .f32⟩ : BufTy).Contents (Elt F) → (⟨S3300000x64, .f32⟩ : BufTy).Contents (Elt F) → (⟨S3300000x64, .f32⟩ : BufTy).Contents (Elt F)),
    nullary main_cst_14 (constant S_ .f32 0x00000000#32),
    unary main_cst_14 main_v124 (broadcastInDim S100000x64 ![] bcast_S_S100000x64 : (⟨S_, .f32⟩ : BufTy).Contents (Elt F) → (⟨S100000x64, .f32⟩ : BufTy).Contents (Elt F)),
    unary main_v6 main_v125 (broadcastInDim S3300000x1 ![0] bcast_S3300000_S3300000x1_0 : (⟨S3300000, .i32⟩ : BufTy).Contents (Elt F) → (⟨S3300000x1, .i32⟩ : BufTy).Contents (Elt F)),
    ternary main_v124 main_v125 main_v123 main_v126 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v127 ((extractStridedSlice S1x64 ![2, 0] · slices_S4x64_S1x64_2_0) : (⟨S4x64, .f32⟩ : BufTy).Contents (Elt F) → (⟨S1x64, .f32⟩ : BufTy).Contents (Elt F)),
    reshape main_v127 main_v128 rfl shapeCasts_S1x64_S64,
    unary main_v128 main_v129 (broadcastInDim S1x64 ![1] bcast_S64_S1x64_1 : (⟨S64, .f32⟩ : BufTy).Contents (Elt F) → (⟨S1x64, .f32⟩ : BufTy).Contents (Elt F)),
    unary main_v129 main_v130 (broadcastInDim S100000x64 ![0, 1] bcast_S1x64_S100000x64_0_1 : (⟨S1x64, .f32⟩ : BufTy).Contents (Elt F) → (⟨S100000x64, .f32⟩ : BufTy).Contents (Elt F)),
    binary main_v126 main_v130 main_v131 (addf : (⟨S100000x64, .f32⟩ : BufTy).Contents (Elt F) → (⟨S100000x64, .f32⟩ : BufTy).Contents (Elt F) → (⟨S100000x64, .f32⟩ : BufTy).Contents (Elt F)),
    unary main_arg7 main_v132 ((extractStridedSlice S1x64 ![2, 0] · slices_S4x64_S1x64_2_0) : (⟨S4x64, .f32⟩ : BufTy).Contents (Elt F) → (⟨S1x64, .f32⟩ : BufTy).Contents (Elt F)),
    reshape main_v132 main_v133 rfl shapeCasts_S1x64_S64,
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v131 main_v135 main_v136 (subf : (⟨S100000x64, .f32⟩ : BufTy).Contents (Elt F) → (⟨S100000x64, .f32⟩ : BufTy).Contents (Elt F) → (⟨S100000x64, .f32⟩ : BufTy).Contents (Elt F)),
    unary main_arg5 main_v137 ((extractStridedSlice S1x64 ![2, 0] · slices_S4x64_S1x64_2_0) : (⟨S4x64, .f32⟩ : BufTy).Contents (Elt F) → (⟨S1x64, .f32⟩ : BufTy).Contents (Elt F)),
    reshape main_v137 main_v138 rfl shapeCasts_S1x64_S64,
    unary main_arg8 main_v139 ((extractStridedSlice S1x64 ![2, 0] · slices_S4x64_S1x64_2_0) : (⟨S4x64, .f32⟩ : BufTy).Contents (Elt F) → (⟨S1x64, .f32⟩ : BufTy).Contents (Elt F)),
    reshape main_v139 main_v140 rfl shapeCasts_S1x64_S64,
    nullary main_cst_15 (constant S_ .f32 0x3727C5AC#32),
    unary main_cst_15 main_v141 (broadcastInDim S64 ![] bcast_S_S64 : (⟨S_, .f32⟩ : BufTy).Contents (Elt F) → (⟨S64, .f32⟩ : BufTy).Contents (Elt F)),
    binary main_v140 main_v141 main_v142 (addf : (⟨S64, .f32⟩ : BufTy).Contents (Elt F) → (⟨S64, .f32⟩ : BufTy).Contents (Elt F) → (⟨S64, .f32⟩ : BufTy).Contents (Elt F)),
    unary main_v142 main_v143 (Host.rsqrt : (⟨S64, .f32⟩ : BufTy).Contents (Elt F) → (⟨S64, .f32⟩ : BufTy).Contents (Elt F)),
    binary main_v138 main_v143 main_v144 (mulf : (⟨S64, .f32⟩ : BufTy).Contents (Elt F) → (⟨S64, .f32⟩ : BufTy).Contents (Elt F) → (⟨S64, .f32⟩ : BufTy).Contents (Elt F)),
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v136 main_v146 main_v147 (mulf : (⟨S100000x64, .f32⟩ : BufTy).Contents (Elt F) → (⟨S100000x64, .f32⟩ : BufTy).Contents (Elt F) → (⟨S100000x64, .f32⟩ : BufTy).Contents (Elt F)),
    unary main_arg6 main_v148 ((extractStridedSlice S1x64 ![2, 0] · slices_S4x64_S1x64_2_0) : (⟨S4x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v147 main_v151 main_v152 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v152) (TRef.of (T := ⟨S100000x64, .f32⟩) main_call2_v0) (TRef.of (T := ⟨S100000x64, .f32⟩) main_v153) maximumf,
    binary main_v153 main_v69 main_v154 (addf : (⟨S100000x64, .f32⟩ : BufTy).Contents (Elt F) → (⟨S100000x64, .f32⟩ : BufTy).Contents (Elt F) → (⟨S100000x64, .f32⟩ : BufTy).Contents (Elt F)) ]

/-- Convolution layer 3, as layer 0 on the residual sum. -/
abbrev opsL3 : List (HloOp τ sig (Elt F)) :=
  [ unary main_arg3 main_v155 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v155 main_v156 rfl shapeCasts_S1x64x64_S64x64,
    binary main_v154 main_v156 main_v157 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v158 (broadcastInDim S3300000 ![] bcast_S_S3300000 : (⟨S_, .i32⟩ : BufTy).Contents (Elt F) → (⟨S3300000, .i32⟩ : BufTy).Contents (Elt F)),
    binary main_v3 main_v158 main_v159 (cmpi .slt : (⟨S3300000, .i32⟩ : BufTy).Contents (Elt F) → (⟨S3300000, .i32⟩ : BufTy).Contents (Elt F) → (⟨S3300000, .i1⟩ : BufTy).Contents (Elt F)),
    nullary main_c_17 (constantI S_ 32 100000#32),
    unary main_c_17 main_v160 (broadcastInDim S3300000 ![] bcast_S_S3300000 : (⟨S_, .i32⟩ : BufTy).Contents (Elt F) → (⟨S3300000, .i32⟩ : BufTy).Contents (Elt F)),
    binary main_v3 main_v160 main_v161 (addi : (⟨S3300000, .i32⟩ : BufTy).Contents (Elt F) → (⟨S3300000, .i32⟩ : BufTy).Contents (Elt F) → (⟨S3300000, .i32⟩ : BufTy).Contents (Elt F)),
    ternary main_v159 main_v161 main_v3 main_v162 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v162 main_v163 (broadcastInDim S3300000x1 ![0] bcast_S3300000_S3300000x1_0 : (⟨S3300000, .i32⟩ : BufTy).Contents (Elt F) → (⟨S3300000x1, .i32⟩ : BufTy).Contents (Elt F)),
    binary main_v157 main_v163 main_v164 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v165 (broadcastInDim S3300000x64 ![0, 1] bcast_S3300000x1_S3300000x64_0_1 : (⟨S3300000x1, .f32⟩ : BufTy).Contents (Elt F) → (⟨S3300000x64, .f32⟩ : BufTy).Contents (Elt F)),
    binary main_v164 main_v165 main_v166 (mulf : (⟨S3300000x64, .f32⟩ : BufTy).Contents (Elt F) → (⟨S3300000x64, .f32⟩ : BufTy).Contents (Elt F) → (⟨S3300000x64, .f32⟩ : BufTy).Contents (Elt F)),
    nullary main_cst_18 (constant S_ .f32 0x00000000#32),
    unary main_cst_18 main_v167 (broadcastInDim S100000x64 ![] bcast_S_S100000x64 : (⟨S_, .f32⟩ : BufTy).Contents (Elt F) → (⟨S100000x64, .f32⟩ : BufTy).Contents (Elt F)),
    unary main_v6 main_v168 (broadcastInDim S3300000x1 ![0] bcast_S3300000_S3300000x1_0 : (⟨S3300000, .i32⟩ : BufTy).Contents (Elt F) → (⟨S3300000x1, .i32⟩ : BufTy).Contents (Elt F)),
    ternary main_v167 main_v168 main_v166 main_v169 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v170 ((extractStridedSlice S1x64 ![3, 0] · slices_S4x64_S1x64_3_0) : (⟨S4x64, .f32⟩ : BufTy).Contents (Elt F) → (⟨S1x64, .f32⟩ : BufTy).Contents (Elt F)),
    reshape main_v170 main_v171 rfl shapeCasts_S1x64_S64,
    unary main_v171 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v169 main_v173 main_v174 (addf : (⟨S100000x64, .f32⟩ : BufTy).Contents (Elt F) → (⟨S100000x64, .f32⟩ : BufTy).Contents (Elt F) → (⟨S100000x64, .f32⟩ : BufTy).Contents (Elt F)),
    unary main_arg7 main_v175 ((extractStridedSlice S1x64 ![3, 0] · slices_S4x64_S1x64_3_0) : (⟨S4x64, .f32⟩ : BufTy).Contents (Elt F) → (⟨S1x64, .f32⟩ : BufTy).Contents (Elt F)),
    reshape main_v175 main_v176 rfl shapeCasts_S1x64_S64,
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v174 main_v178 main_v179 (subf : (⟨S100000x64, .f32⟩ : BufTy).Contents (Elt F) → (⟨S100000x64, .f32⟩ : BufTy).Contents (Elt F) → (⟨S100000x64, .f32⟩ : BufTy).Contents (Elt F)),
    unary main_arg5 main_v180 ((extractStridedSlice S1x64 ![3, 0] · slices_S4x64_S1x64_3_0) : (⟨S4x64, .f32⟩ : BufTy).Contents (Elt F) → (⟨S1x64, .f32⟩ : BufTy).Contents (Elt F)),
    reshape main_v180 main_v181 rfl shapeCasts_S1x64_S64,
    unary main_arg8 main_v182 ((extractStridedSlice S1x64 ![3, 0] · slices_S4x64_S1x64_3_0) : (⟨S4x64, .f32⟩ : BufTy).Contents (Elt F) → (⟨S1x64, .f32⟩ : BufTy).Contents (Elt F)),
    reshape main_v182 main_v183 rfl shapeCasts_S1x64_S64,
    nullary main_cst_19 (constant S_ .f32 0x3727C5AC#32),
    unary main_cst_19 main_v184 (broadcastInDim S64 ![] bcast_S_S64 : (⟨S_, .f32⟩ : BufTy).Contents (Elt F) → (⟨S64, .f32⟩ : BufTy).Contents (Elt F)),
    binary main_v183 main_v184 main_v185 (addf : (⟨S64, .f32⟩ : BufTy).Contents (Elt F) → (⟨S64, .f32⟩ : BufTy).Contents (Elt F) → (⟨S64, .f32⟩ : BufTy).Contents (Elt F)),
    unary main_v185 main_v186 (Host.rsqrt : (⟨S64, .f32⟩ : BufTy).Contents (Elt F) → (⟨S64, .f32⟩ : BufTy).Contents (Elt F)),
    binary main_v181 main_v186 main_v187 (mulf : (⟨S64, .f32⟩ : BufTy).Contents (Elt F) → (⟨S64, .f32⟩ : BufTy).Contents (Elt F) → (⟨S64, .f32⟩ : BufTy).Contents (Elt F)),
    unary main_v187 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v179 main_v189 main_v190 (mulf : (⟨S100000x64, .f32⟩ : BufTy).Contents (Elt F) → (⟨S100000x64, .f32⟩ : BufTy).Contents (Elt F) → (⟨S100000x64, .f32⟩ : BufTy).Contents (Elt F)),
    unary main_arg6 main_v191 ((extractStridedSlice S1x64 ![3, 0] · slices_S4x64_S1x64_3_0) : (⟨S4x64, .f32⟩ : BufTy).Contents (Elt F) → (⟨S1x64, .f32⟩ : BufTy).Contents (Elt F)),
    reshape main_v191 main_v192 rfl shapeCasts_S1x64_S64,
    unary main_v192 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v190 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v195) (TRef.of (T := ⟨S100000x64, .f32⟩) main_call3_v0) (TRef.of (T := ⟨S100000x64, .f32⟩) main_v196) maximumf ]

/-- The tail: the four layer outputs concatenated, the two encoder layers, the per-graph sums and counts, their quotient, the decoder, the final reshape. -/
abbrev opsT : List (HloOp τ sig (Elt F)) :=
  [ nary ![main_v69, main_v111, main_v154, main_v196] main_v197 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    binary main_v197 main_arg9 main_v198 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg10 main_v199 (broadcastInDim S1x256 ![1] bcast_S256_S1x256_1 : (⟨S256, .f32⟩ : BufTy).Contents (Elt F) → (⟨S1x256, .f32⟩ : BufTy).Contents (Elt F)),
    unary main_v199 main_v200 (broadcastInDim S100000x256 ![0, 1] bcast_S1x256_S100000x256_0_1 : (⟨S1x256, .f32⟩ : BufTy).Contents (Elt F) → (⟨S100000x256, .f32⟩ : BufTy).Contents (Elt F)),
    binary main_v198 main_v200 main_v201 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v201) (TRef.of (T := ⟨S100000x256, .f32⟩) main_call4_v0) (TRef.of (T := ⟨S100000x256, .f32⟩) main_v202) maximumf,
    binary main_v202 main_arg11 main_v203 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v203 main_v205 main_v206 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v206) (TRef.of (T := ⟨S100000x128, .f32⟩) main_call5_v0) (TRef.of (T := ⟨S100000x128, .f32⟩) main_v207) maximumf,
    nullary main_cst_20 (constant S_ .f32 0x00000000#32),
    unary main_cst_20 main_v208 (broadcastInDim S64x128 ![] bcast_S_S64x128 : (⟨S_, .f32⟩ : BufTy).Contents (Elt F) → (⟨S64x128, .f32⟩ : BufTy).Contents (Elt F)),
    unary main_arg2 main_v209 (broadcastInDim S100000x1 ![0] bcast_S100000_S100000x1_0 : (⟨S100000, .i32⟩ : BufTy).Contents (Elt F) → (⟨S100000x1, .i32⟩ : BufTy).Contents (Elt F)),
    ternary main_v208 main_v209 main_v207 main_v210 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_21 (constant S_ .f32 0x3F800000#32),
    unary main_cst_21 main_v211 (broadcastInDim S100000 ![] bcast_S_S100000 : (⟨S_, .f32⟩ : BufTy).Contents (Elt F) → (⟨S100000, .f32⟩ : BufTy).Contents (Elt F)),
    nullary main_cst_22 (constant S_ .f32 0x00000000#32),
    unary main_cst_22 main_v212 (broadcastInDim S64 ![] bcast_S_S64 : (⟨S_, .f32⟩ : BufTy).Contents (Elt F) → (⟨S64, .f32⟩ : BufTy).Contents (Elt F)),
    unary main_arg2 main_v213 (broadcastInDim S100000x1 ![0] bcast_S100000_S100000x1_0 : (⟨S100000, .i32⟩ : BufTy).Contents (Elt F) → (⟨S100000x1, .i32⟩ : BufTy).Contents (Elt F)),
    ternary main_v212 main_v213 main_v211 main_v214 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_23 (constant S_ .f32 0x3F800000#32),
    unary main_cst_23 main_v215 (broadcastInDim S64 ![] bcast_S_S64 : (⟨S_, .f32⟩ : BufTy).Contents (Elt F) → (⟨S64, .f32⟩ : BufTy).Contents (Elt F)),
    binary main_v214 main_v215 main_v216 (maximumf : (⟨S64, .f32⟩ : BufTy).Contents (Elt F) → (⟨S64, .f32⟩ : BufTy).Contents (Elt F) → (⟨S64, .f32⟩ : BufTy).Contents (Elt F)),
    unary main_v216 main_v217 (broadcastInDim S64x1 ![0] bcast_S64_S64x1_0 : (⟨S64, .f32⟩ : BufTy).Contents (Elt F) → (⟨S64x1, .f32⟩ : BufTy).Contents (Elt F)),
    unary main_v217 main_v218 (broadcastInDim S64x128 ![0, 1] bcast_S64x1_S64x128_0_1 : (⟨S64x1, .f32⟩ : BufTy).Contents (Elt F) → (⟨S64x128, .f32⟩ : BufTy).Contents (Elt F)),
    binary main_v210 main_v218 main_v219 (Host.divf : (⟨S64x128, .f32⟩ : BufTy).Contents (Elt F) → (⟨S64x128, .f32⟩ : BufTy).Contents (Elt F) → (⟨S64x128, .f32⟩ : BufTy).Contents (Elt F)),
    binary main_v219 main_arg13 main_v220 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg14 main_v221 (broadcastInDim S1x64 ![1] bcast_S64_S1x64_1 : (⟨S64, .f32⟩ : BufTy).Contents (Elt F) → (⟨S1x64, .f32⟩ : BufTy).Contents (Elt F)),
    unary main_v221 main_v222 (broadcastInDim S64x64 ![0, 1] bcast_S1x64_S64x64_0_1 : (⟨S1x64, .f32⟩ : BufTy).Contents (Elt F) → (⟨S64x64, .f32⟩ : BufTy).Contents (Elt F)),
    binary main_v220 main_v222 main_v223 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S64x64, .f32⟩) main_call6_v0) (broadcastInDim S64x64 ![] bcast_S_S64x64),
    TRef.binary (TRef.of (T := ⟨S64x64, .f32⟩) main_v223) (TRef.of (T := ⟨S64x64, .f32⟩) main_call6_v0) (TRef.of (T := ⟨S64x64, .f32⟩) main_v224) maximumf,
    binary main_v224 main_arg15 main_v225 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    unary main_arg16 main_v226 (broadcastInDim S1x1 ![1] bcast_S1_S1x1_1 : (⟨S1, .f32⟩ : BufTy).Contents (Elt F) → (⟨S1x1, .f32⟩ : BufTy).Contents (Elt F)),
    unary main_v226 main_v227 (broadcastInDim S64x1 ![0, 1] bcast_S1x1_S64x1_0_1 : (⟨S1x1, .f32⟩ : BufTy).Contents (Elt F) → (⟨S64x1, .f32⟩ : BufTy).Contents (Elt F)),
    binary main_v225 main_v227 main_v228 (addf : (⟨S64x1, .f32⟩ : BufTy).Contents (Elt F) → (⟨S64x1, .f32⟩ : BufTy).Contents (Elt F) → (⟨S64x1, .f32⟩ : BufTy).Contents (Elt F)),
    reshape main_v228 main_v229 rfl shapeCasts_S64x1_S64 ]

/-- @main's 270 operations, in order. -/
abbrev ops : List (HloOp τ sig (Elt F)) := opsG ++ opsL0 ++ opsL1 ++ opsL2 ++ opsL3 ++ opsT

/-- The operations of @main's part 0, as printed (a call's three operations in its place). -/
abbrev part0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v3 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_1 (constantI S_ 32 100000#32),
    unary main_c_1 main_v14 (broadcastInDim S3300000 ![] bcast_S_S3300000 : (⟨S_, .i32⟩ : BufTy).Contents (Elt F) → (⟨S3300000, .i32⟩ : BufTy).Contents (Elt F)),
    binary main_v3 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v3 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_2 (constantI S_ 32 0#32),
    unary main_c_2 main_v19 (broadcastInDim S3300000 ![] bcast_S_S3300000 : (⟨S_, .i32⟩ : BufTy).Contents (Elt F) → (⟨S3300000, .i32⟩ : BufTy).Contents (Elt F)),
    binary main_v6 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v21 (broadcastInDim S3300000 ![] bcast_S_S3300000 : (⟨S_, .i32⟩ : BufTy).Contents (Elt F) → (⟨S3300000, .i32⟩ : BufTy).Contents (Elt F)),
    binary main_v6 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v6 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)),
    unary main_v26 main_v27 (broadcastInDim S3300000x1 ![0] bcast_S3300000_S3300000x1_0 : (⟨S3300000, .f32⟩ : BufTy).Contents (Elt F) → (⟨S3300000x1, .f32⟩ : BufTy).Contents (Elt F)),
    unary main_arg3 main_v28 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v28 main_v29 rfl shapeCasts_S1x64x64_S64x64,
    binary main_arg0 main_v29 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_4 (constantI S_ 32 0#32),
    unary main_c_4 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v38 (broadcastInDim S3300000x64 ![0, 1] bcast_S3300000x1_S3300000x64_0_1 : (⟨S3300000x1, .f32⟩ : BufTy).Contents (Elt F) → (⟨S3300000x64, .f32⟩ : BufTy).Contents (Elt F)),
    binary main_v37 main_v38 main_v39 (mulf : (⟨S3300000x64, .f32⟩ : BufTy).Contents (Elt F) → (⟨S3300000x64, .f32⟩ : BufTy).Contents (Elt F) → (⟨S3300000x64, .f32⟩ : BufTy).Contents (Elt F)),
    nullary main_cst_6 (constant S_ .f32 0x00000000#32),
    unary main_cst_6 main_v40 (broadcastInDim S100000x64 ![] bcast_S_S100000x64 : (⟨S_, .f32⟩ : BufTy).Contents (Elt F) → (⟨S100000x64, .f32⟩ : BufTy).Contents (Elt F)),
    unary main_v6 main_v41 (broadcastInDim S3300000x1 ![0] bcast_S3300000_S3300000x1_0 : (⟨S3300000, .i32⟩ : BufTy).Contents (Elt F) → (⟨S3300000x1, .i32⟩ : BufTy).Contents (Elt F)),
    ternary main_v40 main_v41 main_v39 main_v42 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v43 ((extractStridedSlice S1x64 ![0, 0] · slices_S4x64_S1x64_0_0) : (⟨S4x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v42 main_v46 main_v47 (addf : (⟨S100000x64, .f32⟩ : BufTy).Contents (Elt F) → (⟨S100000x64, .f32⟩ : BufTy).Contents (Elt F) → (⟨S100000x64, .f32⟩ : BufTy).Contents (Elt F)),
    unary main_arg7 main_v48 ((extractStridedSlice S1x64 ![0, 0] · slices_S4x64_S1x64_0_0) : (⟨S4x64, .f32⟩ : BufTy).Contents (Elt F) → (⟨S1x64, .f32⟩ : BufTy).Contents (Elt F)),
    reshape main_v48 main_v49 rfl shapeCasts_S1x64_S64,
    unary main_v49 main_v50 (broadcastInDim S1x64 ![1] bcast_S64_S1x64_1 : (⟨S64, .f32⟩ : BufTy).Contents (Elt F) → (⟨S1x64, .f32⟩ : BufTy).Contents (Elt F)) ]

/-- The operations of @main's part 1, as printed (a call's three operations in its place). -/
abbrev part1 : List (HloOp τ sig (Elt F)) :=
  [ unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v47 main_v51 main_v52 (subf : (⟨S100000x64, .f32⟩ : BufTy).Contents (Elt F) → (⟨S100000x64, .f32⟩ : BufTy).Contents (Elt F) → (⟨S100000x64, .f32⟩ : BufTy).Contents (Elt F)),
    unary main_arg5 main_v53 ((extractStridedSlice S1x64 ![0, 0] · slices_S4x64_S1x64_0_0) : (⟨S4x64, .f32⟩ : BufTy).Contents (Elt F) → (⟨S1x64, .f32⟩ : BufTy).Contents (Elt F)),
    reshape main_v53 main_v54 rfl shapeCasts_S1x64_S64,
    unary main_arg8 main_v55 ((extractStridedSlice S1x64 ![0, 0] · slices_S4x64_S1x64_0_0) : (⟨S4x64, .f32⟩ : BufTy).Contents (Elt F) → (⟨S1x64, .f32⟩ : BufTy).Contents (Elt F)),
    reshape main_v55 main_v56 rfl shapeCasts_S1x64_S64,
    nullary main_cst_7 (constant S_ .f32 0x3727C5AC#32),
    unary main_cst_7 main_v57 (broadcastInDim S64 ![] bcast_S_S64 : (⟨S_, .f32⟩ : BufTy).Contents (Elt F) → (⟨S64, .f32⟩ : BufTy).Contents (Elt F)),
    binary main_v56 main_v57 main_v58 (addf : (⟨S64, .f32⟩ : BufTy).Contents (Elt F) → (⟨S64, .f32⟩ : BufTy).Contents (Elt F) → (⟨S64, .f32⟩ : BufTy).Contents (Elt F)),
    unary main_v58 main_v59 (Host.rsqrt : (⟨S64, .f32⟩ : BufTy).Contents (Elt F) → (⟨S64, .f32⟩ : BufTy).Contents (Elt F)),
    binary main_v54 main_v59 main_v60 (mulf : (⟨S64, .f32⟩ : BufTy).Contents (Elt F) → (⟨S64, .f32⟩ : BufTy).Contents (Elt F) → (⟨S64, .f32⟩ : BufTy).Contents (Elt F)),
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S100000x64 ![0, 1] bcast_S1x64_S100000x64_0_1 : (⟨S1x64, .f32⟩ : BufTy).Contents (Elt F) → (⟨S100000x64, .f32⟩ : BufTy).Contents (Elt F)),
    binary main_v52 main_v62 main_v63 (mulf : (⟨S100000x64, .f32⟩ : BufTy).Contents (Elt F) → (⟨S100000x64, .f32⟩ : BufTy).Contents (Elt F) → (⟨S100000x64, .f32⟩ : BufTy).Contents (Elt F)),
    unary main_arg6 main_v64 ((extractStridedSlice S1x64 ![0, 0] · slices_S4x64_S1x64_0_0) : (⟨S4x64, .f32⟩ : BufTy).Contents (Elt F) → (⟨S1x64, .f32⟩ : BufTy).Contents (Elt F)),
    reshape main_v64 main_v65 rfl shapeCasts_S1x64_S64,
    unary main_v65 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v63 main_v67 main_v68 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v68) (TRef.of (T := ⟨S100000x64, .f32⟩) main_call0_v0) (TRef.of (T := ⟨S100000x64, .f32⟩) main_v69) maximumf,
    unary main_arg3 main_v70 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v70 main_v71 rfl shapeCasts_S1x64x64_S64x64,
    binary main_v69 main_v71 main_v72 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_8 (constantI S_ 32 0#32),
    unary main_c_8 main_v73 (broadcastInDim S3300000 ![] bcast_S_S3300000 : (⟨S_, .i32⟩ : BufTy).Contents (Elt F) → (⟨S3300000, .i32⟩ : BufTy).Contents (Elt F)),
    binary main_v3 main_v73 main_v74 (cmpi .slt : (⟨S3300000, .i32⟩ : BufTy).Contents (Elt F) → (⟨S3300000, .i32⟩ : BufTy).Contents (Elt F) → (⟨S3300000, .i1⟩ : BufTy).Contents (Elt F)),
    nullary main_c_9 (constantI S_ 32 100000#32),
    unary main_c_9 main_v75 (broadcastInDim S3300000 ![] bcast_S_S3300000 : (⟨S_, .i32⟩ : BufTy).Contents (Elt F) → (⟨S3300000, .i32⟩ : BufTy).Contents (Elt F)),
    binary main_v3 main_v75 main_v76 (addi : (⟨S3300000, .i32⟩ : BufTy).Contents (Elt F) → (⟨S3300000, .i32⟩ : BufTy).Contents (Elt F) → (⟨S3300000, .i32⟩ : BufTy).Contents (Elt F)),
    ternary main_v74 main_v76 main_v3 main_v77 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v77 main_v78 (broadcastInDim S3300000x1 ![0] bcast_S3300000_S3300000x1_0 : (⟨S3300000, .i32⟩ : BufTy).Contents (Elt F) → (⟨S3300000x1, .i32⟩ : BufTy).Contents (Elt F)),
    binary main_v72 main_v78 main_v79 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v80 (broadcastInDim S3300000x64 ![0, 1] bcast_S3300000x1_S3300000x64_0_1 : (⟨S3300000x1, .f32⟩ : BufTy).Contents (Elt F) → (⟨S3300000x64, .f32⟩ : BufTy).Contents (Elt F)),
    binary main_v79 main_v80 main_v81 (mulf : (⟨S3300000x64, .f32⟩ : BufTy).Contents (Elt F) → (⟨S3300000x64, .f32⟩ : BufTy).Contents (Elt F) → (⟨S3300000x64, .f32⟩ : BufTy).Contents (Elt F)),
    nullary main_cst_10 (constant S_ .f32 0x00000000#32),
    unary main_cst_10 main_v82 (broadcastInDim S100000x64 ![] bcast_S_S100000x64 : (⟨S_, .f32⟩ : BufTy).Contents (Elt F) → (⟨S100000x64, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v85 ((extractStridedSlice S1x64 ![1, 0] · slices_S4x64_S1x64_1_0) : (⟨S4x64, .f32⟩ : BufTy).Contents (Elt F) → (⟨S1x64, .f32⟩ : BufTy).Contents (Elt F)),
    reshape main_v85 main_v86 rfl shapeCasts_S1x64_S64,
    unary main_v86 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v84 main_v88 main_v89 (addf : (⟨S100000x64, .f32⟩ : BufTy).Contents (Elt F) → (⟨S100000x64, .f32⟩ : BufTy).Contents (Elt F) → (⟨S100000x64, .f32⟩ : BufTy).Contents (Elt F)),
    unary main_arg7 main_v90 ((extractStridedSlice S1x64 ![1, 0] · slices_S4x64_S1x64_1_0) : (⟨S4x64, .f32⟩ : BufTy).Contents (Elt F) → (⟨S1x64, .f32⟩ : BufTy).Contents (Elt F)),
    reshape main_v90 main_v91 rfl shapeCasts_S1x64_S64,
    unary main_v91 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v89 main_v93 main_v94 (subf : (⟨S100000x64, .f32⟩ : BufTy).Contents (Elt F) → (⟨S100000x64, .f32⟩ : BufTy).Contents (Elt F) → (⟨S100000x64, .f32⟩ : BufTy).Contents (Elt F)),
    unary main_arg5 main_v95 ((extractStridedSlice S1x64 ![1, 0] · slices_S4x64_S1x64_1_0) : (⟨S4x64, .f32⟩ : BufTy).Contents (Elt F) → (⟨S1x64, .f32⟩ : BufTy).Contents (Elt F)),
    reshape main_v95 main_v96 rfl shapeCasts_S1x64_S64,
    unary main_arg8 main_v97 ((extractStridedSlice S1x64 ![1, 0] · slices_S4x64_S1x64_1_0) : (⟨S4x64, .f32⟩ : BufTy).Contents (Elt F) → (⟨S1x64, .f32⟩ : BufTy).Contents (Elt F)),
    reshape main_v97 main_v98 rfl shapeCasts_S1x64_S64,
    nullary main_cst_11 (constant S_ .f32 0x3727C5AC#32),
    unary main_cst_11 main_v99 (broadcastInDim S64 ![] bcast_S_S64 : (⟨S_, .f32⟩ : BufTy).Contents (Elt F) → (⟨S64, .f32⟩ : BufTy).Contents (Elt F)),
    binary main_v98 main_v99 main_v100 (addf : (⟨S64, .f32⟩ : BufTy).Contents (Elt F) → (⟨S64, .f32⟩ : BufTy).Contents (Elt F) → (⟨S64, .f32⟩ : BufTy).Contents (Elt F)),
    unary main_v100 main_v101 (Host.rsqrt : (⟨S64, .f32⟩ : BufTy).Contents (Elt F) → (⟨S64, .f32⟩ : BufTy).Contents (Elt F)),
    binary main_v96 main_v101 main_v102 (mulf : (⟨S64, .f32⟩ : BufTy).Contents (Elt F) → (⟨S64, .f32⟩ : BufTy).Contents (Elt F) → (⟨S64, .f32⟩ : BufTy).Contents (Elt F)),
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v94 main_v104 main_v105 (mulf : (⟨S100000x64, .f32⟩ : BufTy).Contents (Elt F) → (⟨S100000x64, .f32⟩ : BufTy).Contents (Elt F) → (⟨S100000x64, .f32⟩ : BufTy).Contents (Elt F)) ]

/-- The operations of @main's part 2, as printed (a call's three operations in its place). -/
abbrev part2 : List (HloOp τ sig (Elt F)) :=
  [ unary main_arg6 main_v106 ((extractStridedSlice S1x64 ![1, 0] · slices_S4x64_S1x64_1_0) : (⟨S4x64, .f32⟩ : BufTy).Contents (Elt F) → (⟨S1x64, .f32⟩ : BufTy).Contents (Elt F)),
    reshape main_v106 main_v107 rfl shapeCasts_S1x64_S64,
    unary main_v107 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v105 main_v109 main_v110 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v110) (TRef.of (T := ⟨S100000x64, .f32⟩) main_call1_v0) (TRef.of (T := ⟨S100000x64, .f32⟩) main_v111) maximumf,
    unary main_arg3 main_v112 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v112 main_v113 rfl shapeCasts_S1x64x64_S64x64,
    binary main_v111 main_v113 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v115 (broadcastInDim S3300000 ![] bcast_S_S3300000 : (⟨S_, .i32⟩ : BufTy).Contents (Elt F) → (⟨S3300000, .i32⟩ : BufTy).Contents (Elt F)),
    binary main_v3 main_v115 main_v116 (cmpi .slt : (⟨S3300000, .i32⟩ : BufTy).Contents (Elt F) → (⟨S3300000, .i32⟩ : BufTy).Contents (Elt F) → (⟨S3300000, .i1⟩ : BufTy).Contents (Elt F)),
    nullary main_c_13 (constantI S_ 32 100000#32),
    unary main_c_13 main_v117 (broadcastInDim S3300000 ![] bcast_S_S3300000 : (⟨S_, .i32⟩ : BufTy).Contents (Elt F) → (⟨S3300000, .i32⟩ : BufTy).Contents (Elt F)),
    binary main_v3 main_v117 main_v118 (addi : (⟨S3300000, .i32⟩ : BufTy).Contents (Elt F) → (⟨S3300000, .i32⟩ : BufTy).Contents (Elt F) → (⟨S3300000, .i32⟩ : BufTy).Contents (Elt F)),
    ternary main_v116 main_v118 main_v3 main_v119 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v119 main_v120 (broadcastInDim S3300000x1 ![0] bcast_S3300000_S3300000x1_0 : (⟨S3300000, .i32⟩ : BufTy).Contents (Elt F) → (⟨S3300000x1, .i32⟩ : BufTy).Contents (Elt F)),
    binary main_v114 main_v120 main_v121 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v122 (broadcastInDim S3300000x64 ![0, 1] bcast_S3300000x1_S3300000x64_0_1 : (⟨S3300000x1, .f32⟩ : BufTy).Contents (Elt F) → (⟨S3300000x64, .f32⟩ : BufTy).Contents (Elt F)),
    binary main_v121 main_v122 main_v123 (mulf : (⟨S3300000x64, .f32⟩ : BufTy).Contents (Elt F) → (⟨S3300000x64, .f32⟩ : BufTy).Contents (Elt F) → (⟨S3300000x64, .f32⟩ : BufTy).Contents (Elt F)),
    nullary main_cst_14 (constant S_ .f32 0x00000000#32),
    unary main_cst_14 main_v124 (broadcastInDim S100000x64 ![] bcast_S_S100000x64 : (⟨S_, .f32⟩ : BufTy).Contents (Elt F) → (⟨S100000x64, .f32⟩ : BufTy).Contents (Elt F)),
    unary main_v6 main_v125 (broadcastInDim S3300000x1 ![0] bcast_S3300000_S3300000x1_0 : (⟨S3300000, .i32⟩ : BufTy).Contents (Elt F) → (⟨S3300000x1, .i32⟩ : BufTy).Contents (Elt F)),
    ternary main_v124 main_v125 main_v123 main_v126 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v127 ((extractStridedSlice S1x64 ![2, 0] · slices_S4x64_S1x64_2_0) : (⟨S4x64, .f32⟩ : BufTy).Contents (Elt F) → (⟨S1x64, .f32⟩ : BufTy).Contents (Elt F)),
    reshape main_v127 main_v128 rfl shapeCasts_S1x64_S64,
    unary main_v128 main_v129 (broadcastInDim S1x64 ![1] bcast_S64_S1x64_1 : (⟨S64, .f32⟩ : BufTy).Contents (Elt F) → (⟨S1x64, .f32⟩ : BufTy).Contents (Elt F)),
    unary main_v129 main_v130 (broadcastInDim S100000x64 ![0, 1] bcast_S1x64_S100000x64_0_1 : (⟨S1x64, .f32⟩ : BufTy).Contents (Elt F) → (⟨S100000x64, .f32⟩ : BufTy).Contents (Elt F)),
    binary main_v126 main_v130 main_v131 (addf : (⟨S100000x64, .f32⟩ : BufTy).Contents (Elt F) → (⟨S100000x64, .f32⟩ : BufTy).Contents (Elt F) → (⟨S100000x64, .f32⟩ : BufTy).Contents (Elt F)),
    unary main_arg7 main_v132 ((extractStridedSlice S1x64 ![2, 0] · slices_S4x64_S1x64_2_0) : (⟨S4x64, .f32⟩ : BufTy).Contents (Elt F) → (⟨S1x64, .f32⟩ : BufTy).Contents (Elt F)),
    reshape main_v132 main_v133 rfl shapeCasts_S1x64_S64,
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v131 main_v135 main_v136 (subf : (⟨S100000x64, .f32⟩ : BufTy).Contents (Elt F) → (⟨S100000x64, .f32⟩ : BufTy).Contents (Elt F) → (⟨S100000x64, .f32⟩ : BufTy).Contents (Elt F)),
    unary main_arg5 main_v137 ((extractStridedSlice S1x64 ![2, 0] · slices_S4x64_S1x64_2_0) : (⟨S4x64, .f32⟩ : BufTy).Contents (Elt F) → (⟨S1x64, .f32⟩ : BufTy).Contents (Elt F)),
    reshape main_v137 main_v138 rfl shapeCasts_S1x64_S64,
    unary main_arg8 main_v139 ((extractStridedSlice S1x64 ![2, 0] · slices_S4x64_S1x64_2_0) : (⟨S4x64, .f32⟩ : BufTy).Contents (Elt F) → (⟨S1x64, .f32⟩ : BufTy).Contents (Elt F)),
    reshape main_v139 main_v140 rfl shapeCasts_S1x64_S64,
    nullary main_cst_15 (constant S_ .f32 0x3727C5AC#32),
    unary main_cst_15 main_v141 (broadcastInDim S64 ![] bcast_S_S64 : (⟨S_, .f32⟩ : BufTy).Contents (Elt F) → (⟨S64, .f32⟩ : BufTy).Contents (Elt F)),
    binary main_v140 main_v141 main_v142 (addf : (⟨S64, .f32⟩ : BufTy).Contents (Elt F) → (⟨S64, .f32⟩ : BufTy).Contents (Elt F) → (⟨S64, .f32⟩ : BufTy).Contents (Elt F)),
    unary main_v142 main_v143 (Host.rsqrt : (⟨S64, .f32⟩ : BufTy).Contents (Elt F) → (⟨S64, .f32⟩ : BufTy).Contents (Elt F)),
    binary main_v138 main_v143 main_v144 (mulf : (⟨S64, .f32⟩ : BufTy).Contents (Elt F) → (⟨S64, .f32⟩ : BufTy).Contents (Elt F) → (⟨S64, .f32⟩ : BufTy).Contents (Elt F)),
    unary main_v144 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v136 main_v146 main_v147 (mulf : (⟨S100000x64, .f32⟩ : BufTy).Contents (Elt F) → (⟨S100000x64, .f32⟩ : BufTy).Contents (Elt F) → (⟨S100000x64, .f32⟩ : BufTy).Contents (Elt F)),
    unary main_arg6 main_v148 ((extractStridedSlice S1x64 ![2, 0] · slices_S4x64_S1x64_2_0) : (⟨S4x64, .f32⟩ : BufTy).Contents (Elt F) → (⟨S1x64, .f32⟩ : BufTy).Contents (Elt F)),
    reshape main_v148 main_v149 rfl shapeCasts_S1x64_S64,
    unary main_v149 main_v150 (broadcastInDim S1x64 ![1] bcast_S64_S1x64_1 : (⟨S64, .f32⟩ : BufTy).Contents (Elt F) → (⟨S1x64, .f32⟩ : BufTy).Contents (Elt F)),
    unary main_v150 main_v151 (broadcastInDim S100000x64 ![0, 1] bcast_S1x64_S100000x64_0_1 : (⟨S1x64, .f32⟩ : BufTy).Contents (Elt F) → (⟨S100000x64, .f32⟩ : BufTy).Contents (Elt F)),
    binary main_v147 main_v151 main_v152 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v152) (TRef.of (T := ⟨S100000x64, .f32⟩) main_call2_v0) (TRef.of (T := ⟨S100000x64, .f32⟩) main_v153) maximumf,
    binary main_v153 main_v69 main_v154 (addf : (⟨S100000x64, .f32⟩ : BufTy).Contents (Elt F) → (⟨S100000x64, .f32⟩ : BufTy).Contents (Elt F) → (⟨S100000x64, .f32⟩ : BufTy).Contents (Elt F)),
    unary main_arg3 main_v155 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v155 main_v156 rfl shapeCasts_S1x64x64_S64x64,
    binary main_v154 main_v156 main_v157 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_16 (constantI S_ 32 0#32),
    unary main_c_16 main_v158 (broadcastInDim S3300000 ![] bcast_S_S3300000 : (⟨S_, .i32⟩ : BufTy).Contents (Elt F) → (⟨S3300000, .i32⟩ : BufTy).Contents (Elt F)),
    binary main_v3 main_v158 main_v159 (cmpi .slt : (⟨S3300000, .i32⟩ : BufTy).Contents (Elt F) → (⟨S3300000, .i32⟩ : BufTy).Contents (Elt F) → (⟨S3300000, .i1⟩ : BufTy).Contents (Elt F)),
    nullary main_c_17 (constantI S_ 32 100000#32) ]

/-- The operations of @main's part 3, as printed (a call's three operations in its place). -/
abbrev part3 : List (HloOp τ sig (Elt F)) :=
  [ unary main_c_17 main_v160 (broadcastInDim S3300000 ![] bcast_S_S3300000 : (⟨S_, .i32⟩ : BufTy).Contents (Elt F) → (⟨S3300000, .i32⟩ : BufTy).Contents (Elt F)),
    binary main_v3 main_v160 main_v161 (addi : (⟨S3300000, .i32⟩ : BufTy).Contents (Elt F) → (⟨S3300000, .i32⟩ : BufTy).Contents (Elt F) → (⟨S3300000, .i32⟩ : BufTy).Contents (Elt F)),
    ternary main_v159 main_v161 main_v3 main_v162 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v162 main_v163 (broadcastInDim S3300000x1 ![0] bcast_S3300000_S3300000x1_0 : (⟨S3300000, .i32⟩ : BufTy).Contents (Elt F) → (⟨S3300000x1, .i32⟩ : BufTy).Contents (Elt F)),
    binary main_v157 main_v163 main_v164 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v27 main_v165 (broadcastInDim S3300000x64 ![0, 1] bcast_S3300000x1_S3300000x64_0_1 : (⟨S3300000x1, .f32⟩ : BufTy).Contents (Elt F) → (⟨S3300000x64, .f32⟩ : BufTy).Contents (Elt F)),
    binary main_v164 main_v165 main_v166 (mulf : (⟨S3300000x64, .f32⟩ : BufTy).Contents (Elt F) → (⟨S3300000x64, .f32⟩ : BufTy).Contents (Elt F) → (⟨S3300000x64, .f32⟩ : BufTy).Contents (Elt F)),
    nullary main_cst_18 (constant S_ .f32 0x00000000#32),
    unary main_cst_18 main_v167 (broadcastInDim S100000x64 ![] bcast_S_S100000x64 : (⟨S_, .f32⟩ : BufTy).Contents (Elt F) → (⟨S100000x64, .f32⟩ : BufTy).Contents (Elt F)),
    unary main_v6 main_v168 (broadcastInDim S3300000x1 ![0] bcast_S3300000_S3300000x1_0 : (⟨S3300000, .i32⟩ : BufTy).Contents (Elt F) → (⟨S3300000x1, .i32⟩ : BufTy).Contents (Elt F)),
    ternary main_v167 main_v168 main_v166 main_v169 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg4 main_v170 ((extractStridedSlice S1x64 ![3, 0] · slices_S4x64_S1x64_3_0) : (⟨S4x64, .f32⟩ : BufTy).Contents (Elt F) → (⟨S1x64, .f32⟩ : BufTy).Contents (Elt F)),
    reshape main_v170 main_v171 rfl shapeCasts_S1x64_S64,
    unary main_v171 main_v172 (broadcastInDim S1x64 ![1] bcast_S64_S1x64_1 : (⟨S64, .f32⟩ : BufTy).Contents (Elt F) → (⟨S1x64, .f32⟩ : BufTy).Contents (Elt F)),
    unary main_v172 main_v173 (broadcastInDim S100000x64 ![0, 1] bcast_S1x64_S100000x64_0_1 : (⟨S1x64, .f32⟩ : BufTy).Contents (Elt F) → (⟨S100000x64, .f32⟩ : BufTy).Contents (Elt F)),
    binary main_v169 main_v173 main_v174 (addf : (⟨S100000x64, .f32⟩ : BufTy).Contents (Elt F) → (⟨S100000x64, .f32⟩ : BufTy).Contents (Elt F) → (⟨S100000x64, .f32⟩ : BufTy).Contents (Elt F)),
    unary main_arg7 main_v175 ((extractStridedSlice S1x64 ![3, 0] · slices_S4x64_S1x64_3_0) : (⟨S4x64, .f32⟩ : BufTy).Contents (Elt F) → (⟨S1x64, .f32⟩ : BufTy).Contents (Elt F)),
    reshape main_v175 main_v176 rfl shapeCasts_S1x64_S64,
    unary main_v176 main_v177 (broadcastInDim S1x64 ![1] bcast_S64_S1x64_1 : (⟨S64, .f32⟩ : BufTy).Contents (Elt F) → (⟨S1x64, .f32⟩ : BufTy).Contents (Elt F)),
    unary main_v177 main_v178 (broadcastInDim S100000x64 ![0, 1] bcast_S1x64_S100000x64_0_1 : (⟨S1x64, .f32⟩ : BufTy).Contents (Elt F) → (⟨S100000x64, .f32⟩ : BufTy).Contents (Elt F)),
    binary main_v174 main_v178 main_v179 (subf : (⟨S100000x64, .f32⟩ : BufTy).Contents (Elt F) → (⟨S100000x64, .f32⟩ : BufTy).Contents (Elt F) → (⟨S100000x64, .f32⟩ : BufTy).Contents (Elt F)),
    unary main_arg5 main_v180 ((extractStridedSlice S1x64 ![3, 0] · slices_S4x64_S1x64_3_0) : (⟨S4x64, .f32⟩ : BufTy).Contents (Elt F) → (⟨S1x64, .f32⟩ : BufTy).Contents (Elt F)),
    reshape main_v180 main_v181 rfl shapeCasts_S1x64_S64,
    unary main_arg8 main_v182 ((extractStridedSlice S1x64 ![3, 0] · slices_S4x64_S1x64_3_0) : (⟨S4x64, .f32⟩ : BufTy).Contents (Elt F) → (⟨S1x64, .f32⟩ : BufTy).Contents (Elt F)),
    reshape main_v182 main_v183 rfl shapeCasts_S1x64_S64,
    nullary main_cst_19 (constant S_ .f32 0x3727C5AC#32),
    unary main_cst_19 main_v184 (broadcastInDim S64 ![] bcast_S_S64 : (⟨S_, .f32⟩ : BufTy).Contents (Elt F) → (⟨S64, .f32⟩ : BufTy).Contents (Elt F)),
    binary main_v183 main_v184 main_v185 (addf : (⟨S64, .f32⟩ : BufTy).Contents (Elt F) → (⟨S64, .f32⟩ : BufTy).Contents (Elt F) → (⟨S64, .f32⟩ : BufTy).Contents (Elt F)),
    unary main_v185 main_v186 (Host.rsqrt : (⟨S64, .f32⟩ : BufTy).Contents (Elt F) → (⟨S64, .f32⟩ : BufTy).Contents (Elt F)),
    binary main_v181 main_v186 main_v187 (mulf : (⟨S64, .f32⟩ : BufTy).Contents (Elt F) → (⟨S64, .f32⟩ : BufTy).Contents (Elt F) → (⟨S64, .f32⟩ : BufTy).Contents (Elt F)),
    unary main_v187 main_v188 (broadcastInDim S1x64 ![1] bcast_S64_S1x64_1 : (⟨S64, .f32⟩ : BufTy).Contents (Elt F) → (⟨S1x64, .f32⟩ : BufTy).Contents (Elt F)),
    unary main_v188 main_v189 (broadcastInDim S100000x64 ![0, 1] bcast_S1x64_S100000x64_0_1 : (⟨S1x64, .f32⟩ : BufTy).Contents (Elt F) → (⟨S100000x64, .f32⟩ : BufTy).Contents (Elt F)),
    binary main_v179 main_v189 main_v190 (mulf : (⟨S100000x64, .f32⟩ : BufTy).Contents (Elt F) → (⟨S100000x64, .f32⟩ : BufTy).Contents (Elt F) → (⟨S100000x64, .f32⟩ : BufTy).Contents (Elt F)),
    unary main_arg6 main_v191 ((extractStridedSlice S1x64 ![3, 0] · slices_S4x64_S1x64_3_0) : (⟨S4x64, .f32⟩ : BufTy).Contents (Elt F) → (⟨S1x64, .f32⟩ : BufTy).Contents (Elt F)),
    reshape main_v191 main_v192 rfl shapeCasts_S1x64_S64,
    unary main_v192 main_v193 (broadcastInDim S1x64 ![1] bcast_S64_S1x64_1 : (⟨S64, .f32⟩ : BufTy).Contents (Elt F) → (⟨S1x64, .f32⟩ : BufTy).Contents (Elt F)),
    unary main_v193 main_v194 (broadcastInDim S100000x64 ![0, 1] bcast_S1x64_S100000x64_0_1 : (⟨S1x64, .f32⟩ : BufTy).Contents (Elt F) → (⟨S100000x64, .f32⟩ : BufTy).Contents (Elt F)),
    binary main_v190 main_v194 main_v195 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v195) (TRef.of (T := ⟨S100000x64, .f32⟩) main_call3_v0) (TRef.of (T := ⟨S100000x64, .f32⟩) main_v196) maximumf,
    nary ![main_v69, main_v111, main_v154, main_v196] main_v197 (fun u => concatenate S100000x256 1 [⟨S100000x64, u 0⟩, ⟨S100000x64, u 1⟩, ⟨S100000x64, u 2⟩, ⟨S100000x64, u 3⟩] concatenates_S100000x64_S100000x64_S100000x64_S100000x64_S100000x256_d1),
    binary main_v197 main_arg9 main_v198 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg10 main_v199 (broadcastInDim S1x256 ![1] bcast_S256_S1x256_1 : (⟨S256, .f32⟩ : BufTy).Contents (Elt F) → (⟨S1x256, .f32⟩ : BufTy).Contents (Elt F)),
    unary main_v199 main_v200 (broadcastInDim S100000x256 ![0, 1] bcast_S1x256_S100000x256_0_1 : (⟨S1x256, .f32⟩ : BufTy).Contents (Elt F) → (⟨S100000x256, .f32⟩ : BufTy).Contents (Elt F)),
    binary main_v198 main_v200 main_v201 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v201) (TRef.of (T := ⟨S100000x256, .f32⟩) main_call4_v0) (TRef.of (T := ⟨S100000x256, .f32⟩) main_v202) maximumf,
    binary main_v202 main_arg11 main_v203 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg12 main_v204 (broadcastInDim S1x128 ![1] bcast_S128_S1x128_1 : (⟨S128, .f32⟩ : BufTy).Contents (Elt F) → (⟨S1x128, .f32⟩ : BufTy).Contents (Elt F)),
    unary main_v204 main_v205 (broadcastInDim S100000x128 ![0, 1] bcast_S1x128_S100000x128_0_1 : (⟨S1x128, .f32⟩ : BufTy).Contents (Elt F) → (⟨S100000x128, .f32⟩ : BufTy).Contents (Elt F)),
    binary main_v203 main_v205 main_v206 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v206) (TRef.of (T := ⟨S100000x128, .f32⟩) main_call5_v0) (TRef.of (T := ⟨S100000x128, .f32⟩) main_v207) maximumf,
    nullary main_cst_20 (constant S_ .f32 0x00000000#32),
    unary main_cst_20 main_v208 (broadcastInDim S64x128 ![] bcast_S_S64x128 : (⟨S_, .f32⟩ : BufTy).Contents (Elt F) → (⟨S64x128, .f32⟩ : BufTy).Contents (Elt F)),
    unary main_arg2 main_v209 (broadcastInDim S100000x1 ![0] bcast_S100000_S100000x1_0 : (⟨S100000, .i32⟩ : BufTy).Contents (Elt F) → (⟨S100000x1, .i32⟩ : BufTy).Contents (Elt F)),
    ternary main_v208 main_v209 main_v207 main_v210 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_21 (constant S_ .f32 0x3F800000#32),
    unary main_cst_21 main_v211 (broadcastInDim S100000 ![] bcast_S_S100000 : (⟨S_, .f32⟩ : BufTy).Contents (Elt F) → (⟨S100000, .f32⟩ : BufTy).Contents (Elt F)),
    nullary main_cst_22 (constant S_ .f32 0x00000000#32),
    unary main_cst_22 main_v212 (broadcastInDim S64 ![] bcast_S_S64 : (⟨S_, .f32⟩ : BufTy).Contents (Elt F) → (⟨S64, .f32⟩ : BufTy).Contents (Elt F)),
    unary main_arg2 main_v213 (broadcastInDim S100000x1 ![0] bcast_S100000_S100000x1_0 : (⟨S100000, .i32⟩ : BufTy).Contents (Elt F) → (⟨S100000x1, .i32⟩ : BufTy).Contents (Elt F)),
    ternary main_v212 main_v213 main_v211 main_v214 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)) ]

/-- The operations of @main's part 4, as printed (a call's three operations in its place). -/
abbrev part4 : List (HloOp τ sig (Elt F)) :=
  [ nullary main_cst_23 (constant S_ .f32 0x3F800000#32),
    unary main_cst_23 main_v215 (broadcastInDim S64 ![] bcast_S_S64 : (⟨S_, .f32⟩ : BufTy).Contents (Elt F) → (⟨S64, .f32⟩ : BufTy).Contents (Elt F)),
    binary main_v214 main_v215 main_v216 (maximumf : (⟨S64, .f32⟩ : BufTy).Contents (Elt F) → (⟨S64, .f32⟩ : BufTy).Contents (Elt F) → (⟨S64, .f32⟩ : BufTy).Contents (Elt F)),
    unary main_v216 main_v217 (broadcastInDim S64x1 ![0] bcast_S64_S64x1_0 : (⟨S64, .f32⟩ : BufTy).Contents (Elt F) → (⟨S64x1, .f32⟩ : BufTy).Contents (Elt F)),
    unary main_v217 main_v218 (broadcastInDim S64x128 ![0, 1] bcast_S64x1_S64x128_0_1 : (⟨S64x1, .f32⟩ : BufTy).Contents (Elt F) → (⟨S64x128, .f32⟩ : BufTy).Contents (Elt F)),
    binary main_v210 main_v218 main_v219 (Host.divf : (⟨S64x128, .f32⟩ : BufTy).Contents (Elt F) → (⟨S64x128, .f32⟩ : BufTy).Contents (Elt F) → (⟨S64x128, .f32⟩ : BufTy).Contents (Elt F)),
    binary main_v219 main_arg13 main_v220 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg14 main_v221 (broadcastInDim S1x64 ![1] bcast_S64_S1x64_1 : (⟨S64, .f32⟩ : BufTy).Contents (Elt F) → (⟨S1x64, .f32⟩ : BufTy).Contents (Elt F)),
    unary main_v221 main_v222 (broadcastInDim S64x64 ![0, 1] bcast_S1x64_S64x64_0_1 : (⟨S1x64, .f32⟩ : BufTy).Contents (Elt F) → (⟨S64x64, .f32⟩ : BufTy).Contents (Elt F)),
    binary main_v220 main_v222 main_v223 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S64x64, .f32⟩) main_call6_v0) (broadcastInDim S64x64 ![] bcast_S_S64x64),
    TRef.binary (TRef.of (T := ⟨S64x64, .f32⟩) main_v223) (TRef.of (T := ⟨S64x64, .f32⟩) main_call6_v0) (TRef.of (T := ⟨S64x64, .f32⟩) main_v224) maximumf,
    binary main_v224 main_arg15 main_v225 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    unary main_arg16 main_v226 (broadcastInDim S1x1 ![1] bcast_S1_S1x1_1 : (⟨S1, .f32⟩ : BufTy).Contents (Elt F) → (⟨S1x1, .f32⟩ : BufTy).Contents (Elt F)),
    unary main_v226 main_v227 (broadcastInDim S64x1 ![0, 1] bcast_S1x1_S64x1_0_1 : (⟨S1x1, .f32⟩ : BufTy).Contents (Elt F) → (⟨S64x1, .f32⟩ : BufTy).Contents (Elt F)),
    binary main_v225 main_v227 main_v228 (addf : (⟨S64x1, .f32⟩ : BufTy).Contents (Elt F) → (⟨S64x1, .f32⟩ : BufTy).Contents (Elt F) → (⟨S64x1, .f32⟩ : BufTy).Contents (Elt F)),
    reshape main_v228 main_v229 rfl shapeCasts_S64x1_S64 ]

/-! ## @main is the line of its operations

Each printed part is the line of its own operations by computation; the parts in sequence are the line of their
concatenation (`seq_append`), and the five parts' lists, concatenated, are the six stages', concatenated. -/

set_option maxRecDepth 8192 in
set_option maxHeartbeats 4000000 in
theorem part0_eq (c : Dev nD) : main_part0 (F := F) c = seq part0 := rfl

set_option maxRecDepth 8192 in
set_option maxHeartbeats 4000000 in
theorem part1_eq (c : Dev nD) : main_part1 (F := F) c = seq part1 := rfl

set_option maxRecDepth 8192 in
set_option maxHeartbeats 4000000 in
theorem part2_eq (c : Dev nD) : main_part2 (F := F) c = seq part2 := rfl

set_option maxRecDepth 8192 in
set_option maxHeartbeats 4000000 in
theorem part3_eq (c : Dev nD) : main_part3 (F := F) c = seq part3 := rfl

set_option maxRecDepth 8192 in
set_option maxHeartbeats 4000000 in
theorem part4_eq (c : Dev nD) : main_part4 (F := F) c = seq part4 := rfl

set_option maxRecDepth 8192 in
set_option maxHeartbeats 4000000 in
theorem parts_eq : (part0 ++ (part1 ++ (part2 ++ (part3 ++ part4))) : List (HloOp τ sig (Elt F))) = ops := rfl

theorem main_eq (c : Dev nD) : main (F := F) c = seq ops := by
  rw [← parts_eq, seq_append, seq_append, seq_append, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

private theorem forall_append {α : Type} {p : α → Prop} {l₁ l₂ : List α} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

theorem opsG_sub : (opsG : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

theorem opsL0_sub : (opsL0 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem opsL1_sub : (opsL1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem opsL2_sub : (opsL2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem opsL3_sub : (opsL3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

theorem opsT_sub : (opsT : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub ..⟩

theorem ops_sub : (ops : List (HloOp τ sig (Elt F))).Forall fun op => op.bufs ⊆ tcRefs τ sig :=
  forall_append (forall_append (forall_append (forall_append (forall_append opsG_sub opsL0_sub) opsL1_sub) opsL2_sub) opsL3_sub) opsT_sub

theorem opsG_fresh : ∀ op ∈ (opsG : List (HloOp τ sig (Elt F))), op.fresh = ∅ := by
  intro _ h; (repeat (cases h with | head => rfl | tail _ h => ?_)); exact nomatch h

theorem opsL0_fresh : ∀ op ∈ (opsL0 : List (HloOp τ sig (Elt F))), op.fresh = ∅ := by
  intro _ h; (repeat (cases h with | head => rfl | tail _ h => ?_)); exact nomatch h

theorem opsL1_fresh : ∀ op ∈ (opsL1 : List (HloOp τ sig (Elt F))), op.fresh = ∅ := by
  intro _ h; (repeat (cases h with | head => rfl | tail _ h => ?_)); exact nomatch h

theorem opsL2_fresh : ∀ op ∈ (opsL2 : List (HloOp τ sig (Elt F))), op.fresh = ∅ := by
  intro _ h; (repeat (cases h with | head => rfl | tail _ h => ?_)); exact nomatch h

theorem opsL3_fresh : ∀ op ∈ (opsL3 : List (HloOp τ sig (Elt F))), op.fresh = ∅ := by
  intro _ h; (repeat (cases h with | head => rfl | tail _ h => ?_)); exact nomatch h

theorem opsT_fresh : ∀ op ∈ (opsT : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with ((((h | h) | h) | h) | h) | h
  · exact opsG_fresh op h
  · exact opsL0_fresh op h
  · exact opsL1_fresh op h
  · exact opsL2_fresh op h
  · exact opsL3_fresh op h
  · exact opsT_fresh op h

/-! ## The fold over a concatenation, and the run -/

/-- The fold over two lines one after the other is the second's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- On every device, for any float values, from any memory with zero counters: every weakly fair execution of
    @main terminates with every buffer at the fold of the operations' results over its launch contents. -/
theorem run_fold (m : (ℓ : Loc nD τ sig) → Buf (Elt F) ℓ) (ρ : Dev nD → PrngReg) :
    θ_run defs (onTc (τ := τ) (main (F := F))) ⟨m, fun _ => 0, ρ⟩ (fun r => ∀ (d : Dev nD) (b : Ref sig .tc),
      r.2.mem ((d.tc : Thread nD τ).loc b) = after ops (launchContents m d) (Proc.devRef .tc b)) :=
  run_seq scopedRefs_eq scopedSems_eq defs main (fun _ => ops) main_eq (fun _ => ops_sub) m ρ (fun _ => ops_fresh)

end Cert.ReferenceIdeal.HandRun

end
-- ==== Proof.RefRunFrame.lean ====
/- No operation of the reference's @main writes an argument: each stage's written references as a list, a reference
   outside the list keeps its contents through the stage, and so through the whole line; the frame follows from
   the run. -/
import proofs.«127520_j50629074485391_2_alg».proof.Proof.RefRunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- An operation whose one written buffer is a reference of the list writes inside the list. -/
theorem writes_sub_of_mem {W : List (Ref sig .tc)} {y : Ref sig .tc} {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The references stage `opsG` writes, in order. -/
abbrev WG : List (Ref sig .tc) :=
  [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27]

theorem opsG_writes : (opsG : List (HloOp τ sig (Elt F))).Forall fun op => op.writes ⊆ (WG.map (Proc.devRef (τ := τ) .tc)).toFinset :=
  ⟨writes_sub_of_mem (y := main_v0) rfl (by decide),
   writes_sub_of_mem (y := main_v1) rfl (by decide),
   writes_sub_of_mem (y := main_v2) rfl (by decide),
   writes_sub_of_mem (y := main_v3) rfl (by decide),
   writes_sub_of_mem (y := main_v4) rfl (by decide),
   writes_sub_of_mem (y := main_v5) rfl (by decide),
   writes_sub_of_mem (y := main_v6) rfl (by decide),
   writes_sub_of_mem (y := main_cst) rfl (by decide),
   writes_sub_of_mem (y := main_v7) rfl (by decide),
   writes_sub_of_mem (y := main_cst_0) rfl (by decide),
   writes_sub_of_mem (y := main_v8) rfl (by decide),
   writes_sub_of_mem (y := main_v9) rfl (by decide),
   writes_sub_of_mem (y := main_v10) rfl (by decide),
   writes_sub_of_mem (y := main_v11) rfl (by decide),
   writes_sub_of_mem (y := main_c) rfl (by decide),
   writes_sub_of_mem (y := main_v12) rfl (by decide),
   writes_sub_of_mem (y := main_v13) rfl (by decide),
   writes_sub_of_mem (y := main_c_1) rfl (by decide),
   writes_sub_of_mem (y := main_v14) rfl (by decide),
   writes_sub_of_mem (y := main_v15) rfl (by decide),
   writes_sub_of_mem (y := main_v16) rfl (by decide),
   writes_sub_of_mem (y := main_v17) rfl (by decide),
   writes_sub_of_mem (y := main_v18) rfl (by decide),
   writes_sub_of_mem (y := main_c_2) rfl (by decide),
   writes_sub_of_mem (y := main_v19) rfl (by decide),
   writes_sub_of_mem (y := main_v20) rfl (by decide),
   writes_sub_of_mem (y := main_c_3) rfl (by decide),
   writes_sub_of_mem (y := main_v21) rfl (by decide),
   writes_sub_of_mem (y := main_v22) rfl (by decide),
   writes_sub_of_mem (y := main_v23) rfl (by decide),
   writes_sub_of_mem (y := main_v24) rfl (by decide),
   writes_sub_of_mem (y := main_v25) rfl (by decide),
   writes_sub_of_mem (y := main_v26) rfl (by decide),
   writes_sub_of_mem (y := main_v27) rfl (by decide)⟩

/-- A reference stage `opsG` does not write keeps its contents through it. -/
theorem opsG_kept {r : Ref sig .tc} (hr : r ∉ WG) (V : Valuation τ sig (Elt F)) :
    after opsG V (Proc.devRef .tc r) = V (Proc.devRef .tc r) :=
  after_of_writes_sub opsG V opsG_writes hr

/-- The references stage `opsL0` writes, in order. -/
abbrev WL0 : List (Ref sig .tc) :=
  [main_v28, main_v29, main_v30, main_c_4, main_v31, main_v32, main_c_5, main_v33, main_v34, main_v35, main_v36, main_v37, main_v38, main_v39, main_cst_6, main_v40, main_v41, main_v42, main_v43, main_v44, main_v45, main_v46, main_v47, main_v48, main_v49, main_v50, main_v51, main_v52, main_v53, main_v54, main_v55, main_v56, main_cst_7, main_v57, main_v58, main_v59, main_v60, main_v61, main_v62, main_v63, main_v64, main_v65, main_v66, main_v67, main_v68, main_call0_cst, main_call0_v0, main_v69]

theorem opsL0_writes : (opsL0 : List (HloOp τ sig (Elt F))).Forall fun op => op.writes ⊆ (WL0.map (Proc.devRef (τ := τ) .tc)).toFinset :=
  ⟨writes_sub_of_mem (y := main_v28) rfl (by decide),
   writes_sub_of_mem (y := main_v29) rfl (by decide),
   writes_sub_of_mem (y := main_v30) rfl (by decide),
   writes_sub_of_mem (y := main_c_4) rfl (by decide),
   writes_sub_of_mem (y := main_v31) rfl (by decide),
   writes_sub_of_mem (y := main_v32) rfl (by decide),
   writes_sub_of_mem (y := main_c_5) rfl (by decide),
   writes_sub_of_mem (y := main_v33) rfl (by decide),
   writes_sub_of_mem (y := main_v34) rfl (by decide),
   writes_sub_of_mem (y := main_v35) rfl (by decide),
   writes_sub_of_mem (y := main_v36) rfl (by decide),
   writes_sub_of_mem (y := main_v37) rfl (by decide),
   writes_sub_of_mem (y := main_v38) rfl (by decide),
   writes_sub_of_mem (y := main_v39) rfl (by decide),
   writes_sub_of_mem (y := main_cst_6) rfl (by decide),
   writes_sub_of_mem (y := main_v40) rfl (by decide),
   writes_sub_of_mem (y := main_v41) rfl (by decide),
   writes_sub_of_mem (y := main_v42) rfl (by decide),
   writes_sub_of_mem (y := main_v43) rfl (by decide),
   writes_sub_of_mem (y := main_v44) rfl (by decide),
   writes_sub_of_mem (y := main_v45) rfl (by decide),
   writes_sub_of_mem (y := main_v46) rfl (by decide),
   writes_sub_of_mem (y := main_v47) rfl (by decide),
   writes_sub_of_mem (y := main_v48) rfl (by decide),
   writes_sub_of_mem (y := main_v49) rfl (by decide),
   writes_sub_of_mem (y := main_v50) rfl (by decide),
   writes_sub_of_mem (y := main_v51) rfl (by decide),
   writes_sub_of_mem (y := main_v52) rfl (by decide),
   writes_sub_of_mem (y := main_v53) rfl (by decide),
   writes_sub_of_mem (y := main_v54) rfl (by decide),
   writes_sub_of_mem (y := main_v55) rfl (by decide),
   writes_sub_of_mem (y := main_v56) rfl (by decide),
   writes_sub_of_mem (y := main_cst_7) rfl (by decide),
   writes_sub_of_mem (y := main_v57) rfl (by decide),
   writes_sub_of_mem (y := main_v58) rfl (by decide),
   writes_sub_of_mem (y := main_v59) rfl (by decide),
   writes_sub_of_mem (y := main_v60) rfl (by decide),
   writes_sub_of_mem (y := main_v61) rfl (by decide),
   writes_sub_of_mem (y := main_v62) rfl (by decide),
   writes_sub_of_mem (y := main_v63) rfl (by decide),
   writes_sub_of_mem (y := main_v64) rfl (by decide),
   writes_sub_of_mem (y := main_v65) rfl (by decide),
   writes_sub_of_mem (y := main_v66) rfl (by decide),
   writes_sub_of_mem (y := main_v67) rfl (by decide),
   writes_sub_of_mem (y := main_v68) rfl (by decide),
   writes_sub_of_mem (y := main_call0_cst) rfl (by decide),
   writes_sub_of_mem (y := main_call0_v0) rfl (by decide),
   writes_sub_of_mem (y := main_v69) rfl (by decide)⟩

/-- A reference stage `opsL0` does not write keeps its contents through it. -/
theorem opsL0_kept {r : Ref sig .tc} (hr : r ∉ WL0) (V : Valuation τ sig (Elt F)) :
    after opsL0 V (Proc.devRef .tc r) = V (Proc.devRef .tc r) :=
  after_of_writes_sub opsL0 V opsL0_writes hr

/-- The references stage `opsL1` writes, in order. -/
abbrev WL1 : List (Ref sig .tc) :=
  [main_v70, main_v71, main_v72, main_c_8, main_v73, main_v74, main_c_9, main_v75, main_v76, main_v77, main_v78, main_v79, main_v80, main_v81, main_cst_10, main_v82, main_v83, main_v84, main_v85, main_v86, main_v87, main_v88, main_v89, main_v90, main_v91, main_v92, main_v93, main_v94, main_v95, main_v96, main_v97, main_v98, main_cst_11, main_v99, main_v100, main_v101, main_v102, main_v103, main_v104, main_v105, main_v106, main_v107, main_v108, main_v109, main_v110, main_call1_cst, main_call1_v0, main_v111]

theorem opsL1_writes : (opsL1 : List (HloOp τ sig (Elt F))).Forall fun op => op.writes ⊆ (WL1.map (Proc.devRef (τ := τ) .tc)).toFinset :=
  ⟨writes_sub_of_mem (y := main_v70) rfl (by decide),
   writes_sub_of_mem (y := main_v71) rfl (by decide),
   writes_sub_of_mem (y := main_v72) rfl (by decide),
   writes_sub_of_mem (y := main_c_8) rfl (by decide),
   writes_sub_of_mem (y := main_v73) rfl (by decide),
   writes_sub_of_mem (y := main_v74) rfl (by decide),
   writes_sub_of_mem (y := main_c_9) rfl (by decide),
   writes_sub_of_mem (y := main_v75) rfl (by decide),
   writes_sub_of_mem (y := main_v76) rfl (by decide),
   writes_sub_of_mem (y := main_v77) rfl (by decide),
   writes_sub_of_mem (y := main_v78) rfl (by decide),
   writes_sub_of_mem (y := main_v79) rfl (by decide),
   writes_sub_of_mem (y := main_v80) rfl (by decide),
   writes_sub_of_mem (y := main_v81) rfl (by decide),
   writes_sub_of_mem (y := main_cst_10) rfl (by decide),
   writes_sub_of_mem (y := main_v82) rfl (by decide),
   writes_sub_of_mem (y := main_v83) rfl (by decide),
   writes_sub_of_mem (y := main_v84) rfl (by decide),
   writes_sub_of_mem (y := main_v85) rfl (by decide),
   writes_sub_of_mem (y := main_v86) rfl (by decide),
   writes_sub_of_mem (y := main_v87) rfl (by decide),
   writes_sub_of_mem (y := main_v88) rfl (by decide),
   writes_sub_of_mem (y := main_v89) rfl (by decide),
   writes_sub_of_mem (y := main_v90) rfl (by decide),
   writes_sub_of_mem (y := main_v91) rfl (by decide),
   writes_sub_of_mem (y := main_v92) rfl (by decide),
   writes_sub_of_mem (y := main_v93) rfl (by decide),
   writes_sub_of_mem (y := main_v94) rfl (by decide),
   writes_sub_of_mem (y := main_v95) rfl (by decide),
   writes_sub_of_mem (y := main_v96) rfl (by decide),
   writes_sub_of_mem (y := main_v97) rfl (by decide),
   writes_sub_of_mem (y := main_v98) rfl (by decide),
   writes_sub_of_mem (y := main_cst_11) rfl (by decide),
   writes_sub_of_mem (y := main_v99) rfl (by decide),
   writes_sub_of_mem (y := main_v100) rfl (by decide),
   writes_sub_of_mem (y := main_v101) rfl (by decide),
   writes_sub_of_mem (y := main_v102) rfl (by decide),
   writes_sub_of_mem (y := main_v103) rfl (by decide),
   writes_sub_of_mem (y := main_v104) rfl (by decide),
   writes_sub_of_mem (y := main_v105) rfl (by decide),
   writes_sub_of_mem (y := main_v106) rfl (by decide),
   writes_sub_of_mem (y := main_v107) rfl (by decide),
   writes_sub_of_mem (y := main_v108) rfl (by decide),
   writes_sub_of_mem (y := main_v109) rfl (by decide),
   writes_sub_of_mem (y := main_v110) rfl (by decide),
   writes_sub_of_mem (y := main_call1_cst) rfl (by decide),
   writes_sub_of_mem (y := main_call1_v0) rfl (by decide),
   writes_sub_of_mem (y := main_v111) rfl (by decide)⟩

/-- A reference stage `opsL1` does not write keeps its contents through it. -/
theorem opsL1_kept {r : Ref sig .tc} (hr : r ∉ WL1) (V : Valuation τ sig (Elt F)) :
    after opsL1 V (Proc.devRef .tc r) = V (Proc.devRef .tc r) :=
  after_of_writes_sub opsL1 V opsL1_writes hr

/-- The references stage `opsL2` writes, in order. -/
abbrev WL2 : List (Ref sig .tc) :=
  [main_v112, main_v113, main_v114, main_c_12, main_v115, main_v116, main_c_13, main_v117, main_v118, main_v119, main_v120, main_v121, main_v122, main_v123, main_cst_14, main_v124, main_v125, main_v126, main_v127, main_v128, main_v129, main_v130, main_v131, main_v132, main_v133, main_v134, main_v135, main_v136, main_v137, main_v138, main_v139, main_v140, main_cst_15, main_v141, main_v142, main_v143, main_v144, main_v145, main_v146, main_v147, main_v148, main_v149, main_v150, main_v151, main_v152, main_call2_cst, main_call2_v0, main_v153, main_v154]

theorem opsL2_writes : (opsL2 : List (HloOp τ sig (Elt F))).Forall fun op => op.writes ⊆ (WL2.map (Proc.devRef (τ := τ) .tc)).toFinset :=
  ⟨writes_sub_of_mem (y := main_v112) rfl (by decide),
   writes_sub_of_mem (y := main_v113) rfl (by decide),
   writes_sub_of_mem (y := main_v114) rfl (by decide),
   writes_sub_of_mem (y := main_c_12) rfl (by decide),
   writes_sub_of_mem (y := main_v115) rfl (by decide),
   writes_sub_of_mem (y := main_v116) rfl (by decide),
   writes_sub_of_mem (y := main_c_13) rfl (by decide),
   writes_sub_of_mem (y := main_v117) rfl (by decide),
   writes_sub_of_mem (y := main_v118) rfl (by decide),
   writes_sub_of_mem (y := main_v119) rfl (by decide),
   writes_sub_of_mem (y := main_v120) rfl (by decide),
   writes_sub_of_mem (y := main_v121) rfl (by decide),
   writes_sub_of_mem (y := main_v122) rfl (by decide),
   writes_sub_of_mem (y := main_v123) rfl (by decide),
   writes_sub_of_mem (y := main_cst_14) rfl (by decide),
   writes_sub_of_mem (y := main_v124) rfl (by decide),
   writes_sub_of_mem (y := main_v125) rfl (by decide),
   writes_sub_of_mem (y := main_v126) rfl (by decide),
   writes_sub_of_mem (y := main_v127) rfl (by decide),
   writes_sub_of_mem (y := main_v128) rfl (by decide),
   writes_sub_of_mem (y := main_v129) rfl (by decide),
   writes_sub_of_mem (y := main_v130) rfl (by decide),
   writes_sub_of_mem (y := main_v131) rfl (by decide),
   writes_sub_of_mem (y := main_v132) rfl (by decide),
   writes_sub_of_mem (y := main_v133) rfl (by decide),
   writes_sub_of_mem (y := main_v134) rfl (by decide),
   writes_sub_of_mem (y := main_v135) rfl (by decide),
   writes_sub_of_mem (y := main_v136) rfl (by decide),
   writes_sub_of_mem (y := main_v137) rfl (by decide),
   writes_sub_of_mem (y := main_v138) rfl (by decide),
   writes_sub_of_mem (y := main_v139) rfl (by decide),
   writes_sub_of_mem (y := main_v140) rfl (by decide),
   writes_sub_of_mem (y := main_cst_15) rfl (by decide),
   writes_sub_of_mem (y := main_v141) rfl (by decide),
   writes_sub_of_mem (y := main_v142) rfl (by decide),
   writes_sub_of_mem (y := main_v143) rfl (by decide),
   writes_sub_of_mem (y := main_v144) rfl (by decide),
   writes_sub_of_mem (y := main_v145) rfl (by decide),
   writes_sub_of_mem (y := main_v146) rfl (by decide),
   writes_sub_of_mem (y := main_v147) rfl (by decide),
   writes_sub_of_mem (y := main_v148) rfl (by decide),
   writes_sub_of_mem (y := main_v149) rfl (by decide),
   writes_sub_of_mem (y := main_v150) rfl (by decide),
   writes_sub_of_mem (y := main_v151) rfl (by decide),
   writes_sub_of_mem (y := main_v152) rfl (by decide),
   writes_sub_of_mem (y := main_call2_cst) rfl (by decide),
   writes_sub_of_mem (y := main_call2_v0) rfl (by decide),
   writes_sub_of_mem (y := main_v153) rfl (by decide),
   writes_sub_of_mem (y := main_v154) rfl (by decide)⟩

/-- A reference stage `opsL2` does not write keeps its contents through it. -/
theorem opsL2_kept {r : Ref sig .tc} (hr : r ∉ WL2) (V : Valuation τ sig (Elt F)) :
    after opsL2 V (Proc.devRef .tc r) = V (Proc.devRef .tc r) :=
  after_of_writes_sub opsL2 V opsL2_writes hr

/-- The references stage `opsL3` writes, in order. -/
abbrev WL3 : List (Ref sig .tc) :=
  [main_v155, main_v156, main_v157, main_c_16, main_v158, main_v159, main_c_17, main_v160, main_v161, main_v162, main_v163, main_v164, main_v165, main_v166, main_cst_18, main_v167, main_v168, main_v169, main_v170, main_v171, main_v172, main_v173, main_v174, main_v175, main_v176, main_v177, main_v178, main_v179, main_v180, main_v181, main_v182, main_v183, main_cst_19, main_v184, main_v185, main_v186, main_v187, main_v188, main_v189, main_v190, main_v191, main_v192, main_v193, main_v194, main_v195, main_call3_cst, main_call3_v0, main_v196]

theorem opsL3_writes : (opsL3 : List (HloOp τ sig (Elt F))).Forall fun op => op.writes ⊆ (WL3.map (Proc.devRef (τ := τ) .tc)).toFinset :=
  ⟨writes_sub_of_mem (y := main_v155) rfl (by decide),
   writes_sub_of_mem (y := main_v156) rfl (by decide),
   writes_sub_of_mem (y := main_v157) rfl (by decide),
   writes_sub_of_mem (y := main_c_16) rfl (by decide),
   writes_sub_of_mem (y := main_v158) rfl (by decide),
   writes_sub_of_mem (y := main_v159) rfl (by decide),
   writes_sub_of_mem (y := main_c_17) rfl (by decide),
   writes_sub_of_mem (y := main_v160) rfl (by decide),
   writes_sub_of_mem (y := main_v161) rfl (by decide),
   writes_sub_of_mem (y := main_v162) rfl (by decide),
   writes_sub_of_mem (y := main_v163) rfl (by decide),
   writes_sub_of_mem (y := main_v164) rfl (by decide),
   writes_sub_of_mem (y := main_v165) rfl (by decide),
   writes_sub_of_mem (y := main_v166) rfl (by decide),
   writes_sub_of_mem (y := main_cst_18) rfl (by decide),
   writes_sub_of_mem (y := main_v167) rfl (by decide),
   writes_sub_of_mem (y := main_v168) rfl (by decide),
   writes_sub_of_mem (y := main_v169) rfl (by decide),
   writes_sub_of_mem (y := main_v170) rfl (by decide),
   writes_sub_of_mem (y := main_v171) rfl (by decide),
   writes_sub_of_mem (y := main_v172) rfl (by decide),
   writes_sub_of_mem (y := main_v173) rfl (by decide),
   writes_sub_of_mem (y := main_v174) rfl (by decide),
   writes_sub_of_mem (y := main_v175) rfl (by decide),
   writes_sub_of_mem (y := main_v176) rfl (by decide),
   writes_sub_of_mem (y := main_v177) rfl (by decide),
   writes_sub_of_mem (y := main_v178) rfl (by decide),
   writes_sub_of_mem (y := main_v179) rfl (by decide),
   writes_sub_of_mem (y := main_v180) rfl (by decide),
   writes_sub_of_mem (y := main_v181) rfl (by decide),
   writes_sub_of_mem (y := main_v182) rfl (by decide),
   writes_sub_of_mem (y := main_v183) rfl (by decide),
   writes_sub_of_mem (y := main_cst_19) rfl (by decide),
   writes_sub_of_mem (y := main_v184) rfl (by decide),
   writes_sub_of_mem (y := main_v185) rfl (by decide),
   writes_sub_of_mem (y := main_v186) rfl (by decide),
   writes_sub_of_mem (y := main_v187) rfl (by decide),
   writes_sub_of_mem (y := main_v188) rfl (by decide),
   writes_sub_of_mem (y := main_v189) rfl (by decide),
   writes_sub_of_mem (y := main_v190) rfl (by decide),
   writes_sub_of_mem (y := main_v191) rfl (by decide),
   writes_sub_of_mem (y := main_v192) rfl (by decide),
   writes_sub_of_mem (y := main_v193) rfl (by decide),
   writes_sub_of_mem (y := main_v194) rfl (by decide),
   writes_sub_of_mem (y := main_v195) rfl (by decide),
   writes_sub_of_mem (y := main_call3_cst) rfl (by decide),
   writes_sub_of_mem (y := main_call3_v0) rfl (by decide),
   writes_sub_of_mem (y := main_v196) rfl (by decide)⟩

/-- A reference stage `opsL3` does not write keeps its contents through it. -/
theorem opsL3_kept {r : Ref sig .tc} (hr : r ∉ WL3) (V : Valuation τ sig (Elt F)) :
    after opsL3 V (Proc.devRef .tc r) = V (Proc.devRef .tc r) :=
  after_of_writes_sub opsL3 V opsL3_writes hr

/-- The references stage `opsT` writes, in order. -/
abbrev WT : List (Ref sig .tc) :=
  [main_v197, main_v198, main_v199, main_v200, main_v201, main_call4_cst, main_call4_v0, main_v202, main_v203, main_v204, main_v205, main_v206, main_call5_cst, main_call5_v0, main_v207, main_cst_20, main_v208, main_v209, main_v210, main_cst_21, main_v211, main_cst_22, main_v212, main_v213, main_v214, main_cst_23, main_v215, main_v216, main_v217, main_v218, main_v219, main_v220, main_v221, main_v222, main_v223, main_call6_cst, main_call6_v0, main_v224, main_v225, main_v226, main_v227, main_v228, main_v229]

theorem opsT_writes : (opsT : List (HloOp τ sig (Elt F))).Forall fun op => op.writes ⊆ (WT.map (Proc.devRef (τ := τ) .tc)).toFinset :=
  ⟨writes_sub_of_mem (y := main_v197) rfl (by decide),
   writes_sub_of_mem (y := main_v198) rfl (by decide),
   writes_sub_of_mem (y := main_v199) rfl (by decide),
   writes_sub_of_mem (y := main_v200) rfl (by decide),
   writes_sub_of_mem (y := main_v201) rfl (by decide),
   writes_sub_of_mem (y := main_call4_cst) rfl (by decide),
   writes_sub_of_mem (y := main_call4_v0) rfl (by decide),
   writes_sub_of_mem (y := main_v202) rfl (by decide),
   writes_sub_of_mem (y := main_v203) rfl (by decide),
   writes_sub_of_mem (y := main_v204) rfl (by decide),
   writes_sub_of_mem (y := main_v205) rfl (by decide),
   writes_sub_of_mem (y := main_v206) rfl (by decide),
   writes_sub_of_mem (y := main_call5_cst) rfl (by decide),
   writes_sub_of_mem (y := main_call5_v0) rfl (by decide),
   writes_sub_of_mem (y := main_v207) rfl (by decide),
   writes_sub_of_mem (y := main_cst_20) rfl (by decide),
   writes_sub_of_mem (y := main_v208) rfl (by decide),
   writes_sub_of_mem (y := main_v209) rfl (by decide),
   writes_sub_of_mem (y := main_v210) rfl (by decide),
   writes_sub_of_mem (y := main_cst_21) rfl (by decide),
   writes_sub_of_mem (y := main_v211) rfl (by decide),
   writes_sub_of_mem (y := main_cst_22) rfl (by decide),
   writes_sub_of_mem (y := main_v212) rfl (by decide),
   writes_sub_of_mem (y := main_v213) rfl (by decide),
   writes_sub_of_mem (y := main_v214) rfl (by decide),
   writes_sub_of_mem (y := main_cst_23) rfl (by decide),
   writes_sub_of_mem (y := main_v215) rfl (by decide),
   writes_sub_of_mem (y := main_v216) rfl (by decide),
   writes_sub_of_mem (y := main_v217) rfl (by decide),
   writes_sub_of_mem (y := main_v218) rfl (by decide),
   writes_sub_of_mem (y := main_v219) rfl (by decide),
   writes_sub_of_mem (y := main_v220) rfl (by decide),
   writes_sub_of_mem (y := main_v221) rfl (by decide),
   writes_sub_of_mem (y := main_v222) rfl (by decide),
   writes_sub_of_mem (y := main_v223) rfl (by decide),
   writes_sub_of_mem (y := main_call6_cst) rfl (by decide),
   writes_sub_of_mem (y := main_call6_v0) rfl (by decide),
   writes_sub_of_mem (y := main_v224) rfl (by decide),
   writes_sub_of_mem (y := main_v225) rfl (by decide),
   writes_sub_of_mem (y := main_v226) rfl (by decide),
   writes_sub_of_mem (y := main_v227) rfl (by decide),
   writes_sub_of_mem (y := main_v228) rfl (by decide),
   writes_sub_of_mem (y := main_v229) rfl (by decide)⟩

/-- A reference stage `opsT` does not write keeps its contents through it. -/
theorem opsT_kept {r : Ref sig .tc} (hr : r ∉ WT) (V : Valuation τ sig (Elt F)) :
    after opsT V (Proc.devRef .tc r) = V (Proc.devRef .tc r) :=
  after_of_writes_sub opsT V opsT_writes hr

/-- Every reference @main writes. -/
abbrev W : List (Ref sig .tc) := WG ++ WL0 ++ WL1 ++ WL2 ++ WL3 ++ WT

/-- A reference @main does not write keeps its contents through the whole line. -/
theorem ops_kept {r : Ref sig .tc} (hr : r ∉ W) (V : Valuation τ sig (Elt F)) :
    after ops V (Proc.devRef .tc r) = V (Proc.devRef .tc r) := by
  simp only [W, List.mem_append, not_or] at hr
  obtain ⟨⟨⟨⟨⟨hG, h0⟩, h1⟩, h2⟩, h3⟩, hT⟩ := hr
  show after (opsG ++ opsL0 ++ opsL1 ++ opsL2 ++ opsL3 ++ opsT) V _ = _
  rw [after_append, after_append, after_append, after_append, after_append,
    opsT_kept hT, opsL3_kept h3, opsL2_kept h2, opsL1_kept h1, opsL0_kept h0, opsG_kept hG]

theorem arg0_kept (V : Valuation τ sig (Elt F)) : after ops V (Proc.devRef .tc main_arg0) = V (Proc.devRef .tc main_arg0) := ops_kept (by decide) V
theorem arg1_kept (V : Valuation τ sig (Elt F)) : after ops V (Proc.devRef .tc main_arg1) = V (Proc.devRef .tc main_arg1) := ops_kept (by decide) V
theorem arg2_kept (V : Valuation τ sig (Elt F)) : after ops V (Proc.devRef .tc main_arg2) = V (Proc.devRef .tc main_arg2) := ops_kept (by decide) V
theorem arg3_kept (V : Valuation τ sig (Elt F)) : after ops V (Proc.devRef .tc main_arg3) = V (Proc.devRef .tc main_arg3) := ops_kept (by decide) V
theorem arg4_kept (V : Valuation τ sig (Elt F)) : after ops V (Proc.devRef .tc main_arg4) = V (Proc.devRef .tc main_arg4) := ops_kept (by decide) V
theorem arg5_kept (V : Valuation τ sig (Elt F)) : after ops V (Proc.devRef .tc main_arg5) = V (Proc.devRef .tc main_arg5) := ops_kept (by decide) V
theorem arg6_kept (V : Valuation τ sig (Elt F)) : after ops V (Proc.devRef .tc main_arg6) = V (Proc.devRef .tc main_arg6) := ops_kept (by decide) V
theorem arg7_kept (V : Valuation τ sig (Elt F)) : after ops V (Proc.devRef .tc main_arg7) = V (Proc.devRef .tc main_arg7) := ops_kept (by decide) V
theorem arg8_kept (V : Valuation τ sig (Elt F)) : after ops V (Proc.devRef .tc main_arg8) = V (Proc.devRef .tc main_arg8) := ops_kept (by decide) V
theorem arg9_kept (V : Valuation τ sig (Elt F)) : after ops V (Proc.devRef .tc main_arg9) = V (Proc.devRef .tc main_arg9) := ops_kept (by decide) V
theorem arg10_kept (V : Valuation τ sig (Elt F)) : after ops V (Proc.devRef .tc main_arg10) = V (Proc.devRef .tc main_arg10) := ops_kept (by decide) V
theorem arg11_kept (V : Valuation τ sig (Elt F)) : after ops V (Proc.devRef .tc main_arg11) = V (Proc.devRef .tc main_arg11) := ops_kept (by decide) V
theorem arg12_kept (V : Valuation τ sig (Elt F)) : after ops V (Proc.devRef .tc main_arg12) = V (Proc.devRef .tc main_arg12) := ops_kept (by decide) V
theorem arg13_kept (V : Valuation τ sig (Elt F)) : after ops V (Proc.devRef .tc main_arg13) = V (Proc.devRef .tc main_arg13) := ops_kept (by decide) V
theorem arg14_kept (V : Valuation τ sig (Elt F)) : after ops V (Proc.devRef .tc main_arg14) = V (Proc.devRef .tc main_arg14) := ops_kept (by decide) V
theorem arg15_kept (V : Valuation τ sig (Elt F)) : after ops V (Proc.devRef .tc main_arg15) = V (Proc.devRef .tc main_arg15) := ops_kept (by decide) V
theorem arg16_kept (V : Valuation τ sig (Elt F)) : after ops V (Proc.devRef .tc main_arg16) = V (Proc.devRef .tc main_arg16) := ops_kept (by decide) V

/-- On every device, for any float values, from any memory with zero counters: every weakly fair execution of
    @main terminates with the argument arrays unchanged. -/
theorem frame_core (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans ((arg0_kept _).trans rfl),
      (h c main_arg1).trans ((arg1_kept _).trans rfl),
      (h c main_arg2).trans ((arg2_kept _).trans rfl),
      (h c main_arg3).trans ((arg3_kept _).trans rfl),
      (h c main_arg4).trans ((arg4_kept _).trans rfl),
      (h c main_arg5).trans ((arg5_kept _).trans rfl),
      (h c main_arg6).trans ((arg6_kept _).trans rfl),
      (h c main_arg7).trans ((arg7_kept _).trans rfl),
      (h c main_arg8).trans ((arg8_kept _).trans rfl),
      (h c main_arg9).trans ((arg9_kept _).trans rfl),
      (h c main_arg10).trans ((arg10_kept _).trans rfl),
      (h c main_arg11).trans ((arg11_kept _).trans rfl),
      (h c main_arg12).trans ((arg12_kept _).trans rfl),
      (h c main_arg13).trans ((arg13_kept _).trans rfl),
      (h c main_arg14).trans ((arg14_kept _).trans rfl),
      (h c main_arg15).trans ((arg15_kept _).trans rfl),
      (h c main_arg16).trans ((arg16_kept _).trans rfl)⟩)
    (run_fold m ρ)

end Cert.ReferenceIdeal.HandRun

end
-- ==== Proof.RefRunStages.lean ====
/- The reference's run read stage by stage. Each stage's result is a function of the buffers the stage reads,
   written with the program's own operations: the graph normalisation (index vectors with the self loops, the
   symmetric degree weights), one convolution layer (dense product, gather along rows, scaling by the edge
   weight, scatter-add, bias, normalisation by running statistics, rectifier), and the tail (concatenate, the two
   encoder layers, the per-graph mean, the decoder). -/
import proofs.«127520_j50629074485391_2_alg».proof.Proof.RefRunFrame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions -/

/-- Row `0` of the edge list (the sources) followed by the self loops `0 … N-1`. -/
def rowIdx (e : (⟨S2x3200000, .i32⟩ : BufTy).Contents (Elt F)) : (⟨S3300000, .i32⟩ : BufTy).Contents (Elt F) :=
  concatenate S3300000 0 [⟨S3200000, shapeCast _ (extractStridedSlice S1x3200000 ![0, 0] e slices_S2x3200000_S1x3200000_0_0) shapeCasts_S1x3200000_S3200000⟩, ⟨S100000, iotaInDim S100000 32 0⟩] concatenates_S3200000_S100000_S3300000_d0

/-- Row `1` of the edge list (the targets) followed by the self loops `0 … N-1`. -/
def colIdx (e : (⟨S2x3200000, .i32⟩ : BufTy).Contents (Elt F)) : (⟨S3300000, .i32⟩ : BufTy).Contents (Elt F) :=
  concatenate S3300000 0 [⟨S3200000, shapeCast _ (extractStridedSlice S1x3200000 ![1, 0] e slices_S2x3200000_S1x3200000_1_0) shapeCasts_S1x3200000_S3200000⟩, ⟨S100000, iotaInDim S100000 32 0⟩] concatenates_S3200000_S100000_S3300000_d0

/-- A negative index counted from the end: `v + N` where `v < 0`, else `v`. -/
def wrapIdx (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- An index vector as a column of one-element index tuples. -/
def idxCol (v : (⟨S3300000, .i32⟩ : BufTy).Contents (Elt F)) : (⟨S3300000x1, .i32⟩ : BufTy).Contents (Elt F) :=
  broadcastInDim S3300000x1 ![0] bcast_S3300000_S3300000x1_0 v

/-- The degree of every node: ones scatter-added at the targets. -/
def degree (c : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (idxCol c) (broadcastInDim S3300000 ![] bcast_S_S3300000 (constant S_ .f32 0x3F800000#32))

/-- The weight of every edge, as a column: the inverse square roots of the degrees at its two ends, multiplied. -/
def edgeW (r c : (⟨S3300000, .i32⟩ : BufTy).Contents (Elt F)) : (⟨S3300000x1, .f32⟩ : BufTy).Contents (Elt F) :=
  broadcastInDim S3300000x1 ![0] bcast_S3300000_S3300000x1_0 (mulf (Host.gather gather_S100000_S3300000x1_S3300000_n_0_n_n_0_1_1 (Host.rsqrt (degree c)) (idxCol (wrapIdx r))) (Host.gather gather_S100000_S3300000x1_S3300000_n_0_n_n_0_1_1 (Host.rsqrt (degree c)) (idxCol (wrapIdx c))))

/-- Layer `0`'s weight matrix out of the stacked weights. -/
def matSlice0 (w : (⟨S4x64x64, .f32⟩ : BufTy).Contents (Elt F)) : (⟨S64x64, .f32⟩ : BufTy).Contents (Elt F) :=
  shapeCast _ (extractStridedSlice S1x64x64 ![0, 0, 0] w slices_S4x64x64_S1x64x64_0_0_0) shapeCasts_S1x64x64_S64x64

/-- Layer `0`'s row out of a stacked per-layer vector. -/
def vecSlice0 (b : (⟨S4x64, .f32⟩ : BufTy).Contents (Elt F)) : (⟨S64, .f32⟩ : BufTy).Contents (Elt F) :=
  shapeCast _ (extractStridedSlice S1x64 ![0, 0] b slices_S4x64_S1x64_0_0) shapeCasts_S1x64_S64

/-- Layer `1`'s weight matrix out of the stacked weights. -/
def matSlice1 (w : (⟨S4x64x64, .f32⟩ : BufTy).Contents (Elt F)) : (⟨S64x64, .f32⟩ : BufTy).Contents (Elt F) :=
  shapeCast _ (extractStridedSlice S1x64x64 ![1, 0, 0] w slices_S4x64x64_S1x64x64_1_0_0) shapeCasts_S1x64x64_S64x64

/-- Layer `1`'s row out of a stacked per-layer vector. -/
def vecSlice1 (b : (⟨S4x64, .f32⟩ : BufTy).Contents (Elt F)) : (⟨S64, .f32⟩ : BufTy).Contents (Elt F) :=
  shapeCast _ (extractStridedSlice S1x64 ![1, 0] b slices_S4x64_S1x64_1_0) shapeCasts_S1x64_S64

/-- Layer `2`'s weight matrix out of the stacked weights. -/
def matSlice2 (w : (⟨S4x64x64, .f32⟩ : BufTy).Contents (Elt F)) : (⟨S64x64, .f32⟩ : BufTy).Contents (Elt F) :=
  shapeCast _ (extractStridedSlice S1x64x64 ![2, 0, 0] w slices_S4x64x64_S1x64x64_2_0_0) shapeCasts_S1x64x64_S64x64

/-- Layer `2`'s row out of a stacked per-layer vector. -/
def vecSlice2 (b : (⟨S4x64, .f32⟩ : BufTy).Contents (Elt F)) : (⟨S64, .f32⟩ : BufTy).Contents (Elt F) :=
  shapeCast _ (extractStridedSlice S1x64 ![2, 0] b slices_S4x64_S1x64_2_0) shapeCasts_S1x64_S64

/-- Layer `3`'s weight matrix out of the stacked weights. -/
def matSlice3 (w : (⟨S4x64x64, .f32⟩ : BufTy).Contents (Elt F)) : (⟨S64x64, .f32⟩ : BufTy).Contents (Elt F) :=
  shapeCast _ (extractStridedSlice S1x64x64 ![3, 0, 0] w slices_S4x64x64_S1x64x64_3_0_0) shapeCasts_S1x64x64_S64x64

/-- Layer `3`'s row out of a stacked per-layer vector. -/
def vecSlice3 (b : (⟨S4x64, .f32⟩ : BufTy).Contents (Elt F)) : (⟨S64, .f32⟩ : BufTy).Contents (Elt F) :=
  shapeCast _ (extractStridedSlice S1x64 ![3, 0] b slices_S4x64_S1x64_3_0) shapeCasts_S1x64_S64

/-- A feature vector repeated along every node row. -/
def rowB (v : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 v)

/-- The weighted neighbourhood sum: the rows of `y` gathered at the sources, scaled by the edge weights,
    scatter-added at the targets. -/
def aggregate (y : (⟨S100000x64, .f32⟩ : BufTy).Contents (Elt F)) (r c : (⟨S3300000, .i32⟩ : BufTy).Contents (Elt F)) (ew : (⟨S3300000x1, .f32⟩ : BufTy).Contents (Elt F)) : (⟨S100000x64, .f32⟩ : BufTy).Contents (Elt F) :=
  Host.scatterAdd scatter_S100000x64_S3300000x1_S3300000x64_1_0_0_1 (broadcastInDim S100000x64 ![] bcast_S_S100000x64 (constant S_ .f32 0x00000000#32)) (idxCol c) (mulf (Host.gather gather_S100000x64_S3300000x1_S3300000x64_1_0_n_n_0_1_164 y (idxCol (wrapIdx r))) (broadcastInDim S3300000x64 ![0, 1] bcast_S3300000x1_S3300000x64_0_1 ew))

/-- The normalisation's scale: `g / sqrt (var + ε)`. -/
def bnScale (g var : (⟨S64, .f32⟩ : BufTy).Contents (Elt F)) : (⟨S64, .f32⟩ : BufTy).Contents (Elt F) :=
  mulf g (Host.rsqrt (addf var (broadcastInDim S64 ![] bcast_S_S64 (constant S_ .f32 0x3727C5AC#32))))

/-- The rectifier on node features. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- One convolution layer: `relu (((A (x·w) + b) - mu) * (g / sqrt (var + ε)) + be)`. -/
def convLayer (w : (⟨S64x64, .f32⟩ : BufTy).Contents (Elt F)) (b g be mu var : (⟨S64, .f32⟩ : BufTy).Contents (Elt F)) (x : (⟨S100000x64, .f32⟩ : BufTy).Contents (Elt F))
    (r c : (⟨S3300000, .i32⟩ : BufTy).Contents (Elt F)) (ew : (⟨S3300000x1, .f32⟩ : BufTy).Contents (Elt F)) : (⟨S100000x64, .f32⟩ : BufTy).Contents (Elt F) :=
  relu64 (addf (mulf (subf (addf (aggregate (Host.dotGeneral dot_S100000x64_S64x64_S100000x64_1_0_0_1_n_n none x w) r c ew) (rowB b)) (rowB mu)) (rowB (bnScale g var))) (rowB be))

/-- The node encoder on the four layer outputs side by side: two dense layers, each with bias and rectifier. -/
def encoder (h0 h1 h2 h3 : (⟨S100000x64, .f32⟩ : BufTy).Contents (Elt F)) (w9 : (⟨S256x256, .f32⟩ : BufTy).Contents (Elt F)) (b10 : (⟨S256, .f32⟩ : BufTy).Contents (Elt F)) (w11 : (⟨S256x128, .f32⟩ : BufTy).Contents (Elt F)) (b12 : (⟨S128, .f32⟩ : BufTy).Contents (Elt F)) : (⟨S100000x128, .f32⟩ : BufTy).Contents (Elt F) :=
  maximumf (addf (Host.dotGeneral dot_S100000x256_S256x128_S100000x128_1_0_0_1_n_n none (maximumf (addf (Host.dotGeneral dot_S100000x256_S256x256_S100000x256_1_0_0_1_n_n none (concatenate S100000x256 1 [⟨S100000x64, h0⟩, ⟨S100000x64, h1⟩, ⟨S100000x64, h2⟩, ⟨S100000x64, h3⟩] concatenates_S100000x64_S100000x64_S100000x64_S100000x64_S100000x256_d1) w9) (broadcastInDim S100000x256 ![0, 1] bcast_S1x256_S100000x256_0_1 (broadcastInDim S1x256 ![1] bcast_S256_S1x256_1 b10))) (broadcastInDim S100000x256 ![] bcast_S_S100000x256 (constant S_ .f32 0x00000000#32))) w11) (broadcastInDim S100000x128 ![0, 1] bcast_S1x128_S100000x128_0_1 (broadcastInDim S1x128 ![1] bcast_S128_S1x128_1 b12))) (broadcastInDim S100000x128 ![] bcast_S_S100000x128 (constant S_ .f32 0x00000000#32))

/-- The rows of `y` summed per graph. -/
def segSum (seg : (⟨S100000, .i32⟩ : BufTy).Contents (Elt F)) (y : (⟨S100000x128, .f32⟩ : BufTy).Contents (Elt F)) : (⟨S64x128, .f32⟩ : BufTy).Contents (Elt F) :=
  Host.scatterAdd scatter_S64x128_S100000x1_S100000x128_1_0_0_1 (broadcastInDim S64x128 ![] bcast_S_S64x128 (constant S_ .f32 0x00000000#32)) (broadcastInDim S100000x1 ![0] bcast_S100000_S100000x1_0 seg) y

/-- The number of nodes of every graph. -/
def segCount (seg : (⟨S100000, .i32⟩ : BufTy).Contents (Elt F)) : (⟨S64, .f32⟩ : BufTy).Contents (Elt F) :=
  Host.scatterAdd scatter_S64_S100000x1_S100000_n_0_0_1 (broadcastInDim S64 ![] bcast_S_S64 (constant S_ .f32 0x00000000#32)) (broadcastInDim S100000x1 ![0] bcast_S100000_S100000x1_0 seg) (broadcastInDim S100000 ![] bcast_S_S100000 (constant S_ .f32 0x3F800000#32))

/-- The per-graph mean: the sums over the counts, a count below one read as one. -/
def segMean (seg : (⟨S100000, .i32⟩ : BufTy).Contents (Elt F)) (y : (⟨S100000x128, .f32⟩ : BufTy).Contents (Elt F)) : (⟨S64x128, .f32⟩ : BufTy).Contents (Elt F) :=
  Host.divf (segSum seg y) (broadcastInDim S64x128 ![0, 1] bcast_S64x1_S64x128_0_1 (broadcastInDim S64x1 ![0] bcast_S64_S64x1_0 (maximumf (segCount seg) (broadcastInDim S64 ![] bcast_S_S64 (constant S_ .f32 0x3F800000#32)))))

/-- The decoder: a dense layer with bias and rectifier, then a dense layer to one value per graph, as a vector. -/
def decoder (p : (⟨S64x128, .f32⟩ : BufTy).Contents (Elt F)) (w13 : (⟨S128x64, .f32⟩ : BufTy).Contents (Elt F)) (b14 : (⟨S64, .f32⟩ : BufTy).Contents (Elt F)) (w15 : (⟨S64x1, .f32⟩ : BufTy).Contents (Elt F)) (b16 : (⟨S1, .f32⟩ : BufTy).Contents (Elt F)) : (⟨S64, .f32⟩ : BufTy).Contents (Elt F) :=
  shapeCast _ (addf (Host.dotGeneral dot_S64x64_S64x1_S64x1_1_0_0_1_n_n none (maximumf (addf (Host.dotGeneral dot_S64x128_S128x64_S64x64_1_0_0_1_n_n none p w13) (broadcastInDim S64x64 ![0, 1] bcast_S1x64_S64x64_0_1 (broadcastInDim S1x64 ![1] bcast_S64_S1x64_1 b14))) (broadcastInDim S64x64 ![] bcast_S_S64x64 (constant S_ .f32 0x00000000#32))) w15) (broadcastInDim S64x1 ![0, 1] bcast_S1x1_S64x1_0_1 (broadcastInDim S1x1 ![1] bcast_S1_S1x1_1 b16))) shapeCasts_S64x1_S64

/-! ## What each stage leaves in the buffers later stages read -/

variable (V : Valuation τ sig (Elt F))

set_option maxRecDepth 8192 in
theorem opsG_v3 : after opsG V (Proc.devRef .tc main_v3) = rowIdx (V (Proc.devRef .tc main_arg1)) := by
  after_results_simp <;> rfl

set_option maxRecDepth 8192 in
theorem opsG_v6 : after opsG V (Proc.devRef .tc main_v6) = colIdx (V (Proc.devRef .tc main_arg1)) := by
  after_results_simp <;> rfl

set_option maxRecDepth 8192 in
theorem opsG_v27 : after opsG V (Proc.devRef .tc main_v27) = edgeW (rowIdx (V (Proc.devRef .tc main_arg1))) (colIdx (V (Proc.devRef .tc main_arg1))) := by
  after_results_simp <;> rfl

set_option maxRecDepth 8192 in
theorem opsL0_v69 : after opsL0 V (Proc.devRef .tc main_v69)
      = convLayer (matSlice0 (V (Proc.devRef .tc main_arg3))) (vecSlice0 (V (Proc.devRef .tc main_arg4))) (vecSlice0 (V (Proc.devRef .tc main_arg5))) (vecSlice0 (V (Proc.devRef .tc main_arg6))) (vecSlice0 (V (Proc.devRef .tc main_arg7))) (vecSlice0 (V (Proc.devRef .tc main_arg8)))
        (V (Proc.devRef .tc main_arg0)) (V (Proc.devRef .tc main_v3)) (V (Proc.devRef .tc main_v6)) (V (Proc.devRef .tc main_v27)) := by
  after_results_simp <;> rfl

set_option maxRecDepth 8192 in
theorem opsL1_v111 : after opsL1 V (Proc.devRef .tc main_v111)
      = convLayer (matSlice1 (V (Proc.devRef .tc main_arg3))) (vecSlice1 (V (Proc.devRef .tc main_arg4))) (vecSlice1 (V (Proc.devRef .tc main_arg5))) (vecSlice1 (V (Proc.devRef .tc main_arg6))) (vecSlice1 (V (Proc.devRef .tc main_arg7))) (vecSlice1 (V (Proc.devRef .tc main_arg8)))
        (V (Proc.devRef .tc main_v69)) (V (Proc.devRef .tc main_v3)) (V (Proc.devRef .tc main_v6)) (V (Proc.devRef .tc main_v27)) := by
  after_results_simp <;> rfl

set_option maxRecDepth 8192 in
theorem opsL2_v154 : after opsL2 V (Proc.devRef .tc main_v154)
      = addf (convLayer (matSlice2 (V (Proc.devRef .tc main_arg3))) (vecSlice2 (V (Proc.devRef .tc main_arg4))) (vecSlice2 (V (Proc.devRef .tc main_arg5))) (vecSlice2 (V (Proc.devRef .tc main_arg6))) (vecSlice2 (V (Proc.devRef .tc main_arg7))) (vecSlice2 (V (Proc.devRef .tc main_arg8)))
        (V (Proc.devRef .tc main_v111)) (V (Proc.devRef .tc main_v3)) (V (Proc.devRef .tc main_v6)) (V (Proc.devRef .tc main_v27))) (V (Proc.devRef .tc main_v69)) := by
  after_results_simp <;> rfl

set_option maxRecDepth 8192 in
theorem opsL3_v196 : after opsL3 V (Proc.devRef .tc main_v196)
      = convLayer (matSlice3 (V (Proc.devRef .tc main_arg3))) (vecSlice3 (V (Proc.devRef .tc main_arg4))) (vecSlice3 (V (Proc.devRef .tc main_arg5))) (vecSlice3 (V (Proc.devRef .tc main_arg6))) (vecSlice3 (V (Proc.devRef .tc main_arg7))) (vecSlice3 (V (Proc.devRef .tc main_arg8)))
        (V (Proc.devRef .tc main_v154)) (V (Proc.devRef .tc main_v3)) (V (Proc.devRef .tc main_v6)) (V (Proc.devRef .tc main_v27)) := by
  after_results_simp <;> rfl

set_option maxRecDepth 8192 in
theorem opsT_v229 : after opsT V (Proc.devRef .tc main_v229)
      = decoder (segMean (V (Proc.devRef .tc main_arg2)) (encoder (V (Proc.devRef .tc main_v69)) (V (Proc.devRef .tc main_v111)) (V (Proc.devRef .tc main_v154)) (V (Proc.devRef .tc main_v196))
          (V (Proc.devRef .tc main_arg9)) (V (Proc.devRef .tc main_arg10)) (V (Proc.devRef .tc main_arg11)) (V (Proc.devRef .tc main_arg12))))
          (V (Proc.devRef .tc main_arg13)) (V (Proc.devRef .tc main_arg14)) (V (Proc.devRef .tc main_arg15)) (V (Proc.devRef .tc main_arg16)) := by
  after_results_simp <;> rfl

/-! ## What each stage keeps -/

theorem opsL0_keeps_v3 : after opsL0 V (Proc.devRef .tc main_v3) = V (Proc.devRef .tc main_v3) := opsL0_kept (by decide) V
theorem opsL0_keeps_v6 : after opsL0 V (Proc.devRef .tc main_v6) = V (Proc.devRef .tc main_v6) := opsL0_kept (by decide) V
theorem opsL0_keeps_v27 : after opsL0 V (Proc.devRef .tc main_v27) = V (Proc.devRef .tc main_v27) := opsL0_kept (by decide) V
theorem opsL1_keeps_v3 : after opsL1 V (Proc.devRef .tc main_v3) = V (Proc.devRef .tc main_v3) := opsL1_kept (by decide) V
theorem opsL1_keeps_v6 : after opsL1 V (Proc.devRef .tc main_v6) = V (Proc.devRef .tc main_v6) := opsL1_kept (by decide) V
theorem opsL1_keeps_v27 : after opsL1 V (Proc.devRef .tc main_v27) = V (Proc.devRef .tc main_v27) := opsL1_kept (by decide) V
theorem opsL1_keeps_v69 : after opsL1 V (Proc.devRef .tc main_v69) = V (Proc.devRef .tc main_v69) := opsL1_kept (by decide) V
theorem opsL2_keeps_v3 : after opsL2 V (Proc.devRef .tc main_v3) = V (Proc.devRef .tc main_v3) := opsL2_kept (by decide) V
theorem opsL2_keeps_v6 : after opsL2 V (Proc.devRef .tc main_v6) = V (Proc.devRef .tc main_v6) := opsL2_kept (by decide) V
theorem opsL2_keeps_v27 : after opsL2 V (Proc.devRef .tc main_v27) = V (Proc.devRef .tc main_v27) := opsL2_kept (by decide) V
theorem opsL2_keeps_v69 : after opsL2 V (Proc.devRef .tc main_v69) = V (Proc.devRef .tc main_v69) := opsL2_kept (by decide) V
theorem opsL2_keeps_v111 : after opsL2 V (Proc.devRef .tc main_v111) = V (Proc.devRef .tc main_v111) := opsL2_kept (by decide) V
theorem opsL3_keeps_v3 : after opsL3 V (Proc.devRef .tc main_v3) = V (Proc.devRef .tc main_v3) := opsL3_kept (by decide) V
theorem opsL3_keeps_v6 : after opsL3 V (Proc.devRef .tc main_v6) = V (Proc.devRef .tc main_v6) := opsL3_kept (by decide) V
theorem opsL3_keeps_v27 : after opsL3 V (Proc.devRef .tc main_v27) = V (Proc.devRef .tc main_v27) := opsL3_kept (by decide) V
theorem opsL3_keeps_v69 : after opsL3 V (Proc.devRef .tc main_v69) = V (Proc.devRef .tc main_v69) := opsL3_kept (by decide) V
theorem opsL3_keeps_v111 : after opsL3 V (Proc.devRef .tc main_v111) = V (Proc.devRef .tc main_v111) := opsL3_kept (by decide) V
theorem opsL3_keeps_v154 : after opsL3 V (Proc.devRef .tc main_v154) = V (Proc.devRef .tc main_v154) := opsL3_kept (by decide) V

end Cert.ReferenceIdeal.HandRun

end
-- ==== Proof.RefRunValue.lean ====
/- The reference's result as one function of the argument arrays: the stages composed, the four layer outputs
   named, each in terms of the previous one. -/
import proofs.«127520_j50629074485391_2_alg».proof.Proof.RefRunStages

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Layer 0's output. -/
def refX1 (a0 : (⟨S100000x64, .f32⟩ : BufTy).Contents (Elt F)) (a1 : (⟨S2x3200000, .i32⟩ : BufTy).Contents (Elt F)) (a3 : (⟨S4x64x64, .f32⟩ : BufTy).Contents (Elt F)) (a4 a5 a6 a7 a8 : (⟨S4x64, .f32⟩ : BufTy).Contents (Elt F)) : (⟨S100000x64, .f32⟩ : BufTy).Contents (Elt F) :=
  convLayer (matSlice0 a3) (vecSlice0 a4) (vecSlice0 a5) (vecSlice0 a6) (vecSlice0 a7) (vecSlice0 a8) a0 (rowIdx a1) (colIdx a1) (edgeW (rowIdx a1) (colIdx a1))

/-- Layer 1's output. -/
def refX2 (a0 : (⟨S100000x64, .f32⟩ : BufTy).Contents (Elt F)) (a1 : (⟨S2x3200000, .i32⟩ : BufTy).Contents (Elt F)) (a3 : (⟨S4x64x64, .f32⟩ : BufTy).Contents (Elt F)) (a4 a5 a6 a7 a8 : (⟨S4x64, .f32⟩ : BufTy).Contents (Elt F)) : (⟨S100000x64, .f32⟩ : BufTy).Contents (Elt F) :=
  convLayer (matSlice1 a3) (vecSlice1 a4) (vecSlice1 a5) (vecSlice1 a6) (vecSlice1 a7) (vecSlice1 a8) (refX1 a0 a1 a3 a4 a5 a6 a7 a8) (rowIdx a1) (colIdx a1) (edgeW (rowIdx a1) (colIdx a1))

/-- Layer 2's output plus layer 0's (the residual sum). -/
def refX3 (a0 : (⟨S100000x64, .f32⟩ : BufTy).Contents (Elt F)) (a1 : (⟨S2x3200000, .i32⟩ : BufTy).Contents (Elt F)) (a3 : (⟨S4x64x64, .f32⟩ : BufTy).Contents (Elt F)) (a4 a5 a6 a7 a8 : (⟨S4x64, .f32⟩ : BufTy).Contents (Elt F)) : (⟨S100000x64, .f32⟩ : BufTy).Contents (Elt F) :=
  addf (convLayer (matSlice2 a3) (vecSlice2 a4) (vecSlice2 a5) (vecSlice2 a6) (vecSlice2 a7) (vecSlice2 a8) (refX2 a0 a1 a3 a4 a5 a6 a7 a8) (rowIdx a1) (colIdx a1) (edgeW (rowIdx a1) (colIdx a1))) (refX1 a0 a1 a3 a4 a5 a6 a7 a8)

/-- Layer 3's output. -/
def refX4 (a0 : (⟨S100000x64, .f32⟩ : BufTy).Contents (Elt F)) (a1 : (⟨S2x3200000, .i32⟩ : BufTy).Contents (Elt F)) (a3 : (⟨S4x64x64, .f32⟩ : BufTy).Contents (Elt F)) (a4 a5 a6 a7 a8 : (⟨S4x64, .f32⟩ : BufTy).Contents (Elt F)) : (⟨S100000x64, .f32⟩ : BufTy).Contents (Elt F) :=
  convLayer (matSlice3 a3) (vecSlice3 a4) (vecSlice3 a5) (vecSlice3 a6) (vecSlice3 a7) (vecSlice3 a8) (refX3 a0 a1 a3 a4 a5 a6 a7 a8) (rowIdx a1) (colIdx a1) (edgeW (rowIdx a1) (colIdx a1))

/-- The reference's result from its seventeen arguments. -/
def refOut (a0 : (⟨S100000x64, .f32⟩ : BufTy).Contents (Elt F)) (a1 : (⟨S2x3200000, .i32⟩ : BufTy).Contents (Elt F)) (a2 : (⟨S100000, .i32⟩ : BufTy).Contents (Elt F)) (a3 : (⟨S4x64x64, .f32⟩ : BufTy).Contents (Elt F)) (a4 a5 a6 a7 a8 : (⟨S4x64, .f32⟩ : BufTy).Contents (Elt F))
    (a9 : (⟨S256x256, .f32⟩ : BufTy).Contents (Elt F)) (a10 : (⟨S256, .f32⟩ : BufTy).Contents (Elt F)) (a11 : (⟨S256x128, .f32⟩ : BufTy).Contents (Elt F)) (a12 : (⟨S128, .f32⟩ : BufTy).Contents (Elt F)) (a13 : (⟨S128x64, .f32⟩ : BufTy).Contents (Elt F)) (a14 : (⟨S64, .f32⟩ : BufTy).Contents (Elt F)) (a15 : (⟨S64x1, .f32⟩ : BufTy).Contents (Elt F)) (a16 : (⟨S1, .f32⟩ : BufTy).Contents (Elt F)) : (⟨S64, .f32⟩ : BufTy).Contents (Elt F) :=
  decoder (segMean a2 (encoder (refX1 a0 a1 a3 a4 a5 a6 a7 a8) (refX2 a0 a1 a3 a4 a5 a6 a7 a8) (refX3 a0 a1 a3 a4 a5 a6 a7 a8) (refX4 a0 a1 a3 a4 a5 a6 a7 a8) a9 a10 a11 a12)) a13 a14 a15 a16

variable (V : Valuation τ sig (Elt F))

/-! ## The arguments through the stages -/

theorem opsG_keeps_arg0 : after opsG V (Proc.devRef .tc main_arg0) = V (Proc.devRef .tc main_arg0) := opsG_kept (by decide) V
theorem opsG_keeps_arg1 : after opsG V (Proc.devRef .tc main_arg1) = V (Proc.devRef .tc main_arg1) := opsG_kept (by decide) V
theorem opsG_keeps_arg2 : after opsG V (Proc.devRef .tc main_arg2) = V (Proc.devRef .tc main_arg2) := opsG_kept (by decide) V
theorem opsG_keeps_arg3 : after opsG V (Proc.devRef .tc main_arg3) = V (Proc.devRef .tc main_arg3) := opsG_kept (by decide) V
theorem opsG_keeps_arg4 : after opsG V (Proc.devRef .tc main_arg4) = V (Proc.devRef .tc main_arg4) := opsG_kept (by decide) V
theorem opsG_keeps_arg5 : after opsG V (Proc.devRef .tc main_arg5) = V (Proc.devRef .tc main_arg5) := opsG_kept (by decide) V
theorem opsG_keeps_arg6 : after opsG V (Proc.devRef .tc main_arg6) = V (Proc.devRef .tc main_arg6) := opsG_kept (by decide) V
theorem opsG_keeps_arg7 : after opsG V (Proc.devRef .tc main_arg7) = V (Proc.devRef .tc main_arg7) := opsG_kept (by decide) V
theorem opsG_keeps_arg8 : after opsG V (Proc.devRef .tc main_arg8) = V (Proc.devRef .tc main_arg8) := opsG_kept (by decide) V
theorem opsG_keeps_arg9 : after opsG V (Proc.devRef .tc main_arg9) = V (Proc.devRef .tc main_arg9) := opsG_kept (by decide) V
theorem opsG_keeps_arg10 : after opsG V (Proc.devRef .tc main_arg10) = V (Proc.devRef .tc main_arg10) := opsG_kept (by decide) V
theorem opsG_keeps_arg11 : after opsG V (Proc.devRef .tc main_arg11) = V (Proc.devRef .tc main_arg11) := opsG_kept (by decide) V
theorem opsG_keeps_arg12 : after opsG V (Proc.devRef .tc main_arg12) = V (Proc.devRef .tc main_arg12) := opsG_kept (by decide) V
theorem opsG_keeps_arg13 : after opsG V (Proc.devRef .tc main_arg13) = V (Proc.devRef .tc main_arg13) := opsG_kept (by decide) V
theorem opsG_keeps_arg14 : after opsG V (Proc.devRef .tc main_arg14) = V (Proc.devRef .tc main_arg14) := opsG_kept (by decide) V
theorem opsG_keeps_arg15 : after opsG V (Proc.devRef .tc main_arg15) = V (Proc.devRef .tc main_arg15) := opsG_kept (by decide) V
theorem opsG_keeps_arg16 : after opsG V (Proc.devRef .tc main_arg16) = V (Proc.devRef .tc main_arg16) := opsG_kept (by decide) V

theorem opsL0_keeps_arg0 : after opsL0 V (Proc.devRef .tc main_arg0) = V (Proc.devRef .tc main_arg0) := opsL0_kept (by decide) V
theorem opsL0_keeps_arg1 : after opsL0 V (Proc.devRef .tc main_arg1) = V (Proc.devRef .tc main_arg1) := opsL0_kept (by decide) V
theorem opsL0_keeps_arg2 : after opsL0 V (Proc.devRef .tc main_arg2) = V (Proc.devRef .tc main_arg2) := opsL0_kept (by decide) V
theorem opsL0_keeps_arg3 : after opsL0 V (Proc.devRef .tc main_arg3) = V (Proc.devRef .tc main_arg3) := opsL0_kept (by decide) V
theorem opsL0_keeps_arg4 : after opsL0 V (Proc.devRef .tc main_arg4) = V (Proc.devRef .tc main_arg4) := opsL0_kept (by decide) V
theorem opsL0_keeps_arg5 : after opsL0 V (Proc.devRef .tc main_arg5) = V (Proc.devRef .tc main_arg5) := opsL0_kept (by decide) V
theorem opsL0_keeps_arg6 : after opsL0 V (Proc.devRef .tc main_arg6) = V (Proc.devRef .tc main_arg6) := opsL0_kept (by decide) V
theorem opsL0_keeps_arg7 : after opsL0 V (Proc.devRef .tc main_arg7) = V (Proc.devRef .tc main_arg7) := opsL0_kept (by decide) V
theorem opsL0_keeps_arg8 : after opsL0 V (Proc.devRef .tc main_arg8) = V (Proc.devRef .tc main_arg8) := opsL0_kept (by decide) V
theorem opsL0_keeps_arg9 : after opsL0 V (Proc.devRef .tc main_arg9) = V (Proc.devRef .tc main_arg9) := opsL0_kept (by decide) V
theorem opsL0_keeps_arg10 : after opsL0 V (Proc.devRef .tc main_arg10) = V (Proc.devRef .tc main_arg10) := opsL0_kept (by decide) V
theorem opsL0_keeps_arg11 : after opsL0 V (Proc.devRef .tc main_arg11) = V (Proc.devRef .tc main_arg11) := opsL0_kept (by decide) V
theorem opsL0_keeps_arg12 : after opsL0 V (Proc.devRef .tc main_arg12) = V (Proc.devRef .tc main_arg12) := opsL0_kept (by decide) V
theorem opsL0_keeps_arg13 : after opsL0 V (Proc.devRef .tc main_arg13) = V (Proc.devRef .tc main_arg13) := opsL0_kept (by decide) V
theorem opsL0_keeps_arg14 : after opsL0 V (Proc.devRef .tc main_arg14) = V (Proc.devRef .tc main_arg14) := opsL0_kept (by decide) V
theorem opsL0_keeps_arg15 : after opsL0 V (Proc.devRef .tc main_arg15) = V (Proc.devRef .tc main_arg15) := opsL0_kept (by decide) V
theorem opsL0_keeps_arg16 : after opsL0 V (Proc.devRef .tc main_arg16) = V (Proc.devRef .tc main_arg16) := opsL0_kept (by decide) V

theorem opsL1_keeps_arg0 : after opsL1 V (Proc.devRef .tc main_arg0) = V (Proc.devRef .tc main_arg0) := opsL1_kept (by decide) V
theorem opsL1_keeps_arg1 : after opsL1 V (Proc.devRef .tc main_arg1) = V (Proc.devRef .tc main_arg1) := opsL1_kept (by decide) V
theorem opsL1_keeps_arg2 : after opsL1 V (Proc.devRef .tc main_arg2) = V (Proc.devRef .tc main_arg2) := opsL1_kept (by decide) V
theorem opsL1_keeps_arg3 : after opsL1 V (Proc.devRef .tc main_arg3) = V (Proc.devRef .tc main_arg3) := opsL1_kept (by decide) V
theorem opsL1_keeps_arg4 : after opsL1 V (Proc.devRef .tc main_arg4) = V (Proc.devRef .tc main_arg4) := opsL1_kept (by decide) V
theorem opsL1_keeps_arg5 : after opsL1 V (Proc.devRef .tc main_arg5) = V (Proc.devRef .tc main_arg5) := opsL1_kept (by decide) V
theorem opsL1_keeps_arg6 : after opsL1 V (Proc.devRef .tc main_arg6) = V (Proc.devRef .tc main_arg6) := opsL1_kept (by decide) V
theorem opsL1_keeps_arg7 : after opsL1 V (Proc.devRef .tc main_arg7) = V (Proc.devRef .tc main_arg7) := opsL1_kept (by decide) V
theorem opsL1_keeps_arg8 : after opsL1 V (Proc.devRef .tc main_arg8) = V (Proc.devRef .tc main_arg8) := opsL1_kept (by decide) V
theorem opsL1_keeps_arg9 : after opsL1 V (Proc.devRef .tc main_arg9) = V (Proc.devRef .tc main_arg9) := opsL1_kept (by decide) V
theorem opsL1_keeps_arg10 : after opsL1 V (Proc.devRef .tc main_arg10) = V (Proc.devRef .tc main_arg10) := opsL1_kept (by decide) V
theorem opsL1_keeps_arg11 : after opsL1 V (Proc.devRef .tc main_arg11) = V (Proc.devRef .tc main_arg11) := opsL1_kept (by decide) V
theorem opsL1_keeps_arg12 : after opsL1 V (Proc.devRef .tc main_arg12) = V (Proc.devRef .tc main_arg12) := opsL1_kept (by decide) V
theorem opsL1_keeps_arg13 : after opsL1 V (Proc.devRef .tc main_arg13) = V (Proc.devRef .tc main_arg13) := opsL1_kept (by decide) V
theorem opsL1_keeps_arg14 : after opsL1 V (Proc.devRef .tc main_arg14) = V (Proc.devRef .tc main_arg14) := opsL1_kept (by decide) V
theorem opsL1_keeps_arg15 : after opsL1 V (Proc.devRef .tc main_arg15) = V (Proc.devRef .tc main_arg15) := opsL1_kept (by decide) V
theorem opsL1_keeps_arg16 : after opsL1 V (Proc.devRef .tc main_arg16) = V (Proc.devRef .tc main_arg16) := opsL1_kept (by decide) V

theorem opsL2_keeps_arg0 : after opsL2 V (Proc.devRef .tc main_arg0) = V (Proc.devRef .tc main_arg0) := opsL2_kept (by decide) V
theorem opsL2_keeps_arg1 : after opsL2 V (Proc.devRef .tc main_arg1) = V (Proc.devRef .tc main_arg1) := opsL2_kept (by decide) V
theorem opsL2_keeps_arg2 : after opsL2 V (Proc.devRef .tc main_arg2) = V (Proc.devRef .tc main_arg2) := opsL2_kept (by decide) V
theorem opsL2_keeps_arg3 : after opsL2 V (Proc.devRef .tc main_arg3) = V (Proc.devRef .tc main_arg3) := opsL2_kept (by decide) V
theorem opsL2_keeps_arg4 : after opsL2 V (Proc.devRef .tc main_arg4) = V (Proc.devRef .tc main_arg4) := opsL2_kept (by decide) V
theorem opsL2_keeps_arg5 : after opsL2 V (Proc.devRef .tc main_arg5) = V (Proc.devRef .tc main_arg5) := opsL2_kept (by decide) V
theorem opsL2_keeps_arg6 : after opsL2 V (Proc.devRef .tc main_arg6) = V (Proc.devRef .tc main_arg6) := opsL2_kept (by decide) V
theorem opsL2_keeps_arg7 : after opsL2 V (Proc.devRef .tc main_arg7) = V (Proc.devRef .tc main_arg7) := opsL2_kept (by decide) V
theorem opsL2_keeps_arg8 : after opsL2 V (Proc.devRef .tc main_arg8) = V (Proc.devRef .tc main_arg8) := opsL2_kept (by decide) V
theorem opsL2_keeps_arg9 : after opsL2 V (Proc.devRef .tc main_arg9) = V (Proc.devRef .tc main_arg9) := opsL2_kept (by decide) V
theorem opsL2_keeps_arg10 : after opsL2 V (Proc.devRef .tc main_arg10) = V (Proc.devRef .tc main_arg10) := opsL2_kept (by decide) V
theorem opsL2_keeps_arg11 : after opsL2 V (Proc.devRef .tc main_arg11) = V (Proc.devRef .tc main_arg11) := opsL2_kept (by decide) V
theorem opsL2_keeps_arg12 : after opsL2 V (Proc.devRef .tc main_arg12) = V (Proc.devRef .tc main_arg12) := opsL2_kept (by decide) V
theorem opsL2_keeps_arg13 : after opsL2 V (Proc.devRef .tc main_arg13) = V (Proc.devRef .tc main_arg13) := opsL2_kept (by decide) V
theorem opsL2_keeps_arg14 : after opsL2 V (Proc.devRef .tc main_arg14) = V (Proc.devRef .tc main_arg14) := opsL2_kept (by decide) V
theorem opsL2_keeps_arg15 : after opsL2 V (Proc.devRef .tc main_arg15) = V (Proc.devRef .tc main_arg15) := opsL2_kept (by decide) V
theorem opsL2_keeps_arg16 : after opsL2 V (Proc.devRef .tc main_arg16) = V (Proc.devRef .tc main_arg16) := opsL2_kept (by decide) V

theorem opsL3_keeps_arg0 : after opsL3 V (Proc.devRef .tc main_arg0) = V (Proc.devRef .tc main_arg0) := opsL3_kept (by decide) V
theorem opsL3_keeps_arg1 : after opsL3 V (Proc.devRef .tc main_arg1) = V (Proc.devRef .tc main_arg1) := opsL3_kept (by decide) V
theorem opsL3_keeps_arg2 : after opsL3 V (Proc.devRef .tc main_arg2) = V (Proc.devRef .tc main_arg2) := opsL3_kept (by decide) V
theorem opsL3_keeps_arg3 : after opsL3 V (Proc.devRef .tc main_arg3) = V (Proc.devRef .tc main_arg3) := opsL3_kept (by decide) V
theorem opsL3_keeps_arg4 : after opsL3 V (Proc.devRef .tc main_arg4) = V (Proc.devRef .tc main_arg4) := opsL3_kept (by decide) V
theorem opsL3_keeps_arg5 : after opsL3 V (Proc.devRef .tc main_arg5) = V (Proc.devRef .tc main_arg5) := opsL3_kept (by decide) V
theorem opsL3_keeps_arg6 : after opsL3 V (Proc.devRef .tc main_arg6) = V (Proc.devRef .tc main_arg6) := opsL3_kept (by decide) V
theorem opsL3_keeps_arg7 : after opsL3 V (Proc.devRef .tc main_arg7) = V (Proc.devRef .tc main_arg7) := opsL3_kept (by decide) V
theorem opsL3_keeps_arg8 : after opsL3 V (Proc.devRef .tc main_arg8) = V (Proc.devRef .tc main_arg8) := opsL3_kept (by decide) V
theorem opsL3_keeps_arg9 : after opsL3 V (Proc.devRef .tc main_arg9) = V (Proc.devRef .tc main_arg9) := opsL3_kept (by decide) V
theorem opsL3_keeps_arg10 : after opsL3 V (Proc.devRef .tc main_arg10) = V (Proc.devRef .tc main_arg10) := opsL3_kept (by decide) V
theorem opsL3_keeps_arg11 : after opsL3 V (Proc.devRef .tc main_arg11) = V (Proc.devRef .tc main_arg11) := opsL3_kept (by decide) V
theorem opsL3_keeps_arg12 : after opsL3 V (Proc.devRef .tc main_arg12) = V (Proc.devRef .tc main_arg12) := opsL3_kept (by decide) V
theorem opsL3_keeps_arg13 : after opsL3 V (Proc.devRef .tc main_arg13) = V (Proc.devRef .tc main_arg13) := opsL3_kept (by decide) V
theorem opsL3_keeps_arg14 : after opsL3 V (Proc.devRef .tc main_arg14) = V (Proc.devRef .tc main_arg14) := opsL3_kept (by decide) V
theorem opsL3_keeps_arg15 : after opsL3 V (Proc.devRef .tc main_arg15) = V (Proc.devRef .tc main_arg15) := opsL3_kept (by decide) V
theorem opsL3_keeps_arg16 : after opsL3 V (Proc.devRef .tc main_arg16) = V (Proc.devRef .tc main_arg16) := opsL3_kept (by decide) V

/-- The result buffer after the whole line, from any contents: the composed function of the arguments' contents. -/
theorem ops_v229 : after ops V (Proc.devRef .tc main_v229) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  show after (opsG ++ opsL0 ++ opsL1 ++ opsL2 ++ opsL3 ++ opsT) V _ = _
  rw [after_append, after_append, after_append, after_append, after_append, opsT_v229]
  rw [opsL3_v196, opsL3_keeps_v154, opsL3_keeps_v111, opsL3_keeps_v69, opsL3_keeps_arg2, opsL3_keeps_arg9, opsL3_keeps_arg10, opsL3_keeps_arg11, opsL3_keeps_arg12, opsL3_keeps_arg13, opsL3_keeps_arg14, opsL3_keeps_arg15, opsL3_keeps_arg16]
  rw [opsL2_v154, opsL2_keeps_v111, opsL2_keeps_v69, opsL2_keeps_v3, opsL2_keeps_v6, opsL2_keeps_v27, opsL2_keeps_arg2, opsL2_keeps_arg3, opsL2_keeps_arg4, opsL2_keeps_arg5, opsL2_keeps_arg6, opsL2_keeps_arg7, opsL2_keeps_arg8, opsL2_keeps_arg9, opsL2_keeps_arg10, opsL2_keeps_arg11, opsL2_keeps_arg12, opsL2_keeps_arg13, opsL2_keeps_arg14, opsL2_keeps_arg15, opsL2_keeps_arg16]
  rw [opsL1_v111, opsL1_keeps_v69, opsL1_keeps_v3, opsL1_keeps_v6, opsL1_keeps_v27, opsL1_keeps_arg2, opsL1_keeps_arg3, opsL1_keeps_arg4, opsL1_keeps_arg5, opsL1_keeps_arg6, opsL1_keeps_arg7, opsL1_keeps_arg8, opsL1_keeps_arg9, opsL1_keeps_arg10, opsL1_keeps_arg11, opsL1_keeps_arg12, opsL1_keeps_arg13, opsL1_keeps_arg14, opsL1_keeps_arg15, opsL1_keeps_arg16]
  rw [opsL0_v69, opsL0_keeps_v3, opsL0_keeps_v6, opsL0_keeps_v27, opsL0_keeps_arg2, opsL0_keeps_arg3, opsL0_keeps_arg4, opsL0_keeps_arg5, opsL0_keeps_arg6, opsL0_keeps_arg7, opsL0_keeps_arg8, opsL0_keeps_arg9, opsL0_keeps_arg10, opsL0_keeps_arg11, opsL0_keeps_arg12, opsL0_keeps_arg13, opsL0_keeps_arg14, opsL0_keeps_arg15, opsL0_keeps_arg16]
  rw [opsG_v3, opsG_v6, opsG_v27, opsG_keeps_arg0, opsG_keeps_arg2, opsG_keeps_arg3, opsG_keeps_arg4, opsG_keeps_arg5, opsG_keeps_arg6, opsG_keeps_arg7, opsG_keeps_arg8, opsG_keeps_arg9, opsG_keeps_arg10, opsG_keeps_arg11, opsG_keeps_arg12, opsG_keeps_arg13, opsG_keeps_arg14, opsG_keeps_arg15, opsG_keeps_arg16]
  rfl

/-- On every device, for any float values, from any memory with zero counters: every weakly fair execution of
    @main terminates with the result buffer at the composed function of the arguments' launch contents and the
    argument arrays unchanged. -/
theorem ref_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v229) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_v229).trans ((ops_v229 _).trans rfl),
      (h c main_arg0).trans ((arg0_kept _).trans rfl),
      (h c main_arg1).trans ((arg1_kept _).trans rfl),
      (h c main_arg2).trans ((arg2_kept _).trans rfl),
      (h c main_arg3).trans ((arg3_kept _).trans rfl),
      (h c main_arg4).trans ((arg4_kept _).trans rfl),
      (h c main_arg5).trans ((arg5_kept _).trans rfl),
      (h c main_arg6).trans ((arg6_kept _).trans rfl),
      (h c main_arg7).trans ((arg7_kept _).trans rfl),
      (h c main_arg8).trans ((arg8_kept _).trans rfl),
      (h c main_arg9).trans ((arg9_kept _).trans rfl),
      (h c main_arg10).trans ((arg10_kept _).trans rfl),
      (h c main_arg11).trans ((arg11_kept _).trans rfl),
      (h c main_arg12).trans ((arg12_kept _).trans rfl),
      (h c main_arg13).trans ((arg13_kept _).trans rfl),
      (h c main_arg14).trans ((arg14_kept _).trans rfl),
      (h c main_arg15).trans ((arg15_kept _).trans rfl),
      (h c main_arg16).trans ((arg16_kept _).trans rfl)⟩)
    (run_fold m ρ)

end Cert.ReferenceIdeal.HandRun

end
-- ==== Proof.RefRunFrameClaim.lean ====
/- The reference's frame claim, from its run: the precondition is not used. -/
import proofs.«127520_j50629074485391_2_alg».proof.Proof.RefRunFrame
import proofs.«127520_j50629074485391_2_alg».proof.Defs
import proofs.«127520_j50629074485391_2_alg».proof.Proof.Gen.Pre_finite_inputs

noncomputable section

namespace Cert.ReferenceIdeal.HandRun

open Idealize.ShloMosaic Idealize.SL.Sem

theorem frame_ri : @Cert.frame_ReferenceIdeal Cert.ReferenceIdeal.Gen.facts Cert.Pre_finite_inputs.Gen.facts :=
  fun m g _ => frame_core (F := Ideal) m g

end Cert.ReferenceIdeal.HandRun

end
-- ==== Proof.LibFinite.lean ====
/-
  FINITENESS ON THE EXTENDED REALS.  An entry is finite when it is a real number.  Sums, differences, products and
  maxima of finite entries are finite; a finite sum of finite entries is finite; the reciprocal square root of a
  positive real is finite; and  select (d > 0, rsqrt d, 0)  is finite for EVERY extended real d (the degree's
  reciprocal square root, guarded: at +∞ the reciprocal square root is 0, and where d is not positive the zero is
  taken).  An accumulating scatter into finite entries of finite updates is finite wherever the updates land, because
  each entry is the old entry plus a finite sum of updates.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, by simp⟩

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max {x y : EReal} (hx : IsReal x) (hy : IsReal y) : IsReal (max x y) := by
  rcases le_total x y with h | h
  · rw [max_eq_right h]; exact hy
  · rw [max_eq_left h]; exact hx

/-- A finite sum of finite entries is finite. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The float zero is finite. -/
theorem isReal_zeroWord : IsReal (Ideal.ofBits .f32 0x00000000#32) := by rw [Ideal.ofBits_zero_f32]; exact isReal_zero

/-- The float 1e-5 is a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  norm_num

/-- The reciprocal square root of a positive real is finite. -/
theorem isReal_rsqrt_pos {v : ℝ} (hv : 0 < v) : IsReal (Ideal.rsqrt (v : EReal)) := by
  rw [Ideal.rsqrt_coe, if_neg (not_lt.2 hv.le), if_neg hv.ne']
  exact ⟨_, rfl⟩

/-- A quotient of a real by the float 100000.0 is finite. -/
theorem isReal_div_1e5 {x : EReal} (hx : IsReal x) : IsReal (Ideal.div x (Ideal.ofBits .f32 0x47C35000#32)) := by
  obtain ⟨a, rfl⟩ := hx
  have h : Ideal.ofBits .f32 0x47C35000#32 = ((100000 : ℝ) : EReal) := by
    simp [Ideal.ofBits, Ideal.ieee, -EReal.coe_mul]; norm_num
  rw [h, Ideal.div_coe (by norm_num : (100000 : ℝ) ≠ 0), ← EReal.coe_mul]
  exact ⟨_, rfl⟩

/-- The guarded reciprocal square root is finite at every extended real. -/
theorem isReal_guarded (d z z' : EReal) (hz : z = 0) (hz' : IsReal z') :
    IsReal (Scalar.select (Ideal.cmp .ogt d z) (Ideal.rsqrt d) z') := by
  unfold Scalar.select
  split
  · rename_i h
    have hd : (0 : EReal) < d := by
      subst hz
      unfold Ideal.cmp at h
      by_contra hn
      simp [hn] at h
    induction d using EReal.rec with
    | bot => exact absurd hd (by simp)
    | top => rw [Ideal.rsqrt_top]; exact isReal_zero
    | coe r => exact isReal_rsqrt_pos (by exact_mod_cast hd)
  · exact hz'

/-- An accumulating scatter of finite updates into finite entries is finite. -/
theorem isReal_scatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (isReal_sum _ _ fun j _ => hu j)

/-- An extended real that is a nonnegative real number. -/
def IsNN (x : EReal) : Prop := ∃ r : ℝ, 0 ≤ r ∧ x = (r : EReal)

theorem IsNN.isReal {x : EReal} : IsNN x → IsReal x | ⟨r, _, h⟩ => ⟨r, h⟩

/-- The square of a finite entry is a nonnegative real. -/
theorem IsReal.mul_self {x : EReal} : IsReal x → IsNN (x * x)
  | ⟨a, ha⟩ => ⟨a * a, mul_self_nonneg a, by rw [ha, EReal.coe_mul]⟩

theorem IsNN.add {x y : EReal} : IsNN x → IsNN y → IsNN (x + y)
  | ⟨a, ha0, ha⟩, ⟨b, hb0, hb⟩ => ⟨a + b, add_nonneg ha0 hb0, by rw [ha, hb, EReal.coe_add]⟩

theorem isNN_zero : IsNN 0 := ⟨0, le_refl 0, by simp⟩
theorem isNN_zeroWord : IsNN (Ideal.ofBits .f32 0x00000000#32) := by rw [Ideal.ofBits_zero_f32]; exact isNN_zero

/-- A finite sum of nonnegative reals is a nonnegative real. -/
theorem isNN_sum {ι : Type*} (s : Finset ι) (f : ι → EReal) (h : ∀ i ∈ s, IsNN (f i)) : IsNN (∑ i ∈ s, f i) := by
  classical
  induction s using Finset.induction_on with
  | empty => simpa using isNN_zero
  | insert a s ha ih =>
    rw [Finset.sum_insert ha]
    exact (h a (Finset.mem_insert_self a s)).add (ih fun i hi => h i (Finset.mem_insert_of_mem hi))

/-- A nonnegative real divided by the float 100000.0 is a nonnegative real. -/
theorem IsNN.div_1e5 {x : EReal} : IsNN x → IsNN (Ideal.div x (Ideal.ofBits .f32 0x47C35000#32))
  | ⟨a, ha0, ha⟩ => by
    have h : Ideal.ofBits .f32 0x47C35000#32 = ((100000 : ℝ) : EReal) := by
      simp [Ideal.ofBits, Ideal.ieee, -EReal.coe_mul]; norm_num
    rw [ha, h, Ideal.div_coe (by norm_num : (100000 : ℝ) ≠ 0), ← EReal.coe_mul]
    exact ⟨_, mul_nonneg ha0 (by norm_num), rfl⟩

/-- The reciprocal square root of a nonnegative real plus the float 1e-5 is finite. -/
theorem IsNN.rsqrt_add_eps {v : EReal} : IsNN v → IsReal (Ideal.rsqrt (v + Ideal.ofBits .f32 0x3727C5AC#32))
  | ⟨a, ha0, ha⟩ => by
    obtain ⟨e, he0, he⟩ := eps_pos
    rw [ha, he, ← EReal.coe_add]
    exact isReal_rsqrt_pos (by linarith)

/-! ## Whole arrays of finite entries -/

/-- Every entry is finite. -/
def AllReal {ι : Type} (f : ι → EReal) : Prop := ∀ i, IsReal (f i)

/-- A broadcast's entries are entries of its operand. -/
theorem AllReal.bcast {s t : Shape} {x : s.Idx → EReal} (hx : AllReal x) (dims : Fin s.rank → Fin t.rank)
    (h : s.BroadcastsInDim t dims) : AllReal (broadcastInDim t dims h x) := fun _ => hx _

/-- A gather's entries are entries of its operand. -/
theorem AllReal.gather {s si t : Shape} {w : Nat} {x : s.Idx → EReal} (hx : AllReal x) (d : GatherDims s si t) (idx : IVec si w) :
    AllReal (Host.gather d x idx) := fun _ => hx _

/-- A reshape's entries are entries of its operand. -/
theorem AllReal.cast {s t : Shape} {x : s.Idx → EReal} (hx : AllReal x) (h : s.ShapeCasts t) : AllReal (shapeCast t x h) :=
  fun _ => hx _

theorem AllReal.mulf {s : Shape} {φ : FTy} {x y : FVec Ideal s φ} (hx : AllReal x) (hy : AllReal y) : AllReal (mulf x y) :=
  fun i => (hx i).mul (hy i)
theorem AllReal.addf {s : Shape} {φ : FTy} {x y : FVec Ideal s φ} (hx : AllReal x) (hy : AllReal y) : AllReal (addf x y) :=
  fun i => (hx i).add (hy i)

/-- The zero array. -/
theorem allReal_zeros {s : Shape} (dims : Fin (⟨0, ![]⟩ : Shape).rank → Fin s.rank) (h : (⟨0, ![]⟩ : Shape).BroadcastsInDim s dims) :
    AllReal (broadcastInDim s dims h (constant (F := Ideal) ⟨0, ![]⟩ .f32 0x00000000#32)) :=
  fun _ => isReal_zeroWord

/-- An accumulating scatter of finite updates into finite entries. -/
theorem AllReal.scatterAdd {s si su : Shape} {w : Nat} {x : FVec Ideal s .f32} {u : FVec Ideal su .f32} (hx : AllReal x) (hu : AllReal u)
    (d : ScatterDims s si su) (idx : IVec si w) : AllReal (Host.scatterAdd d x idx u) :=
  fun i => isReal_scatterAdd d x idx u hx hu i

/-- A matrix product (any contraction) of finite arrays. -/
theorem AllReal.dot {sl sr so : Shape} {φ₁ φ₂ : FTy} {a : FVec Ideal sl φ₁} {b : FVec Ideal sr φ₂} (ha : AllReal a) (hb : AllReal b)
    (d : DotDims sl sr so) (prec : Option ContractPrecision) : AllReal (Host.dotGeneral d prec a b) := fun j => by
  show IsReal (FloatOps.dotGeneral d prec .single a b j)
  rw [Ideal.dotGeneral_apply]
  exact isReal_sum _ _ fun k _ => (ha _).mul (hb _)

/-- The guarded reciprocal square root of ANY array: select (deg > 0, rsqrt deg, 0). -/
theorem allReal_guard {s : Shape} (deg z z' : FVec Ideal s .f32) (hz : ∀ i, z i = 0) (hz' : AllReal z') :
    AllReal (select (cmpf .ogt deg z) (Host.rsqrt deg) z') := fun i =>
  isReal_guarded (deg i) (z i) (z' i) (hz i) (hz' i)

end Cert.Finite

end
-- ==== Proof.PreFacts.lean ====
/-
  THE PRECONDITION, DECODED.  The precondition is a conjunction, over the float arguments, of "every entry x has
  |x| < +∞" (an all-axes reduction by "and" of the elementwise comparison of |x| with the +∞ word), and last of
  "every entry of the variance is ≥ 0".  At the ideal values an entry is an extended real and |x| is max x (-x):
  |x| < +∞ says exactly that x is a real number (at -∞ and at +∞ the maximum is +∞), and 0 ≤ x for a real x
  says x is a nonnegative real.  One lemma per kind of conjunct, stated for any shape; the theorem splits the
  conjunction and applies them.
-/
import proofs.«127520_j50629074485391_2_alg».proof.Pre_finite_inputs
import proofs.«127520_j50629074485391_2_alg».proof.Proof.Gen.Pre_finite_inputs
import proofs.«127520_j50629074485391_2_alg».proof.Proof.LibFinite
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx
open Cert.Pre_finite_inputs Cert.Finite

/-- The scalar shape has one index. -/
instance : Subsingleton S_.Idx := ⟨fun a b => funext fun d => d.elim0⟩

/-- The +∞ word is +∞. -/
theorem infWord : Ideal.ofBits .f32 0x7F800000#32 = (⊤ : EReal) := by simp [Ideal.ofBits, Ideal.ieee]

/-- An extended real whose absolute value is below +∞ is a real number. -/
theorem isReal_of_abs_lt (x : EReal) (h : Ideal.cmp .olt (max x (-x)) (Ideal.ofBits .f32 0x7F800000#32) = 1#1) : IsReal x := by
  rw [infWord] at h
  induction x using EReal.rec with
  | bot => exact absurd h (by simp [Ideal.cmp])
  | top => exact absurd h (by simp [Ideal.cmp])
  | coe r => exact ⟨r, rfl⟩

/-- A real number that is at least the zero word is a nonnegative real. -/
theorem isNN_of_ge (x : EReal) (hx : IsReal x) (h : Ideal.cmp .oge x (Ideal.ofBits .f32 0x00000000#32) = 1#1) : IsNN x := by
  obtain ⟨r, rfl⟩ := hx
  rw [Ideal.ofBits_zero_f32] at h
  refine ⟨r, ?_, rfl⟩
  by_contra hn
  have : ¬ ((0 : EReal) ≤ (r : EReal)) := by
    intro h0; exact hn (by exact_mod_cast h0)
  simp [Ideal.cmp, this] at h

/-- One finiteness conjunct, for any shape: if the all-axes "and" of |x| < +∞ is 1, every entry of x is real. -/
theorem allReal_of_all {s : Shape} {axes : List (Fin s.rank)} (x : FVec Ideal s .f32) (dims : Fin S_.rank → Fin s.rank)
    (hb : S_.BroadcastsInDim s dims) (hr : s.ReducesTo axes S_) (hu : 0 < S_.numel) (init : IVec S_ 1)
    (e : Host.reduce IntOp.andi (cmpf .olt (Host.absf x) (broadcastInDim s dims hb (constant S_ .f32 0x7F800000#32))) init hr hu ix0
      = 1#1) : AllReal x := fun i =>
  isReal_of_abs_lt (x i) (Host.reduce_andi_all _ init hr hu ix0 e i)

/-- The sign conjunct, for any shape: if the all-axes "and" of x ≥ 0 is 1, every real entry of x is nonnegative. -/
theorem allNN_of_all {s : Shape} {axes : List (Fin s.rank)} (x : FVec Ideal s .f32) (hx : AllReal x) (dims : Fin S_.rank → Fin s.rank)
    (hb : S_.BroadcastsInDim s dims) (hr : s.ReducesTo axes S_) (hu : 0 < S_.numel) (init : IVec S_ 1)
    (e : Host.reduce IntOp.andi (cmpf .oge x (broadcastInDim s dims hb (constant S_ .f32 0x00000000#32))) init hr hu ix0 = 1#1) :
    ∀ i, IsNN (x i) := fun i =>
  isNN_of_ge (x i) (hx i) (Host.reduce_andi_all _ init hr hu ix0 e i)

/-- The elementwise "and" of two scalar-shaped bits, read at the one index. -/
theorem andi_ix0 (x y : IVec S_ 1) : andi x y ix0 = 1#1 ↔ x ix0 = 1#1 ∧ y ix0 = 1#1 := IntOp.andi_eq_one

/-- THE PRECONDITION DECODED: the convolution layers' inputs are arrays of reals, the variance of nonnegative reals;
    then the remaining float arguments are arrays of reals too. -/
theorem pre_facts [Cert.Pre_finite_inputs.Facts]
    (a0 : FVec Ideal S100000x64 .f32) (a1 : IVec S2x3200000 32) (a2 : IVec S100000 32) (a3 : FVec Ideal S4x64x64 .f32)
    (a4 a5 a6 a7 a8 : FVec Ideal S4x64 .f32) (a9 : FVec Ideal S256x256 .f32) (a10 : FVec Ideal S256 .f32)
    (a11 : FVec Ideal S256x128 .f32) (a12 : FVec Ideal S128 .f32) (a13 : FVec Ideal S128x64 .f32) (a14 : FVec Ideal S64 .f32)
    (a15 : FVec Ideal S64x1 .f32) (a16 : FVec Ideal S1 .f32)
    (h : Cert.Pre_finite_inputs.fn (F := Ideal) a0 a1 a2 a3 a4 a5 a6 a7 a8 a9 a10 a11 a12 a13 a14 a15 a16 = fun _ => 1#1) :
    AllReal a0 ∧ AllReal a3 ∧ AllReal a4 ∧ AllReal a5 ∧ AllReal a6 ∧ AllReal a7 ∧ AllReal a8 ∧ (∀ i, IsNN (a8 i))
      ∧ AllReal a9 ∧ AllReal a10 ∧ AllReal a11 ∧ AllReal a12 ∧ AllReal a13 ∧ AllReal a14 ∧ AllReal a15 ∧ AllReal a16 := by
  have e := congrFun h ix0
  dsimp only [Cert.Pre_finite_inputs.fn, fn_part1, fn_part2, fn_part3, fn_part4] at e
  simp only [andi_ix0] at e
  obtain ⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, enn⟩ := e
  have r8 : AllReal a8 := allReal_of_all a8 _ _ _ _ _ e8
  exact ⟨allReal_of_all a0 _ _ _ _ _ e0, allReal_of_all a3 _ _ _ _ _ e3, allReal_of_all a4 _ _ _ _ _ e4,
    allReal_of_all a5 _ _ _ _ _ e5, allReal_of_all a6 _ _ _ _ _ e6, allReal_of_all a7 _ _ _ _ _ e7, r8,
    allNN_of_all a8 r8 _ _ _ _ _ enn,
    allReal_of_all a9 _ _ _ _ _ e9, allReal_of_all a10 _ _ _ _ _ e10, allReal_of_all a11 _ _ _ _ _ e11,
    allReal_of_all a12 _ _ _ _ _ e12, allReal_of_all a13 _ _ _ _ _ e13, allReal_of_all a14 _ _ _ _ _ e14,
    allReal_of_all a15 _ _ _ _ _ e15, allReal_of_all a16 _ _ _ _ _ e16⟩

end Cert.PreFacts

end
-- ==== Proof.KernelRun.lean ====
/-
  The kernel program's run with its result named.  The program is ten grid regions among eleven stretches of host
  operations; the contents of every buffer at each boundary are a fold from the launch memory (the boundary valuations
  `W0 … W21`).  Every weakly fair execution terminates, nothing faults, each argument array ends as launched, and the
  result buffer ends at the last boundary valuation read at it.
-/
import proofs.«127520_j50629074485391_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the last
    boundary valuation assigns to it, and every argument array is as launched. -/
theorem run_value : θ_run defs (onTc (τ := τ) (main (F := F))) ⟨m, fun _ => 0, ρ⟩ (fun r => ∀ c : Dev nD,
      r.2.mem ((c.tc : Thread nD τ).loc main_v141) = W21 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h c =>
      ⟨h c _ (mem_uc main_v141 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c),
       (h c _ (mem_uc main_arg9 (by decide))).trans (W21_main_arg9 m ρ c),
       (h c _ (mem_uc main_arg10 (by decide))).trans (W21_main_arg10 m ρ c),
       (h c _ (mem_uc main_arg11 (by decide))).trans (W21_main_arg11 m ρ c),
       (h c _ (mem_uc main_arg12 (by decide))).trans (W21_main_arg12 m ρ c),
       (h c _ (mem_uc main_arg13 (by decide))).trans (W21_main_arg13 m ρ c),
       (h c _ (mem_uc main_arg14 (by decide))).trans (W21_main_arg14 m ρ c),
       (h c _ (mem_uc main_arg15 (by decide))).trans (W21_main_arg15 m ρ c),
       (h c _ (mem_uc main_arg16 (by decide))).trans (W21_main_arg16 m ρ c)⟩)

end Cert.KernelIdeal.HandRun

end
-- ==== Proof.KernelWalk.lean ====
/-
  Buffers that cross several boundaries of the kernel program.  Between the boundary valuations `W0 … W21` a buffer keeps
  its contents across a stretch of host operations none of which writes it, and across a grid region none of whose arrays it
  is (an input array of a region is also left as the region found it).  Stated here for exactly the buffers a later
  stretch or region reads: the two index vectors and the edge weights of the graph, the folded biases and weights, each
  layer's output where a later layer or the encoder reads it, and the arguments first read after the launch.
-/
import proofs.«127520_j50629074485391_2_alg».proof.Proof.KernelRun

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A stretch of host operations keeps a buffer that none of them writes: each operation's written buffer is compared
    with the buffer in question. -/
macro "host_kept" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

theorem walk_v3_2_1 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem walk_v3_6_1 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_kept hostOps2
    _ = W3 m ρ c (Proc.devRef .tc main_v3) := W4_of_ne m ρ c main_v3 (by decide)
    _ = W2 m ρ c (Proc.devRef .tc main_v3) := by host_kept hostOps1
    _ = W1 m ρ c (Proc.devRef .tc main_v3) := W2_of_ne m ρ c main_v3 (by decide)

theorem walk_v3_10_1 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_kept hostOps4
    _ = W7 m ρ c (Proc.devRef .tc main_v3) := W8_of_ne m ρ c main_v3 (by decide)
    _ = W6 m ρ c (Proc.devRef .tc main_v3) := by host_kept hostOps3
    _ = W5 m ρ c (Proc.devRef .tc main_v3) := W6_of_ne m ρ c main_v3 (by decide)
    _ = W4 m ρ c (Proc.devRef .tc main_v3) := by host_kept hostOps2
    _ = W3 m ρ c (Proc.devRef .tc main_v3) := W4_of_ne m ρ c main_v3 (by decide)
    _ = W2 m ρ c (Proc.devRef .tc main_v3) := by host_kept hostOps1
    _ = W1 m ρ c (Proc.devRef .tc main_v3) := W2_of_ne m ρ c main_v3 (by decide)

theorem walk_v3_14_1 (c : Dev nD) : W14 m ρ c (Proc.devRef .tc main_v3) = W1 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := by host_kept hostOps6
    _ = W11 m ρ c (Proc.devRef .tc main_v3) := W12_of_ne m ρ c main_v3 (by decide)
    _ = W10 m ρ c (Proc.devRef .tc main_v3) := by host_kept hostOps5
    _ = W9 m ρ c (Proc.devRef .tc main_v3) := W10_of_ne m ρ c main_v3 (by decide)
    _ = W8 m ρ c (Proc.devRef .tc main_v3) := by host_kept hostOps4
    _ = W7 m ρ c (Proc.devRef .tc main_v3) := W8_of_ne m ρ c main_v3 (by decide)
    _ = W6 m ρ c (Proc.devRef .tc main_v3) := by host_kept hostOps3
    _ = W5 m ρ c (Proc.devRef .tc main_v3) := W6_of_ne m ρ c main_v3 (by decide)
    _ = W4 m ρ c (Proc.devRef .tc main_v3) := by host_kept hostOps2
    _ = W3 m ρ c (Proc.devRef .tc main_v3) := W4_of_ne m ρ c main_v3 (by decide)
    _ = W2 m ρ c (Proc.devRef .tc main_v3) := by host_kept hostOps1
    _ = W1 m ρ c (Proc.devRef .tc main_v3) := W2_of_ne m ρ c main_v3 (by decide)

theorem walk_v6_2_1 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem walk_v6_6_1 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_kept hostOps2
    _ = W3 m ρ c (Proc.devRef .tc main_v6) := W4_of_ne m ρ c main_v6 (by decide)
    _ = W2 m ρ c (Proc.devRef .tc main_v6) := by host_kept hostOps1
    _ = W1 m ρ c (Proc.devRef .tc main_v6) := W2_of_ne m ρ c main_v6 (by decide)

theorem walk_v6_10_1 (c : Dev nD) : W10 m ρ c (Proc.devRef .tc main_v6) = W1 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_kept hostOps4
    _ = W7 m ρ c (Proc.devRef .tc main_v6) := W8_of_ne m ρ c main_v6 (by decide)
    _ = W6 m ρ c (Proc.devRef .tc main_v6) := by host_kept hostOps3
    _ = W5 m ρ c (Proc.devRef .tc main_v6) := W6_of_ne m ρ c main_v6 (by decide)
    _ = W4 m ρ c (Proc.devRef .tc main_v6) := by host_kept hostOps2
    _ = W3 m ρ c (Proc.devRef .tc main_v6) := W4_of_ne m ρ c main_v6 (by decide)
    _ = W2 m ρ c (Proc.devRef .tc main_v6) := by host_kept hostOps1
    _ = W1 m ρ c (Proc.devRef .tc main_v6) := W2_of_ne m ρ c main_v6 (by decide)

theorem walk_v6_14_1 (c : Dev nD) : W14 m ρ c (Proc.devRef .tc main_v6) = W1 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := by host_kept hostOps6
    _ = W11 m ρ c (Proc.devRef .tc main_v6) := W12_of_ne m ρ c main_v6 (by decide)
    _ = W10 m ρ c (Proc.devRef .tc main_v6) := by host_kept hostOps5
    _ = W9 m ρ c (Proc.devRef .tc main_v6) := W10_of_ne m ρ c main_v6 (by decide)
    _ = W8 m ρ c (Proc.devRef .tc main_v6) := by host_kept hostOps4
    _ = W7 m ρ c (Proc.devRef .tc main_v6) := W8_of_ne m ρ c main_v6 (by decide)
    _ = W6 m ρ c (Proc.devRef .tc main_v6) := by host_kept hostOps3
    _ = W5 m ρ c (Proc.devRef .tc main_v6) := W6_of_ne m ρ c main_v6 (by decide)
    _ = W4 m ρ c (Proc.devRef .tc main_v6) := by host_kept hostOps2
    _ = W3 m ρ c (Proc.devRef .tc main_v6) := W4_of_ne m ρ c main_v6 (by decide)
    _ = W2 m ρ c (Proc.devRef .tc main_v6) := by host_kept hostOps1
    _ = W1 m ρ c (Proc.devRef .tc main_v6) := W2_of_ne m ρ c main_v6 (by decide)

theorem walk_v27_2_1 (c : Dev nD) : W2 m ρ c (Proc.devRef .tc main_v27) = W1 m ρ c (Proc.devRef .tc main_v27) :=
  calc W2 m ρ c (Proc.devRef .tc main_v27)
    _ = W1 m ρ c (Proc.devRef .tc main_v27) := W2_of_ne m ρ c main_v27 (by decide)

theorem walk_v27_6_1 (c : Dev nD) : W6 m ρ c (Proc.devRef .tc main_v27) = W1 m ρ c (Proc.devRef .tc main_v27) :=
  calc W6 m ρ c (Proc.devRef .tc main_v27)
    _ = W5 m ρ c (Proc.devRef .tc main_v27) := W6_of_ne m ρ c main_v27 (by decide)
    _ = W4 m ρ c (Proc.devRef .tc main_v27) := by host_kept hostOps2
    _ = W3 m ρ c (Proc.devRef .tc main_v27) := W4_of_ne m ρ c main_v27 (by decide)
    _ = W2 m ρ c (Proc.devRef .tc main_v27) := by host_kept hostOps1
    _ = W1 m ρ c (Proc.devRef .tc main_v27) := W2_of_ne m ρ c main_v27 (by decide)

theorem walk_v27_10_1 (c : Dev nD) : W10 m ρ c (Proc.devRef .tc main_v27) = W1 m ρ c (Proc.devRef .tc main_v27) :=
  calc W10 m ρ c (Proc.devRef .tc main_v27)
    _ = W9 m ρ c (Proc.devRef .tc main_v27) := W10_of_ne m ρ c main_v27 (by decide)
    _ = W8 m ρ c (Proc.devRef .tc main_v27) := by host_kept hostOps4
    _ = W7 m ρ c (Proc.devRef .tc main_v27) := W8_of_ne m ρ c main_v27 (by decide)
    _ = W6 m ρ c (Proc.devRef .tc main_v27) := by host_kept hostOps3
    _ = W5 m ρ c (Proc.devRef .tc main_v27) := W6_of_ne m ρ c main_v27 (by decide)
    _ = W4 m ρ c (Proc.devRef .tc main_v27) := by host_kept hostOps2
    _ = W3 m ρ c (Proc.devRef .tc main_v27) := W4_of_ne m ρ c main_v27 (by decide)
    _ = W2 m ρ c (Proc.devRef .tc main_v27) := by host_kept hostOps1
    _ = W1 m ρ c (Proc.devRef .tc main_v27) := W2_of_ne m ρ c main_v27 (by decide)

theorem walk_v27_14_1 (c : Dev nD) : W14 m ρ c (Proc.devRef .tc main_v27) = W1 m ρ c (Proc.devRef .tc main_v27) :=
  calc W14 m ρ c (Proc.devRef .tc main_v27)
    _ = W13 m ρ c (Proc.devRef .tc main_v27) := W14_of_ne m ρ c main_v27 (by decide)
    _ = W12 m ρ c (Proc.devRef .tc main_v27) := by host_kept hostOps6
    _ = W11 m ρ c (Proc.devRef .tc main_v27) := W12_of_ne m ρ c main_v27 (by decide)
    _ = W10 m ρ c (Proc.devRef .tc main_v27) := by host_kept hostOps5
    _ = W9 m ρ c (Proc.devRef .tc main_v27) := W10_of_ne m ρ c main_v27 (by decide)
    _ = W8 m ρ c (Proc.devRef .tc main_v27) := by host_kept hostOps4
    _ = W7 m ρ c (Proc.devRef .tc main_v27) := W8_of_ne m ρ c main_v27 (by decide)
    _ = W6 m ρ c (Proc.devRef .tc main_v27) := by host_kept hostOps3
    _ = W5 m ρ c (Proc.devRef .tc main_v27) := W6_of_ne m ρ c main_v27 (by decide)
    _ = W4 m ρ c (Proc.devRef .tc main_v27) := by host_kept hostOps2
    _ = W3 m ρ c (Proc.devRef .tc main_v27) := W4_of_ne m ρ c main_v27 (by decide)
    _ = W2 m ρ c (Proc.devRef .tc main_v27) := by host_kept hostOps1
    _ = W1 m ρ c (Proc.devRef .tc main_v27) := W2_of_ne m ρ c main_v27 (by decide)

theorem walk_v34_2_1 (c : Dev nD) : W2 m ρ c (Proc.devRef .tc main_v34) = W1 m ρ c (Proc.devRef .tc main_v34) :=
  calc W2 m ρ c (Proc.devRef .tc main_v34)
    _ = W1 m ρ c (Proc.devRef .tc main_v34) := W2_of_ne m ρ c main_v34 (by decide)

theorem walk_v34_6_1 (c : Dev nD) : W6 m ρ c (Proc.devRef .tc main_v34) = W1 m ρ c (Proc.devRef .tc main_v34) :=
  calc W6 m ρ c (Proc.devRef .tc main_v34)
    _ = W5 m ρ c (Proc.devRef .tc main_v34) := W6_of_ne m ρ c main_v34 (by decide)
    _ = W4 m ρ c (Proc.devRef .tc main_v34) := by host_kept hostOps2
    _ = W3 m ρ c (Proc.devRef .tc main_v34) := W4_of_ne m ρ c main_v34 (by decide)
    _ = W2 m ρ c (Proc.devRef .tc main_v34) := by host_kept hostOps1
    _ = W1 m ρ c (Proc.devRef .tc main_v34) := W2_of_ne m ρ c main_v34 (by decide)

theorem walk_v34_10_1 (c : Dev nD) : W10 m ρ c (Proc.devRef .tc main_v34) = W1 m ρ c (Proc.devRef .tc main_v34) :=
  calc W10 m ρ c (Proc.devRef .tc main_v34)
    _ = W9 m ρ c (Proc.devRef .tc main_v34) := W10_of_ne m ρ c main_v34 (by decide)
    _ = W8 m ρ c (Proc.devRef .tc main_v34) := by host_kept hostOps4
    _ = W7 m ρ c (Proc.devRef .tc main_v34) := W8_of_ne m ρ c main_v34 (by decide)
    _ = W6 m ρ c (Proc.devRef .tc main_v34) := by host_kept hostOps3
    _ = W5 m ρ c (Proc.devRef .tc main_v34) := W6_of_ne m ρ c main_v34 (by decide)
    _ = W4 m ρ c (Proc.devRef .tc main_v34) := by host_kept hostOps2
    _ = W3 m ρ c (Proc.devRef .tc main_v34) := W4_of_ne m ρ c main_v34 (by decide)
    _ = W2 m ρ c (Proc.devRef .tc main_v34) := by host_kept hostOps1
    _ = W1 m ρ c (Proc.devRef .tc main_v34) := W2_of_ne m ρ c main_v34 (by decide)

theorem walk_v34_14_1 (c : Dev nD) : W14 m ρ c (Proc.devRef .tc main_v34) = W1 m ρ c (Proc.devRef .tc main_v34) :=
  calc W14 m ρ c (Proc.devRef .tc main_v34)
    _ = W13 m ρ c (Proc.devRef .tc main_v34) := W14_of_ne m ρ c main_v34 (by decide)
    _ = W12 m ρ c (Proc.devRef .tc main_v34) := by host_kept hostOps6
    _ = W11 m ρ c (Proc.devRef .tc main_v34) := W12_of_ne m ρ c main_v34 (by decide)
    _ = W10 m ρ c (Proc.devRef .tc main_v34) := by host_kept hostOps5
    _ = W9 m ρ c (Proc.devRef .tc main_v34) := W10_of_ne m ρ c main_v34 (by decide)
    _ = W8 m ρ c (Proc.devRef .tc main_v34) := by host_kept hostOps4
    _ = W7 m ρ c (Proc.devRef .tc main_v34) := W8_of_ne m ρ c main_v34 (by decide)
    _ = W6 m ρ c (Proc.devRef .tc main_v34) := by host_kept hostOps3
    _ = W5 m ρ c (Proc.devRef .tc main_v34) := W6_of_ne m ρ c main_v34 (by decide)
    _ = W4 m ρ c (Proc.devRef .tc main_v34) := by host_kept hostOps2
    _ = W3 m ρ c (Proc.devRef .tc main_v34) := W4_of_ne m ρ c main_v34 (by decide)
    _ = W2 m ρ c (Proc.devRef .tc main_v34) := by host_kept hostOps1
    _ = W1 m ρ c (Proc.devRef .tc main_v34) := W2_of_ne m ρ c main_v34 (by decide)

theorem walk_v37_4_1 (c : Dev nD) : W4 m ρ c (Proc.devRef .tc main_v37) = W1 m ρ c (Proc.devRef .tc main_v37) :=
  calc W4 m ρ c (Proc.devRef .tc main_v37)
    _ = W3 m ρ c (Proc.devRef .tc main_v37) := W4_of_ne m ρ c main_v37 (by decide)
    _ = W2 m ρ c (Proc.devRef .tc main_v37) := by host_kept hostOps1
    _ = W1 m ρ c (Proc.devRef .tc main_v37) := W2_of_ne m ρ c main_v37 (by decide)

theorem walk_v37_8_1 (c : Dev nD) : W8 m ρ c (Proc.devRef .tc main_v37) = W1 m ρ c (Proc.devRef .tc main_v37) :=
  calc W8 m ρ c (Proc.devRef .tc main_v37)
    _ = W7 m ρ c (Proc.devRef .tc main_v37) := W8_of_ne m ρ c main_v37 (by decide)
    _ = W6 m ρ c (Proc.devRef .tc main_v37) := by host_kept hostOps3
    _ = W5 m ρ c (Proc.devRef .tc main_v37) := W6_of_ne m ρ c main_v37 (by decide)
    _ = W4 m ρ c (Proc.devRef .tc main_v37) := by host_kept hostOps2
    _ = W3 m ρ c (Proc.devRef .tc main_v37) := W4_of_ne m ρ c main_v37 (by decide)
    _ = W2 m ρ c (Proc.devRef .tc main_v37) := by host_kept hostOps1
    _ = W1 m ρ c (Proc.devRef .tc main_v37) := W2_of_ne m ρ c main_v37 (by decide)

theorem walk_v37_12_1 (c : Dev nD) : W12 m ρ c (Proc.devRef .tc main_v37) = W1 m ρ c (Proc.devRef .tc main_v37) :=
  calc W12 m ρ c (Proc.devRef .tc main_v37)
    _ = W11 m ρ c (Proc.devRef .tc main_v37) := W12_of_ne m ρ c main_v37 (by decide)
    _ = W10 m ρ c (Proc.devRef .tc main_v37) := by host_kept hostOps5
    _ = W9 m ρ c (Proc.devRef .tc main_v37) := W10_of_ne m ρ c main_v37 (by decide)
    _ = W8 m ρ c (Proc.devRef .tc main_v37) := by host_kept hostOps4
    _ = W7 m ρ c (Proc.devRef .tc main_v37) := W8_of_ne m ρ c main_v37 (by decide)
    _ = W6 m ρ c (Proc.devRef .tc main_v37) := by host_kept hostOps3
    _ = W5 m ρ c (Proc.devRef .tc main_v37) := W6_of_ne m ρ c main_v37 (by decide)
    _ = W4 m ρ c (Proc.devRef .tc main_v37) := by host_kept hostOps2
    _ = W3 m ρ c (Proc.devRef .tc main_v37) := W4_of_ne m ρ c main_v37 (by decide)
    _ = W2 m ρ c (Proc.devRef .tc main_v37) := by host_kept hostOps1
    _ = W1 m ρ c (Proc.devRef .tc main_v37) := W2_of_ne m ρ c main_v37 (by decide)

theorem walk_v56_5_4 (c : Dev nD) : W5 m ρ c (Proc.devRef .tc main_v56) = W4 m ρ c (Proc.devRef .tc main_v56) :=
  calc W5 m ρ c (Proc.devRef .tc main_v56)
    _ = W4 m ρ c (Proc.devRef .tc main_v56) := by host_kept hostOps2

theorem walk_v56_11_4 (c : Dev nD) : W11 m ρ c (Proc.devRef .tc main_v56) = W4 m ρ c (Proc.devRef .tc main_v56) :=
  calc W11 m ρ c (Proc.devRef .tc main_v56)
    _ = W10 m ρ c (Proc.devRef .tc main_v56) := by host_kept hostOps5
    _ = W9 m ρ c (Proc.devRef .tc main_v56) := W10_of_ne m ρ c main_v56 (by decide)
    _ = W8 m ρ c (Proc.devRef .tc main_v56) := by host_kept hostOps4
    _ = W7 m ρ c (Proc.devRef .tc main_v56) := W8_of_ne m ρ c main_v56 (by decide)
    _ = W6 m ρ c (Proc.devRef .tc main_v56) := by host_kept hostOps3
    _ = W5 m ρ c (Proc.devRef .tc main_v56) := (W6_arr m ρ c 0).trans (((dat2 (V5 m ρ) c).arrAt_in 0 rfl _).trans (A_eq2 (V5 m ρ) c 0))
    _ = W4 m ρ c (Proc.devRef .tc main_v56) := by host_kept hostOps2

theorem walk_v56_17_4 (c : Dev nD) : W17 m ρ c (Proc.devRef .tc main_v56) = W4 m ρ c (Proc.devRef .tc main_v56) :=
  calc W17 m ρ c (Proc.devRef .tc main_v56)
    _ = W16 m ρ c (Proc.devRef .tc main_v56) := by host_kept hostOps8
    _ = W15 m ρ c (Proc.devRef .tc main_v56) := W16_of_ne m ρ c main_v56 (by decide)
    _ = W14 m ρ c (Proc.devRef .tc main_v56) := by host_kept hostOps7
    _ = W13 m ρ c (Proc.devRef .tc main_v56) := W14_of_ne m ρ c main_v56 (by decide)
    _ = W12 m ρ c (Proc.devRef .tc main_v56) := by host_kept hostOps6
    _ = W11 m ρ c (Proc.devRef .tc main_v56) := (W12_arr m ρ c 2).trans (((dat5 (V11 m ρ) c).arrAt_in 2 rfl _).trans (A_eq5 (V11 m ρ) c 2))
    _ = W10 m ρ c (Proc.devRef .tc main_v56) := by host_kept hostOps5
    _ = W9 m ρ c (Proc.devRef .tc main_v56) := W10_of_ne m ρ c main_v56 (by decide)
    _ = W8 m ρ c (Proc.devRef .tc main_v56) := by host_kept hostOps4
    _ = W7 m ρ c (Proc.devRef .tc main_v56) := W8_of_ne m ρ c main_v56 (by decide)
    _ = W6 m ρ c (Proc.devRef .tc main_v56) := by host_kept hostOps3
    _ = W5 m ρ c (Proc.devRef .tc main_v56) := (W6_arr m ρ c 0).trans (((dat2 (V5 m ρ) c).arrAt_in 0 rfl _).trans (A_eq2 (V5 m ρ) c 0))
    _ = W4 m ρ c (Proc.devRef .tc main_v56) := by host_kept hostOps2

theorem walk_v75_9_8 (c : Dev nD) : W9 m ρ c (Proc.devRef .tc main_v75) = W8 m ρ c (Proc.devRef .tc main_v75) :=
  calc W9 m ρ c (Proc.devRef .tc main_v75)
    _ = W8 m ρ c (Proc.devRef .tc main_v75) := by host_kept hostOps4

theorem walk_v75_17_8 (c : Dev nD) : W17 m ρ c (Proc.devRef .tc main_v75) = W8 m ρ c (Proc.devRef .tc main_v75) :=
  calc W17 m ρ c (Proc.devRef .tc main_v75)
    _ = W16 m ρ c (Proc.devRef .tc main_v75) := by host_kept hostOps8
    _ = W15 m ρ c (Proc.devRef .tc main_v75) := W16_of_ne m ρ c main_v75 (by decide)
    _ = W14 m ρ c (Proc.devRef .tc main_v75) := by host_kept hostOps7
    _ = W13 m ρ c (Proc.devRef .tc main_v75) := W14_of_ne m ρ c main_v75 (by decide)
    _ = W12 m ρ c (Proc.devRef .tc main_v75) := by host_kept hostOps6
    _ = W11 m ρ c (Proc.devRef .tc main_v75) := W12_of_ne m ρ c main_v75 (by decide)
    _ = W10 m ρ c (Proc.devRef .tc main_v75) := by host_kept hostOps5
    _ = W9 m ρ c (Proc.devRef .tc main_v75) := (W10_arr m ρ c 0).trans (((dat4 (V9 m ρ) c).arrAt_in 0 rfl _).trans (A_eq4 (V9 m ρ) c 0))
    _ = W8 m ρ c (Proc.devRef .tc main_v75) := by host_kept hostOps4

theorem walk_v94_13_12 (c : Dev nD) : W13 m ρ c (Proc.devRef .tc main_v94) = W12 m ρ c (Proc.devRef .tc main_v94) :=
  calc W13 m ρ c (Proc.devRef .tc main_v94)
    _ = W12 m ρ c (Proc.devRef .tc main_v94) := by host_kept hostOps6

theorem walk_v94_17_12 (c : Dev nD) : W17 m ρ c (Proc.devRef .tc main_v94) = W12 m ρ c (Proc.devRef .tc main_v94) :=
  calc W17 m ρ c (Proc.devRef .tc main_v94)
    _ = W16 m ρ c (Proc.devRef .tc main_v94) := by host_kept hostOps8
    _ = W15 m ρ c (Proc.devRef .tc main_v94) := W16_of_ne m ρ c main_v94 (by decide)
    _ = W14 m ρ c (Proc.devRef .tc main_v94) := by host_kept hostOps7
    _ = W13 m ρ c (Proc.devRef .tc main_v94) := (W14_arr m ρ c 0).trans (((dat6 (V13 m ρ) c).arrAt_in 0 rfl _).trans (A_eq6 (V13 m ρ) c 0))
    _ = W12 m ρ c (Proc.devRef .tc main_v94) := by host_kept hostOps6

theorem walk_v113_17_16 (c : Dev nD) : W17 m ρ c (Proc.devRef .tc main_v113) = W16 m ρ c (Proc.devRef .tc main_v113) :=
  calc W17 m ρ c (Proc.devRef .tc main_v113)
    _ = W16 m ρ c (Proc.devRef .tc main_v113) := by host_kept hostOps8

theorem walk_arg0_21_1 (c : Dev nD) : W21 m ρ c (Proc.devRef .tc main_arg0) = W1 m ρ c (Proc.devRef .tc main_arg0) :=
  calc W21 m ρ c (Proc.devRef .tc main_arg0)
    _ = W20 m ρ c (Proc.devRef .tc main_arg0) := by host_kept hostOps10
    _ = W19 m ρ c (Proc.devRef .tc main_arg0) := W20_of_ne m ρ c main_arg0 (by decide)
    _ = W18 m ρ c (Proc.devRef .tc main_arg0) := by host_kept hostOps9
    _ = W17 m ρ c (Proc.devRef .tc main_arg0) := W18_of_ne m ρ c main_arg0 (by decide)
    _ = W16 m ρ c (Proc.devRef .tc main_arg0) := by host_kept hostOps8
    _ = W15 m ρ c (Proc.devRef .tc main_arg0) := W16_of_ne m ρ c main_arg0 (by decide)
    _ = W14 m ρ c (Proc.devRef .tc main_arg0) := by host_kept hostOps7
    _ = W13 m ρ c (Proc.devRef .tc main_arg0) := W14_of_ne m ρ c main_arg0 (by decide)
    _ = W12 m ρ c (Proc.devRef .tc main_arg0) := by host_kept hostOps6
    _ = W11 m ρ c (Proc.devRef .tc main_arg0) := W12_of_ne m ρ c main_arg0 (by decide)
    _ = W10 m ρ c (Proc.devRef .tc main_arg0) := by host_kept hostOps5
    _ = W9 m ρ c (Proc.devRef .tc main_arg0) := W10_of_ne m ρ c main_arg0 (by decide)
    _ = W8 m ρ c (Proc.devRef .tc main_arg0) := by host_kept hostOps4
    _ = W7 m ρ c (Proc.devRef .tc main_arg0) := W8_of_ne m ρ c main_arg0 (by decide)
    _ = W6 m ρ c (Proc.devRef .tc main_arg0) := by host_kept hostOps3
    _ = W5 m ρ c (Proc.devRef .tc main_arg0) := W6_of_ne m ρ c main_arg0 (by decide)
    _ = W4 m ρ c (Proc.devRef .tc main_arg0) := by host_kept hostOps2
    _ = W3 m ρ c (Proc.devRef .tc main_arg0) := W4_of_ne m ρ c main_arg0 (by decide)
    _ = W2 m ρ c (Proc.devRef .tc main_arg0) := by host_kept hostOps1
    _ = W1 m ρ c (Proc.devRef .tc main_arg0) := (W2_arr m ρ c 0).trans (((dat0 (V1 m ρ) c).arrAt_in 0 rfl _).trans (A_eq0 (V1 m ρ) c 0))
theorem W1_arg0 (c : Dev nD) : W1 m ρ c (Proc.devRef .tc main_arg0) = m ((c : Thread nD τ).loc main_arg0) :=
  (walk_arg0_21_1 m ρ c).symm.trans (W21_main_arg0 m ρ c)

theorem walk_arg9_21_16 (c : Dev nD) : W21 m ρ c (Proc.devRef .tc main_arg9) = W16 m ρ c (Proc.devRef .tc main_arg9) :=
  calc W21 m ρ c (Proc.devRef .tc main_arg9)
    _ = W20 m ρ c (Proc.devRef .tc main_arg9) := by host_kept hostOps10
    _ = W19 m ρ c (Proc.devRef .tc main_arg9) := W20_of_ne m ρ c main_arg9 (by decide)
    _ = W18 m ρ c (Proc.devRef .tc main_arg9) := by host_kept hostOps9
    _ = W17 m ρ c (Proc.devRef .tc main_arg9) := W18_of_ne m ρ c main_arg9 (by decide)
    _ = W16 m ρ c (Proc.devRef .tc main_arg9) := by host_kept hostOps8
theorem W16_arg9 (c : Dev nD) : W16 m ρ c (Proc.devRef .tc main_arg9) = m ((c : Thread nD τ).loc main_arg9) :=
  (walk_arg9_21_16 m ρ c).symm.trans (W21_main_arg9 m ρ c)

theorem walk_arg10_21_16 (c : Dev nD) : W21 m ρ c (Proc.devRef .tc main_arg10) = W16 m ρ c (Proc.devRef .tc main_arg10) :=
  calc W21 m ρ c (Proc.devRef .tc main_arg10)
    _ = W20 m ρ c (Proc.devRef .tc main_arg10) := by host_kept hostOps10
    _ = W19 m ρ c (Proc.devRef .tc main_arg10) := W20_of_ne m ρ c main_arg10 (by decide)
    _ = W18 m ρ c (Proc.devRef .tc main_arg10) := by host_kept hostOps9
    _ = W17 m ρ c (Proc.devRef .tc main_arg10) := W18_of_ne m ρ c main_arg10 (by decide)
    _ = W16 m ρ c (Proc.devRef .tc main_arg10) := by host_kept hostOps8
theorem W16_arg10 (c : Dev nD) : W16 m ρ c (Proc.devRef .tc main_arg10) = m ((c : Thread nD τ).loc main_arg10) :=
  (walk_arg10_21_16 m ρ c).symm.trans (W21_main_arg10 m ρ c)

theorem walk_arg12_21_16 (c : Dev nD) : W21 m ρ c (Proc.devRef .tc main_arg12) = W16 m ρ c (Proc.devRef .tc main_arg12) :=
  calc W21 m ρ c (Proc.devRef .tc main_arg12)
    _ = W20 m ρ c (Proc.devRef .tc main_arg12) := by host_kept hostOps10
    _ = W19 m ρ c (Proc.devRef .tc main_arg12) := W20_of_ne m ρ c main_arg12 (by decide)
    _ = W18 m ρ c (Proc.devRef .tc main_arg12) := by host_kept hostOps9
    _ = W17 m ρ c (Proc.devRef .tc main_arg12) := W18_of_ne m ρ c main_arg12 (by decide)
    _ = W16 m ρ c (Proc.devRef .tc main_arg12) := by host_kept hostOps8
theorem W16_arg12 (c : Dev nD) : W16 m ρ c (Proc.devRef .tc main_arg12) = m ((c : Thread nD τ).loc main_arg12) :=
  (walk_arg12_21_16 m ρ c).symm.trans (W21_main_arg12 m ρ c)

theorem walk_arg11_21_17 (c : Dev nD) : W21 m ρ c (Proc.devRef .tc main_arg11) = W17 m ρ c (Proc.devRef .tc main_arg11) :=
  calc W21 m ρ c (Proc.devRef .tc main_arg11)
    _ = W20 m ρ c (Proc.devRef .tc main_arg11) := by host_kept hostOps10
    _ = W19 m ρ c (Proc.devRef .tc main_arg11) := W20_of_ne m ρ c main_arg11 (by decide)
    _ = W18 m ρ c (Proc.devRef .tc main_arg11) := by host_kept hostOps9
    _ = W17 m ρ c (Proc.devRef .tc main_arg11) := (W18_arr m ρ c 9).trans (((dat8 (V17 m ρ) c).arrAt_in 9 rfl _).trans (A_eq8 (V17 m ρ) c 9))
theorem W17_arg11 (c : Dev nD) : W17 m ρ c (Proc.devRef .tc main_arg11) = m ((c : Thread nD τ).loc main_arg11) :=
  (walk_arg11_21_17 m ρ c).symm.trans (W21_main_arg11 m ρ c)

theorem walk_arg2_21_18 (c : Dev nD) : W21 m ρ c (Proc.devRef .tc main_arg2) = W18 m ρ c (Proc.devRef .tc main_arg2) :=
  calc W21 m ρ c (Proc.devRef .tc main_arg2)
    _ = W20 m ρ c (Proc.devRef .tc main_arg2) := by host_kept hostOps10
    _ = W19 m ρ c (Proc.devRef .tc main_arg2) := W20_of_ne m ρ c main_arg2 (by decide)
    _ = W18 m ρ c (Proc.devRef .tc main_arg2) := by host_kept hostOps9
theorem W18_arg2 (c : Dev nD) : W18 m ρ c (Proc.devRef .tc main_arg2) = m ((c : Thread nD τ).loc main_arg2) :=
  (walk_arg2_21_18 m ρ c).symm.trans (W21_main_arg2 m ρ c)

theorem walk_arg14_21_18 (c : Dev nD) : W21 m ρ c (Proc.devRef .tc main_arg14) = W18 m ρ c (Proc.devRef .tc main_arg14) :=
  calc W21 m ρ c (Proc.devRef .tc main_arg14)
    _ = W20 m ρ c (Proc.devRef .tc main_arg14) := by host_kept hostOps10
    _ = W19 m ρ c (Proc.devRef .tc main_arg14) := W20_of_ne m ρ c main_arg14 (by decide)
    _ = W18 m ρ c (Proc.devRef .tc main_arg14) := by host_kept hostOps9
theorem W18_arg14 (c : Dev nD) : W18 m ρ c (Proc.devRef .tc main_arg14) = m ((c : Thread nD τ).loc main_arg14) :=
  (walk_arg14_21_18 m ρ c).symm.trans (W21_main_arg14 m ρ c)

theorem walk_arg16_21_18 (c : Dev nD) : W21 m ρ c (Proc.devRef .tc main_arg16) = W18 m ρ c (Proc.devRef .tc main_arg16) :=
  calc W21 m ρ c (Proc.devRef .tc main_arg16)
    _ = W20 m ρ c (Proc.devRef .tc main_arg16) := by host_kept hostOps10
    _ = W19 m ρ c (Proc.devRef .tc main_arg16) := W20_of_ne m ρ c main_arg16 (by decide)
    _ = W18 m ρ c (Proc.devRef .tc main_arg16) := by host_kept hostOps9
theorem W18_arg16 (c : Dev nD) : W18 m ρ c (Proc.devRef .tc main_arg16) = m ((c : Thread nD τ).loc main_arg16) :=
  (walk_arg16_21_18 m ρ c).symm.trans (W21_main_arg16 m ρ c)

theorem walk_arg13_21_19 (c : Dev nD) : W21 m ρ c (Proc.devRef .tc main_arg13) = W19 m ρ c (Proc.devRef .tc main_arg13) :=
  calc W21 m ρ c (Proc.devRef .tc main_arg13)
    _ = W20 m ρ c (Proc.devRef .tc main_arg13) := by host_kept hostOps10
    _ = W19 m ρ c (Proc.devRef .tc main_arg13) := (W20_arr m ρ c 1).trans (((dat9 (V19 m ρ) c).arrAt_in 1 rfl _).trans (A_eq9 (V19 m ρ) c 1))
theorem W19_arg13 (c : Dev nD) : W19 m ρ c (Proc.devRef .tc main_arg13) = m ((c : Thread nD τ).loc main_arg13) :=
  (walk_arg13_21_19 m ρ c).symm.trans (W21_main_arg13 m ρ c)

theorem walk_arg15_21_19 (c : Dev nD) : W21 m ρ c (Proc.devRef .tc main_arg15) = W19 m ρ c (Proc.devRef .tc main_arg15) :=
  calc W21 m ρ c (Proc.devRef .tc main_arg15)
    _ = W20 m ρ c (Proc.devRef .tc main_arg15) := by host_kept hostOps10
    _ = W19 m ρ c (Proc.devRef .tc main_arg15) := (W20_arr m ρ c 3).trans (((dat9 (V19 m ρ) c).arrAt_in 3 rfl _).trans (A_eq9 (V19 m ρ) c 3))
theorem W19_arg15 (c : Dev nD) : W19 m ρ c (Proc.devRef .tc main_arg15) = m ((c : Thread nD τ).loc main_arg15) :=
  (walk_arg15_21_19 m ρ c).symm.trans (W21_main_arg15 m ρ c)

end Cert.KernelIdeal.HandRun

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«127520_j50629074485391_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«127520_j50629074485391_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«127520_j50629074485391_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«127520_j50629074485391_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«127520_j50629074485391_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.RegionRowBcast.lean ====
/-
  A ONE-ROW ARRAY REPEATED ON EVERY ROW, at the ideal values.

  `bcastRow R b` is the array of `R` rows each of which is the one row of `b`: entry `(p, c)` is `b (0, c)`.  It is what
  adding a bias to every row of an array adds.  Two spellings of it occur in printed programs: on the vector unit the
  one-row array cast to itself and broadcast over the rows (`kbcast`), on the host the one-row array broadcast along
  both axes (`hbcast`).  A row of it does not depend on which row it is (`bcastRow_rows`).  No algebra is used.
-/
import proofs.«127520_j50629074485391_2_alg».proof.Proof.LibProdRows
import proofs.«127520_j50629074485391_2_alg».proof.Proof.LibRowBias

noncomputable section

namespace Cert.KernelIdeal.RowBcast

open Idealize.ShloMosaic Idealize.ShloMosaic.ValueIdx

/-- The one row of `b` on each of `R` rows: entry `(p, c)` is `b (0, c)`. -/
def bcastRow (R : ℕ) {C : ℕ} (b : (⟨2, ![1, C]⟩ : Shape).Idx → EReal) : (⟨2, ![R, C]⟩ : Shape).Idx → EReal :=
  fun i => b (ix2 (0 : Fin 1) (idxEquiv2 (n0 := R) (n1 := C) i).2)

theorem bcastRow_apply (R : ℕ) {C : ℕ} (b : (⟨2, ![1, C]⟩ : Shape).Idx → EReal) (p : Fin R) (c : Fin C) :
    bcastRow R b (ix2 p c) = b (ix2 (0 : Fin 1) c) := rfl

/-- Every row is the same row. -/
theorem bcastRow_rows (R R' : ℕ) {C : ℕ} (b : (⟨2, ![1, C]⟩ : Shape).Idx → EReal) (p : Fin R) (p' : Fin R') (c : Fin C) :
    bcastRow R b (ix2 p c) = bcastRow R' b (ix2 p' c) := rfl

/-- On the vector unit: a one-row array cast to itself and broadcast over the rows. -/
theorem kbcast {R C : ℕ} (v : FVec Ideal ⟨2, ![1, C]⟩ .f32)
    (hc : (⟨2, ![1, C]⟩ : Shape).ShapeCasts ⟨2, ![1, C]⟩) (hb : (⟨2, ![1, C]⟩ : Shape).Broadcasts ⟨2, ![R, C]⟩) :
    broadcastTo ⟨2, ![R, C]⟩ (shapeCast ⟨2, ![1, C]⟩ v hc) hb = bcastRow R v := by
  funext i
  obtain ⟨p, c, rfl⟩ : ∃ (p : Fin R) (c : Fin C), i = ix2 p c := ⟨i 0, i 1, eq_ix2 i⟩
  rw [shapeCast_self, broadcastTo_1b_ab_apply]
  rfl

/-- On the host: a one-row array broadcast along both axes. -/
theorem hbcast {R C : ℕ} (v : FVec Ideal ⟨2, ![1, C]⟩ .f32)
    (h2 : (⟨2, ![1, C]⟩ : Shape).BroadcastsInDim ⟨2, ![R, C]⟩ ![0, 1]) :
    broadcastInDim ⟨2, ![R, C]⟩ ![0, 1] h2 v = bcastRow R v := by
  funext i
  obtain ⟨p, c, rfl⟩ : ∃ (p : Fin R) (c : Fin C), i = ix2 p c := ⟨i 0, i 1, eq_ix2 i⟩
  refine (broadcastInDim_apply _ h2 v (ix2 p c) (ix2 (0 : Fin 1) c) fun ax => ?_).trans rfl
  match ax with
  | ⟨0, _⟩ => show 0 = if (1 : ℕ) = 1 then 0 else p.val; rw [if_pos rfl]
  | ⟨1, _⟩ =>
    show c.val = if C = 1 then 0 else c.val
    split
    · have := c.isLt; omega
    · rfl

end Cert.KernelIdeal.RowBcast

end
-- ==== Proof.KernelSpec.lean ====
/-
  WHAT THE KERNEL PROGRAM COMPUTES, layer by layer, as functions of the argument arrays.

  Before its first grid region the program folds the evaluation-mode batch norm into the convolution parameters, for all
  four layers at once:   s = γ · rsqrt (σ² + ε)   (shape [4, 64]),   b' = (b − μ) · s + β ,   w' = w · s  with s spread over
  the rows of each layer's weight.  A layer is then   relu (A (x · w'ᵢ) + b'ᵢ)   with  A  the weighted neighbourhood sum of
  the graph, the same operations as the reference's; layer 2 adds layer 0's output after its rectifier.
-/
import proofs.«127520_j50629074485391_2_alg».proof.KernelIdeal
import proofs.«127520_j50629074485391_2_alg».proof.Proof.Gen.KernelIdeal
import proofs.«127520_j50629074485391_2_alg».proof.Proof.RefRunStages
import proofs.«127520_j50629074485391_2_alg».proof.Proof.RegionRowBcast
import proofs.«127520_j50629074485391_2_alg».proof.Proof.LibProdRows
import proofs.«127520_j50629074485391_2_alg».proof.Proof.LibRowBias

noncomputable section

namespace Cert.KernelIdeal.Spec

open Cert.KernelIdeal Cert.KernelIdeal.Gen Idealize.ShloMosaic Idealize.ShloMosaic.ValueIdx
open Cert.ReferenceIdeal.HandRun (aggregate rowIdx colIdx edgeW matSlice0 matSlice1 matSlice2 matSlice3 vecSlice0 vecSlice1 vecSlice2 vecSlice3)
open Cert.KernelIdeal.RegionValue (prodArr)
open Cert.KernelIdeal.RowBcast (bcastRow)
open Cert.DenseRow (actArr)
open Cert.RowBias (zf)
open Cert.ProdRows (addArr)

section Folded
variable {F : FTy → Type} [FloatOps F]

/-- The batch norm's scale of every layer and channel: `γ · rsqrt (σ² + ε)`. -/
def scaleK (g var : (⟨S4x64, .f32⟩ : BufTy).Contents (Elt F)) : (⟨S4x64, .f32⟩ : BufTy).Contents (Elt F) :=
  mulf g (Host.rsqrt (addf var (broadcastInDim S4x64 ![] bcast_S_S4x64 (constant S_ .f32 0x3727C5AC#32))))

/-- The folded bias: `(b − μ) · s + β`. -/
def bFold (b g be mu var : (⟨S4x64, .f32⟩ : BufTy).Contents (Elt F)) : (⟨S4x64, .f32⟩ : BufTy).Contents (Elt F) :=
  addf (mulf (subf b mu) (scaleK g var)) be

/-- The folded weights: every row of layer `i`'s weight scaled channel by channel by layer `i`'s scale. -/
def wFold (w : (⟨S4x64x64, .f32⟩ : BufTy).Contents (Elt F)) (g var : (⟨S4x64, .f32⟩ : BufTy).Contents (Elt F)) :
    (⟨S4x64x64, .f32⟩ : BufTy).Contents (Elt F) :=
  mulf w (broadcastInDim S4x64x64 ![0, 1, 2] bcast_S4x1x64_S4x64x64_0_1_2 (broadcastInDim S4x1x64 ![0, 2] bcast_S4x64_S4x1x64_0_2 (scaleK g var)))

end Folded

/-- One folded layer: the rectifier of the neighbourhood sum of `x · w'` plus the folded bias on every row. -/
def kerLayer (wf : FVec Ideal S64x64 .f32) (bfv : FVec Ideal S64 .f32) (x : FVec Ideal S100000x64 .f32)
    (r c : IVec S3300000 32) (ew : FVec Ideal S3300000x1 .f32) : (⟨2, ![100000, 64]⟩ : Shape).Idx → EReal :=
  actArr zf (addArr (aggregate (F := Ideal) (prodArr x wf) r c ew) (bcastRow 100000 (shapeCast S1x64 bfv shapeCasts_S64_S1x64)))

/-- Layer 0's output. -/
def kerX1 (a0 : FVec Ideal S100000x64 .f32) (a1 : IVec S2x3200000 32) (a3 : FVec Ideal S4x64x64 .f32) (a4 a5 a6 a7 a8 : FVec Ideal S4x64 .f32) :
    (⟨2, ![100000, 64]⟩ : Shape).Idx → EReal :=
  kerLayer (matSlice0 (F := Ideal) (wFold a3 a5 a8)) (vecSlice0 (F := Ideal) (bFold a4 a5 a6 a7 a8)) a0
    (rowIdx (F := Ideal) a1) (colIdx (F := Ideal) a1) (edgeW (F := Ideal) (rowIdx (F := Ideal) a1) (colIdx (F := Ideal) a1))

/-- Layer 1's output. -/
def kerX2 (a0 : FVec Ideal S100000x64 .f32) (a1 : IVec S2x3200000 32) (a3 : FVec Ideal S4x64x64 .f32) (a4 a5 a6 a7 a8 : FVec Ideal S4x64 .f32) :
    (⟨2, ![100000, 64]⟩ : Shape).Idx → EReal :=
  kerLayer (matSlice1 (F := Ideal) (wFold a3 a5 a8)) (vecSlice1 (F := Ideal) (bFold a4 a5 a6 a7 a8)) (kerX1 a0 a1 a3 a4 a5 a6 a7 a8)
    (rowIdx (F := Ideal) a1) (colIdx (F := Ideal) a1) (edgeW (F := Ideal) (rowIdx (F := Ideal) a1) (colIdx (F := Ideal) a1))

/-- Layer 2's output: the folded layer on layer 1's output, plus layer 0's output. -/
def kerX3 (a0 : FVec Ideal S100000x64 .f32) (a1 : IVec S2x3200000 32) (a3 : FVec Ideal S4x64x64 .f32) (a4 a5 a6 a7 a8 : FVec Ideal S4x64 .f32) :
    (⟨2, ![100000, 64]⟩ : Shape).Idx → EReal :=
  addArr (kerLayer (matSlice2 (F := Ideal) (wFold a3 a5 a8)) (vecSlice2 (F := Ideal) (bFold a4 a5 a6 a7 a8)) (kerX2 a0 a1 a3 a4 a5 a6 a7 a8)
    (rowIdx (F := Ideal) a1) (colIdx (F := Ideal) a1) (edgeW (F := Ideal) (rowIdx (F := Ideal) a1) (colIdx (F := Ideal) a1)))
    (kerX1 a0 a1 a3 a4 a5 a6 a7 a8)

/-- Layer 3's output. -/
def kerX4 (a0 : FVec Ideal S100000x64 .f32) (a1 : IVec S2x3200000 32) (a3 : FVec Ideal S4x64x64 .f32) (a4 a5 a6 a7 a8 : FVec Ideal S4x64 .f32) :
    (⟨2, ![100000, 64]⟩ : Shape).Idx → EReal :=
  kerLayer (matSlice3 (F := Ideal) (wFold a3 a5 a8)) (vecSlice3 (F := Ideal) (bFold a4 a5 a6 a7 a8)) (kerX3 a0 a1 a3 a4 a5 a6 a7 a8)
    (rowIdx (F := Ideal) a1) (colIdx (F := Ideal) a1) (edgeW (F := Ideal) (rowIdx (F := Ideal) a1) (colIdx (F := Ideal) a1))

end Cert.KernelIdeal.Spec

end
-- ==== Proof.KernelValueHost.lean ====
/- The kernel program's stretches of host operations read at the buffers a later region or stretch reads, from
   any contents: the graph normalisation and the folded parameters before the first region, each layer's
   neighbourhood sum and bias row, the next layer's weight, the encoder's weight blocks and bias rows, the per-graph
   mean and the decoder's bias rows, and the final reshape. The same operations as the reference's, so the same
   functions. -/
import proofs.«127520_j50629074485391_2_alg».proof.Proof.KernelWalk
import proofs.«127520_j50629074485391_2_alg».proof.Proof.RefRunStages
import proofs.«127520_j50629074485391_2_alg».proof.Proof.KernelSpec

set_option maxRecDepth 16384

noncomputable section

namespace Cert.KernelIdeal.HandRun.Value

open Cert.KernelIdeal Cert.KernelIdeal.Gen
open Idealize.ShloMosaic Idealize.ShloMosaic.TcCoe Idealize.ShloMosaic.Tactic Idealize.SL.Sem
open Idealize.ShloMosaic.StableHlo (after)
open Cert.ReferenceIdeal.HandRun (rowIdx colIdx edgeW aggregate matSlice0 matSlice1 matSlice2 matSlice3 vecSlice0 vecSlice1 vecSlice2 vecSlice3 segMean)

variable {F : FTy → Type} [FloatOps F]

/-- Block `k` of 64 rows of the encoder's first weight (256 rows): what the encoder region reads against layer
    `k`'s output. -/
def chunk0 (w : (⟨S256x256, .f32⟩ : BufTy).Contents (Elt F)) : (⟨S64x256, .f32⟩ : BufTy).Contents (Elt F) :=
  shapeCast _ (extractStridedSlice S1x64x256 ![0, 0, 0] (shapeCast _ w shapeCasts_S256x256_S4x64x256) slices_S4x64x256_S1x64x256_0_0_0) shapeCasts_S1x64x256_S64x256
@[inherit_doc chunk0] def chunk1 (w : (⟨S256x256, .f32⟩ : BufTy).Contents (Elt F)) : (⟨S64x256, .f32⟩ : BufTy).Contents (Elt F) :=
  shapeCast _ (extractStridedSlice S1x64x256 ![1, 0, 0] (shapeCast _ w shapeCasts_S256x256_S4x64x256) slices_S4x64x256_S1x64x256_1_0_0) shapeCasts_S1x64x256_S64x256
@[inherit_doc chunk0] def chunk2 (w : (⟨S256x256, .f32⟩ : BufTy).Contents (Elt F)) : (⟨S64x256, .f32⟩ : BufTy).Contents (Elt F) :=
  shapeCast _ (extractStridedSlice S1x64x256 ![2, 0, 0] (shapeCast _ w shapeCasts_S256x256_S4x64x256) slices_S4x64x256_S1x64x256_2_0_0) shapeCasts_S1x64x256_S64x256
@[inherit_doc chunk0] def chunk3 (w : (⟨S256x256, .f32⟩ : BufTy).Contents (Elt F)) : (⟨S64x256, .f32⟩ : BufTy).Contents (Elt F) :=
  shapeCast _ (extractStridedSlice S1x64x256 ![3, 0, 0] (shapeCast _ w shapeCasts_S256x256_S4x64x256) slices_S4x64x256_S1x64x256_3_0_0) shapeCasts_S1x64x256_S64x256

variable (V : Valuation τ sig (Elt F))

/-! ## The graph normalisation (before the first region) -/

theorem host0_v3 : after hostOps0 V (Proc.devRef .tc main_v3) = rowIdx (F := F) (V (Proc.devRef .tc main_arg1)) := by
  after_results_simp <;> rfl

theorem host0_v6 : after hostOps0 V (Proc.devRef .tc main_v6) = colIdx (F := F) (V (Proc.devRef .tc main_arg1)) := by
  after_results_simp <;> rfl

theorem host0_v27 : after hostOps0 V (Proc.devRef .tc main_v27)
    = edgeW (F := F) (rowIdx (F := F) (V (Proc.devRef .tc main_arg1))) (colIdx (F := F) (V (Proc.devRef .tc main_arg1))) := by
  after_results_simp <;> rfl

/-! ## The folded parameters (before the first region) -/

theorem host0_v34 : after hostOps0 V (Proc.devRef .tc main_v34)
    = Cert.KernelIdeal.Spec.bFold (F := F) (V (Proc.devRef .tc main_arg4)) (V (Proc.devRef .tc main_arg5)) (V (Proc.devRef .tc main_arg6)) (V (Proc.devRef .tc main_arg7)) (V (Proc.devRef .tc main_arg8)) := by
  after_results_simp <;> rfl

theorem host0_v37 : after hostOps0 V (Proc.devRef .tc main_v37)
    = Cert.KernelIdeal.Spec.wFold (F := F) (V (Proc.devRef .tc main_arg3)) (V (Proc.devRef .tc main_arg5)) (V (Proc.devRef .tc main_arg8)) := by
  after_results_simp <;> rfl

theorem host0_v39 : after hostOps0 V (Proc.devRef .tc main_v39)
    = matSlice0 (F := F) (Cert.KernelIdeal.Spec.wFold (F := F) (V (Proc.devRef .tc main_arg3)) (V (Proc.devRef .tc main_arg5)) (V (Proc.devRef .tc main_arg8))) := by
  after_results_simp <;> rfl

/-! ## A layer's stretch: the neighbourhood sum of the product region's result, and the layer's bias as a row -/

set_option maxHeartbeats 2000000 in
theorem host1_v52 : after hostOps1 V (Proc.devRef .tc main_v52)
    = aggregate (F := F) (V (Proc.devRef .tc main_v40)) (V (Proc.devRef .tc main_v3)) (V (Proc.devRef .tc main_v6)) (V (Proc.devRef .tc main_v27)) := by
  after_results_simp <;> rfl

theorem host1_v55 : after hostOps1 V (Proc.devRef .tc main_v55)
    = shapeCast S1x64 (vecSlice0 (F := F) (V (Proc.devRef .tc main_v34))) shapeCasts_S64_S1x64 := by
  after_results <;> rfl

set_option maxHeartbeats 2000000 in
theorem host3_v71 : after hostOps3 V (Proc.devRef .tc main_v71)
    = aggregate (F := F) (V (Proc.devRef .tc main_v59)) (V (Proc.devRef .tc main_v3)) (V (Proc.devRef .tc main_v6)) (V (Proc.devRef .tc main_v27)) := by
  after_results_simp <;> rfl

theorem host3_v74 : after hostOps3 V (Proc.devRef .tc main_v74)
    = shapeCast S1x64 (vecSlice1 (F := F) (V (Proc.devRef .tc main_v34))) shapeCasts_S64_S1x64 := by
  after_results <;> rfl

set_option maxHeartbeats 2000000 in
theorem host5_v90 : after hostOps5 V (Proc.devRef .tc main_v90)
    = aggregate (F := F) (V (Proc.devRef .tc main_v78)) (V (Proc.devRef .tc main_v3)) (V (Proc.devRef .tc main_v6)) (V (Proc.devRef .tc main_v27)) := by
  after_results_simp <;> rfl

theorem host5_v93 : after hostOps5 V (Proc.devRef .tc main_v93)
    = shapeCast S1x64 (vecSlice2 (F := F) (V (Proc.devRef .tc main_v34))) shapeCasts_S64_S1x64 := by
  after_results <;> rfl

set_option maxHeartbeats 2000000 in
theorem host7_v109 : after hostOps7 V (Proc.devRef .tc main_v109)
    = aggregate (F := F) (V (Proc.devRef .tc main_v97)) (V (Proc.devRef .tc main_v3)) (V (Proc.devRef .tc main_v6)) (V (Proc.devRef .tc main_v27)) := by
  after_results_simp <;> rfl

theorem host7_v112 : after hostOps7 V (Proc.devRef .tc main_v112)
    = shapeCast S1x64 (vecSlice3 (F := F) (V (Proc.devRef .tc main_v34))) shapeCasts_S64_S1x64 := by
  after_results <;> rfl

/-! ## The next layer's weight out of the folded weights -/

theorem host2_v58 : after hostOps2 V (Proc.devRef .tc main_v58) = matSlice1 (F := F) (V (Proc.devRef .tc main_v37)) := by
  after_results <;> rfl

theorem host4_v77 : after hostOps4 V (Proc.devRef .tc main_v77) = matSlice2 (F := F) (V (Proc.devRef .tc main_v37)) := by
  after_results <;> rfl

theorem host6_v96 : after hostOps6 V (Proc.devRef .tc main_v96) = matSlice3 (F := F) (V (Proc.devRef .tc main_v37)) := by
  after_results <;> rfl

/-! ## Before the encoder region: the four blocks of its first weight and the two biases as rows -/

theorem host8_v116 : after hostOps8 V (Proc.devRef .tc main_v116) = chunk0 (F := F) (V (Proc.devRef .tc main_arg9)) := by
  after_results <;> rfl

theorem host8_v118 : after hostOps8 V (Proc.devRef .tc main_v118) = chunk1 (F := F) (V (Proc.devRef .tc main_arg9)) := by
  after_results <;> rfl

theorem host8_v120 : after hostOps8 V (Proc.devRef .tc main_v120) = chunk2 (F := F) (V (Proc.devRef .tc main_arg9)) := by
  after_results <;> rfl

theorem host8_v122 : after hostOps8 V (Proc.devRef .tc main_v122) = chunk3 (F := F) (V (Proc.devRef .tc main_arg9)) := by
  after_results <;> rfl

theorem host8_v123 : after hostOps8 V (Proc.devRef .tc main_v123) = shapeCast S1x256 (V (Proc.devRef .tc main_arg10)) shapeCasts_S256_S1x256 := by
  after_results <;> rfl

theorem host8_v124 : after hostOps8 V (Proc.devRef .tc main_v124) = shapeCast S1x128 (V (Proc.devRef .tc main_arg12)) shapeCasts_S128_S1x128 := by
  after_results <;> rfl

/-! ## Before the decoder region: the per-graph mean and the two biases as rows; after it: the result as a vector -/

theorem host9_v137 : after hostOps9 V (Proc.devRef .tc main_v137) = segMean (F := F) (V (Proc.devRef .tc main_arg2)) (V (Proc.devRef .tc main_v125)) := by
  after_results_simp <;> rfl

theorem host9_v138 : after hostOps9 V (Proc.devRef .tc main_v138) = shapeCast S1x64 (V (Proc.devRef .tc main_arg14)) shapeCasts_S64_S1x64 := by
  after_results <;> rfl

theorem host9_v139 : after hostOps9 V (Proc.devRef .tc main_v139) = shapeCast S1x1 (V (Proc.devRef .tc main_arg16)) shapeCasts_S1_S1x1 := by
  after_results <;> rfl

theorem host10_v141 : after hostOps10 V (Proc.devRef .tc main_v141) = shapeCast S64 (V (Proc.devRef .tc main_v140)) shapeCasts_S64x1_S64 := by
  after_results <;> rfl

end Cert.KernelIdeal.HandRun.Value

end
-- ==== Proof.RegionEncoder.lean ====
/-
  THE ENCODER REGION AS A WHOLE-ARRAY FUNCTION, at the ideal values.

  The region takes four tall arrays `x₀ … x₃` of 100000 rows and 64 columns, four weights `w₀ … w₃` (64 by 256), a
  one-row bias `b` (256 columns), a weight `u` (256 by 128) and a one-row bias `d` (128 columns), and computes, row by row,
  `h = max ((((x₀ · w₀ + x₁ · w₁) + x₂ · w₂) + x₃ · w₃) + b) 0` and then `max (h · u + d) 0`, the sums grouped as
  written.  The grid has 25 points; point `t` reads rows `4000 t … 4000 t + 3999` of each tall array and the whole of
  every other operand, and writes the same rows of the result.  Every step acts on each row by itself (a row of a
  product depends on the same row of its left operand only; sums, the bias and the rectifier act entry by entry), so a
  point's block is that block of rows of the function `enc` of the whole arrays (`enc_rows`), and the 25 blocks tile
  the result (row `r` lies in the block of point `r / 4000`).  No sum is regrouped and no algebra of the extended reals
  is used.
-/
import proofs.«127520_j50629074485391_2_alg».proof.Proof.Gen.KernelIdeal.Frame
import proofs.«127520_j50629074485391_2_alg».proof.Proof.RegionRowBcast
import Idealize.ShloMosaic.Lib.Pipeline.Value

noncomputable section

namespace Cert.KernelIdeal.RegionEncoder

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RegionValue (prodArr off2_zero)
open Cert.DenseRow (actArr actArr_rows)
open Cert.RowBias (zf kact)
open Cert.ProdRows (addArr addf_eq kprod prodArr_rows addArr_rows)
open Cert.KernelIdeal.RowBcast

/-- The two-layer encoder on `R` rows: the four products added in order, the first bias, the rectifier, the second
    product, the second bias, the rectifier. -/
def enc {R : ℕ} (x0 x1 x2 x3 : (⟨2, ![R, 64]⟩ : Shape).Idx → EReal) (w0 w1 w2 w3 : (⟨2, ![64, 256]⟩ : Shape).Idx → EReal)
    (b : (⟨2, ![1, 256]⟩ : Shape).Idx → EReal) (u : (⟨2, ![256, 128]⟩ : Shape).Idx → EReal)
    (d : (⟨2, ![1, 128]⟩ : Shape).Idx → EReal) : (⟨2, ![R, 128]⟩ : Shape).Idx → EReal :=
  actArr zf (addArr (prodArr (actArr zf (addArr (addArr (addArr (addArr (prodArr x0 w0) (prodArr x1 w1)) (prodArr x2 w2))
    (prodArr x3 w3)) (bcastRow R b))) u) (bcastRow R d))

/-- Row `p` of the encoder of a block is row `p'` of the encoder of the whole arrays when row `p` of each block is row
    `p'` of its array. -/
theorem enc_rows {R R' : ℕ} (x0 x1 x2 x3 : (⟨2, ![R, 64]⟩ : Shape).Idx → EReal)
    (X0 X1 X2 X3 : (⟨2, ![R', 64]⟩ : Shape).Idx → EReal) (w0 w1 w2 w3 : (⟨2, ![64, 256]⟩ : Shape).Idx → EReal)
    (b : (⟨2, ![1, 256]⟩ : Shape).Idx → EReal) (u : (⟨2, ![256, 128]⟩ : Shape).Idx → EReal)
    (d : (⟨2, ![1, 128]⟩ : Shape).Idx → EReal) (p : Fin R) (p' : Fin R')
    (h0 : ∀ k : Fin 64, x0 (ix2 p k) = X0 (ix2 p' k)) (h1 : ∀ k : Fin 64, x1 (ix2 p k) = X1 (ix2 p' k))
    (h2 : ∀ k : Fin 64, x2 (ix2 p k) = X2 (ix2 p' k)) (h3 : ∀ k : Fin 64, x3 (ix2 p k) = X3 (ix2 p' k)) (c : Fin 128) :
    enc x0 x1 x2 x3 w0 w1 w2 w3 b u d (ix2 p c) = enc X0 X1 X2 X3 w0 w1 w2 w3 b u d (ix2 p' c) := by
  have hh : ∀ k : Fin 256,
      actArr zf (addArr (addArr (addArr (addArr (prodArr x0 w0) (prodArr x1 w1)) (prodArr x2 w2)) (prodArr x3 w3)) (bcastRow R b)) (ix2 p k)
        = actArr zf (addArr (addArr (addArr (addArr (prodArr X0 w0) (prodArr X1 w1)) (prodArr X2 w2)) (prodArr X3 w3)) (bcastRow R' b)) (ix2 p' k) :=
    fun k => actArr_rows zf _ _ p p' (fun k => addArr_rows _ _ _ _ p p'
      (fun k => addArr_rows _ _ _ _ p p'
        (fun k => addArr_rows _ _ _ _ p p'
          (fun k => addArr_rows _ _ _ _ p p' (fun k => prodArr_rows x0 X0 w0 p p' h0 k) (fun k => prodArr_rows x1 X1 w1 p p' h1 k) k)
          (fun k => prodArr_rows x2 X2 w2 p p' h2 k) k)
        (fun k => prodArr_rows x3 X3 w3 p p' h3 k) k)
      (fun k => bcastRow_rows R R' b p p' k) k) k
  unfold enc
  exact actArr_rows zf _ _ p p' (fun k => addArr_rows _ _ _ _ p p' (fun k => prodArr_rows _ _ u p p' hh k)
    (fun k => bcastRow_rows R R' d p p' k) k) c

/-- The same at indices given by their coordinates' values: the output index `i` of the whole array is the block's output
    index `y` moved down by `off` rows, each block is its array read `off` rows down, the other operands are whole. -/
theorem enc_at (x0 x1 x2 x3 : FVec Ideal S4000x64 .f32) (X0 X1 X2 X3 : S100000x64.Idx → EReal)
    (w0 w1 w2 w3 : FVec Ideal S64x256 .f32) (W0 W1 W2 W3 : S64x256.Idx → EReal)
    (b : FVec Ideal S1x256 .f32) (B : S1x256.Idx → EReal) (u : FVec Ideal S256x128 .f32) (U : S256x128.Idx → EReal)
    (d : FVec Ideal S1x128 .f32) (D : S1x128.Idx → EReal) (off : ℕ)
    (y : S4000x128.Idx) (i : S100000x128.Idx) (hi0 : (i 0).val = off + (y 0).val) (hi1 : (i 1).val = (y 1).val)
    (h0 : ∀ (v : S4000x64.Idx) (z : S100000x64.Idx), (z 0).val = off + (v 0).val → (z 1).val = (v 1).val → (x0 v : EReal) = X0 z)
    (h1 : ∀ (v : S4000x64.Idx) (z : S100000x64.Idx), (z 0).val = off + (v 0).val → (z 1).val = (v 1).val → (x1 v : EReal) = X1 z)
    (h2 : ∀ (v : S4000x64.Idx) (z : S100000x64.Idx), (z 0).val = off + (v 0).val → (z 1).val = (v 1).val → (x2 v : EReal) = X2 z)
    (h3 : ∀ (v : S4000x64.Idx) (z : S100000x64.Idx), (z 0).val = off + (v 0).val → (z 1).val = (v 1).val → (x3 v : EReal) = X3 z)
    (hw0 : ∀ v, (w0 v : EReal) = W0 v) (hw1 : ∀ v, (w1 v : EReal) = W1 v) (hw2 : ∀ v, (w2 v : EReal) = W2 v)
    (hw3 : ∀ v, (w3 v : EReal) = W3 v) (hb : ∀ v, (b v : EReal) = B v) (hu : ∀ v, (u v : EReal) = U v)
    (hd : ∀ v, (d v : EReal) = D v) :
    enc (R := 4000) x0 x1 x2 x3 w0 w1 w2 w3 b u d y = enc (R := 100000) X0 X1 X2 X3 W0 W1 W2 W3 B U D i := by
  obtain rfl : (w0 : S64x256.Idx → EReal) = W0 := funext hw0
  obtain rfl : (w1 : S64x256.Idx → EReal) = W1 := funext hw1
  obtain rfl : (w2 : S64x256.Idx → EReal) = W2 := funext hw2
  obtain rfl : (w3 : S64x256.Idx → EReal) = W3 := funext hw3
  obtain rfl : (b : S1x256.Idx → EReal) = B := funext hb
  obtain rfl : (u : S256x128.Idx → EReal) = U := funext hu
  obtain rfl : (d : S1x128.Idx → EReal) = D := funext hd
  obtain ⟨p, c, rfl⟩ : ∃ (p : Fin 4000) (c : Fin 128), y = ix2 p c := ⟨y 0, y 1, eq_ix2 y⟩
  obtain ⟨p', c', rfl⟩ : ∃ (p' : Fin 100000) (c' : Fin 128), i = ix2 p' c' := ⟨i 0, i 1, eq_ix2 i⟩
  obtain rfl : c' = c := Fin.ext hi1
  exact enc_rows x0 x1 x2 x3 X0 X1 X2 X3 w0 w1 w2 w3 b u d p p'
    (fun k => h0 (ix2 p k) (ix2 p' k) hi0 rfl) (fun k => h1 (ix2 p k) (ix2 p' k) hi0 rfl)
    (fun k => h2 (ix2 p k) (ix2 p' k) hi0 rfl) (fun k => h3 (ix2 p k) (ix2 p' k) hi0 rfl) c'

/-- The body as one function of its eleven loaded arrays. -/
theorem body_eq (x0 x1 x2 x3 : FVec Ideal S4000x64 .f32) (w0 w1 w2 w3 : FVec Ideal S64x256 .f32)
    (b : FVec Ideal S1x256 .f32) (u : FVec Ideal S256x128 .f32) (d : FVec Ideal S1x128 .f32) :
    maximumf (addf (matmul (DotDims.plain 4000 256 128) none
        (maximumf (addf (addf (addf (addf
            (matmul (DotDims.plain 4000 64 256) none (shapeCast S4000x64 x0 shapeCasts_S4000x64_S4000x64)
              (shapeCast S64x256 w0 shapeCasts_S64x256_S64x256) (constant S4000x256 .f32 0x00000000#32))
            (matmul (DotDims.plain 4000 64 256) none (shapeCast S4000x64 x1 shapeCasts_S4000x64_S4000x64)
              (shapeCast S64x256 w1 shapeCasts_S64x256_S64x256) (constant S4000x256 .f32 0x00000000#32)))
            (matmul (DotDims.plain 4000 64 256) none (shapeCast S4000x64 x2 shapeCasts_S4000x64_S4000x64)
              (shapeCast S64x256 w2 shapeCasts_S64x256_S64x256) (constant S4000x256 .f32 0x00000000#32)))
            (matmul (DotDims.plain 4000 64 256) none (shapeCast S4000x64 x3 shapeCasts_S4000x64_S4000x64)
              (shapeCast S64x256 w3 shapeCasts_S64x256_S64x256) (constant S4000x256 .f32 0x00000000#32)))
            (broadcastTo S4000x256 (shapeCast S1x256 b shapeCasts_S1x256_S1x256) broadcasts_S1x256_S4000x256))
          (broadcast S4000x256 (Scalar.ofBits (F := Ideal) .f32 0x00000000#32)))
        u (constant S4000x128 .f32 0x00000000#32))
        (broadcastTo S4000x128 (shapeCast S1x128 d shapeCasts_S1x128_S1x128) broadcasts_S1x128_S4000x128))
      (broadcast S4000x128 (Scalar.ofBits (F := Ideal) .f32 0x00000000#32))
      = enc (R := 4000) x0 x1 x2 x3 w0 w1 w2 w3 b u d := by
  rw [shapeCast_self x0, shapeCast_self x1, shapeCast_self x2, shapeCast_self x3, shapeCast_self w0, shapeCast_self w1,
    shapeCast_self w2, shapeCast_self w3, kbcast, kbcast, kprod, kprod, kprod, kprod, kprod]
  rfl

theorem pay8 (x0 x1 x2 x3 : Vec Ideal S4000x64 .f32) (w0 w1 w2 w3 : Vec Ideal S64x256 .f32)
    (b : Vec Ideal S1x256 .f32) (u : Vec Ideal S256x128 .f32) (d : Vec Ideal S1x128 .f32) :
    k8_pay1 (k8_pay2 x0 w0 x1 w1 x2 w2 x3 w3 b u) d = enc (R := 4000) x0 x1 x2 x3 w0 w1 w2 w3 b u d :=
  body_eq x0 x1 x2 x3 w0 w1 w2 w3 b u d

variable (V : (c : Dev nD) → (b : Ref sig .tc) → Buf (Elt Ideal) ((c : Thread nD τ).loc b))

/-- The printed index maps over the grid: the four tall operands and the result move one block of rows per point, every
    other operand stays. -/
theorem idx8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0 :=
  (by decide +kernel : ∀ t : Fin grid8.N, _)
theorem idxo8 : ∀ t : Fin cfg8.N, win8_11.index t (0 : Fin 2) = t.val ∧ win8_11.index t (1 : Fin 2) = 0 :=
  (by decide +kernel : ∀ t : Fin grid8.N, _)

set_option maxHeartbeats 2000000 in
/-- What point `t` writes back is block `t` of the encoder of the eleven arrays as the region finds them. -/
theorem flushed8 (c : Dev nD) (t : Fin cfg8.N) :
    (dat8 (F := Ideal) V c).flushed 11 t = ((cfg8.win 11).blk t).view.read (Elt Ideal)
      (enc (R := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (V c (Pipeline.arrRef spec8 6)) (V c (Pipeline.arrRef spec8 7)) (V c (Pipeline.arrRef spec8 8))
        (V c (Pipeline.arrRef spec8 9)) (V c (Pipeline.arrRef spec8 10))) := by
  show (cfg8.win 11).cut (grid8.coords t) ((dat8 V c).after 11 t) = _
  rw [after8_11]
  unfold out8_11
  rw [View.canon_unit_zero off2_zero]
  simp only [View.ld_unit_zero (S := S4000x64) off2_zero, View.ld_unit_zero (S := S64x256) off2_zero,
    View.ld_unit_zero (S := S1x256) off2_zero, View.ld_unit_zero (S := S256x128) off2_zero,
    View.ld_unit_zero (S := S1x128) off2_zero]
  rw [pay8]
  obtain ⟨e00, e01, e10, e11, e20, e21, e30, e31, e40, e41, e50, e51, e60, e61, e70, e71, e80, e81, e90, e91, e100, e101⟩ := idx8 t
  obtain ⟨eo0, eo1⟩ := idxo8 t
  funext j
  show enc (R := 4000) (iblk8 V c 0 t) (iblk8 V c 1 t) (iblk8 V c 2 t) (iblk8 V c 3 t) (iblk8 V c 4 t) (iblk8 V c 5 t)
      (iblk8 V c 6 t) (iblk8 V c 7 t) (iblk8 V c 8 t) (iblk8 V c 9 t) (iblk8 V c 10 t) j
    = enc (R := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (V c (Pipeline.arrRef spec8 6)) (V c (Pipeline.arrRef spec8 7)) (V c (Pipeline.arrRef spec8 8))
        (V c (Pipeline.arrRef spec8 9)) (V c (Pipeline.arrRef spec8 10)) (((cfg8.win 11).blk t).view.emb j)
  refine enc_at (iblk8 V c 0 t) (iblk8 V c 1 t) (iblk8 V c 2 t) (iblk8 V c 3 t)
    (V c (Pipeline.arrRef spec8 0)) (V c (Pipeline.arrRef spec8 1)) (V c (Pipeline.arrRef spec8 2)) (V c (Pipeline.arrRef spec8 3))
    (iblk8 V c 4 t) (iblk8 V c 5 t) (iblk8 V c 6 t) (iblk8 V c 7 t)
    (V c (Pipeline.arrRef spec8 4)) (V c (Pipeline.arrRef spec8 5)) (V c (Pipeline.arrRef spec8 6)) (V c (Pipeline.arrRef spec8 7))
    (iblk8 V c 8 t) (V c (Pipeline.arrRef spec8 8)) (iblk8 V c 9 t) (V c (Pipeline.arrRef spec8 9))
    (iblk8 V c 10 t) (V c (Pipeline.arrRef spec8 10)) (t.val * 4000) j (((cfg8.win 11).blk t).view.emb j)
    ?_ ?_ ?_ ?_ ?_ ?_ ?_ ?_ ?_ ?_ ?_ ?_ ?_
  · show win8_11.index t (0 : Fin 2) * 4000 + 1 * (j 0).val = _
    rw [eo0]; omega
  · show win8_11.index t (1 : Fin 2) * 128 + 1 * (j 1).val = _
    rw [eo1]; omega
  · intro u z h0 h1
    unfold iblk8
    rw [View.read_apply]
    show V c (Pipeline.arrRef spec8 0) (((cfg8.win 0).blk t).view.emb u) = V c (Pipeline.arrRef spec8 0) z
    congr 1
    funext a
    apply Fin.ext
    match a with
    | ⟨0, _⟩ => show win8_0.index t (0 : Fin 2) * 4000 + 1 * (u 0).val = (z 0).val; rw [e00, h0]; omega
    | ⟨1, _⟩ => show win8_0.index t (1 : Fin 2) * 64 + 1 * (u 1).val = (z 1).val; rw [e01, h1]; omega
  · intro u z h0 h1
    unfold iblk8
    rw [View.read_apply]
    show V c (Pipeline.arrRef spec8 1) (((cfg8.win 1).blk t).view.emb u) = V c (Pipeline.arrRef spec8 1) z
    congr 1
    funext a
    apply Fin.ext
    match a with
    | ⟨0, _⟩ => show win8_1.index t (0 : Fin 2) * 4000 + 1 * (u 0).val = (z 0).val; rw [e10, h0]; omega
    | ⟨1, _⟩ => show win8_1.index t (1 : Fin 2) * 64 + 1 * (u 1).val = (z 1).val; rw [e11, h1]; omega
  · intro u z h0 h1
    unfold iblk8
    rw [View.read_apply]
    show V c (Pipeline.arrRef spec8 2) (((cfg8.win 2).blk t).view.emb u) = V c (Pipeline.arrRef spec8 2) z
    congr 1
    funext a
    apply Fin.ext
    match a with
    | ⟨0, _⟩ => show win8_2.index t (0 : Fin 2) * 4000 + 1 * (u 0).val = (z 0).val; rw [e20, h0]; omega
    | ⟨1, _⟩ => show win8_2.index t (1 : Fin 2) * 64 + 1 * (u 1).val = (z 1).val; rw [e21, h1]; omega
  · intro u z h0 h1
    unfold iblk8
    rw [View.read_apply]
    show V c (Pipeline.arrRef spec8 3) (((cfg8.win 3).blk t).view.emb u) = V c (Pipeline.arrRef spec8 3) z
    congr 1
    funext a
    apply Fin.ext
    match a with
    | ⟨0, _⟩ => show win8_3.index t (0 : Fin 2) * 4000 + 1 * (u 0).val = (z 0).val; rw [e30, h0]; omega
    | ⟨1, _⟩ => show win8_3.index t (1 : Fin 2) * 64 + 1 * (u 1).val = (z 1).val; rw [e31, h1]; omega
  · unfold iblk8
    intro u
    rw [View.read_apply]
    show V c (Pipeline.arrRef spec8 4) (((cfg8.win 4).blk t).view.emb u) = V c (Pipeline.arrRef spec8 4) u
    congr 1
    funext a
    apply Fin.ext
    match a with
    | ⟨0, _⟩ => show win8_4.index t (0 : Fin 2) * 64 + 1 * (u 0).val = (u 0).val; rw [e40]; omega
    | ⟨1, _⟩ => show win8_4.index t (1 : Fin 2) * 256 + 1 * (u 1).val = (u 1).val; rw [e41]; omega
  · unfold iblk8
    intro u
    rw [View.read_apply]
    show V c (Pipeline.arrRef spec8 5) (((cfg8.win 5).blk t).view.emb u) = V c (Pipeline.arrRef spec8 5) u
    congr 1
    funext a
    apply Fin.ext
    match a with
    | ⟨0, _⟩ => show win8_5.index t (0 : Fin 2) * 64 + 1 * (u 0).val = (u 0).val; rw [e50]; omega
    | ⟨1, _⟩ => show win8_5.index t (1 : Fin 2) * 256 + 1 * (u 1).val = (u 1).val; rw [e51]; omega
  · unfold iblk8
    intro u
    rw [View.read_apply]
    show V c (Pipeline.arrRef spec8 6) (((cfg8.win 6).blk t).view.emb u) = V c (Pipeline.arrRef spec8 6) u
    congr 1
    funext a
    apply Fin.ext
    match a with
    | ⟨0, _⟩ => show win8_6.index t (0 : Fin 2) * 64 + 1 * (u 0).val = (u 0).val; rw [e60]; omega
    | ⟨1, _⟩ => show win8_6.index t (1 : Fin 2) * 256 + 1 * (u 1).val = (u 1).val; rw [e61]; omega
  · unfold iblk8
    intro u
    rw [View.read_apply]
    show V c (Pipeline.arrRef spec8 7) (((cfg8.win 7).blk t).view.emb u) = V c (Pipeline.arrRef spec8 7) u
    congr 1
    funext a
    apply Fin.ext
    match a with
    | ⟨0, _⟩ => show win8_7.index t (0 : Fin 2) * 64 + 1 * (u 0).val = (u 0).val; rw [e70]; omega
    | ⟨1, _⟩ => show win8_7.index t (1 : Fin 2) * 256 + 1 * (u 1).val = (u 1).val; rw [e71]; omega
  · unfold iblk8
    intro u
    rw [View.read_apply]
    show V c (Pipeline.arrRef spec8 8) (((cfg8.win 8).blk t).view.emb u) = V c (Pipeline.arrRef spec8 8) u
    congr 1
    funext a
    apply Fin.ext
    match a with
    | ⟨0, _⟩ => show win8_8.index t (0 : Fin 2) * 1 + 1 * (u 0).val = (u 0).val; rw [e80]; omega
    | ⟨1, _⟩ => show win8_8.index t (1 : Fin 2) * 256 + 1 * (u 1).val = (u 1).val; rw [e81]; omega
  · unfold iblk8
    intro u
    rw [View.read_apply]
    show V c (Pipeline.arrRef spec8 9) (((cfg8.win 9).blk t).view.emb u) = V c (Pipeline.arrRef spec8 9) u
    congr 1
    funext a
    apply Fin.ext
    match a with
    | ⟨0, _⟩ => show win8_9.index t (0 : Fin 2) * 256 + 1 * (u 0).val = (u 0).val; rw [e90]; omega
    | ⟨1, _⟩ => show win8_9.index t (1 : Fin 2) * 128 + 1 * (u 1).val = (u 1).val; rw [e91]; omega
  · unfold iblk8
    intro u
    rw [View.read_apply]
    show V c (Pipeline.arrRef spec8 10) (((cfg8.win 10).blk t).view.emb u) = V c (Pipeline.arrRef spec8 10) u
    congr 1
    funext a
    apply Fin.ext
    match a with
    | ⟨0, _⟩ => show win8_10.index t (0 : Fin 2) * 1 + 1 * (u 0).val = (u 0).val; rw [e100]; omega
    | ⟨1, _⟩ => show win8_10.index t (1 : Fin 2) * 128 + 1 * (u 1).val = (u 1).val; rw [e101]; omega

/-- An index of the result is in point `t`'s block iff each coordinate is in the block's range on its axis. -/
theorem mem_blk8 (t : Fin cfg8.N) (i : S100000x128.Idx) :
    i ∈ ((cfg8.win 11).blk t).view.set ↔ ∀ a : Fin 2, win8_11.index t a * S4000x128.size a ≤ (i a).val
      ∧ (i a).val < win8_11.index t a * S4000x128.size a + S4000x128.size a := by
  show i ∈ ((View.whole main_v125).slice (win8_11.rect t)).set ↔ _
  rw [View.set_slice_whole, Rect.mem_set_unit]
  exact Iff.rfl

/-- Every row of the result lies in the block of the point `row / 4000`. -/
theorem cover8 (i : S100000x128.Idx) :
    ∃ t : Fin cfg8.N, (cfg8.win 11).flush t = true ∧ i ∈ ((cfg8.win 11).blk t).view.set := by
  have hi0 : (i 0).val < 100000 := (i 0).isLt
  have hi1 : (i 1).val < 128 := (i 1).isLt
  have hN : grid8.N = 25 := N_8
  let t : Fin cfg8.N := ⟨(i 0).val / 4000, by show _ < grid8.N; rw [hN]; omega⟩
  have e4 : win8_11.index t (0 : Fin 2) = (i 0).val / 4000 := (idxo8 t).1
  have e5 : win8_11.index t (1 : Fin 2) = 0 := (idxo8 t).2
  refine ⟨t, flush8_11 t, ?_⟩
  rw [mem_blk8]
  intro a
  match a with
  | ⟨0, _⟩ =>
    show win8_11.index t (0 : Fin 2) * 4000 ≤ (i 0).val ∧ (i 0).val < win8_11.index t (0 : Fin 2) * 4000 + 4000
    rw [e4]; omega
  | ⟨1, _⟩ =>
    show win8_11.index t (1 : Fin 2) * 128 ≤ (i 1).val ∧ (i 1).val < win8_11.index t (1 : Fin 2) * 128 + 128
    rw [e5]; omega

/-- The result array after the region: the encoder of the eleven arrays as the region finds them. -/
theorem final8 (c : Dev nD) :
    (dat8 (F := Ideal) V c).arrAt 11 cfg8.N
      = enc (R := 100000) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))
        (V c (Pipeline.arrRef spec8 6)) (V c (Pipeline.arrRef spec8 7)) (V c (Pipeline.arrRef spec8 8))
        (V c (Pipeline.arrRef spec8 9)) (V c (Pipeline.arrRef spec8 10)) :=
  (dat8 (F := Ideal) V c).arrAt_eq_of_cover 11 _ (fun t _ => flushed8 V c t) (cover8)

end Cert.KernelIdeal.RegionEncoder

end
-- ==== Proof.KernelValueDefs.lean ====
/- The kernel program's encoder output and result as functions of the argument arrays: the encoder region's function
   of the four layer outputs, the four blocks of its first weight and its biases as rows; then the decoder region's
   function of the per-graph mean of that, read as a vector. -/
import proofs.«127520_j50629074485391_2_alg».proof.Proof.KernelValueHost
import proofs.«127520_j50629074485391_2_alg».proof.Proof.RegionEncoder

noncomputable section

namespace Cert.KernelIdeal.HandRun.Value

open Cert.KernelIdeal Cert.KernelIdeal.Gen Idealize.ShloMosaic Idealize.ShloMosaic.ValueIdx
open Cert.ReferenceIdeal.HandRun (segMean)
open Cert.KernelIdeal.Spec (kerX1 kerX2 kerX3 kerX4)
open Cert.KernelIdeal.RegionEncoder (enc)
open Cert.KernelIdeal.RegionValue (prodArr)
open Cert.KernelIdeal.RowBcast (bcastRow)
open Cert.DenseRow (actArr)
open Cert.RowBias (zf)
open Cert.ProdRows (addArr)

/-- The encoder region's result: the two-layer encoder of the four layer outputs against the four blocks of the first
    weight, the first bias as a row, the second weight and the second bias as a row. -/
def kerH (a0 : FVec Ideal S100000x64 .f32) (a1 : IVec S2x3200000 32) (a3 : FVec Ideal S4x64x64 .f32) (a4 a5 a6 a7 a8 : FVec Ideal S4x64 .f32)
    (a9 : FVec Ideal S256x256 .f32) (a10 : FVec Ideal S256 .f32) (a11 : FVec Ideal S256x128 .f32) (a12 : FVec Ideal S128 .f32) : (⟨2, ![100000, 128]⟩ : Shape).Idx → EReal :=
  enc (R := 100000) (kerX1 a0 a1 a3 a4 a5 a6 a7 a8) (kerX2 a0 a1 a3 a4 a5 a6 a7 a8) (kerX3 a0 a1 a3 a4 a5 a6 a7 a8) (kerX4 a0 a1 a3 a4 a5 a6 a7 a8)
    (chunk0 (F := Ideal) a9) (chunk1 (F := Ideal) a9) (chunk2 (F := Ideal) a9) (chunk3 (F := Ideal) a9)
    (shapeCast S1x256 a10 shapeCasts_S256_S1x256) a11 (shapeCast S1x128 a12 shapeCasts_S128_S1x128)

/-- The program's result: the decoder region's function of the per-graph mean of the encoder output, its column read
    as a vector. -/
def kerOut (a0 : FVec Ideal S100000x64 .f32) (a1 : IVec S2x3200000 32) (a2 : IVec S100000 32) (a3 : FVec Ideal S4x64x64 .f32) (a4 a5 a6 a7 a8 : FVec Ideal S4x64 .f32)
    (a9 : FVec Ideal S256x256 .f32) (a10 : FVec Ideal S256 .f32) (a11 : FVec Ideal S256x128 .f32) (a12 : FVec Ideal S128 .f32) (a13 : FVec Ideal S128x64 .f32) (a14 : FVec Ideal S64 .f32) (a15 : FVec Ideal S64x1 .f32) (a16 : FVec Ideal S1 .f32) :
    FVec Ideal S64 .f32 :=
  shapeCast S64
    (addArr (s := S64x1) (prodArr (actArr zf (addArr (s := S64x64)
        (prodArr (segMean (F := Ideal) a2 (kerH a0 a1 a3 a4 a5 a6 a7 a8 a9 a10 a11 a12)) a13)
        (bcastRow 64 (shapeCast S1x64 a14 shapeCasts_S64_S1x64)))) a15)
      (bcastRow 64 (shapeCast S1x1 a16 shapeCasts_S1_S1x1)))
    shapeCasts_S64x1_S64

end Cert.KernelIdeal.HandRun.Value

end
-- ==== Proof.RegionMatmul.lean ====
/-
  THE FOUR PRODUCT REGIONS AS WHOLE-ARRAY FUNCTIONS, at the ideal values.

  Each of the four regions multiplies a tall array `x` of 100000 rows and 64 columns by a 64 by 64 weight `w`.  The grid has
  ten points; point `t` reads rows `10000 t … 10000 t + 9999` of `x` and the whole of `w`, and writes the same rows of
  the result.  Row `r` of a product depends on row `r` of the left operand only, so the block of rows a point writes is
  that block of rows of the product of the whole arrays; and the ten blocks tile the result (row `r` lies in the block
  of point `r / 10000`).  Hence the result array after the region is `prodArr x w`, entry `(r, c)` being
  `∑ k, x (r, k) · w (k, c)`, whatever the arrays hold when the region is entered.  The sums are compared term by term
  in the same order: no algebra of the extended reals is used and nothing needs to be finite.
-/
import proofs.«127520_j50629074485391_2_alg».proof.Proof.Gen.KernelIdeal.Frame
import proofs.«127520_j50629074485391_2_alg».proof.Proof.LibProdRows
import Idealize.ShloMosaic.Lib.Pipeline.Value

noncomputable section

namespace Cert.KernelIdeal.RegionMatmul

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RegionValue (prodArr prodArr_apply block_prod off2_zero)

/-- The body of a product region: the block of rows times the whole weight, into a zero accumulator. -/
def body (a : FVec Ideal S10000x64 .f32) (w : FVec Ideal S64x64 .f32) : FVec Ideal S10000x64 .f32 :=
  matmul dot_S10000x64_S64x64_S10000x64_1_0_0_1_n_n none a (shapeCast S64x64 w shapeCasts_S64x64_S64x64)
    (constant S10000x64 .f32 0x00000000#32)

theorem pay0 (a : Vec Ideal S10000x64 .f32) (w : Vec Ideal S64x64 .f32) : k0_pay1 a w = body a w := rfl
theorem pay2 (a : Vec Ideal S10000x64 .f32) (w : Vec Ideal S64x64 .f32) : k2_pay1 a w = body a w := by
  unfold k2_pay1 body; rw [shapeCast_self]
theorem pay4 (a : Vec Ideal S10000x64 .f32) (w : Vec Ideal S64x64 .f32) : k4_pay1 a w = body a w := by
  unfold k4_pay1 body; rw [shapeCast_self]
theorem pay6 (a : Vec Ideal S10000x64 .f32) (w : Vec Ideal S64x64 .f32) : k6_pay1 a w = body a w := by
  unfold k6_pay1 body; rw [shapeCast_self]

/-- Entry `y` of the body's product of a block is entry `i` of the whole product, when `i` is `y` moved down by
    `off` rows, the block is the tall array read `off` rows down, and the weight is whole. -/
theorem body_apply (a : FVec Ideal S10000x64 .f32) (w : FVec Ideal S64x64 .f32)
    (A : S100000x64.Idx → EReal) (W : S64x64.Idx → EReal) (off : ℕ)
    (y : S10000x64.Idx) (i : S100000x64.Idx)
    (hi0 : (i 0).val = off + (y 0).val) (hi1 : (i 1).val = (y 1).val)
    (ha : ∀ (u : S10000x64.Idx) (z : S100000x64.Idx), (z 0).val = off + (u 0).val → (z 1).val = (u 1).val → (a u : EReal) = A z)
    (hw : ∀ u : S64x64.Idx, (w u : EReal) = W u) :
    (body a w y : EReal) = prodArr A W i := by
  unfold body
  rw [shapeCast_self]
  exact block_prod (R := 10000) (R' := 100000) (K := 64) (N := 64) none a w A W off y i hi0 hi1 ha hw

variable (V : (c : Dev nD) → (b : Ref sig .tc) → Buf (Elt Ideal) ((c : Thread nD τ).loc b))

/-! ## Region 0 -/

/-- The printed index maps over the grid: the tall operand and the result move one block of rows per point, the weight
    stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 1000000 in
/-- What point `t` writes back is block `t` of the product of the two arrays as the region finds them. -/
theorem flushed0 (c : Dev nD) (t : Fin cfg0.N) :
    (dat0 (F := Ideal) V c).flushed 2 t = ((cfg0.win 2).blk t).view.read (Elt Ideal)
      (prodArr (V c (Pipeline.arrRef spec0 0)) (V c (Pipeline.arrRef spec0 1))) := by
  show (cfg0.win 2).cut (grid0.coords t) ((dat0 V c).after 2 t) = _
  rw [after0_2]
  unfold out0_2
  rw [View.canon_unit_zero off2_zero]
  simp only [View.ld_unit_zero (S := S10000x64) off2_zero, View.ld_unit_zero (S := S64x64) off2_zero]
  rw [pay0]
  obtain ⟨e0, e1, e2, e3, e4, e5⟩ := idx0 t
  funext j
  show body (iblk0 V c 0 t) (iblk0 V c 1 t) j
    = prodArr (V c (Pipeline.arrRef spec0 0)) (V c (Pipeline.arrRef spec0 1)) (((cfg0.win 2).blk t).view.emb j)
  refine body_apply (iblk0 V c 0 t) (iblk0 V c 1 t) (V c (Pipeline.arrRef spec0 0)) (V c (Pipeline.arrRef spec0 1))
    (t.val * 10000) j (((cfg0.win 2).blk t).view.emb j) ?_ ?_ ?_ ?_
  · show win0_2.index t (0 : Fin 2) * 10000 + 1 * (j 0).val = _
    rw [e4]; omega
  · show win0_2.index t (1 : Fin 2) * 64 + 1 * (j 1).val = _
    rw [e5]; omega
  · intro u z h0 h1
    unfold iblk0
    rw [View.read_apply]
    show V c (Pipeline.arrRef spec0 0) _ = V c (Pipeline.arrRef spec0 0) z
    congr 1
    funext a
    apply Fin.ext
    match a with
    | ⟨0, _⟩ => show win0_0.index t (0 : Fin 2) * 10000 + 1 * (u 0).val = (z 0).val; rw [e0, h0]; omega
    | ⟨1, _⟩ => show win0_0.index t (1 : Fin 2) * 64 + 1 * (u 1).val = (z 1).val; rw [e1, h1]; omega
  · intro u
    unfold iblk0
    rw [View.read_apply]
    show V c (Pipeline.arrRef spec0 1) _ = V c (Pipeline.arrRef spec0 1) u
    congr 1
    funext a
    apply Fin.ext
    match a with
    | ⟨0, _⟩ => show win0_1.index t (0 : Fin 2) * 64 + 1 * (u 0).val = (u 0).val; rw [e2]; omega
    | ⟨1, _⟩ => show win0_1.index t (1 : Fin 2) * 64 + 1 * (u 1).val = (u 1).val; rw [e3]; omega

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v40).slice (win0_2.rect t)).set ↔ _
  rw [View.set_slice_whole, Rect.mem_set_unit]
  exact Iff.rfl

/-- Every row of the result lies in the block of the point `row / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  let t : Fin cfg0.N := ⟨(i 0).val / 10000, by show _ < grid0.N; rw [hN]; omega⟩
  obtain ⟨-, -, -, -, e4, e5⟩ := idx0 t
  have e4' : win0_2.index t (0 : Fin 2) = (i 0).val / 10000 := e4
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    rw [e4']; omega
  | ⟨1, _⟩ =>
    show win0_2.index t (1 : Fin 2) * 64 ≤ (i 1).val ∧ (i 1).val < win0_2.index t (1 : Fin 2) * 64 + 64
    rw [e5]; omega

/-- The result array after the region: the product of the two arrays as the region finds them. -/
theorem final0 (c : Dev nD) :
    (dat0 (F := Ideal) V c).arrAt 2 cfg0.N
      = prodArr (V c (Pipeline.arrRef spec0 0)) (V c (Pipeline.arrRef spec0 1)) :=
  (dat0 (F := Ideal) V c).arrAt_eq_of_cover 2 (prodArr (V c (Pipeline.arrRef spec0 0)) (V c (Pipeline.arrRef spec0 1)))
    (fun t _ => flushed0 V c t) (cover0)

/-! ## Region 2 -/

/-- The printed index maps over the grid: the tall operand and the result move one block of rows per point, the weight
    stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 1000000 in
/-- What point `t` writes back is block `t` of the product of the two arrays as the region finds them. -/
theorem flushed2 (c : Dev nD) (t : Fin cfg2.N) :
    (dat2 (F := Ideal) V c).flushed 2 t = ((cfg2.win 2).blk t).view.read (Elt Ideal)
      (prodArr (V c (Pipeline.arrRef spec2 0)) (V c (Pipeline.arrRef spec2 1))) := by
  show (cfg2.win 2).cut (grid2.coords t) ((dat2 V c).after 2 t) = _
  rw [after2_2]
  unfold out2_2
  rw [View.canon_unit_zero off2_zero]
  simp only [View.ld_unit_zero (S := S10000x64) off2_zero, View.ld_unit_zero (S := S64x64) off2_zero]
  rw [pay2]
  obtain ⟨e0, e1, e2, e3, e4, e5⟩ := idx2 t
  funext j
  show body (iblk2 V c 0 t) (iblk2 V c 1 t) j
    = prodArr (V c (Pipeline.arrRef spec2 0)) (V c (Pipeline.arrRef spec2 1)) (((cfg2.win 2).blk t).view.emb j)
  refine body_apply (iblk2 V c 0 t) (iblk2 V c 1 t) (V c (Pipeline.arrRef spec2 0)) (V c (Pipeline.arrRef spec2 1))
    (t.val * 10000) j (((cfg2.win 2).blk t).view.emb j) ?_ ?_ ?_ ?_
  · show win2_2.index t (0 : Fin 2) * 10000 + 1 * (j 0).val = _
    rw [e4]; omega
  · show win2_2.index t (1 : Fin 2) * 64 + 1 * (j 1).val = _
    rw [e5]; omega
  · intro u z h0 h1
    unfold iblk2
    rw [View.read_apply]
    show V c (Pipeline.arrRef spec2 0) _ = V c (Pipeline.arrRef spec2 0) z
    congr 1
    funext a
    apply Fin.ext
    match a with
    | ⟨0, _⟩ => show win2_0.index t (0 : Fin 2) * 10000 + 1 * (u 0).val = (z 0).val; rw [e0, h0]; omega
    | ⟨1, _⟩ => show win2_0.index t (1 : Fin 2) * 64 + 1 * (u 1).val = (z 1).val; rw [e1, h1]; omega
  · intro u
    unfold iblk2
    rw [View.read_apply]
    show V c (Pipeline.arrRef spec2 1) _ = V c (Pipeline.arrRef spec2 1) u
    congr 1
    funext a
    apply Fin.ext
    match a with
    | ⟨0, _⟩ => show win2_1.index t (0 : Fin 2) * 64 + 1 * (u 0).val = (u 0).val; rw [e2]; omega
    | ⟨1, _⟩ => show win2_1.index t (1 : Fin 2) * 64 + 1 * (u 1).val = (u 1).val; rw [e3]; omega

/-- An index of the result is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v59).slice (win2_2.rect t)).set ↔ _
  rw [View.set_slice_whole, Rect.mem_set_unit]
  exact Iff.rfl

/-- Every row of the result lies in the block of the point `row / 10000`. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  let t : Fin cfg2.N := ⟨(i 0).val / 10000, by show _ < grid2.N; rw [hN]; omega⟩
  obtain ⟨-, -, -, -, e4, e5⟩ := idx2 t
  have e4' : win2_2.index t (0 : Fin 2) = (i 0).val / 10000 := e4
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    rw [e4']; omega
  | ⟨1, _⟩ =>
    show win2_2.index t (1 : Fin 2) * 64 ≤ (i 1).val ∧ (i 1).val < win2_2.index t (1 : Fin 2) * 64 + 64
    rw [e5]; omega

/-- The result array after the region: the product of the two arrays as the region finds them. -/
theorem final2 (c : Dev nD) :
    (dat2 (F := Ideal) V c).arrAt 2 cfg2.N
      = prodArr (V c (Pipeline.arrRef spec2 0)) (V c (Pipeline.arrRef spec2 1)) :=
  (dat2 (F := Ideal) V c).arrAt_eq_of_cover 2 (prodArr (V c (Pipeline.arrRef spec2 0)) (V c (Pipeline.arrRef spec2 1)))
    (fun t _ => flushed2 V c t) (cover2)

/-! ## Region 4 -/

/-- The printed index maps over the grid: the tall operand and the result move one block of rows per point, the weight
    stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 1000000 in
/-- What point `t` writes back is block `t` of the product of the two arrays as the region finds them. -/
theorem flushed4 (c : Dev nD) (t : Fin cfg4.N) :
    (dat4 (F := Ideal) V c).flushed 2 t = ((cfg4.win 2).blk t).view.read (Elt Ideal)
      (prodArr (V c (Pipeline.arrRef spec4 0)) (V c (Pipeline.arrRef spec4 1))) := by
  show (cfg4.win 2).cut (grid4.coords t) ((dat4 V c).after 2 t) = _
  rw [after4_2]
  unfold out4_2
  rw [View.canon_unit_zero off2_zero]
  simp only [View.ld_unit_zero (S := S10000x64) off2_zero, View.ld_unit_zero (S := S64x64) off2_zero]
  rw [pay4]
  obtain ⟨e0, e1, e2, e3, e4, e5⟩ := idx4 t
  funext j
  show body (iblk4 V c 0 t) (iblk4 V c 1 t) j
    = prodArr (V c (Pipeline.arrRef spec4 0)) (V c (Pipeline.arrRef spec4 1)) (((cfg4.win 2).blk t).view.emb j)
  refine body_apply (iblk4 V c 0 t) (iblk4 V c 1 t) (V c (Pipeline.arrRef spec4 0)) (V c (Pipeline.arrRef spec4 1))
    (t.val * 10000) j (((cfg4.win 2).blk t).view.emb j) ?_ ?_ ?_ ?_
  · show win4_2.index t (0 : Fin 2) * 10000 + 1 * (j 0).val = _
    rw [e4]; omega
  · show win4_2.index t (1 : Fin 2) * 64 + 1 * (j 1).val = _
    rw [e5]; omega
  · intro u z h0 h1
    unfold iblk4
    rw [View.read_apply]
    show V c (Pipeline.arrRef spec4 0) _ = V c (Pipeline.arrRef spec4 0) z
    congr 1
    funext a
    apply Fin.ext
    match a with
    | ⟨0, _⟩ => show win4_0.index t (0 : Fin 2) * 10000 + 1 * (u 0).val = (z 0).val; rw [e0, h0]; omega
    | ⟨1, _⟩ => show win4_0.index t (1 : Fin 2) * 64 + 1 * (u 1).val = (z 1).val; rw [e1, h1]; omega
  · intro u
    unfold iblk4
    rw [View.read_apply]
    show V c (Pipeline.arrRef spec4 1) _ = V c (Pipeline.arrRef spec4 1) u
    congr 1
    funext a
    apply Fin.ext
    match a with
    | ⟨0, _⟩ => show win4_1.index t (0 : Fin 2) * 64 + 1 * (u 0).val = (u 0).val; rw [e2]; omega
    | ⟨1, _⟩ => show win4_1.index t (1 : Fin 2) * 64 + 1 * (u 1).val = (u 1).val; rw [e3]; omega

/-- An index of the result is in point `t`'s block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v78).slice (win4_2.rect t)).set ↔ _
  rw [View.set_slice_whole, Rect.mem_set_unit]
  exact Iff.rfl

/-- Every row of the result lies in the block of the point `row / 10000`. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 10 := N_4
  let t : Fin cfg4.N := ⟨(i 0).val / 10000, by show _ < grid4.N; rw [hN]; omega⟩
  obtain ⟨-, -, -, -, e4, e5⟩ := idx4 t
  have e4' : win4_2.index t (0 : Fin 2) = (i 0).val / 10000 := e4
  refine ⟨t, flush4_2 t, ?_⟩
  rw [mem_blk4]
  intro a
  match a with
  | ⟨0, _⟩ =>
    show win4_2.index t (0 : Fin 2) * 10000 ≤ (i 0).val ∧ (i 0).val < win4_2.index t (0 : Fin 2) * 10000 + 10000
    rw [e4']; omega
  | ⟨1, _⟩ =>
    show win4_2.index t (1 : Fin 2) * 64 ≤ (i 1).val ∧ (i 1).val < win4_2.index t (1 : Fin 2) * 64 + 64
    rw [e5]; omega

/-- The result array after the region: the product of the two arrays as the region finds them. -/
theorem final4 (c : Dev nD) :
    (dat4 (F := Ideal) V c).arrAt 2 cfg4.N
      = prodArr (V c (Pipeline.arrRef spec4 0)) (V c (Pipeline.arrRef spec4 1)) :=
  (dat4 (F := Ideal) V c).arrAt_eq_of_cover 2 (prodArr (V c (Pipeline.arrRef spec4 0)) (V c (Pipeline.arrRef spec4 1)))
    (fun t _ => flushed4 V c t) (cover4)

/-! ## Region 6 -/

/-- The printed index maps over the grid: the tall operand and the result move one block of rows per point, the weight
    stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

set_option maxHeartbeats 1000000 in
/-- What point `t` writes back is block `t` of the product of the two arrays as the region finds them. -/
theorem flushed6 (c : Dev nD) (t : Fin cfg6.N) :
    (dat6 (F := Ideal) V c).flushed 2 t = ((cfg6.win 2).blk t).view.read (Elt Ideal)
      (prodArr (V c (Pipeline.arrRef spec6 0)) (V c (Pipeline.arrRef spec6 1))) := by
  show (cfg6.win 2).cut (grid6.coords t) ((dat6 V c).after 2 t) = _
  rw [after6_2]
  unfold out6_2
  rw [View.canon_unit_zero off2_zero]
  simp only [View.ld_unit_zero (S := S10000x64) off2_zero, View.ld_unit_zero (S := S64x64) off2_zero]
  rw [pay6]
  obtain ⟨e0, e1, e2, e3, e4, e5⟩ := idx6 t
  funext j
  show body (iblk6 V c 0 t) (iblk6 V c 1 t) j
    = prodArr (V c (Pipeline.arrRef spec6 0)) (V c (Pipeline.arrRef spec6 1)) (((cfg6.win 2).blk t).view.emb j)
  refine body_apply (iblk6 V c 0 t) (iblk6 V c 1 t) (V c (Pipeline.arrRef spec6 0)) (V c (Pipeline.arrRef spec6 1))
    (t.val * 10000) j (((cfg6.win 2).blk t).view.emb j) ?_ ?_ ?_ ?_
  · show win6_2.index t (0 : Fin 2) * 10000 + 1 * (j 0).val = _
    rw [e4]; omega
  · show win6_2.index t (1 : Fin 2) * 64 + 1 * (j 1).val = _
    rw [e5]; omega
  · intro u z h0 h1
    unfold iblk6
    rw [View.read_apply]
    show V c (Pipeline.arrRef spec6 0) _ = V c (Pipeline.arrRef spec6 0) z
    congr 1
    funext a
    apply Fin.ext
    match a with
    | ⟨0, _⟩ => show win6_0.index t (0 : Fin 2) * 10000 + 1 * (u 0).val = (z 0).val; rw [e0, h0]; omega
    | ⟨1, _⟩ => show win6_0.index t (1 : Fin 2) * 64 + 1 * (u 1).val = (z 1).val; rw [e1, h1]; omega
  · intro u
    unfold iblk6
    rw [View.read_apply]
    show V c (Pipeline.arrRef spec6 1) _ = V c (Pipeline.arrRef spec6 1) u
    congr 1
    funext a
    apply Fin.ext
    match a with
    | ⟨0, _⟩ => show win6_1.index t (0 : Fin 2) * 64 + 1 * (u 0).val = (u 0).val; rw [e2]; omega
    | ⟨1, _⟩ => show win6_1.index t (1 : Fin 2) * 64 + 1 * (u 1).val = (u 1).val; rw [e3]; omega

/-- An index of the result is in point `t`'s block iff each coordinate is in the block's range on its axis. -/
theorem mem_blk6 (t : Fin cfg6.N) (i : S100000x64.Idx) :
    i ∈ ((cfg6.win 2).blk t).view.set ↔ ∀ a : Fin 2, win6_2.index t a * S10000x64.size a ≤ (i a).val
      ∧ (i a).val < win6_2.index t a * S10000x64.size a + S10000x64.size a := by
  show i ∈ ((View.whole main_v97).slice (win6_2.rect t)).set ↔ _
  rw [View.set_slice_whole, Rect.mem_set_unit]
  exact Iff.rfl

/-- Every row of the result lies in the block of the point `row / 10000`. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  let t : Fin cfg6.N := ⟨(i 0).val / 10000, by show _ < grid6.N; rw [hN]; omega⟩
  obtain ⟨-, -, -, -, e4, e5⟩ := idx6 t
  have e4' : win6_2.index t (0 : Fin 2) = (i 0).val / 10000 := e4
  refine ⟨t, flush6_2 t, ?_⟩
  rw [mem_blk6]
  intro a
  match a with
  | ⟨0, _⟩ =>
    show win6_2.index t (0 : Fin 2) * 10000 ≤ (i 0).val ∧ (i 0).val < win6_2.index t (0 : Fin 2) * 10000 + 10000
    rw [e4']; omega
  | ⟨1, _⟩ =>
    show win6_2.index t (1 : Fin 2) * 64 ≤ (i 1).val ∧ (i 1).val < win6_2.index t (1 : Fin 2) * 64 + 64
    rw [e5]; omega

/-- The result array after the region: the product of the two arrays as the region finds them. -/
theorem final6 (c : Dev nD) :
    (dat6 (F := Ideal) V c).arrAt 2 cfg6.N
      = prodArr (V c (Pipeline.arrRef spec6 0)) (V c (Pipeline.arrRef spec6 1)) :=
  (dat6 (F := Ideal) V c).arrAt_eq_of_cover 2 (prodArr (V c (Pipeline.arrRef spec6 0)) (V c (Pipeline.arrRef spec6 1)))
    (fun t _ => flushed6 V c t) (cover6)

end Cert.KernelIdeal.RegionMatmul

end
-- ==== Proof.RegionBias.lean ====
/-
  THE THREE BIAS-AND-RECTIFIER REGIONS AS WHOLE-ARRAY FUNCTIONS, at the ideal values.

  Each of the three regions takes a tall array `x` of 100000 rows and 64 columns and a one-row array `b` of 64 columns,
  adds `b`'s row to every row of `x` and keeps the larger of each entry and zero: entry `(r, c)` of the result is
  `max (x (r, c) + b (0, c)) 0`.  The grid has ten points; point `t` reads rows `10000 t … 10000 t + 9999` of `x` and
  the whole of `b`, and writes the same rows of the result.  Each entry of the result depends on the same entry of `x`
  and on one entry of `b`, so a point's block is that block of rows of the whole-array function, and the ten blocks tile
  the result.  Hence the result array after the region is `actArr zf (addArr x (bcastRow 100000 b))` whatever the arrays
  hold when the region is entered.  No algebra of the extended reals is used.
-/
import proofs.«127520_j50629074485391_2_alg».proof.Proof.Gen.KernelIdeal.Frame
import proofs.«127520_j50629074485391_2_alg».proof.Proof.RegionRowBcast
import Idealize.ShloMosaic.Lib.Pipeline.Value

noncomputable section

namespace Cert.KernelIdeal.RegionBias

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RegionValue (off2_zero)
open Cert.DenseRow (actArr)
open Cert.RowBias (zf kact)
open Cert.ProdRows (addArr addf_eq)
open Cert.KernelIdeal.RowBcast

/-- The body of a bias-and-rectifier region on a block: the block plus the bias row on every row, then the larger of
    each entry and zero. -/
theorem body_eq (x : FVec Ideal S10000x64 .f32) (b : FVec Ideal S1x64 .f32) :
    maximumf (addf (shapeCast S10000x64 x shapeCasts_S10000x64_S10000x64)
        (broadcastTo S10000x64 (shapeCast S1x64 b shapeCasts_S1x64_S1x64) broadcasts_S1x64_S10000x64))
        (broadcast S10000x64 (Scalar.ofBits (F := Ideal) .f32 0x00000000#32))
      = actArr zf (addArr x (bcastRow 10000 b)) := by
  rw [shapeCast_self x, kbcast, addf_eq, kact]

theorem pay1 (x : Vec Ideal S10000x64 .f32) (b : Vec Ideal S1x64 .f32) :
    k1_pay1 x b = actArr zf (addArr (s := S10000x64) x (bcastRow 10000 b)) := body_eq x b
theorem pay3 (x : Vec Ideal S10000x64 .f32) (b : Vec Ideal S1x64 .f32) :
    k3_pay1 x b = actArr zf (addArr (s := S10000x64) x (bcastRow 10000 b)) := body_eq x b
theorem pay7 (x : Vec Ideal S10000x64 .f32) (b : Vec Ideal S1x64 .f32) :
    k7_pay1 x b = actArr zf (addArr (s := S10000x64) x (bcastRow 10000 b)) := body_eq x b

/-- An entry of the function on a block of rows is the entry of the function on the whole array that the block's entry
    and the bias entry come from. -/
theorem biasRelu_at {R R' C : ℕ} (x : (⟨2, ![R, C]⟩ : Shape).Idx → EReal) (b : (⟨2, ![1, C]⟩ : Shape).Idx → EReal)
    (A : (⟨2, ![R', C]⟩ : Shape).Idx → EReal) (B : (⟨2, ![1, C]⟩ : Shape).Idx → EReal)
    (y : (⟨2, ![R, C]⟩ : Shape).Idx) (i : (⟨2, ![R', C]⟩ : Shape).Idx) (hi1 : (i 1).val = (y 1).val)
    (hx : x y = A i) (hb : ∀ u, b u = B u) :
    actArr zf (addArr x (bcastRow R b)) y = actArr zf (addArr A (bcastRow R' B)) i := by
  obtain ⟨p, c, rfl⟩ : ∃ (p : Fin R) (c : Fin C), y = ix2 p c := ⟨y 0, y 1, eq_ix2 y⟩
  obtain ⟨p', c', rfl⟩ : ∃ (p' : Fin R') (c' : Fin C), i = ix2 p' c' := ⟨i 0, i 1, eq_ix2 i⟩
  obtain rfl : c' = c := Fin.ext hi1
  show max (x (ix2 p c') + b (ix2 (0 : Fin 1) c')) zf = max (A (ix2 p' c') + B (ix2 (0 : Fin 1) c')) zf
  rw [hx, hb]

variable (V : (c : Dev nD) → (b : Ref sig .tc) → Buf (Elt Ideal) ((c : Thread nD τ).loc b))

/-! ## Region 1 -/

/-- The printed index maps over the grid: the tall operand and the result move one block of rows per point, the bias
    stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)
theorem idxo1 : ∀ t : Fin cfg1.N, win1_2.index t (0 : Fin 2) = t.val ∧ win1_2.index t (1 : Fin 2) = 0 :=
  (by decide +kernel : ∀ t : Fin grid1.N, _)

set_option maxHeartbeats 1000000 in
/-- What point `t` writes back is block `t` of the whole-array function of the two arrays as the region finds them. -/
theorem flushed1 (c : Dev nD) (t : Fin cfg1.N) :
    (dat1 (F := Ideal) V c).flushed 2 t = ((cfg1.win 2).blk t).view.read (Elt Ideal)
      (actArr zf (addArr (s := S100000x64) (V c (Pipeline.arrRef spec1 0)) (bcastRow 100000 (V c (Pipeline.arrRef spec1 1))))) := by
  show (cfg1.win 2).cut (grid1.coords t) ((dat1 V c).after 2 t) = _
  rw [after1_2]
  unfold out1_2
  rw [View.canon_unit_zero off2_zero]
  simp only [View.ld_unit_zero (S := S10000x64) off2_zero, View.ld_unit_zero (S := S1x64) off2_zero]
  rw [pay1]
  obtain ⟨e0, e1, e2, e3⟩ := idx1 t
  obtain ⟨e4, e5⟩ := idxo1 t
  funext j
  show actArr zf (addArr (s := S10000x64) (iblk1 V c 0 t) (bcastRow 10000 (iblk1 V c 1 t))) j
    = actArr zf (addArr (s := S100000x64) (V c (Pipeline.arrRef spec1 0)) (bcastRow 100000 (V c (Pipeline.arrRef spec1 1))))
        (((cfg1.win 2).blk t).view.emb j)
  refine biasRelu_at (R := 10000) (R' := 100000) (C := 64) (iblk1 V c 0 t) (iblk1 V c 1 t)
    (V c (Pipeline.arrRef spec1 0)) (V c (Pipeline.arrRef spec1 1)) j (((cfg1.win 2).blk t).view.emb j) ?_ ?_ ?_
  · show win1_2.index t (1 : Fin 2) * 64 + 1 * (j 1).val = _
    rw [e5]; omega
  · unfold iblk1
    rw [View.read_apply]
    show V c (Pipeline.arrRef spec1 0) (((cfg1.win 0).blk t).view.emb j) = V c (Pipeline.arrRef spec1 0) (((cfg1.win 2).blk t).view.emb j)
    have h : ((cfg1.win 0).blk t).view.emb j = ((cfg1.win 2).blk t).view.emb j := by
      funext a
      apply Fin.ext
      match a with
      | ⟨0, _⟩ => show win1_0.index t (0 : Fin 2) * 10000 + 1 * (j 0).val = win1_2.index t (0 : Fin 2) * 10000 + 1 * (j 0).val; rw [e0, e4]
      | ⟨1, _⟩ => show win1_0.index t (1 : Fin 2) * 64 + 1 * (j 1).val = win1_2.index t (1 : Fin 2) * 64 + 1 * (j 1).val; rw [e1, e5]
    rw [h]
  · unfold iblk1
    intro u
    rw [View.read_apply]
    show V c (Pipeline.arrRef spec1 1) (((cfg1.win 1).blk t).view.emb u) = V c (Pipeline.arrRef spec1 1) u
    congr 1
    funext a
    apply Fin.ext
    match a with
    | ⟨0, _⟩ => show win1_1.index t (0 : Fin 2) * 1 + 1 * (u 0).val = (u 0).val; rw [e2]; omega
    | ⟨1, _⟩ => show win1_1.index t (1 : Fin 2) * 64 + 1 * (u 1).val = (u 1).val; rw [e3]; omega

/-- An index of the result is in point `t`'s block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v56).slice (win1_2.rect t)).set ↔ _
  rw [View.set_slice_whole, Rect.mem_set_unit]
  exact Iff.rfl

/-- Every row of the result lies in the block of the point `row / 10000`. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  let t : Fin cfg1.N := ⟨(i 0).val / 10000, by show _ < grid1.N; rw [hN]; omega⟩
  have e4 : win1_2.index t (0 : Fin 2) = (i 0).val / 10000 := (idxo1 t).1
  have e5 : win1_2.index t (1 : Fin 2) = 0 := (idxo1 t).2
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e4]; omega
  | ⟨1, _⟩ =>
    show win1_2.index t (1 : Fin 2) * 64 ≤ (i 1).val ∧ (i 1).val < win1_2.index t (1 : Fin 2) * 64 + 64
    rw [e5]; omega

/-- The result array after the region: the bias row added to every row of the tall array, then the rectifier. -/
theorem final1 (c : Dev nD) :
    (dat1 (F := Ideal) V c).arrAt 2 cfg1.N
      = actArr zf (addArr (s := S100000x64) (V c (Pipeline.arrRef spec1 0)) (bcastRow 100000 (V c (Pipeline.arrRef spec1 1)))) :=
  (dat1 (F := Ideal) V c).arrAt_eq_of_cover 2 _ (fun t _ => flushed1 V c t) (cover1)

/-! ## Region 3 -/

/-- The printed index maps over the grid: the tall operand and the result move one block of rows per point, the bias
    stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0 :=
  (by decide +kernel : ∀ t : Fin grid3.N, _)
theorem idxo3 : ∀ t : Fin cfg3.N, win3_2.index t (0 : Fin 2) = t.val ∧ win3_2.index t (1 : Fin 2) = 0 :=
  (by decide +kernel : ∀ t : Fin grid3.N, _)

set_option maxHeartbeats 1000000 in
/-- What point `t` writes back is block `t` of the whole-array function of the two arrays as the region finds them. -/
theorem flushed3 (c : Dev nD) (t : Fin cfg3.N) :
    (dat3 (F := Ideal) V c).flushed 2 t = ((cfg3.win 2).blk t).view.read (Elt Ideal)
      (actArr zf (addArr (s := S100000x64) (V c (Pipeline.arrRef spec3 0)) (bcastRow 100000 (V c (Pipeline.arrRef spec3 1))))) := by
  show (cfg3.win 2).cut (grid3.coords t) ((dat3 V c).after 2 t) = _
  rw [after3_2]
  unfold out3_2
  rw [View.canon_unit_zero off2_zero]
  simp only [View.ld_unit_zero (S := S10000x64) off2_zero, View.ld_unit_zero (S := S1x64) off2_zero]
  rw [pay3]
  obtain ⟨e0, e1, e2, e3⟩ := idx3 t
  obtain ⟨e4, e5⟩ := idxo3 t
  funext j
  show actArr zf (addArr (s := S10000x64) (iblk3 V c 0 t) (bcastRow 10000 (iblk3 V c 1 t))) j
    = actArr zf (addArr (s := S100000x64) (V c (Pipeline.arrRef spec3 0)) (bcastRow 100000 (V c (Pipeline.arrRef spec3 1))))
        (((cfg3.win 2).blk t).view.emb j)
  refine biasRelu_at (R := 10000) (R' := 100000) (C := 64) (iblk3 V c 0 t) (iblk3 V c 1 t)
    (V c (Pipeline.arrRef spec3 0)) (V c (Pipeline.arrRef spec3 1)) j (((cfg3.win 2).blk t).view.emb j) ?_ ?_ ?_
  · show win3_2.index t (1 : Fin 2) * 64 + 1 * (j 1).val = _
    rw [e5]; omega
  · unfold iblk3
    rw [View.read_apply]
    show V c (Pipeline.arrRef spec3 0) (((cfg3.win 0).blk t).view.emb j) = V c (Pipeline.arrRef spec3 0) (((cfg3.win 2).blk t).view.emb j)
    have h : ((cfg3.win 0).blk t).view.emb j = ((cfg3.win 2).blk t).view.emb j := by
      funext a
      apply Fin.ext
      match a with
      | ⟨0, _⟩ => show win3_0.index t (0 : Fin 2) * 10000 + 1 * (j 0).val = win3_2.index t (0 : Fin 2) * 10000 + 1 * (j 0).val; rw [e0, e4]
      | ⟨1, _⟩ => show win3_0.index t (1 : Fin 2) * 64 + 1 * (j 1).val = win3_2.index t (1 : Fin 2) * 64 + 1 * (j 1).val; rw [e1, e5]
    rw [h]
  · unfold iblk3
    intro u
    rw [View.read_apply]
    show V c (Pipeline.arrRef spec3 1) (((cfg3.win 1).blk t).view.emb u) = V c (Pipeline.arrRef spec3 1) u
    congr 1
    funext a
    apply Fin.ext
    match a with
    | ⟨0, _⟩ => show win3_1.index t (0 : Fin 2) * 1 + 1 * (u 0).val = (u 0).val; rw [e2]; omega
    | ⟨1, _⟩ => show win3_1.index t (1 : Fin 2) * 64 + 1 * (u 1).val = (u 1).val; rw [e3]; omega

/-- An index of the result is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v75).slice (win3_2.rect t)).set ↔ _
  rw [View.set_slice_whole, Rect.mem_set_unit]
  exact Iff.rfl

/-- Every row of the result lies in the block of the point `row / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  let t : Fin cfg3.N := ⟨(i 0).val / 10000, by show _ < grid3.N; rw [hN]; omega⟩
  have e4 : win3_2.index t (0 : Fin 2) = (i 0).val / 10000 := (idxo3 t).1
  have e5 : win3_2.index t (1 : Fin 2) = 0 := (idxo3 t).2
  refine ⟨t, flush3_2 t, ?_⟩
  rw [mem_blk3]
  intro a
  match a with
  | ⟨0, _⟩ =>
    show win3_2.index t (0 : Fin 2) * 10000 ≤ (i 0).val ∧ (i 0).val < win3_2.index t (0 : Fin 2) * 10000 + 10000
    rw [e4]; omega
  | ⟨1, _⟩ =>
    show win3_2.index t (1 : Fin 2) * 64 ≤ (i 1).val ∧ (i 1).val < win3_2.index t (1 : Fin 2) * 64 + 64
    rw [e5]; omega

/-- The result array after the region: the bias row added to every row of the tall array, then the rectifier. -/
theorem final3 (c : Dev nD) :
    (dat3 (F := Ideal) V c).arrAt 2 cfg3.N
      = actArr zf (addArr (s := S100000x64) (V c (Pipeline.arrRef spec3 0)) (bcastRow 100000 (V c (Pipeline.arrRef spec3 1)))) :=
  (dat3 (F := Ideal) V c).arrAt_eq_of_cover 2 _ (fun t _ => flushed3 V c t) (cover3)

/-! ## Region 7 -/

/-- The printed index maps over the grid: the tall operand and the result move one block of rows per point, the bias
    stays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0 :=
  (by decide +kernel : ∀ t : Fin grid7.N, _)
theorem idxo7 : ∀ t : Fin cfg7.N, win7_2.index t (0 : Fin 2) = t.val ∧ win7_2.index t (1 : Fin 2) = 0 :=
  (by decide +kernel : ∀ t : Fin grid7.N, _)

set_option maxHeartbeats 1000000 in
/-- What point `t` writes back is block `t` of the whole-array function of the two arrays as the region finds them. -/
theorem flushed7 (c : Dev nD) (t : Fin cfg7.N) :
    (dat7 (F := Ideal) V c).flushed 2 t = ((cfg7.win 2).blk t).view.read (Elt Ideal)
      (actArr zf (addArr (s := S100000x64) (V c (Pipeline.arrRef spec7 0)) (bcastRow 100000 (V c (Pipeline.arrRef spec7 1))))) := by
  show (cfg7.win 2).cut (grid7.coords t) ((dat7 V c).after 2 t) = _
  rw [after7_2]
  unfold out7_2
  rw [View.canon_unit_zero off2_zero]
  simp only [View.ld_unit_zero (S := S10000x64) off2_zero, View.ld_unit_zero (S := S1x64) off2_zero]
  rw [pay7]
  obtain ⟨e0, e1, e2, e3⟩ := idx7 t
  obtain ⟨e4, e5⟩ := idxo7 t
  funext j
  show actArr zf (addArr (s := S10000x64) (iblk7 V c 0 t) (bcastRow 10000 (iblk7 V c 1 t))) j
    = actArr zf (addArr (s := S100000x64) (V c (Pipeline.arrRef spec7 0)) (bcastRow 100000 (V c (Pipeline.arrRef spec7 1))))
        (((cfg7.win 2).blk t).view.emb j)
  refine biasRelu_at (R := 10000) (R' := 100000) (C := 64) (iblk7 V c 0 t) (iblk7 V c 1 t)
    (V c (Pipeline.arrRef spec7 0)) (V c (Pipeline.arrRef spec7 1)) j (((cfg7.win 2).blk t).view.emb j) ?_ ?_ ?_
  · show win7_2.index t (1 : Fin 2) * 64 + 1 * (j 1).val = _
    rw [e5]; omega
  · unfold iblk7
    rw [View.read_apply]
    show V c (Pipeline.arrRef spec7 0) (((cfg7.win 0).blk t).view.emb j) = V c (Pipeline.arrRef spec7 0) (((cfg7.win 2).blk t).view.emb j)
    have h : ((cfg7.win 0).blk t).view.emb j = ((cfg7.win 2).blk t).view.emb j := by
      funext a
      apply Fin.ext
      match a with
      | ⟨0, _⟩ => show win7_0.index t (0 : Fin 2) * 10000 + 1 * (j 0).val = win7_2.index t (0 : Fin 2) * 10000 + 1 * (j 0).val; rw [e0, e4]
      | ⟨1, _⟩ => show win7_0.index t (1 : Fin 2) * 64 + 1 * (j 1).val = win7_2.index t (1 : Fin 2) * 64 + 1 * (j 1).val; rw [e1, e5]
    rw [h]
  · unfold iblk7
    intro u
    rw [View.read_apply]
    show V c (Pipeline.arrRef spec7 1) (((cfg7.win 1).blk t).view.emb u) = V c (Pipeline.arrRef spec7 1) u
    congr 1
    funext a
    apply Fin.ext
    match a with
    | ⟨0, _⟩ => show win7_1.index t (0 : Fin 2) * 1 + 1 * (u 0).val = (u 0).val; rw [e2]; omega
    | ⟨1, _⟩ => show win7_1.index t (1 : Fin 2) * 64 + 1 * (u 1).val = (u 1).val; rw [e3]; omega

/-- An index of the result is in point `t`'s block iff each coordinate is in the block's range on its axis. -/
theorem mem_blk7 (t : Fin cfg7.N) (i : S100000x64.Idx) :
    i ∈ ((cfg7.win 2).blk t).view.set ↔ ∀ a : Fin 2, win7_2.index t a * S10000x64.size a ≤ (i a).val
      ∧ (i a).val < win7_2.index t a * S10000x64.size a + S10000x64.size a := by
  show i ∈ ((View.whole main_v113).slice (win7_2.rect t)).set ↔ _
  rw [View.set_slice_whole, Rect.mem_set_unit]
  exact Iff.rfl

/-- Every row of the result lies in the block of the point `row / 10000`. -/
theorem cover7 (i : S100000x64.Idx) :
    ∃ t : Fin cfg7.N, (cfg7.win 2).flush t = true ∧ i ∈ ((cfg7.win 2).blk t).view.set := by
  have hi0 : (i 0).val < 100000 := (i 0).isLt
  have hi1 : (i 1).val < 64 := (i 1).isLt
  have hN : grid7.N = 10 := N_7
  let t : Fin cfg7.N := ⟨(i 0).val / 10000, by show _ < grid7.N; rw [hN]; omega⟩
  have e4 : win7_2.index t (0 : Fin 2) = (i 0).val / 10000 := (idxo7 t).1
  have e5 : win7_2.index t (1 : Fin 2) = 0 := (idxo7 t).2
  refine ⟨t, flush7_2 t, ?_⟩
  rw [mem_blk7]
  intro a
  match a with
  | ⟨0, _⟩ =>
    show win7_2.index t (0 : Fin 2) * 10000 ≤ (i 0).val ∧ (i 0).val < win7_2.index t (0 : Fin 2) * 10000 + 10000
    rw [e4]; omega
  | ⟨1, _⟩ =>
    show win7_2.index t (1 : Fin 2) * 64 ≤ (i 1).val ∧ (i 1).val < win7_2.index t (1 : Fin 2) * 64 + 64
    rw [e5]; omega

/-- The result array after the region: the bias row added to every row of the tall array, then the rectifier. -/
theorem final7 (c : Dev nD) :
    (dat7 (F := Ideal) V c).arrAt 2 cfg7.N
      = actArr zf (addArr (s := S100000x64) (V c (Pipeline.arrRef spec7 0)) (bcastRow 100000 (V c (Pipeline.arrRef spec7 1)))) :=
  (dat7 (F := Ideal) V c).arrAt_eq_of_cover 2 _ (fun t _ => flushed7 V c t) (cover7)

end Cert.KernelIdeal.RegionBias

end
-- ==== Proof.RegionBiasRes.lean ====
/-
  THE BIAS, RECTIFIER AND RESIDUAL REGION AS A WHOLE-ARRAY FUNCTION, at the ideal values.

  The region takes a tall array `x` of 100000 rows and 64 columns, a one-row array `b` and a second tall array `r` of
  the same extents; it adds `b`'s row to every row of `x`, keeps the larger of each entry and zero, and then adds `r`:
  entry `(p, c)` of the result is `max (x (p, c) + b (0, c)) 0 + r (p, c)`.  The grid has ten points; point `t` reads
  rows `10000 t … 10000 t + 9999` of `x` and of `r` and the whole of `b`, and writes the same rows of the result.  Each
  entry depends on the same entry of `x` and of `r` and on one entry of `b`, so a point's block is that block of rows of
  the whole-array function, and the ten blocks tile the result.  No algebra of the extended reals is used.
-/
import proofs.«127520_j50629074485391_2_alg».proof.Proof.RegionBias

noncomputable section

namespace Cert.KernelIdeal.RegionBiasRes

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RegionValue (off2_zero)
open Cert.DenseRow (actArr)
open Cert.RowBias (zf kact)
open Cert.ProdRows (addArr addf_eq)
open Cert.KernelIdeal.RowBcast
open Cert.KernelIdeal.RegionBias (body_eq biasRelu_at)

/-- The body on a block: the bias row added to every row, the rectifier, then the residual block added. -/
theorem pay5 (x : Vec Ideal S10000x64 .f32) (b : Vec Ideal S1x64 .f32) (r : Vec Ideal S10000x64 .f32) :
    k5_pay1 x b r = addArr (s := S10000x64) (actArr zf (addArr (s := S10000x64) x (bcastRow 10000 b))) r := by
  show addf (maximumf (addf (shapeCast S10000x64 x shapeCasts_S10000x64_S10000x64)
        (broadcastTo S10000x64 (shapeCast S1x64 b shapeCasts_S1x64_S1x64) broadcasts_S1x64_S10000x64))
        (broadcast S10000x64 (Scalar.ofBits (F := Ideal) .f32 0x00000000#32)))
      (shapeCast S10000x64 r shapeCasts_S10000x64_S10000x64) = _
  rw [body_eq, shapeCast_self r, addf_eq]

/-- An entry of the function on a block of rows is the entry of the function on the whole arrays that the blocks'
    entries and the bias entry come from. -/
theorem biasReluRes_at {R R' C : ℕ} (x : (⟨2, ![R, C]⟩ : Shape).Idx → EReal) (b : (⟨2, ![1, C]⟩ : Shape).Idx → EReal)
    (r : (⟨2, ![R, C]⟩ : Shape).Idx → EReal)
    (A : (⟨2, ![R', C]⟩ : Shape).Idx → EReal) (B : (⟨2, ![1, C]⟩ : Shape).Idx → EReal) (Rr : (⟨2, ![R', C]⟩ : Shape).Idx → EReal)
    (y : (⟨2, ![R, C]⟩ : Shape).Idx) (i : (⟨2, ![R', C]⟩ : Shape).Idx) (hi1 : (i 1).val = (y 1).val)
    (hx : x y = A i) (hb : ∀ u, b u = B u) (hr : r y = Rr i) :
    addArr (actArr zf (addArr x (bcastRow R b))) r y = addArr (actArr zf (addArr A (bcastRow R' B))) Rr i := by
  show actArr zf (addArr x (bcastRow R b)) y + r y = actArr zf (addArr A (bcastRow R' B)) i + Rr i
  rw [biasRelu_at x b A B y i hi1 hx hb, hr]

variable (V : (c : Dev nD) → (b : Ref sig .tc) → Buf (Elt Ideal) ((c : Thread nD τ).loc b))

/-- The printed index maps over the grid: the two tall operands and the result move one block of rows per point, the
    bias stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)
theorem idxo5 : ∀ t : Fin cfg5.N, win5_3.index t (0 : Fin 2) = t.val ∧ win5_3.index t (1 : Fin 2) = 0 :=
  (by decide +kernel : ∀ t : Fin grid5.N, _)

set_option maxHeartbeats 1000000 in
/-- What point `t` writes back is block `t` of the whole-array function of the three arrays as the region finds them. -/
theorem flushed5 (c : Dev nD) (t : Fin cfg5.N) :
    (dat5 (F := Ideal) V c).flushed 3 t = ((cfg5.win 3).blk t).view.read (Elt Ideal)
      (addArr (s := S100000x64) (actArr zf (addArr (s := S100000x64) (V c (Pipeline.arrRef spec5 0)) (bcastRow 100000 (V c (Pipeline.arrRef spec5 1)))))
        (V c (Pipeline.arrRef spec5 2))) := by
  show (cfg5.win 3).cut (grid5.coords t) ((dat5 V c).after 3 t) = _
  rw [after5_3]
  unfold out5_3
  rw [View.canon_unit_zero off2_zero]
  simp only [View.ld_unit_zero (S := S10000x64) off2_zero, View.ld_unit_zero (S := S1x64) off2_zero]
  rw [pay5]
  obtain ⟨e0, e1, e2, e3, e6, e7⟩ := idx5 t
  obtain ⟨e4, e5⟩ := idxo5 t
  funext j
  show addArr (s := S10000x64) (actArr zf (addArr (s := S10000x64) (iblk5 V c 0 t) (bcastRow 10000 (iblk5 V c 1 t)))) (iblk5 V c 2 t) j
    = addArr (s := S100000x64) (actArr zf (addArr (s := S100000x64) (V c (Pipeline.arrRef spec5 0)) (bcastRow 100000 (V c (Pipeline.arrRef spec5 1)))))
        (V c (Pipeline.arrRef spec5 2)) (((cfg5.win 3).blk t).view.emb j)
  refine biasReluRes_at (R := 10000) (R' := 100000) (C := 64) (iblk5 V c 0 t) (iblk5 V c 1 t) (iblk5 V c 2 t)
    (V c (Pipeline.arrRef spec5 0)) (V c (Pipeline.arrRef spec5 1)) (V c (Pipeline.arrRef spec5 2)) j (((cfg5.win 3).blk t).view.emb j) ?_ ?_ ?_ ?_
  · show win5_3.index t (1 : Fin 2) * 64 + 1 * (j 1).val = _
    rw [e5]; omega
  · unfold iblk5
    rw [View.read_apply]
    show V c (Pipeline.arrRef spec5 0) (((cfg5.win 0).blk t).view.emb j) = V c (Pipeline.arrRef spec5 0) (((cfg5.win 3).blk t).view.emb j)
    have h : ((cfg5.win 0).blk t).view.emb j = ((cfg5.win 3).blk t).view.emb j := by
      funext a
      apply Fin.ext
      match a with
      | ⟨0, _⟩ => show win5_0.index t (0 : Fin 2) * 10000 + 1 * (j 0).val = win5_3.index t (0 : Fin 2) * 10000 + 1 * (j 0).val; rw [e0, e4]
      | ⟨1, _⟩ => show win5_0.index t (1 : Fin 2) * 64 + 1 * (j 1).val = win5_3.index t (1 : Fin 2) * 64 + 1 * (j 1).val; rw [e1, e5]
    rw [h]
  · unfold iblk5
    intro u
    rw [View.read_apply]
    show V c (Pipeline.arrRef spec5 1) (((cfg5.win 1).blk t).view.emb u) = V c (Pipeline.arrRef spec5 1) u
    congr 1
    funext a
    apply Fin.ext
    match a with
    | ⟨0, _⟩ => show win5_1.index t (0 : Fin 2) * 1 + 1 * (u 0).val = (u 0).val; rw [e2]; omega
    | ⟨1, _⟩ => show win5_1.index t (1 : Fin 2) * 64 + 1 * (u 1).val = (u 1).val; rw [e3]; omega
  · unfold iblk5
    rw [View.read_apply]
    show V c (Pipeline.arrRef spec5 2) (((cfg5.win 2).blk t).view.emb j) = V c (Pipeline.arrRef spec5 2) (((cfg5.win 3).blk t).view.emb j)
    have h : ((cfg5.win 2).blk t).view.emb j = ((cfg5.win 3).blk t).view.emb j := by
      funext a
      apply Fin.ext
      match a with
      | ⟨0, _⟩ => show win5_2.index t (0 : Fin 2) * 10000 + 1 * (j 0).val = win5_3.index t (0 : Fin 2) * 10000 + 1 * (j 0).val; rw [e6, e4]
      | ⟨1, _⟩ => show win5_2.index t (1 : Fin 2) * 64 + 1 * (j 1).val = win5_3.index t (1 : Fin 2) * 64 + 1 * (j 1).val; rw [e7, e5]
    rw [h]

/-- An index of the result is in point `t`'s block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v94).slice (win5_3.rect t)).set ↔ _
  rw [View.set_slice_whole, Rect.mem_set_unit]
  exact Iff.rfl

/-- Every row of the result lies in the block of the point `row / 10000`. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 10 := N_5
  let t : Fin cfg5.N := ⟨(i 0).val / 10000, by show _ < grid5.N; rw [hN]; omega⟩
  have e4 : win5_3.index t (0 : Fin 2) = (i 0).val / 10000 := (idxo5 t).1
  have e5 : win5_3.index t (1 : Fin 2) = 0 := (idxo5 t).2
  refine ⟨t, flush5_3 t, ?_⟩
  rw [mem_blk5]
  intro a
  match a with
  | ⟨0, _⟩ =>
    show win5_3.index t (0 : Fin 2) * 10000 ≤ (i 0).val ∧ (i 0).val < win5_3.index t (0 : Fin 2) * 10000 + 10000
    rw [e4]; omega
  | ⟨1, _⟩ =>
    show win5_3.index t (1 : Fin 2) * 64 ≤ (i 1).val ∧ (i 1).val < win5_3.index t (1 : Fin 2) * 64 + 64
    rw [e5]; omega

/-- The result array after the region: the bias row added to every row of the tall array, the rectifier, then the
    residual array added. -/
theorem final5 (c : Dev nD) :
    (dat5 (F := Ideal) V c).arrAt 3 cfg5.N
      = addArr (s := S100000x64) (actArr zf (addArr (s := S100000x64) (V c (Pipeline.arrRef spec5 0)) (bcastRow 100000 (V c (Pipeline.arrRef spec5 1)))))
          (V c (Pipeline.arrRef spec5 2)) :=
  (dat5 (F := Ideal) V c).arrAt_eq_of_cover 3 _ (fun t _ => flushed5 V c t) (cover5)

end Cert.KernelIdeal.RegionBiasRes

end
-- ==== Proof.KernelValueLayers.lean ====
/- The four layer outputs of the kernel program as functions of the argument arrays. A layer is a product region,
   a stretch of host operations (the neighbourhood sum, the bias row), and a bias-and-rectifier region; its output
   buffer at the region's exit is the folded layer of the previous output. Each step is an equation between
   buffer contents at a boundary; nothing is computed. -/
import proofs.«127520_j50629074485391_2_alg».proof.Proof.KernelValueHost
import proofs.«127520_j50629074485391_2_alg».proof.Proof.RegionMatmul
import proofs.«127520_j50629074485391_2_alg».proof.Proof.RegionBias
import proofs.«127520_j50629074485391_2_alg».proof.Proof.RegionBiasRes

set_option maxRecDepth 16384

noncomputable section

namespace Cert.KernelIdeal.HandRun.Value

open Cert.KernelIdeal Cert.KernelIdeal.Gen
open Idealize.ShloMosaic Idealize.ShloMosaic.TcCoe Idealize.ShloMosaic.Tactic Idealize.SL.Sem
open Idealize.ShloMosaic.StableHlo (after)
open Cert.ReferenceIdeal.HandRun (rowIdx colIdx edgeW aggregate matSlice0 matSlice1 matSlice2 matSlice3 vecSlice0 vecSlice1 vecSlice2 vecSlice3 segMean)
open Cert.KernelIdeal.Spec (bFold wFold kerLayer kerX1 kerX2 kerX3 kerX4)
open Cert.KernelIdeal.RegionValue (prodArr)
open Cert.KernelIdeal.RowBcast (bcastRow)
open Cert.DenseRow (actArr)
open Cert.RowBias (zf)
open Cert.ProdRows (addArr)

variable (m : (ℓ : Loc nD τ sig) → Buf (Elt Ideal) ℓ) (ρ : Dev nD → PrngReg)

/-! ## At the first region's entry: the graph and the folded parameters, from the launch contents -/

theorem W1_v3 (c : Dev nD) : W1 m ρ c (Proc.devRef .tc main_v3) = rowIdx (F := Ideal) (m ((c : Thread nD τ).loc main_arg1)) := host0_v3 (W0 m ρ c)
theorem W1_v6 (c : Dev nD) : W1 m ρ c (Proc.devRef .tc main_v6) = colIdx (F := Ideal) (m ((c : Thread nD τ).loc main_arg1)) := host0_v6 (W0 m ρ c)
theorem W1_v27 (c : Dev nD) : W1 m ρ c (Proc.devRef .tc main_v27) = edgeW (F := Ideal) (rowIdx (F := Ideal) (m ((c : Thread nD τ).loc main_arg1))) (colIdx (F := Ideal) (m ((c : Thread nD τ).loc main_arg1))) := host0_v27 (W0 m ρ c)
theorem W1_v34 (c : Dev nD) : W1 m ρ c (Proc.devRef .tc main_v34) = bFold (F := Ideal) (m ((c : Thread nD τ).loc main_arg4)) (m ((c : Thread nD τ).loc main_arg5)) (m ((c : Thread nD τ).loc main_arg6)) (m ((c : Thread nD τ).loc main_arg7)) (m ((c : Thread nD τ).loc main_arg8)) := host0_v34 (W0 m ρ c)
theorem W1_v37 (c : Dev nD) : W1 m ρ c (Proc.devRef .tc main_v37) = wFold (F := Ideal) (m ((c : Thread nD τ).loc main_arg3)) (m ((c : Thread nD τ).loc main_arg5)) (m ((c : Thread nD τ).loc main_arg8)) := host0_v37 (W0 m ρ c)
theorem W1_v39 (c : Dev nD) : W1 m ρ c (Proc.devRef .tc main_v39) = matSlice0 (F := Ideal) (wFold (F := Ideal) (m ((c : Thread nD τ).loc main_arg3)) (m ((c : Thread nD τ).loc main_arg5)) (m ((c : Thread nD τ).loc main_arg8))) := host0_v39 (W0 m ρ c)

/-! ## The regions' results at their exits, over the entry contents -/

theorem region0_out (c : Dev nD) : W2 m ρ c (Proc.devRef .tc main_v40) = prodArr (W1 m ρ c (Proc.devRef .tc main_arg0)) (W1 m ρ c (Proc.devRef .tc main_v39)) :=
  (W2_arr m ρ c 2).trans (Cert.KernelIdeal.RegionMatmul.final0 (V1 m ρ) c)
theorem region1_out (c : Dev nD) : W4 m ρ c (Proc.devRef .tc main_v56)
    = actArr zf (addArr (s := S100000x64) (W3 m ρ c (Proc.devRef .tc main_v52)) (bcastRow 100000 (W3 m ρ c (Proc.devRef .tc main_v55)))) :=
  (W4_arr m ρ c 2).trans (Cert.KernelIdeal.RegionBias.final1 (V3 m ρ) c)
theorem region2_out (c : Dev nD) : W6 m ρ c (Proc.devRef .tc main_v59) = prodArr (W5 m ρ c (Proc.devRef .tc main_v56)) (W5 m ρ c (Proc.devRef .tc main_v58)) :=
  (W6_arr m ρ c 2).trans (Cert.KernelIdeal.RegionMatmul.final2 (V5 m ρ) c)
theorem region3_out (c : Dev nD) : W8 m ρ c (Proc.devRef .tc main_v75)
    = actArr zf (addArr (s := S100000x64) (W7 m ρ c (Proc.devRef .tc main_v71)) (bcastRow 100000 (W7 m ρ c (Proc.devRef .tc main_v74)))) :=
  (W8_arr m ρ c 2).trans (Cert.KernelIdeal.RegionBias.final3 (V7 m ρ) c)
theorem region4_out (c : Dev nD) : W10 m ρ c (Proc.devRef .tc main_v78) = prodArr (W9 m ρ c (Proc.devRef .tc main_v75)) (W9 m ρ c (Proc.devRef .tc main_v77)) :=
  (W10_arr m ρ c 2).trans (Cert.KernelIdeal.RegionMatmul.final4 (V9 m ρ) c)
theorem region5_out (c : Dev nD) : W12 m ρ c (Proc.devRef .tc main_v94)
    = addArr (s := S100000x64) (actArr zf (addArr (s := S100000x64) (W11 m ρ c (Proc.devRef .tc main_v90)) (bcastRow 100000 (W11 m ρ c (Proc.devRef .tc main_v93))))) (W11 m ρ c (Proc.devRef .tc main_v56)) :=
  (W12_arr m ρ c 3).trans (Cert.KernelIdeal.RegionBiasRes.final5 (V11 m ρ) c)
theorem region6_out (c : Dev nD) : W14 m ρ c (Proc.devRef .tc main_v97) = prodArr (W13 m ρ c (Proc.devRef .tc main_v94)) (W13 m ρ c (Proc.devRef .tc main_v96)) :=
  (W14_arr m ρ c 2).trans (Cert.KernelIdeal.RegionMatmul.final6 (V13 m ρ) c)
theorem region7_out (c : Dev nD) : W16 m ρ c (Proc.devRef .tc main_v113)
    = actArr zf (addArr (s := S100000x64) (W15 m ρ c (Proc.devRef .tc main_v109)) (bcastRow 100000 (W15 m ρ c (Proc.devRef .tc main_v112)))) :=
  (W16_arr m ρ c 2).trans (Cert.KernelIdeal.RegionBias.final7 (V15 m ρ) c)

/-! ## The stretches between regions, at the boundary contents -/

theorem W3_v52 (c : Dev nD) : W3 m ρ c (Proc.devRef .tc main_v52)
    = aggregate (F := Ideal) (W2 m ρ c (Proc.devRef .tc main_v40)) (W2 m ρ c (Proc.devRef .tc main_v3)) (W2 m ρ c (Proc.devRef .tc main_v6)) (W2 m ρ c (Proc.devRef .tc main_v27)) := host1_v52 (W2 m ρ c)
theorem W3_v55 (c : Dev nD) : W3 m ρ c (Proc.devRef .tc main_v55)
    = shapeCast S1x64 (vecSlice0 (F := Ideal) (W2 m ρ c (Proc.devRef .tc main_v34))) shapeCasts_S64_S1x64 := host1_v55 (W2 m ρ c)

theorem W7_v71 (c : Dev nD) : W7 m ρ c (Proc.devRef .tc main_v71)
    = aggregate (F := Ideal) (W6 m ρ c (Proc.devRef .tc main_v59)) (W6 m ρ c (Proc.devRef .tc main_v3)) (W6 m ρ c (Proc.devRef .tc main_v6)) (W6 m ρ c (Proc.devRef .tc main_v27)) := host3_v71 (W6 m ρ c)
theorem W7_v74 (c : Dev nD) : W7 m ρ c (Proc.devRef .tc main_v74)
    = shapeCast S1x64 (vecSlice1 (F := Ideal) (W6 m ρ c (Proc.devRef .tc main_v34))) shapeCasts_S64_S1x64 := host3_v74 (W6 m ρ c)

theorem W11_v90 (c : Dev nD) : W11 m ρ c (Proc.devRef .tc main_v90)
    = aggregate (F := Ideal) (W10 m ρ c (Proc.devRef .tc main_v78)) (W10 m ρ c (Proc.devRef .tc main_v3)) (W10 m ρ c (Proc.devRef .tc main_v6)) (W10 m ρ c (Proc.devRef .tc main_v27)) := host5_v90 (W10 m ρ c)
theorem W11_v93 (c : Dev nD) : W11 m ρ c (Proc.devRef .tc main_v93)
    = shapeCast S1x64 (vecSlice2 (F := Ideal) (W10 m ρ c (Proc.devRef .tc main_v34))) shapeCasts_S64_S1x64 := host5_v93 (W10 m ρ c)

theorem W15_v109 (c : Dev nD) : W15 m ρ c (Proc.devRef .tc main_v109)
    = aggregate (F := Ideal) (W14 m ρ c (Proc.devRef .tc main_v97)) (W14 m ρ c (Proc.devRef .tc main_v3)) (W14 m ρ c (Proc.devRef .tc main_v6)) (W14 m ρ c (Proc.devRef .tc main_v27)) := host7_v109 (W14 m ρ c)
theorem W15_v112 (c : Dev nD) : W15 m ρ c (Proc.devRef .tc main_v112)
    = shapeCast S1x64 (vecSlice3 (F := Ideal) (W14 m ρ c (Proc.devRef .tc main_v34))) shapeCasts_S64_S1x64 := host7_v112 (W14 m ρ c)
theorem W5_v58 (c : Dev nD) : W5 m ρ c (Proc.devRef .tc main_v58) = matSlice1 (F := Ideal) (W4 m ρ c (Proc.devRef .tc main_v37)) := host2_v58 (W4 m ρ c)
theorem W9_v77 (c : Dev nD) : W9 m ρ c (Proc.devRef .tc main_v77) = matSlice2 (F := Ideal) (W8 m ρ c (Proc.devRef .tc main_v37)) := host4_v77 (W8 m ρ c)
theorem W13_v96 (c : Dev nD) : W13 m ρ c (Proc.devRef .tc main_v96) = matSlice3 (F := Ideal) (W12 m ρ c (Proc.devRef .tc main_v37)) := host6_v96 (W12 m ρ c)

/-! ## Layer 0 -/

/-- The first layer's output buffer at its region's exit. -/
theorem kerX1_eq (c : Dev nD) : W4 m ρ c (Proc.devRef .tc main_v56) = kerX1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region1_out, W3_v52, W3_v55, region0_out, walk_v3_2_1, walk_v6_2_1, walk_v27_2_1, walk_v34_2_1,
    W1_arg0, W1_v39, W1_v3, W1_v6, W1_v27, W1_v34]
  rfl

/-! ## Layer 1 -/

/-- The second layer's output buffer at its region's exit. -/
theorem kerX2_eq (c : Dev nD) : W8 m ρ c (Proc.devRef .tc main_v75) = kerX2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region3_out, W7_v71, W7_v74, region2_out, W5_v58, walk_v56_5_4, kerX1_eq, walk_v37_4_1,
    walk_v3_6_1, walk_v6_6_1, walk_v27_6_1, walk_v34_6_1, W1_v37, W1_v3, W1_v6, W1_v27, W1_v34]
  rfl

/-! ## Layer 2, with the residual sum -/

/-- The third layer's output buffer (the folded layer plus the first layer's output) at its region's exit. -/
theorem kerX3_eq (c : Dev nD) : W12 m ρ c (Proc.devRef .tc main_v94) = kerX3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region5_out, W11_v90, W11_v93, region4_out, W9_v77, walk_v75_9_8, kerX2_eq, walk_v37_8_1,
    walk_v3_10_1, walk_v6_10_1, walk_v27_10_1, walk_v34_10_1, walk_v56_11_4, kerX1_eq, W1_v37, W1_v3, W1_v6, W1_v27, W1_v34]
  rfl

/-! ## Layer 3 -/

/-- The fourth layer's output buffer at its region's exit. -/
theorem kerX4_eq (c : Dev nD) : W16 m ρ c (Proc.devRef .tc main_v113) = kerX4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [region7_out, W15_v109, W15_v112, region6_out, W13_v96, walk_v94_13_12, kerX3_eq, walk_v37_12_1,
    walk_v3_14_1, walk_v6_14_1, walk_v27_14_1, walk_v34_14_1, W1_v37, W1_v3, W1_v6, W1_v27, W1_v34]
  rfl

end Cert.KernelIdeal.HandRun.Value

end
-- ==== Proof.RegionDecoder.lean ====
/-
  THE DECODER REGION AS A WHOLE-ARRAY FUNCTION, at the ideal values.

  The region has one grid point and every window is its whole array.  From `g` (64 rows, 128 columns), a weight `w₁`
  (128 by 64), a one-row bias `b₁`, a weight `w₂` (64 by 1) and a one-entry bias `b₂` it computes
  `(max (g · w₁ + b₁) 0) · w₂ + b₂`, each bias added to every row.  The one point's block is the whole result, so the
  result array after the region is that function of the five arrays as the region finds them.  The products are the
  function `prodArr`; no sum is regrouped and no algebra of the extended reals is used.
-/
import proofs.«127520_j50629074485391_2_alg».proof.Proof.Gen.KernelIdeal.Frame
import proofs.«127520_j50629074485391_2_alg».proof.Proof.RegionRowBcast
import Idealize.ShloMosaic.Lib.Pipeline.Value

noncomputable section

namespace Cert.KernelIdeal.RegionDecoder

open Cert.KernelIdeal Cert.KernelIdeal.Gen Idealize.ShloMosaic Idealize.ShloMosaic.TcCoe Idealize.SL.Sem
open Idealize.ShloMosaic.Pipeline (Dat)
open Idealize.ShloMosaic.ValueIdx
open Cert.KernelIdeal.RegionValue (prodArr off2_zero)
open Cert.DenseRow (actArr)
open Cert.RowBias (zf kact)
open Cert.ProdRows (addArr addf_eq kprod)
open Cert.KernelIdeal.RowBcast

/-- The body as one function of its five loaded arrays. -/
theorem body_eq (x0 : FVec Ideal S64x128 .f32) (x1 : FVec Ideal S128x64 .f32) (x2 : FVec Ideal S1x64 .f32)
    (x3 : FVec Ideal S64x1 .f32) (x4 : FVec Ideal S1x1 .f32) :
    addf (matmul (DotDims.plain 64 64 1) none
          (maximumf (addf (matmul (DotDims.plain 64 128 64) none (shapeCast S64x128 x0 shapeCasts_S64x128_S64x128) x1
                (constant S64x64 .f32 0x00000000#32))
              (broadcastTo S64x64 (shapeCast S1x64 x2 shapeCasts_S1x64_S1x64) broadcasts_S1x64_S64x64))
            (broadcast S64x64 (Scalar.ofBits (F := Ideal) .f32 0x00000000#32)))
          x3 (constant S64x1 .f32 0x00000000#32))
        (broadcastTo S64x1 (shapeCast S1x1 x4 shapeCasts_S1x1_S1x1) broadcasts_S1x1_S64x1)
      = addArr (s := S64x1) (prodArr (actArr zf (addArr (s := S64x64) (prodArr x0 x1) (bcastRow 64 x2))) x3) (bcastRow 64 x4) := by
  rw [shapeCast_self x0, kprod, kprod, kbcast, kbcast]
  rfl

theorem pay9 (x0 : Vec Ideal S64x128 .f32) (x1 : Vec Ideal S128x64 .f32) (x2 : Vec Ideal S1x64 .f32)
    (x3 : Vec Ideal S64x1 .f32) (x4 : Vec Ideal S1x1 .f32) :
    k9_pay1 x0 x1 x2 x3 x4 = addArr (s := S64x1) (prodArr (actArr zf (addArr (s := S64x64) (prodArr x0 x1) (bcastRow 64 x2))) x3) (bcastRow 64 x4) :=
  body_eq x0 x1 x2 x3 x4

variable (V : (c : Dev nD) → (b : Ref sig .tc) → Buf (Elt Ideal) ((c : Thread nD τ).loc b))

/-- The printed index maps at the one point: every window is block (0, 0) of its array. -/
theorem idx9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0 :=
  (by decide +kernel : ∀ t : Fin grid9.N, _)

set_option maxHeartbeats 1000000 in
/-- What the one point writes back is the whole-array function of the five arrays as the region finds them. -/
theorem flushed9 (c : Dev nD) (t : Fin cfg9.N) :
    (dat9 (F := Ideal) V c).flushed 5 t = ((cfg9.win 5).blk t).view.read (Elt Ideal)
      (addArr (s := S64x1) (prodArr (actArr zf (addArr (s := S64x64) (prodArr (V c (Pipeline.arrRef spec9 0)) (V c (Pipeline.arrRef spec9 1))) (bcastRow 64 (V c (Pipeline.arrRef spec9 2))))) (V c (Pipeline.arrRef spec9 3))) (bcastRow 64 (V c (Pipeline.arrRef spec9 4)))) := by
  show (cfg9.win 5).cut (grid9.coords t) ((dat9 V c).after 5 t) = _
  rw [after9_5]
  unfold out9_5
  rw [View.canon_unit_zero off2_zero]
  simp only [View.ld_unit_zero (S := S64x128) off2_zero, View.ld_unit_zero (S := S128x64) off2_zero,
    View.ld_unit_zero (S := S1x64) off2_zero, View.ld_unit_zero (S := S64x1) off2_zero, View.ld_unit_zero (S := S1x1) off2_zero]
  rw [pay9]
  obtain ⟨e00, e01, e10, e11, e20, e21, e30, e31, e40, e41, e50, e51⟩ := idx9 t
  have h0 : iblk9 V c 0 t = V c (Pipeline.arrRef spec9 0) := by
    funext u
    unfold iblk9
    rw [View.read_apply]
    show V c (Pipeline.arrRef spec9 0) (((cfg9.win 0).blk t).view.emb u) = V c (Pipeline.arrRef spec9 0) u
    congr 1
    funext a
    apply Fin.ext
    match a with
    | ⟨0, _⟩ => show win9_0.index t (0 : Fin 2) * 64 + 1 * (u 0).val = (u 0).val; rw [e00]; omega
    | ⟨1, _⟩ => show win9_0.index t (1 : Fin 2) * 128 + 1 * (u 1).val = (u 1).val; rw [e01]; omega
  have h1 : iblk9 V c 1 t = V c (Pipeline.arrRef spec9 1) := by
    funext u
    unfold iblk9
    rw [View.read_apply]
    show V c (Pipeline.arrRef spec9 1) (((cfg9.win 1).blk t).view.emb u) = V c (Pipeline.arrRef spec9 1) u
    congr 1
    funext a
    apply Fin.ext
    match a with
    | ⟨0, _⟩ => show win9_1.index t (0 : Fin 2) * 128 + 1 * (u 0).val = (u 0).val; rw [e10]; omega
    | ⟨1, _⟩ => show win9_1.index t (1 : Fin 2) * 64 + 1 * (u 1).val = (u 1).val; rw [e11]; omega
  have h2 : iblk9 V c 2 t = V c (Pipeline.arrRef spec9 2) := by
    funext u
    unfold iblk9
    rw [View.read_apply]
    show V c (Pipeline.arrRef spec9 2) (((cfg9.win 2).blk t).view.emb u) = V c (Pipeline.arrRef spec9 2) u
    congr 1
    funext a
    apply Fin.ext
    match a with
    | ⟨0, _⟩ => show win9_2.index t (0 : Fin 2) * 1 + 1 * (u 0).val = (u 0).val; rw [e20]; omega
    | ⟨1, _⟩ => show win9_2.index t (1 : Fin 2) * 64 + 1 * (u 1).val = (u 1).val; rw [e21]; omega
  have h3 : iblk9 V c 3 t = V c (Pipeline.arrRef spec9 3) := by
    funext u
    unfold iblk9
    rw [View.read_apply]
    show V c (Pipeline.arrRef spec9 3) (((cfg9.win 3).blk t).view.emb u) = V c (Pipeline.arrRef spec9 3) u
    congr 1
    funext a
    apply Fin.ext
    match a with
    | ⟨0, _⟩ => show win9_3.index t (0 : Fin 2) * 64 + 1 * (u 0).val = (u 0).val; rw [e30]; omega
    | ⟨1, _⟩ => show win9_3.index t (1 : Fin 2) * 1 + 1 * (u 1).val = (u 1).val; rw [e31]; omega
  have h4 : iblk9 V c 4 t = V c (Pipeline.arrRef spec9 4) := by
    funext u
    unfold iblk9
    rw [View.read_apply]
    show V c (Pipeline.arrRef spec9 4) (((cfg9.win 4).blk t).view.emb u) = V c (Pipeline.arrRef spec9 4) u
    congr 1
    funext a
    apply Fin.ext
    match a with
    | ⟨0, _⟩ => show win9_4.index t (0 : Fin 2) * 1 + 1 * (u 0).val = (u 0).val; rw [e40]; omega
    | ⟨1, _⟩ => show win9_4.index t (1 : Fin 2) * 1 + 1 * (u 1).val = (u 1).val; rw [e41]; omega
  rw [h0, h1, h2, h3, h4]
  funext j
  show (addArr (s := S64x1) (prodArr (actArr zf (addArr (s := S64x64) (prodArr (V c (Pipeline.arrRef spec9 0)) (V c (Pipeline.arrRef spec9 1))) (bcastRow 64 (V c (Pipeline.arrRef spec9 2))))) (V c (Pipeline.arrRef spec9 3))) (bcastRow 64 (V c (Pipeline.arrRef spec9 4)))) j
    = (addArr (s := S64x1) (prodArr (actArr zf (addArr (s := S64x64) (prodArr (V c (Pipeline.arrRef spec9 0)) (V c (Pipeline.arrRef spec9 1))) (bcastRow 64 (V c (Pipeline.arrRef spec9 2))))) (V c (Pipeline.arrRef spec9 3))) (bcastRow 64 (V c (Pipeline.arrRef spec9 4)))) (((cfg9.win 5).blk t).view.emb j)
  congr 1
  funext a
  apply Fin.ext
  match a with
  | ⟨0, _⟩ => show (j 0).val = win9_5.index t (0 : Fin 2) * 64 + 1 * (j 0).val; rw [e50]; omega
  | ⟨1, _⟩ => show (j 1).val = win9_5.index t (1 : Fin 2) * 1 + 1 * (j 1).val; rw [e51]; omega

/-- An index of the result is in point `t`'s block iff each coordinate is in the block's range on its axis. -/
theorem mem_blk9 (t : Fin cfg9.N) (i : S64x1.Idx) :
    i ∈ ((cfg9.win 5).blk t).view.set ↔ ∀ a : Fin 2, win9_5.index t a * S64x1.size a ≤ (i a).val
      ∧ (i a).val < win9_5.index t a * S64x1.size a + S64x1.size a := by
  show i ∈ ((View.whole main_v140).slice (win9_5.rect t)).set ↔ _
  rw [View.set_slice_whole, Rect.mem_set_unit]
  exact Iff.rfl

/-- The one point's block is the whole result. -/
theorem cover9 (i : S64x1.Idx) :
    ∃ t : Fin cfg9.N, (cfg9.win 5).flush t = true ∧ i ∈ ((cfg9.win 5).blk t).view.set := by
  have hi0 : (i 0).val < 64 := (i 0).isLt
  have hi1 : (i 1).val < 1 := (i 1).isLt
  have hN : grid9.N = 1 := N_9
  let t : Fin cfg9.N := ⟨0, by show _ < grid9.N; rw [hN]; omega⟩
  obtain ⟨-, -, -, -, -, -, -, -, -, -, e50, e51⟩ := idx9 t
  refine ⟨t, flush9_5 t, ?_⟩
  rw [mem_blk9]
  intro a
  match a with
  | ⟨0, _⟩ =>
    show win9_5.index t (0 : Fin 2) * 64 ≤ (i 0).val ∧ (i 0).val < win9_5.index t (0 : Fin 2) * 64 + 64
    rw [e50]; omega
  | ⟨1, _⟩ =>
    show win9_5.index t (1 : Fin 2) * 1 ≤ (i 1).val ∧ (i 1).val < win9_5.index t (1 : Fin 2) * 1 + 1
    rw [e51]; omega

/-- The result array after the region. -/
theorem final9 (c : Dev nD) :
    (dat9 (F := Ideal) V c).arrAt 5 cfg9.N
      = addArr (s := S64x1) (prodArr (actArr zf (addArr (s := S64x64) (prodArr (V c (Pipeline.arrRef spec9 0)) (V c (Pipeline.arrRef spec9 1))) (bcastRow 64 (V c (Pipeline.arrRef spec9 2))))) (V c (Pipeline.arrRef spec9 3))) (bcastRow 64 (V c (Pipeline.arrRef spec9 4))) :=
  (dat9 (F := Ideal) V c).arrAt_eq_of_cover 5 _ (fun t _ => flushed9 V c t) (cover9)

end Cert.KernelIdeal.RegionDecoder

end
-- ==== Proof.KernelValueTail.lean ====
/- The kernel program's encoder output and result buffers as functions of the argument arrays: the encoder region
   over the four layer outputs, the per-graph mean, the decoder region, the final reshape; each step an equation
   between buffer contents at a boundary. -/
import proofs.«127520_j50629074485391_2_alg».proof.Proof.KernelValueLayers
import proofs.«127520_j50629074485391_2_alg».proof.Proof.KernelValueDefs
import proofs.«127520_j50629074485391_2_alg».proof.Proof.RegionDecoder

set_option maxRecDepth 16384

noncomputable section

namespace Cert.KernelIdeal.HandRun.Value

open Cert.KernelIdeal Cert.KernelIdeal.Gen
open Idealize.ShloMosaic Idealize.ShloMosaic.TcCoe Idealize.ShloMosaic.Tactic Idealize.SL.Sem
open Idealize.ShloMosaic.StableHlo (after)
open Cert.ReferenceIdeal.HandRun (segMean)
open Cert.KernelIdeal.Spec (kerX1 kerX2 kerX3 kerX4)
open Cert.KernelIdeal.RegionEncoder (enc)
open Cert.KernelIdeal.RegionValue (prodArr)
open Cert.KernelIdeal.RowBcast (bcastRow)
open Cert.DenseRow (actArr)
open Cert.RowBias (zf)
open Cert.ProdRows (addArr)

variable (m : (ℓ : Loc nD τ sig) → Buf (Elt Ideal) ℓ) (ρ : Dev nD → PrngReg)

/-! ## Before the encoder region -/

theorem W17_v116 (c : Dev nD) : W17 m ρ c (Proc.devRef .tc main_v116) = chunk0 (F := Ideal) (W16 m ρ c (Proc.devRef .tc main_arg9)) := host8_v116 (W16 m ρ c)
theorem W17_v118 (c : Dev nD) : W17 m ρ c (Proc.devRef .tc main_v118) = chunk1 (F := Ideal) (W16 m ρ c (Proc.devRef .tc main_arg9)) := host8_v118 (W16 m ρ c)
theorem W17_v120 (c : Dev nD) : W17 m ρ c (Proc.devRef .tc main_v120) = chunk2 (F := Ideal) (W16 m ρ c (Proc.devRef .tc main_arg9)) := host8_v120 (W16 m ρ c)
theorem W17_v122 (c : Dev nD) : W17 m ρ c (Proc.devRef .tc main_v122) = chunk3 (F := Ideal) (W16 m ρ c (Proc.devRef .tc main_arg9)) := host8_v122 (W16 m ρ c)
theorem W17_v123 (c : Dev nD) : W17 m ρ c (Proc.devRef .tc main_v123) = shapeCast S1x256 (W16 m ρ c (Proc.devRef .tc main_arg10)) shapeCasts_S256_S1x256 := host8_v123 (W16 m ρ c)
theorem W17_v124 (c : Dev nD) : W17 m ρ c (Proc.devRef .tc main_v124) = shapeCast S1x128 (W16 m ρ c (Proc.devRef .tc main_arg12)) shapeCasts_S128_S1x128 := host8_v124 (W16 m ρ c)

theorem region8_out (c : Dev nD) : W18 m ρ c (Proc.devRef .tc main_v125)
    = enc (R := 100000) (W17 m ρ c (Proc.devRef .tc main_v56)) (W17 m ρ c (Proc.devRef .tc main_v75)) (W17 m ρ c (Proc.devRef .tc main_v94)) (W17 m ρ c (Proc.devRef .tc main_v113))
        (W17 m ρ c (Proc.devRef .tc main_v116)) (W17 m ρ c (Proc.devRef .tc main_v118)) (W17 m ρ c (Proc.devRef .tc main_v120)) (W17 m ρ c (Proc.devRef .tc main_v122))
        (W17 m ρ c (Proc.devRef .tc main_v123)) (W17 m ρ c (Proc.devRef .tc main_arg11)) (W17 m ρ c (Proc.devRef .tc main_v124)) :=
  (W18_arr m ρ c 11).trans (Cert.KernelIdeal.RegionEncoder.final8 (V17 m ρ) c)

/-- The encoder region's output buffer at its exit. -/
theorem kerH_eq (c : Dev nD) : W18 m ρ c (Proc.devRef .tc main_v125) = kerH (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [region8_out, W17_v116, W17_v118, W17_v120, W17_v122, W17_v123, W17_v124, walk_v56_17_4, walk_v75_17_8,
    walk_v94_17_12, walk_v113_17_16, kerX1_eq, kerX2_eq, kerX3_eq, kerX4_eq, W16_arg9, W16_arg10, W16_arg12, W17_arg11]
  rfl

/-! ## The per-graph mean, the decoder region, the final reshape -/

theorem W19_v137 (c : Dev nD) : W19 m ρ c (Proc.devRef .tc main_v137) = segMean (F := Ideal) (W18 m ρ c (Proc.devRef .tc main_arg2)) (W18 m ρ c (Proc.devRef .tc main_v125)) := host9_v137 (W18 m ρ c)
theorem W19_v138 (c : Dev nD) : W19 m ρ c (Proc.devRef .tc main_v138) = shapeCast S1x64 (W18 m ρ c (Proc.devRef .tc main_arg14)) shapeCasts_S64_S1x64 := host9_v138 (W18 m ρ c)
theorem W19_v139 (c : Dev nD) : W19 m ρ c (Proc.devRef .tc main_v139) = shapeCast S1x1 (W18 m ρ c (Proc.devRef .tc main_arg16)) shapeCasts_S1_S1x1 := host9_v139 (W18 m ρ c)
theorem W21_v141 (c : Dev nD) : W21 m ρ c (Proc.devRef .tc main_v141) = shapeCast S64 (W20 m ρ c (Proc.devRef .tc main_v140)) shapeCasts_S64x1_S64 := host10_v141 (W20 m ρ c)

theorem region9_out (c : Dev nD) : W20 m ρ c (Proc.devRef .tc main_v140)
    = addArr (s := S64x1) (prodArr (actArr zf (addArr (s := S64x64) (prodArr (W19 m ρ c (Proc.devRef .tc main_v137)) (W19 m ρ c (Proc.devRef .tc main_arg13)))
        (bcastRow 64 (W19 m ρ c (Proc.devRef .tc main_v138))))) (W19 m ρ c (Proc.devRef .tc main_arg15))) (bcastRow 64 (W19 m ρ c (Proc.devRef .tc main_v139))) :=
  (W20_arr m ρ c 5).trans (Cert.KernelIdeal.RegionDecoder.final9 (V19 m ρ) c)

/-- The result buffer at the last boundary. -/
theorem kerOut_eq (c : Dev nD) : W21 m ρ c (Proc.devRef .tc main_v141) = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  rw [W21_v141, region9_out, W19_v137, W19_v138, W19_v139, kerH_eq, W18_arg2, W18_arg14, W18_arg16, W19_arg13, W19_arg15]
  rfl

/-- Every weakly fair execution of the kernel program terminates without a fault, with the result buffer at the
    composed function of the argument arrays as launched and every argument array as launched. -/
theorem ker_value : θ_run defs (onTc (τ := τ) (main (F := Ideal))) ⟨m, fun _ => 0, ρ⟩ (fun r => ∀ c : Dev nD,
      r.2.mem ((c.tc : Thread nD τ).loc main_v141) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c).1.trans (kerOut_eq m ρ c), (h c).2⟩) (run_value m ρ)

end Cert.KernelIdeal.HandRun.Value

end
-- ==== Proof.FoldLaw.lean ====
/-
  THE BATCH-NORM AFFINE FOLDED INTO THE WEIGHTS, entry by entry, on the extended reals.

  One output entry of a graph-convolution layer followed by an evaluation-mode batch norm is
      max ((((A + b) - μ) · s) + β) z,        A = z₀ + ∑ over the edges u landing on the node of (∑ₖ x(ρ u, k) · w k) · ν u,
  where  s = γ · rsqrt (σ² + ε)  is the norm's scale of the entry's channel.  Folding the scale into the weights and the
  bias computes instead
      max (A' + ((b - μ) · s + β)) z,         A' = z₀ + ∑ᵤ (∑ₖ x(ρ u, k) · (w k · s)) · ν u.
  The two agree when every number involved is a real and z₀ = 0:  A' = A · s  because a real factor moves out of a finite
  sum of reals, and the rest is the distributive law.  On the extended reals neither step holds in general ( ⊤ + ⊥ = ⊥ ,
  so a negative factor does not distribute over a sum with infinite terms): finiteness of the inputs is used here, and
  s is a real because the variance is nonnegative, so that  σ² + ε  is positive.
-/
import Idealize.ShloMosaic.PureOps.Ideal
import Idealize.ShloMosaic.PureOps.Ideal.Laws

noncomputable section

open scoped BigOperators

namespace Cert.FoldLaw

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The folded and the unfolded entry, over real data, as coercions of two equal reals. -/
theorem real_fold {U : Type*} {K : ℕ} (L : Finset U) (x : U → Fin K → ℝ) (w : Fin K → ℝ) (ν : U → ℝ) (s b μ β : ℝ) :
    (0 + ∑ u ∈ L, (∑ k, x u k * (w k * s)) * ν u) + ((b - μ) * s + β)
      = (((0 + ∑ u ∈ L, (∑ k, x u k * w k) * ν u) + b) - μ) * s + β := by
  have h1 : ∀ u, (∑ k, x u k * (w k * s)) * ν u = ((∑ k, x u k * w k) * ν u) * s := fun u => by
    rw [show (∑ k, x u k * (w k * s)) = (∑ k, x u k * w k) * s from by
      rw [Finset.sum_mul]; exact Finset.sum_congr rfl fun k _ => by ring]
    ring
  rw [Finset.sum_congr rfl fun u _ => h1 u, ← Finset.sum_mul]
  ring

/-- An extended real that is a real number. -/
def IsReal (x : EReal) : Prop := ∃ r : ℝ, x = (r : EReal)

/-- The larger of two reals is a real. -/
theorem isReal_max (a b : ℝ) : IsReal (max (a : EReal) (b : EReal)) := by
  rcases le_total a b with h | h
  · exact ⟨b, max_eq_right (EReal.coe_le_coe_iff.mpr h)⟩
  · exact ⟨a, max_eq_left (EReal.coe_le_coe_iff.mpr h)⟩

/-- THE FOLD, at one entry: for real data and a zero start the folded entry is the unfolded one, and it is a real. -/
theorem entry_fold {U : Type*} {K : ℕ} (L : Finset U) (x : U → Fin K → EReal) (w : Fin K → EReal) (ν : U → EReal)
    (s b μ β z₀ z : EReal) (hx : ∀ u k, IsReal (x u k)) (hw : ∀ k, IsReal (w k)) (hν : ∀ u, IsReal (ν u))
    (hs : IsReal s) (hb : IsReal b) (hμ : IsReal μ) (hβ : IsReal β) (hz₀ : z₀ = 0) (hz : IsReal z) :
    max ((z₀ + ∑ u ∈ L, (∑ k, x u k * (w k * s)) * ν u) + ((b - μ) * s + β)) z
        = max ((((z₀ + ∑ u ∈ L, (∑ k, x u k * w k) * ν u) + b) - μ) * s + β) z
      ∧ IsReal (max ((((z₀ + ∑ u ∈ L, (∑ k, x u k * w k) * ν u) + b) - μ) * s + β) z) := by
  choose x' hx' using hx
  choose w' hw' using hw
  choose ν' hν' using hν
  obtain ⟨s', rfl⟩ := hs
  obtain ⟨b', rfl⟩ := hb
  obtain ⟨μ', rfl⟩ := hμ
  obtain ⟨β', rfl⟩ := hβ
  obtain ⟨z', rfl⟩ := hz
  subst hz₀
  have hl : (0 + ∑ u ∈ L, (∑ k, x u k * (w k * (s' : EReal))) * ν u) + (((b' : EReal) - μ') * s' + β')
      = (((0 + ∑ u ∈ L, (∑ k, x' u k * (w' k * s')) * ν' u) + ((b' - μ') * s' + β') : ℝ) : EReal) := by
    simp only [hx', hw', hν', ← EReal.coe_mul, ← coe_sum, ← EReal.coe_add, ← EReal.coe_sub, ← EReal.coe_zero]
  have hr : (((0 + ∑ u ∈ L, (∑ k, x u k * w k) * ν u) + (b' : EReal)) - μ') * s' + β'
      = ((((((0 + ∑ u ∈ L, (∑ k, x' u k * w' k) * ν' u) + b') - μ') * s' + β') : ℝ) : EReal) := by
    simp only [hx', hw', hν', ← EReal.coe_mul, ← coe_sum, ← EReal.coe_add, ← EReal.coe_sub, ← EReal.coe_zero]
  rw [hl, hr, real_fold L x' w' ν' s' b' μ' β']
  exact ⟨rfl, isReal_max _ _⟩

end Cert.FoldLaw

end
-- ==== Proof.LibRowIndex.lean ====
/-
  StableHLO's row gather and row scatter READ AT AN INDEX, for the dimension numbers that indexing the rows of a
  2-D array (or the entries of a 1-D array) by an index column `[E, 1]`, and a segment sum over such a column, lower to.

  Gather (`offset_dims = [1]`, `collapsed_slice_dims = [0]`, `start_index_map = [0]`, `index_vector_dim = 1`,
  `slice_sizes = [1, C]`): result element `(e, c)` is the operand at row `idx[e, 0]` — read as a signed integer and
  clamped into `[0, N − 1]`, as StableHLO clamps every start index — and column `c`. The rank-1 form
  (`offset_dims = []`, `slice_sizes = [1]`) reads entry `idx[e, 0]`, clamped the same way.

  Scatter (`update_window_dims = [1]`, `inserted_window_dims = [0]`, `scatter_dims_to_operand_dims = [0]`,
  `index_vector_dim = 1`): update `(e, c)` lands on operand row `idx[e, 0]` — read signed and NOT clamped — and
  column `c`; it lands only when that row is inside `[0, N)`, and is dropped otherwise.
-/
import Idealize.ShloMosaic.Lib.ValueIdx

noncomputable section

namespace Cert.RowIndex

open Idealize.ShloMosaic Idealize.ShloMosaic.ValueIdx

/-! ## Rows of a rank-2 operand at an index column -/

section Gather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The operand index result element `(e, c)` reads: row `idx[e, 0]` (signed, clamped into `[0, N − 1]`), column `c`.
    Axis 0 is collapsed and indexed (start index, no offset); axis 1 is a full-width offset axis (start 0, offset `c`). -/
theorem rowGather_operandIdx {N E C w : Nat} (hN : 0 < N)
    (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowGatherDims N E C wf).operandIdx (ix2 e c) idx
      = ix2 ⟨min (idx (ix2 e (0 : Fin 1))).toInt.toNat (N - 1), by omega⟩ c := by
  have h0 : ((rowGatherDims N E C wf).operandIdx (ix2 e c) idx (0 : Fin 2)).val
      = min (idx (ix2 e (0 : Fin 1))).toInt.toNat (N - 1) := by
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : ((rowGatherDims N E C wf).operandIdx (ix2 e c) idx (1 : Fin 2)).val = c.val := by
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    simp only [Nat.add_zero]
    unfold GatherDims.start
    rw [dif_neg (show (1 : Fin 2) ∉ (rowGatherDims N E C wf).startIndexMap from
      (by decide : (1 : Fin 2) ∉ ([0] : List (Fin 2))))]
    rw [Nat.zero_add]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    rfl
  funext a; refine Fin.ext ?_
  match a with
  | ⟨0, _⟩ => exact h0
  | ⟨1, _⟩ => exact h1

/-- THE ROW GATHER READ AT `(e, c)`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e (0 : Fin 1))).toInt.toNat (N - 1), by omega⟩ c) := by
  unfold Host.gather
  rw [rowGather_operandIdx hN]

/-! ## The same gather of a rank-1 operand: entries of a vector at an index column -/

/-- The entry gather's dimension numbers for an operand `[N]`, start indices `[E, 1]` and result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand index result element `e` reads: entry `idx[e, 0]`, signed and clamped into `[0, N − 1]`. -/
theorem vecGather_operandIdx {N E w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecGatherDims N E wf).operandIdx (ix1 e) idx
      = ix1 ⟨min (idx (ix2 e (0 : Fin 1))).toInt.toNat (N - 1), by omega⟩ := by
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- THE ENTRY GATHER READ AT `e`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (vecGatherDims N E wf) v idx (ix1 e)
      = v (ix1 ⟨min (idx (ix2 e (0 : Fin 1))).toInt.toNat (N - 1), by omega⟩) := by
  unfold Host.gather
  rw [vecGather_operandIdx hN]

end Gather

/-! ## Rows scattered into a rank-2 operand at an index column -/

section Scatter

/-- The row scatter's dimension numbers for an operand `[N, C]`, scatter indices `[E, 1]` and updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c)` starts at `idx[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the index map does not name, the window starts at `0`. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatterDims N E C wf).start (ix2 e c) idx 1 = 0 := by
  unfold ScatterDims.start
  rw [dif_neg (show (1 : Fin 2) ∉ (rowScatterDims N E C wf).scatterDimsToOperandDims from
    (by decide : (1 : Fin 2) ∉ ([0] : List (Fin 2))))]

/-- The row axis is an inserted window axis: its window coordinate is `0`. -/
theorem rowScatter_window0 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 0 = 0 := by
  unfold ScatterDims.window
  rw [dif_neg]
  simp [ScatterDims.sKept, Shape.kept, List.mem_filter, List.mem_finRange]

/-- The column axis carries the update's window axis: its window coordinate is the update's column `c`. -/
theorem rowScatter_window1 {N E C : Nat}
    (wf : ScatterDims.WF ⟨2, ![N, C]⟩ ⟨2, ![E, 1]⟩ ⟨2, ![E, C]⟩ [1] [0] [0] 1) (e : Fin E) (c : Fin C) :
    (rowScatterDims N E C wf).window (ix2 e c) 1 = c.val := by
  unfold ScatterDims.window
  rw [dif_pos (show (1 : Fin 2) ∈ (rowScatterDims N E C wf).sKept from by
    simp [ScatterDims.sKept, Shape.kept, List.mem_filter, List.mem_finRange])]
  rfl

/-- WHERE UPDATE `(e, c)` LANDS: if it lands at operand index `i`, then `i`'s row is the index `idx[e, 0]` read signed
    (so that index is in `[0, N)`) and `i`'s column is `c`. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatterDims N E C wf).resultIdx? (ix2 e c) idx = some i) :
    (idx (ix2 e (0 : Fin 1))).toInt = ((i 0).val : Int) ∧ (i 1).val = c.val := by
  unfold ScatterDims.resultIdx? at h
  split at h
  · rename_i hc
    have hi := Option.some.inj h
    subst hi
    have h0 := (hc 0).1
    rw [rowScatter_start0, rowScatter_window0] at h0
    refine ⟨?_, ?_⟩
    · show _ = (((rowScatterDims N E C wf).start (ix2 e c) idx 0 + ((rowScatterDims N E C wf).window (ix2 e c) 0 : Nat)).toNat : Int)
      rw [rowScatter_start0, rowScatter_window0]
      omega
    · show ((rowScatterDims N E C wf).start (ix2 e c) idx 1 + ((rowScatterDims N E C wf).window (ix2 e c) 1 : Nat)).toNat = _
      rw [rowScatter_start1, rowScatter_window1]
      omega
  · exact absurd h (by simp)

end Scatter

end Cert.RowIndex
-- ==== Proof.HopLaw.lean ====
/-
  ONE GRAPH-CONVOLUTION LAYER WITH ITS BATCH NORM, in its two arrangements, at the ideal values.

  The aggregation of a layer ("hop") gathers the rows  y (ρ e)  of a node array along the edges, scales row e by the edge
  weight  ν e , and sums the rows that land on each node:   hop y (n, j) = z₀ (n, j) + ∑ over the updates u landing on (n, j)
  of  y (ρ u, j) · ν u .  The column of an update is kept by the gather and by the scatter, so only entries of column j
  contribute to column j.

  The unfolded layer is   max ((((hop (x · w) + b) − μ) · s) + β) z ;  the folded one is   max (hop (x · w') + b') z   with
  w' (k, j) = w (k, j) · s j   and   b' j = (b j − μ j) · s j + β j .  They are equal, and real, when x, w, ν, s, b, μ, β are
  real and z₀ = 0 (Cert.FoldLaw.entry_fold, entry by entry).
-/
import proofs.«127520_j50629074485391_2_alg».proof.Proof.FoldLaw
import proofs.«127520_j50629074485391_2_alg».proof.Proof.LibRowIndex
import proofs.«127520_j50629074485391_2_alg».proof.Proof.LibProdRows
import proofs.«127520_j50629074485391_2_alg».proof.Proof.LibRowBias
import Idealize.ShloMosaic.Lib.Pipeline.Value

noncomputable section

open scoped BigOperators

namespace Cert.HopLaw

open Idealize.ShloMosaic Idealize.ShloMosaic.ValueIdx Cert.RowIndex Cert.FoldLaw
open Cert.KernelIdeal.RegionValue (prodArr prodArr_apply)

variable {N E C K : ℕ}

/-- The node whose row the update `u` gathers: the edge's source index read signed and clamped into the node range. -/
def src (hN : 0 < N) (rowB : IVec ⟨2, ![E, 1]⟩ 32) (u : (⟨2, ![E, C]⟩ : Shape).Idx) : Fin N :=
  ⟨min (rowB (ix2 (u 0) (0 : Fin 1))).toInt.toNat (N - 1), by omega⟩

/-- The aggregation: gather the rows along the edges, scale each by its edge weight, sum at the target nodes. -/
def hop (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hb : (⟨2, ![E, 1]⟩ : Shape).BroadcastsInDim ⟨2, ![E, C]⟩ ![0, 1])
    (rowB colB : IVec ⟨2, ![E, 1]⟩ 32) (nrm : FVec Ideal ⟨2, ![E, 1]⟩ .f32) (z0 y : FVec Ideal ⟨2, ![N, C]⟩ .f32) :
    FVec Ideal ⟨2, ![N, C]⟩ .f32 :=
  Host.scatterAdd (F := Ideal) (rowScatterDims N E C wfS) z0 colB
    (mulf (Host.gather (rowGatherDims N E C wfG) y rowB) (broadcastInDim ⟨2, ![E, C]⟩ ![0, 1] hb nrm))

/-- The edge weight broadcast over the columns, read at an update. -/
theorem nrm_apply (hb : (⟨2, ![E, 1]⟩ : Shape).BroadcastsInDim ⟨2, ![E, C]⟩ ![0, 1]) (nrm : (⟨2, ![E, 1]⟩ : Shape).Idx → EReal)
    (e : Fin E) (c : Fin C) : broadcastInDim ⟨2, ![E, C]⟩ ![0, 1] hb nrm (ix2 e c) = nrm (ix2 e (0 : Fin 1)) :=
  broadcastInDim_apply _ hb nrm (ix2 e c) (ix2 e (0 : Fin 1)) fun ax => by
    match ax with
    | ⟨0, _⟩ =>
      show e.val = if E = 1 then 0 else e.val
      split
      · have := e.isLt; omega
      · rfl
    | ⟨1, _⟩ => show 0 = if (1 : ℕ) = 1 then 0 else c.val; rw [if_pos rfl]

/-- THE AGGREGATION READ AT AN INDEX. -/
theorem hop_apply (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hb : (⟨2, ![E, 1]⟩ : Shape).BroadcastsInDim ⟨2, ![E, C]⟩ ![0, 1])
    (rowB colB : IVec ⟨2, ![E, 1]⟩ 32) (nrm : FVec Ideal ⟨2, ![E, 1]⟩ .f32) (z0 y : FVec Ideal ⟨2, ![N, C]⟩ .f32)
    (i : (⟨2, ![N, C]⟩ : Shape).Idx) :
    hop wfG wfS hb rowB colB nrm z0 y i
      = z0 i + ∑ u ∈ Finset.univ.filter (fun u => (rowScatterDims N E C wfS).resultIdx? u colB = some i),
          y (ix2 (src hN rowB u) (u 1)) * nrm (ix2 (u 0) (0 : Fin 1)) := by
  show Ideal.hostScatterAdd (rowScatterDims N E C wfS) z0 colB _ i = _
  unfold Ideal.hostScatterAdd
  refine congrArg (z0 i + ·) (Finset.sum_congr rfl fun u _ => ?_)
  obtain ⟨e, c, rfl⟩ : ∃ (e : Fin E) (c : Fin C), u = ix2 e c := ⟨u 0, u 1, eq_ix2 u⟩
  show Host.gather (rowGatherDims N E C wfG) y rowB (ix2 e c) * broadcastInDim ⟨2, ![E, C]⟩ ![0, 1] hb nrm (ix2 e c) = _
  rw [rowGather_apply hN wfG y rowB e c, nrm_apply hb nrm e c]
  rfl

/-- An update that lands on `(n, j)` has column `j`. -/
theorem lands_col (wfS : ScatterDims.WF ⟨2, ![N, C]⟩ ⟨2, ![E, 1]⟩ ⟨2, ![E, C]⟩ [1] [0] [0] 1)
    (colB : IVec ⟨2, ![E, 1]⟩ 32) (u : (⟨2, ![E, C]⟩ : Shape).Idx) (n : Fin N) (j : Fin C)
    (h : (rowScatterDims N E C wfS).resultIdx? u colB = some (ix2 n j)) : (u 1 : Fin C) = j := by
  obtain ⟨e, c, rfl⟩ : ∃ (e : Fin E) (c : Fin C), u = ix2 e c := ⟨u 0, u 1, eq_ix2 u⟩
  exact Fin.ext (rowScatter_lands wfS colB e c (ix2 n j) h).2.symm

/-- THE LAYER LAW: the layer with the batch-norm scale folded into the weights and the bias is the layer with the batch
    norm applied after the aggregation, and its entries are real, for real data and a zero start. -/
theorem layer_law (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (hb : (⟨2, ![E, 1]⟩ : Shape).BroadcastsInDim ⟨2, ![E, C]⟩ ![0, 1])
    (rowB colB : IVec ⟨2, ![E, 1]⟩ 32) (nrm : FVec Ideal ⟨2, ![E, 1]⟩ .f32) (z0 : FVec Ideal ⟨2, ![N, C]⟩ .f32)
    (x : (⟨2, ![N, K]⟩ : Shape).Idx → EReal) (w wf : (⟨2, ![K, C]⟩ : Shape).Idx → EReal)
    (s b μ β bf : Fin C → EReal) (z : EReal)
    (hx : ∀ i, IsReal (x i)) (hw : ∀ i, IsReal (w i)) (hν : ∀ i, IsReal (nrm i)) (hz0 : ∀ i, z0 i = 0)
    (hs : ∀ j, IsReal (s j)) (hbr : ∀ j, IsReal (b j)) (hμ : ∀ j, IsReal (μ j)) (hβ : ∀ j, IsReal (β j)) (hz : IsReal z)
    (hwf : ∀ (k : Fin K) (j : Fin C), wf (ix2 k j) = w (ix2 k j) * s j)
    (hbf : ∀ j, bf j = (b j - μ j) * s j + β j)
    (n : Fin N) (j : Fin C) :
    max (hop wfG wfS hb rowB colB nrm z0 (prodArr x wf) (ix2 n j) + bf j) z
        = max ((((hop wfG wfS hb rowB colB nrm z0 (prodArr x w) (ix2 n j) + b j) - μ j) * s j) + β j) z
      ∧ IsReal (max ((((hop wfG wfS hb rowB colB nrm z0 (prodArr x w) (ix2 n j) + b j) - μ j) * s j) + β j) z) := by
  rw [hop_apply hN, hop_apply hN, hbf j]
  have hL : ∀ (g : (⟨2, ![K, C]⟩ : Shape).Idx → EReal),
      (∑ u ∈ Finset.univ.filter (fun u => (rowScatterDims N E C wfS).resultIdx? u colB = some (ix2 n j)),
          prodArr x g (ix2 (src hN rowB u) (u 1)) * nrm (ix2 (u 0) (0 : Fin 1)))
        = ∑ u ∈ Finset.univ.filter (fun u => (rowScatterDims N E C wfS).resultIdx? u colB = some (ix2 n j)),
          (∑ k : Fin K, x (ix2 (src hN rowB u) k) * g (ix2 k j)) * nrm (ix2 (u 0) (0 : Fin 1)) := fun g =>
    Finset.sum_congr rfl fun u hu => by
      have e : (ix2 (src hN rowB u) (u 1) : (⟨2, ![N, C]⟩ : Shape).Idx) = ix2 (src hN rowB u) j :=
        congrArg (ix2 (src hN rowB u)) (lands_col wfS colB u n j (Finset.mem_filter.mp hu).2)
      rw [e, prodArr_apply]
  rw [hL wf, hL w]
  simp only [hwf]
  exact entry_fold (U := (⟨2, ![E, C]⟩ : Shape).Idx) (K := K)
    (Finset.univ.filter (fun u => (rowScatterDims N E C wfS).resultIdx? u colB = some (ix2 n j)))
    (fun (u : (⟨2, ![E, C]⟩ : Shape).Idx) (k : Fin K) => x (ix2 (src hN rowB u) k)) (fun k => w (ix2 k j))
    (fun (u : (⟨2, ![E, C]⟩ : Shape).Idx) => nrm (ix2 (u 0) (0 : Fin 1)))
    (s j) (b j) (μ j) (β j) (z0 (ix2 n j)) z (fun u k => hx _) (fun k => hw _) (fun u => hν _)
    (hs _) (hbr _) (hμ _) (hβ _) (hz0 _) hz

end Cert.HopLaw

end
-- ==== Proof.SliceReads.lean ====
/-
  LAYER PARAMETERS READ AT AN INDEX.

  The parameters of a stack of layers arrive as arrays with a leading layer axis: weights  [M, A, B] , vectors  [M, C] .
  Layer i's weight is the slice  [1, A, B]  at offset  (i, 0, 0)  cast to  [A, B] ; its vector is the slice  [1, C]  at offset
  (i, 0)  cast to  [C] .  A vector  [C]  is spread over the rows of an  [R, C]  array in two steps ( [C] → [1, C] → [R, C] ), and a
  stack of vectors  [M, C]  over the rows of each layer's weight in two steps ( [M, C] → [M, 1, C] → [M, A, C] ).  Each is read
  here at an index given by its coordinates.
-/
import Idealize.ShloMosaic.Lib.ValueIdx
import Idealize.ShloMosaic.Lib.ValueLayout
import Idealize.ShloMosaic.Lib.Pipeline.Value

noncomputable section

namespace Cert.SliceReads

open Idealize.ShloMosaic Idealize.ShloMosaic.ValueIdx

variable {α : Type}

/-- Layer `i`'s vector: the slice `[1, C]` of `[M, C]` at offset `(i, 0)`, cast to `[C]`, at `j`. -/
theorem row_apply {M C : ℕ} (off : Fin 2 → ℕ) (i : Fin M) (h0 : off 0 = i.val) (h1 : off 1 = 0)
    (a : (⟨2, ![M, C]⟩ : Shape).Idx → α) (hs : (⟨2, ![M, C]⟩ : Shape).Slices off ⟨2, ![1, C]⟩)
    (hc : (⟨2, ![1, C]⟩ : Shape).ShapeCasts ⟨1, ![C]⟩) (j : Fin C) :
    shapeCast ⟨1, ![C]⟩ (extractStridedSlice ⟨2, ![1, C]⟩ off a hs) hc (ix1 j) = a (ix2 i j) := by
  rw [shapeCast_1a_a_apply]
  refine extractStridedSlice_apply off a hs _ _ fun ax => ?_
  match ax with
  | ⟨0, _⟩ => show i.val = off 0 + 0; rw [h0]; rfl
  | ⟨1, _⟩ => show j.val = off 1 + j.val; rw [h1, Nat.zero_add]

/-- The same slice kept as one row `[1, C]` (cast to `[C]` and back), at `(0, j)`. -/
theorem row1_apply {M C : ℕ} (off : Fin 2 → ℕ) (i : Fin M) (h0 : off 0 = i.val) (h1 : off 1 = 0)
    (a : (⟨2, ![M, C]⟩ : Shape).Idx → α) (hs : (⟨2, ![M, C]⟩ : Shape).Slices off ⟨2, ![1, C]⟩)
    (hc : (⟨2, ![1, C]⟩ : Shape).ShapeCasts ⟨1, ![C]⟩) (hc' : (⟨1, ![C]⟩ : Shape).ShapeCasts ⟨2, ![1, C]⟩) (u : Fin 1) (j : Fin C) :
    shapeCast ⟨2, ![1, C]⟩ (shapeCast ⟨1, ![C]⟩ (extractStridedSlice ⟨2, ![1, C]⟩ off a hs) hc) hc' (ix2 u j) = a (ix2 i j) := by
  rw [shapeCast_a_1a_apply, row_apply off i h0 h1]

/-- Layer `i`'s weight: the slice `[1, A, B]` of `[M, A, B]` at offset `(i, 0, 0)`, cast to `[A, B]`, at `(k, j)`. -/
theorem mat_apply {M A B : ℕ} (off : Fin 3 → ℕ) (i : Fin M) (h0 : off 0 = i.val) (h1 : off 1 = 0) (h2 : off 2 = 0)
    (a : (⟨3, ![M, A, B]⟩ : Shape).Idx → α) (hs : (⟨3, ![M, A, B]⟩ : Shape).Slices off ⟨3, ![1, A, B]⟩)
    (hc : (⟨3, ![1, A, B]⟩ : Shape).ShapeCasts ⟨2, ![A, B]⟩) (k : Fin A) (j : Fin B) :
    shapeCast ⟨2, ![A, B]⟩ (extractStridedSlice ⟨3, ![1, A, B]⟩ off a hs) hc (ix2 k j) = a (ix3 i k j) := by
  rw [shapeCast_1ab_ab_apply]
  refine extractStridedSlice_apply off a hs _ _ fun ax => ?_
  match ax with
  | ⟨0, _⟩ => show i.val = off 0 + 0; rw [h0]; rfl
  | ⟨1, _⟩ => show k.val = off 1 + k.val; rw [h1, Nat.zero_add]
  | ⟨2, _⟩ => show j.val = off 2 + j.val; rw [h2, Nat.zero_add]

/-- A vector `[C]` spread over the rows of `[R, C]` in two steps, at `(p, j)`. -/
theorem bcast_rows_apply {R C : ℕ} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (j : Fin C) :
    broadcastInDim ⟨2, ![R, C]⟩ ![0, 1] h2 (broadcastInDim ⟨2, ![1, C]⟩ ![1] h1 v) (ix2 p j) = v (ix1 j) := by
  have e2 : broadcastInDim ⟨2, ![R, C]⟩ ![0, 1] h2 (broadcastInDim ⟨2, ![1, C]⟩ ![1] h1 v) (ix2 p j)
      = broadcastInDim ⟨2, ![1, C]⟩ ![1] h1 v (ix2 (0 : Fin 1) j) :=
    broadcastInDim_apply _ h2 _ (ix2 p j) (ix2 (0 : Fin 1) j) fun ax => by
      match ax with
      | ⟨0, _⟩ => show 0 = if (1 : ℕ) = 1 then 0 else p.val; rw [if_pos rfl]
      | ⟨1, _⟩ =>
        show j.val = if C = 1 then 0 else j.val
        split
        · have := j.isLt; omega
        · rfl
  have e1 : broadcastInDim ⟨2, ![1, C]⟩ ![1] h1 v (ix2 (0 : Fin 1) j) = v (ix1 j) :=
    broadcastInDim_apply _ h1 v (ix2 (0 : Fin 1) j) (ix1 j) fun ax => by
      match ax with
      | ⟨0, _⟩ =>
        show j.val = if C = 1 then 0 else j.val
        split
        · have := j.isLt; omega
        · rfl
  rw [e2, e1]

/-- A stack of vectors `[M, C]` spread over the rows of each layer's `[A, C]` weight in two steps, at `(i, k, j)`. -/
theorem bcast_mid_apply {M A C : ℕ} (v : (⟨2, ![M, C]⟩ : Shape).Idx → α)
    (h1 : (⟨2, ![M, C]⟩ : Shape).BroadcastsInDim ⟨3, ![M, 1, C]⟩ ![0, 2])
    (h2 : (⟨3, ![M, 1, C]⟩ : Shape).BroadcastsInDim ⟨3, ![M, A, C]⟩ ![0, 1, 2]) (i : Fin M) (k : Fin A) (j : Fin C) :
    broadcastInDim ⟨3, ![M, A, C]⟩ ![0, 1, 2] h2 (broadcastInDim ⟨3, ![M, 1, C]⟩ ![0, 2] h1 v) (ix3 i k j) = v (ix2 i j) := by
  have e2 : broadcastInDim ⟨3, ![M, A, C]⟩ ![0, 1, 2] h2 (broadcastInDim ⟨3, ![M, 1, C]⟩ ![0, 2] h1 v) (ix3 i k j)
      = broadcastInDim ⟨3, ![M, 1, C]⟩ ![0, 2] h1 v (ix3 i (0 : Fin 1) j) :=
    broadcastInDim_apply _ h2 _ (ix3 i k j) (ix3 i (0 : Fin 1) j) fun ax => by
      match ax with
      | ⟨0, _⟩ =>
        show i.val = if M = 1 then 0 else i.val
        split
        · have := i.isLt; omega
        · rfl
      | ⟨1, _⟩ => show 0 = if (1 : ℕ) = 1 then 0 else k.val; rw [if_pos rfl]
      | ⟨2, _⟩ =>
        show j.val = if C = 1 then 0 else j.val
        split
        · have := j.isLt; omega
        · rfl
  have e1 : broadcastInDim ⟨3, ![M, 1, C]⟩ ![0, 2] h1 v (ix3 i (0 : Fin 1) j) = v (ix2 i j) :=
    broadcastInDim_apply _ h1 v (ix3 i (0 : Fin 1) j) (ix2 i j) fun ax => by
      match ax with
      | ⟨0, _⟩ =>
        show i.val = if M = 1 then 0 else i.val
        split
        · have := i.isLt; omega
        · rfl
      | ⟨1, _⟩ =>
        show j.val = if C = 1 then 0 else j.val
        split
        · have := j.isLt; omega
        · rfl
  rw [e2, e1]

/-- A scalar spread over a whole array. -/
theorem bcast_scalar_apply {s : Shape} (h : (⟨0, ![]⟩ : Shape).BroadcastsInDim s ![]) (c : (⟨0, ![]⟩ : Shape).Idx → α) (i : s.Idx) :
    broadcastInDim s ![] h c i = c ix0 :=
  broadcastInDim_apply _ h c i ix0 fun a => a.elim0

end Cert.SliceReads

end
-- ==== Proof.LayerBasics.lean ====
/-
  THE PIECES OF ONE CONVOLUTION LAYER READ AT AN INDEX, at the ideal values.

  The reference computes  relu ((((A (x·w) + b) − μ) · s) + β)  with  s = γ · rsqrt (σ² + ε)  and  A  the weighted
  neighbourhood sum (gather the rows at the edge sources, scale by the edge weight, scatter-add at the targets).  The
  kernel computes  relu (A (x·w') + b')  on folded parameters  w' (k, j) = w (k, j) · s j ,  b' j = (b j − μ j) · s j + β j .
  For real x, w, b, γ, β, μ, real edge weights and a nonnegative real variance σ² the two arrays are equal and real
  (Cert.HopLaw.layer_law at every entry): s is a real because σ² + ε is a positive real.
-/
import proofs.«127520_j50629074485391_2_alg».proof.Proof.HopLaw
import proofs.«127520_j50629074485391_2_alg».proof.Proof.SliceReads
import proofs.«127520_j50629074485391_2_alg».proof.Proof.LibFinite
import proofs.«127520_j50629074485391_2_alg».proof.Proof.RegionRowBcast
import proofs.«127520_j50629074485391_2_alg».proof.Proof.RefRunStages

noncomputable section

open scoped BigOperators

namespace Cert.LayerBridge

open Idealize.ShloMosaic Idealize.ShloMosaic.ValueIdx
open Cert.ReferenceIdeal Cert.ReferenceIdeal.Gen Cert.ReferenceIdeal.HandRun
open Cert.KernelIdeal.RegionValue (prodArr prodArr_apply)
open Cert.KernelIdeal.RowBcast (bcastRow bcastRow_apply)
open Cert.DenseRow (actArr)
open Cert.RowBias (zf)
open Cert.ProdRows (addArr)
open Cert.Finite (AllReal IsNN)

/-- The zero array a scatter-add starts from is zero everywhere. -/
theorem zeros_apply (i : S100000x64.Idx) :
    broadcastInDim S100000x64 ![] bcast_S_S100000x64 (constant (F := Ideal) S_ .f32 0x00000000#32) i = 0 := by
  rw [Cert.SliceReads.bcast_scalar_apply]
  exact Ideal.ofBits_zero_f32

/-- The program's weighted neighbourhood sum is the aggregation of Cert.HopLaw. -/
theorem aggregate_eq (y : FVec Ideal S100000x64 .f32) (r c : IVec S3300000 32) (ew : FVec Ideal S3300000x1 .f32) :
    aggregate (F := Ideal) y r c ew
      = Cert.HopLaw.hop (N := 100000) (E := 3300000) (C := 64)
          gather_S100000x64_S3300000x1_S3300000x64_1_0_n_n_0_1_164.wf scatter_S100000x64_S3300000x1_S3300000x64_1_0_0_1.wf
          bcast_S3300000x1_S3300000x64_0_1 (idxCol (F := Ideal) (wrapIdx (F := Ideal) r)) (idxCol (F := Ideal) c) ew
          (broadcastInDim S100000x64 ![] bcast_S_S100000x64 (constant (F := Ideal) S_ .f32 0x00000000#32)) y := rfl

/-- The batch norm's scale at a channel. -/
theorem bnScale_apply (g var : FVec Ideal S64 .f32) (j : Fin 64) :
    bnScale (F := Ideal) g var (ix1 j) = g (ix1 j) * Ideal.rsqrt (var (ix1 j) + Ideal.ofBits .f32 0x3727C5AC#32) := by
  show g (ix1 j) * Ideal.rsqrt (var (ix1 j) + broadcastInDim S64 ![] bcast_S_S64 (constant (F := Ideal) S_ .f32 0x3727C5AC#32) (ix1 j)) = _
  rw [Cert.SliceReads.bcast_scalar_apply]
  rfl

/-- The scale is a real when γ is real and σ² is a nonnegative real. -/
theorem bnScale_real (g var : FVec Ideal S64 .f32) (hg : AllReal g) (hvar : ∀ i, IsNN (var i)) (j : Fin 64) :
    Cert.Finite.IsReal (bnScale (F := Ideal) g var (ix1 j)) := by
  rw [bnScale_apply]
  exact (hg _).mul (hvar _).rsqrt_add_eps

end Cert.LayerBridge

end
-- ==== Proof.FoldedParams.lean ====
/-
  THE FOLDED PARAMETERS READ LAYER BY LAYER.

  The kernel folds the batch norm into stacked parameters once: scale  s (i, j) = γ (i, j) · rsqrt (σ² (i, j) + ε) , bias
  b' (i, j) = (b (i, j) − μ (i, j)) · s (i, j) + β (i, j) , weight  w' (i, k, j) = w (i, k, j) · s (i, j) .  Layer i reads its slice.
  Read at an index, the slice of the folded weight is the slice of the weight times the reference's per-layer scale
  γᵢ j · rsqrt (σ²ᵢ j + ε) , and the slice of the folded bias is  (bᵢ j − μᵢ j) · sᵢ j + βᵢ j  - the two hypotheses of the layer
  law.  Slices of real (nonnegative) stacks are real (nonnegative).
-/
import proofs.«127520_j50629074485391_2_alg».proof.Proof.KernelSpec
import proofs.«127520_j50629074485391_2_alg».proof.Proof.LayerBasics

noncomputable section

namespace Cert.FoldedParams

open Idealize.ShloMosaic Idealize.ShloMosaic.ValueIdx
open Cert.ReferenceIdeal Cert.ReferenceIdeal.Gen Cert.ReferenceIdeal.HandRun
open Cert.KernelIdeal.Spec (scaleK bFold wFold)
open Cert.Finite (AllReal IsNN)

/-- The stacked scale at a layer and channel. -/
theorem scaleK_apply (g var : FVec Ideal S4x64 .f32) (i : Fin 4) (j : Fin 64) :
    scaleK (F := Ideal) g var (ix2 i j) = g (ix2 i j) * Ideal.rsqrt (var (ix2 i j) + Ideal.ofBits .f32 0x3727C5AC#32) := by
  show g (ix2 i j) * Ideal.rsqrt (var (ix2 i j)
      + broadcastInDim Cert.KernelIdeal.S4x64 ![] Cert.KernelIdeal.Gen.bcast_S_S4x64 (constant (F := Ideal) Cert.KernelIdeal.S_ .f32 0x3727C5AC#32) (ix2 i j)) = _
  rw [Cert.SliceReads.bcast_scalar_apply]
  rfl

/-- The stacked folded bias at a layer and channel. -/
theorem bFold_apply (b g be mu var : FVec Ideal S4x64 .f32) (i : Fin 4) (j : Fin 64) :
    bFold (F := Ideal) b g be mu var (ix2 i j) = (b (ix2 i j) - mu (ix2 i j)) * scaleK (F := Ideal) g var (ix2 i j) + be (ix2 i j) := rfl

/-- The stacked folded weight at a layer, row and channel. -/
theorem wFold_apply (w : FVec Ideal S4x64x64 .f32) (g var : FVec Ideal S4x64 .f32) (i : Fin 4) (k j : Fin 64) :
    wFold (F := Ideal) w g var (ix3 i k j) = w (ix3 i k j) * scaleK (F := Ideal) g var (ix2 i j) := by
  show w (ix3 i k j) * broadcastInDim Cert.KernelIdeal.S4x64x64 ![0, 1, 2] Cert.KernelIdeal.Gen.bcast_S4x1x64_S4x64x64_0_1_2
      (broadcastInDim Cert.KernelIdeal.S4x1x64 ![0, 2] Cert.KernelIdeal.Gen.bcast_S4x64_S4x1x64_0_2 (scaleK (F := Ideal) g var)) (ix3 i k j) = _
  rw [Cert.SliceReads.bcast_mid_apply]

/-! ## Layer 0 -/

theorem vecSlice0_apply (b : FVec Ideal S4x64 .f32) (j : Fin 64) : vecSlice0 (F := Ideal) b (ix1 j) = b (ix2 (0 : Fin 4) j) := by
  unfold vecSlice0
  exact Cert.SliceReads.row_apply ![0, 0] (0 : Fin 4) rfl rfl b _ _ j

theorem matSlice0_apply (w : FVec Ideal S4x64x64 .f32) (k j : Fin 64) : matSlice0 (F := Ideal) w (ix2 k j) = w (ix3 (0 : Fin 4) k j) := by
  unfold matSlice0
  exact Cert.SliceReads.mat_apply ![0, 0, 0] (0 : Fin 4) rfl rfl rfl w _ _ k j

theorem vecSlice0_real (b : FVec Ideal S4x64 .f32) (hb : AllReal b) : AllReal (vecSlice0 (F := Ideal) b) := fun (idx : (⟨1, ![64]⟩ : Shape).Idx) => by
  obtain ⟨j, rfl⟩ : ∃ j : Fin 64, idx = ix1 j := ⟨idx 0, eq_ix1 idx⟩
  rw [vecSlice0_apply]; exact hb _

theorem vecSlice0_nn (b : FVec Ideal S4x64 .f32) (hb : ∀ i, IsNN (b i)) : ∀ i, IsNN (vecSlice0 (F := Ideal) b i) := fun (idx : (⟨1, ![64]⟩ : Shape).Idx) => by
  obtain ⟨j, rfl⟩ : ∃ j : Fin 64, idx = ix1 j := ⟨idx 0, eq_ix1 idx⟩
  rw [vecSlice0_apply]; exact hb _

theorem matSlice0_real (w : FVec Ideal S4x64x64 .f32) (hw : AllReal w) : AllReal (matSlice0 (F := Ideal) w) := fun (idx : (⟨2, ![64, 64]⟩ : Shape).Idx) => by
  obtain ⟨k, j, rfl⟩ : ∃ (k j : Fin 64), idx = ix2 k j := ⟨idx 0, idx 1, eq_ix2 idx⟩
  rw [matSlice0_apply]; exact hw _

/-- The scale of layer 0 read off the stacked scale. -/
theorem bnScale0 (g var : FVec Ideal S4x64 .f32) (j : Fin 64) :
    bnScale (F := Ideal) (vecSlice0 (F := Ideal) g) (vecSlice0 (F := Ideal) var) (ix1 j) = scaleK (F := Ideal) g var (ix2 (0 : Fin 4) j) := by
  rw [Cert.LayerBridge.bnScale_apply, vecSlice0_apply, vecSlice0_apply, scaleK_apply]

/-- Layer 0's folded weight is its weight times the channel's scale. -/
theorem wfold0 (w : FVec Ideal S4x64x64 .f32) (g var : FVec Ideal S4x64 .f32) (k j : Fin 64) :
    matSlice0 (F := Ideal) (wFold (F := Ideal) w g var) (ix2 k j)
      = matSlice0 (F := Ideal) w (ix2 k j) * bnScale (F := Ideal) (vecSlice0 (F := Ideal) g) (vecSlice0 (F := Ideal) var) (ix1 j) := by
  rw [matSlice0_apply, matSlice0_apply, bnScale0, wFold_apply]

/-- Layer 0's folded bias row is `(b − μ) · s + β`. -/
theorem bfold0 (hc : S64.ShapeCasts S1x64) (b g be mu var : FVec Ideal S4x64 .f32) (j : Fin 64) :
    shapeCast S1x64 (vecSlice0 (F := Ideal) (bFold (F := Ideal) b g be mu var)) hc (ix2 (0 : Fin 1) j)
      = (vecSlice0 (F := Ideal) b (ix1 j) - vecSlice0 (F := Ideal) mu (ix1 j))
          * bnScale (F := Ideal) (vecSlice0 (F := Ideal) g) (vecSlice0 (F := Ideal) var) (ix1 j) + vecSlice0 (F := Ideal) be (ix1 j) := by
  rw [shapeCast_a_1a_apply, vecSlice0_apply, vecSlice0_apply, vecSlice0_apply, vecSlice0_apply, bnScale0, bFold_apply]

/-! ## Layer 1 -/

theorem vecSlice1_apply (b : FVec Ideal S4x64 .f32) (j : Fin 64) : vecSlice1 (F := Ideal) b (ix1 j) = b (ix2 (1 : Fin 4) j) := by
  unfold vecSlice1
  exact Cert.SliceReads.row_apply ![1, 0] (1 : Fin 4) rfl rfl b _ _ j

theorem matSlice1_apply (w : FVec Ideal S4x64x64 .f32) (k j : Fin 64) : matSlice1 (F := Ideal) w (ix2 k j) = w (ix3 (1 : Fin 4) k j) := by
  unfold matSlice1
  exact Cert.SliceReads.mat_apply ![1, 0, 0] (1 : Fin 4) rfl rfl rfl w _ _ k j

theorem vecSlice1_real (b : FVec Ideal S4x64 .f32) (hb : AllReal b) : AllReal (vecSlice1 (F := Ideal) b) := fun (idx : (⟨1, ![64]⟩ : Shape).Idx) => by
  obtain ⟨j, rfl⟩ : ∃ j : Fin 64, idx = ix1 j := ⟨idx 0, eq_ix1 idx⟩
  rw [vecSlice1_apply]; exact hb _

theorem vecSlice1_nn (b : FVec Ideal S4x64 .f32) (hb : ∀ i, IsNN (b i)) : ∀ i, IsNN (vecSlice1 (F := Ideal) b i) := fun (idx : (⟨1, ![64]⟩ : Shape).Idx) => by
  obtain ⟨j, rfl⟩ : ∃ j : Fin 64, idx = ix1 j := ⟨idx 0, eq_ix1 idx⟩
  rw [vecSlice1_apply]; exact hb _

theorem matSlice1_real (w : FVec Ideal S4x64x64 .f32) (hw : AllReal w) : AllReal (matSlice1 (F := Ideal) w) := fun (idx : (⟨2, ![64, 64]⟩ : Shape).Idx) => by
  obtain ⟨k, j, rfl⟩ : ∃ (k j : Fin 64), idx = ix2 k j := ⟨idx 0, idx 1, eq_ix2 idx⟩
  rw [matSlice1_apply]; exact hw _

/-- The scale of layer 1 read off the stacked scale. -/
theorem bnScale1 (g var : FVec Ideal S4x64 .f32) (j : Fin 64) :
    bnScale (F := Ideal) (vecSlice1 (F := Ideal) g) (vecSlice1 (F := Ideal) var) (ix1 j) = scaleK (F := Ideal) g var (ix2 (1 : Fin 4) j) := by
  rw [Cert.LayerBridge.bnScale_apply, vecSlice1_apply, vecSlice1_apply, scaleK_apply]

/-- Layer 1's folded weight is its weight times the channel's scale. -/
theorem wfold1 (w : FVec Ideal S4x64x64 .f32) (g var : FVec Ideal S4x64 .f32) (k j : Fin 64) :
    matSlice1 (F := Ideal) (wFold (F := Ideal) w g var) (ix2 k j)
      = matSlice1 (F := Ideal) w (ix2 k j) * bnScale (F := Ideal) (vecSlice1 (F := Ideal) g) (vecSlice1 (F := Ideal) var) (ix1 j) := by
  rw [matSlice1_apply, matSlice1_apply, bnScale1, wFold_apply]

/-- Layer 1's folded bias row is `(b − μ) · s + β`. -/
theorem bfold1 (hc : S64.ShapeCasts S1x64) (b g be mu var : FVec Ideal S4x64 .f32) (j : Fin 64) :
    shapeCast S1x64 (vecSlice1 (F := Ideal) (bFold (F := Ideal) b g be mu var)) hc (ix2 (0 : Fin 1) j)
      = (vecSlice1 (F := Ideal) b (ix1 j) - vecSlice1 (F := Ideal) mu (ix1 j))
          * bnScale (F := Ideal) (vecSlice1 (F := Ideal) g) (vecSlice1 (F := Ideal) var) (ix1 j) + vecSlice1 (F := Ideal) be (ix1 j) := by
  rw [shapeCast_a_1a_apply, vecSlice1_apply, vecSlice1_apply, vecSlice1_apply, vecSlice1_apply, bnScale1, bFold_apply]

/-! ## Layer 2 -/

theorem vecSlice2_apply (b : FVec Ideal S4x64 .f32) (j : Fin 64) : vecSlice2 (F := Ideal) b (ix1 j) = b (ix2 (2 : Fin 4) j) := by
  unfold vecSlice2
  exact Cert.SliceReads.row_apply ![2, 0] (2 : Fin 4) rfl rfl b _ _ j

theorem matSlice2_apply (w : FVec Ideal S4x64x64 .f32) (k j : Fin 64) : matSlice2 (F := Ideal) w (ix2 k j) = w (ix3 (2 : Fin 4) k j) := by
  unfold matSlice2
  exact Cert.SliceReads.mat_apply ![2, 0, 0] (2 : Fin 4) rfl rfl rfl w _ _ k j

theorem vecSlice2_real (b : FVec Ideal S4x64 .f32) (hb : AllReal b) : AllReal (vecSlice2 (F := Ideal) b) := fun (idx : (⟨1, ![64]⟩ : Shape).Idx) => by
  obtain ⟨j, rfl⟩ : ∃ j : Fin 64, idx = ix1 j := ⟨idx 0, eq_ix1 idx⟩
  rw [vecSlice2_apply]; exact hb _

theorem vecSlice2_nn (b : FVec Ideal S4x64 .f32) (hb : ∀ i, IsNN (b i)) : ∀ i, IsNN (vecSlice2 (F := Ideal) b i) := fun (idx : (⟨1, ![64]⟩ : Shape).Idx) => by
  obtain ⟨j, rfl⟩ : ∃ j : Fin 64, idx = ix1 j := ⟨idx 0, eq_ix1 idx⟩
  rw [vecSlice2_apply]; exact hb _

theorem matSlice2_real (w : FVec Ideal S4x64x64 .f32) (hw : AllReal w) : AllReal (matSlice2 (F := Ideal) w) := fun (idx : (⟨2, ![64, 64]⟩ : Shape).Idx) => by
  obtain ⟨k, j, rfl⟩ : ∃ (k j : Fin 64), idx = ix2 k j := ⟨idx 0, idx 1, eq_ix2 idx⟩
  rw [matSlice2_apply]; exact hw _

/-- The scale of layer 2 read off the stacked scale. -/
theorem bnScale2 (g var : FVec Ideal S4x64 .f32) (j : Fin 64) :
    bnScale (F := Ideal) (vecSlice2 (F := Ideal) g) (vecSlice2 (F := Ideal) var) (ix1 j) = scaleK (F := Ideal) g var (ix2 (2 : Fin 4) j) := by
  rw [Cert.LayerBridge.bnScale_apply, vecSlice2_apply, vecSlice2_apply, scaleK_apply]

/-- Layer 2's folded weight is its weight times the channel's scale. -/
theorem wfold2 (w : FVec Ideal S4x64x64 .f32) (g var : FVec Ideal S4x64 .f32) (k j : Fin 64) :
    matSlice2 (F := Ideal) (wFold (F := Ideal) w g var) (ix2 k j)
      = matSlice2 (F := Ideal) w (ix2 k j) * bnScale (F := Ideal) (vecSlice2 (F := Ideal) g) (vecSlice2 (F := Ideal) var) (ix1 j) := by
  rw [matSlice2_apply, matSlice2_apply, bnScale2, wFold_apply]

/-- Layer 2's folded bias row is `(b − μ) · s + β`. -/
theorem bfold2 (hc : S64.ShapeCasts S1x64) (b g be mu var : FVec Ideal S4x64 .f32) (j : Fin 64) :
    shapeCast S1x64 (vecSlice2 (F := Ideal) (bFold (F := Ideal) b g be mu var)) hc (ix2 (0 : Fin 1) j)
      = (vecSlice2 (F := Ideal) b (ix1 j) - vecSlice2 (F := Ideal) mu (ix1 j))
          * bnScale (F := Ideal) (vecSlice2 (F := Ideal) g) (vecSlice2 (F := Ideal) var) (ix1 j) + vecSlice2 (F := Ideal) be (ix1 j) := by
  rw [shapeCast_a_1a_apply, vecSlice2_apply, vecSlice2_apply, vecSlice2_apply, vecSlice2_apply, bnScale2, bFold_apply]

/-! ## Layer 3 -/

theorem vecSlice3_apply (b : FVec Ideal S4x64 .f32) (j : Fin 64) : vecSlice3 (F := Ideal) b (ix1 j) = b (ix2 (3 : Fin 4) j) := by
  unfold vecSlice3
  exact Cert.SliceReads.row_apply ![3, 0] (3 : Fin 4) rfl rfl b _ _ j

theorem matSlice3_apply (w : FVec Ideal S4x64x64 .f32) (k j : Fin 64) : matSlice3 (F := Ideal) w (ix2 k j) = w (ix3 (3 : Fin 4) k j) := by
  unfold matSlice3
  exact Cert.SliceReads.mat_apply ![3, 0, 0] (3 : Fin 4) rfl rfl rfl w _ _ k j

theorem vecSlice3_real (b : FVec Ideal S4x64 .f32) (hb : AllReal b) : AllReal (vecSlice3 (F := Ideal) b) := fun (idx : (⟨1, ![64]⟩ : Shape).Idx) => by
  obtain ⟨j, rfl⟩ : ∃ j : Fin 64, idx = ix1 j := ⟨idx 0, eq_ix1 idx⟩
  rw [vecSlice3_apply]; exact hb _

theorem vecSlice3_nn (b : FVec Ideal S4x64 .f32) (hb : ∀ i, IsNN (b i)) : ∀ i, IsNN (vecSlice3 (F := Ideal) b i) := fun (idx : (⟨1, ![64]⟩ : Shape).Idx) => by
  obtain ⟨j, rfl⟩ : ∃ j : Fin 64, idx = ix1 j := ⟨idx 0, eq_ix1 idx⟩
  rw [vecSlice3_apply]; exact hb _

theorem matSlice3_real (w : FVec Ideal S4x64x64 .f32) (hw : AllReal w) : AllReal (matSlice3 (F := Ideal) w) := fun (idx : (⟨2, ![64, 64]⟩ : Shape).Idx) => by
  obtain ⟨k, j, rfl⟩ : ∃ (k j : Fin 64), idx = ix2 k j := ⟨idx 0, idx 1, eq_ix2 idx⟩
  rw [matSlice3_apply]; exact hw _

/-- The scale of layer 3 read off the stacked scale. -/
theorem bnScale3 (g var : FVec Ideal S4x64 .f32) (j : Fin 64) :
    bnScale (F := Ideal) (vecSlice3 (F := Ideal) g) (vecSlice3 (F := Ideal) var) (ix1 j) = scaleK (F := Ideal) g var (ix2 (3 : Fin 4) j) := by
  rw [Cert.LayerBridge.bnScale_apply, vecSlice3_apply, vecSlice3_apply, scaleK_apply]

/-- Layer 3's folded weight is its weight times the channel's scale. -/
theorem wfold3 (w : FVec Ideal S4x64x64 .f32) (g var : FVec Ideal S4x64 .f32) (k j : Fin 64) :
    matSlice3 (F := Ideal) (wFold (F := Ideal) w g var) (ix2 k j)
      = matSlice3 (F := Ideal) w (ix2 k j) * bnScale (F := Ideal) (vecSlice3 (F := Ideal) g) (vecSlice3 (F := Ideal) var) (ix1 j) := by
  rw [matSlice3_apply, matSlice3_apply, bnScale3, wFold_apply]

/-- Layer 3's folded bias row is `(b − μ) · s + β`. -/
theorem bfold3 (hc : S64.ShapeCasts S1x64) (b g be mu var : FVec Ideal S4x64 .f32) (j : Fin 64) :
    shapeCast S1x64 (vecSlice3 (F := Ideal) (bFold (F := Ideal) b g be mu var)) hc (ix2 (0 : Fin 1) j)
      = (vecSlice3 (F := Ideal) b (ix1 j) - vecSlice3 (F := Ideal) mu (ix1 j))
          * bnScale (F := Ideal) (vecSlice3 (F := Ideal) g) (vecSlice3 (F := Ideal) var) (ix1 j) + vecSlice3 (F := Ideal) be (ix1 j) := by
  rw [shapeCast_a_1a_apply, vecSlice3_apply, vecSlice3_apply, vecSlice3_apply, vecSlice3_apply, bnScale3, bFold_apply]

end Cert.FoldedParams

end
-- ==== Proof.LayerBridge.lean ====
/-
  ONE CONVOLUTION LAYER OF THE TWO PROGRAMS, at the ideal values.

  The reference computes  relu ((((A (x·w) + b) − μ) · s) + β)  with  s = γ · rsqrt (σ² + ε)  and  A  the weighted
  neighbourhood sum (gather the rows at the edge sources, scale by the edge weight, scatter-add at the targets).  The
  kernel computes  relu (A (x·w') + b')  on folded parameters  w' (k, j) = w (k, j) · s j ,  b' j = (b j − μ j) · s j + β j .
  For real x, w, b, γ, β, μ, real edge weights and a nonnegative real variance σ² the two arrays are equal and real
  (Cert.HopLaw.layer_law at every entry): s is a real because σ² + ε is a positive real.
-/
import proofs.«127520_j50629074485391_2_alg».proof.Proof.LayerBasics

noncomputable section

open scoped BigOperators

namespace Cert.LayerBridge

open Idealize.ShloMosaic Idealize.ShloMosaic.ValueIdx
open Cert.ReferenceIdeal Cert.ReferenceIdeal.Gen Cert.ReferenceIdeal.HandRun
open Cert.KernelIdeal.RegionValue (prodArr prodArr_apply)
open Cert.KernelIdeal.RowBcast (bcastRow bcastRow_apply)
open Cert.DenseRow (actArr)
open Cert.RowBias (zf)
open Cert.ProdRows (addArr)
open Cert.Finite (AllReal IsNN)

/-- The reference's dense product of a layer is the product of the two arrays, index by index. -/
theorem dot_eq (x : FVec Ideal S100000x64 .f32) (w : FVec Ideal S64x64 .f32) :
    Host.dotGeneral (F := Ideal) dot_S100000x64_S64x64_S100000x64_1_0_0_1_n_n none x w = prodArr x w :=
  Cert.ProdRows.hprod (R := 100000) (K := 64) (N := 64) none x w

/-- The folded layer read at an entry. -/
theorem kentry (y : FVec Ideal S100000x64 .f32) (bf : (⟨2, ![1, 64]⟩ : Shape).Idx → EReal) (n : Fin 100000) (j : Fin 64) :
    actArr zf (addArr y (bcastRow 100000 bf)) (ix2 n j) = max (y (ix2 n j) + bf (ix2 (0 : Fin 1) j)) zf := rfl

/-- What the reference does to an aggregation `y`: add the bias, subtract the running mean, scale, shift, rectify. -/
def post (b g be mu var : FVec Ideal S64 .f32) (y : FVec Ideal S100000x64 .f32) : FVec Ideal S100000x64 .f32 :=
  relu64 (F := Ideal) (addf (mulf (subf (addf y (rowB (F := Ideal) b)) (rowB (F := Ideal) mu)) (rowB (F := Ideal) (bnScale (F := Ideal) g var))) (rowB (F := Ideal) be))

/-- The same read at an entry. -/
theorem post_apply (b g be mu var : FVec Ideal S64 .f32) (y : FVec Ideal S100000x64 .f32) (n : Fin 100000) (j : Fin 64) :
    post b g be mu var y (ix2 n j)
        = max ((((y (ix2 n j) + b (ix1 j)) - mu (ix1 j)) * bnScale (F := Ideal) g var (ix1 j)) + be (ix1 j)) zf := by
  unfold post relu64
  show max ((((y (ix2 n j) + rowB (F := Ideal) b (ix2 n j)) - rowB (F := Ideal) mu (ix2 n j))
        * rowB (F := Ideal) (bnScale (F := Ideal) g var) (ix2 n j)) + rowB (F := Ideal) be (ix2 n j))
      (broadcastInDim S100000x64 ![] bcast_S_S100000x64 (constant (F := Ideal) S_ .f32 0x00000000#32) (ix2 n j)) = _
  unfold rowB
  rw [Cert.SliceReads.bcast_rows_apply, Cert.SliceReads.bcast_rows_apply, Cert.SliceReads.bcast_rows_apply,
    Cert.SliceReads.bcast_rows_apply, Cert.SliceReads.bcast_scalar_apply]
  rfl

/-- The reference's layer as the post-processing of the aggregation of the product. -/
theorem convLayer_eq (w : FVec Ideal S64x64 .f32) (b g be mu var : FVec Ideal S64 .f32) (x : FVec Ideal S100000x64 .f32)
    (r c : IVec S3300000 32) (ew : FVec Ideal S3300000x1 .f32) :
    convLayer (F := Ideal) w b g be mu var x r c ew = post b g be mu var (aggregate (F := Ideal) (prodArr x w) r c ew) := by
  unfold convLayer post
  rw [dot_eq]

/-- The reference's layer read at an entry. -/
theorem rentry (w : FVec Ideal S64x64 .f32) (b g be mu var : FVec Ideal S64 .f32) (x : FVec Ideal S100000x64 .f32)
    (r c : IVec S3300000 32) (ew : FVec Ideal S3300000x1 .f32) (n : Fin 100000) (j : Fin 64) :
    convLayer (F := Ideal) w b g be mu var x r c ew (ix2 n j)
      = max ((((aggregate (F := Ideal) (prodArr x w) r c ew (ix2 n j) + b (ix1 j)) - mu (ix1 j))
          * bnScale (F := Ideal) g var (ix1 j)) + be (ix1 j)) zf := by
  rw [convLayer_eq]
  exact post_apply b g be mu var _ n j

/-- The two arrangements of a layer at one entry. -/
theorem entry_bridge (w : FVec Ideal S64x64 .f32) (b g be mu var : FVec Ideal S64 .f32) (x : FVec Ideal S100000x64 .f32)
    (r c : IVec S3300000 32) (ew : FVec Ideal S3300000x1 .f32)
    (wf : S64x64.Idx → EReal) (bf : (⟨2, ![1, 64]⟩ : Shape).Idx → EReal)
    (hx : AllReal x) (hw : AllReal w) (hb : AllReal b) (hg : AllReal g) (hbe : AllReal be) (hmu : AllReal mu)
    (hvar : ∀ i, IsNN (var i)) (hew : AllReal ew)
    (hwf : ∀ (k j : Fin 64), wf (ix2 k j) = w (ix2 k j) * bnScale (F := Ideal) g var (ix1 j))
    (hbf : ∀ j : Fin 64, bf (ix2 (0 : Fin 1) j) = (b (ix1 j) - mu (ix1 j)) * bnScale (F := Ideal) g var (ix1 j) + be (ix1 j))
    (n : Fin 100000) (j : Fin 64) :
    max (aggregate (F := Ideal) (prodArr x wf) r c ew (ix2 n j) + bf (ix2 (0 : Fin 1) j)) zf
        = max ((((aggregate (F := Ideal) (prodArr x w) r c ew (ix2 n j) + b (ix1 j)) - mu (ix1 j))
            * bnScale (F := Ideal) g var (ix1 j)) + be (ix1 j)) zf
      ∧ Cert.Finite.IsReal (max ((((aggregate (F := Ideal) (prodArr x w) r c ew (ix2 n j) + b (ix1 j)) - mu (ix1 j))
            * bnScale (F := Ideal) g var (ix1 j)) + be (ix1 j)) zf) := by
  rw [aggregate_eq, aggregate_eq]
  exact Cert.HopLaw.layer_law (N := 100000) (E := 3300000) (C := 64) (K := 64) (by norm_num)
    gather_S100000x64_S3300000x1_S3300000x64_1_0_n_n_0_1_164.wf scatter_S100000x64_S3300000x1_S3300000x64_1_0_0_1.wf
    bcast_S3300000x1_S3300000x64_0_1 (idxCol (F := Ideal) (wrapIdx (F := Ideal) r)) (idxCol (F := Ideal) c) ew
    (broadcastInDim S100000x64 ![] bcast_S_S100000x64 (constant (F := Ideal) S_ .f32 0x00000000#32)) x w wf
    (fun j => bnScale (F := Ideal) g var (ix1 j)) (fun j => b (ix1 j)) (fun j => mu (ix1 j)) (fun j => be (ix1 j))
    (fun j => bf (ix2 (0 : Fin 1) j)) zf (fun i => hx i) (fun i => hw i) (fun i => hew i) zeros_apply
    (fun j => bnScale_real g var hg hvar j) (fun j => hb _) (fun j => hmu _) (fun j => hbe _)
    Cert.Finite.isReal_zeroWord hwf hbf n j

/-- THE LAYER, folded and unfolded. -/
theorem conv_bridge (w : FVec Ideal S64x64 .f32) (b g be mu var : FVec Ideal S64 .f32) (x : FVec Ideal S100000x64 .f32)
    (r c : IVec S3300000 32) (ew : FVec Ideal S3300000x1 .f32)
    (wf : S64x64.Idx → EReal) (bf : (⟨2, ![1, 64]⟩ : Shape).Idx → EReal)
    (hx : AllReal x) (hw : AllReal w) (hb : AllReal b) (hg : AllReal g) (hbe : AllReal be) (hmu : AllReal mu)
    (hvar : ∀ i, IsNN (var i)) (hew : AllReal ew)
    (hwf : ∀ (k j : Fin 64), wf (ix2 k j) = w (ix2 k j) * bnScale (F := Ideal) g var (ix1 j))
    (hbf : ∀ j : Fin 64, bf (ix2 (0 : Fin 1) j) = (b (ix1 j) - mu (ix1 j)) * bnScale (F := Ideal) g var (ix1 j) + be (ix1 j)) :
    actArr zf (addArr (aggregate (F := Ideal) (prodArr x wf) r c ew) (bcastRow 100000 bf))
        = convLayer (F := Ideal) w b g be mu var x r c ew
      ∧ AllReal (convLayer (F := Ideal) w b g be mu var x r c ew) := by
  have key := entry_bridge w b g be mu var x r c ew wf bf hx hw hb hg hbe hmu hvar hew hwf hbf
  refine ⟨funext fun (i : (⟨2, ![100000, 64]⟩ : Shape).Idx) => ?_, fun (i : (⟨2, ![100000, 64]⟩ : Shape).Idx) => ?_⟩
  · obtain ⟨n, j, rfl⟩ : ∃ (n : Fin 100000) (j : Fin 64), i = ix2 n j := ⟨i 0, i 1, eq_ix2 i⟩
    rw [kentry, rentry]; exact (key n j).1
  · obtain ⟨n, j, rfl⟩ : ∃ (n : Fin 100000) (j : Fin 64), i = ix2 n j := ⟨i 0, i 1, eq_ix2 i⟩
    rw [rentry]; exact (key n j).2

end Cert.LayerBridge

end
-- ==== Proof.LayersEqual.lean ====
/-
  THE FOUR CONVOLUTION LAYERS OF THE TWO PROGRAMS AGREE, and their outputs are real.

  By induction along the network: layer 0's input is the (real) feature argument; each layer's folded form equals its
  unfolded form on a real input and gives a real output (Cert.LayerBridge.conv_bridge with the folded parameters read layer
  by layer, Cert.FoldedParams); layer 2's output is the sum of its rectified value and layer 0's output, a sum of reals.
-/
import proofs.«127520_j50629074485391_2_alg».proof.Proof.FoldedParams
import proofs.«127520_j50629074485391_2_alg».proof.Proof.LayerBridge
import proofs.«127520_j50629074485391_2_alg».proof.Proof.RefRunValue

noncomputable section

namespace Cert.LayersEqual

open Idealize.ShloMosaic Idealize.ShloMosaic.ValueIdx
open Cert.ReferenceIdeal Cert.ReferenceIdeal.Gen Cert.ReferenceIdeal.HandRun
open Cert.KernelIdeal.Spec (scaleK bFold wFold kerLayer kerX1 kerX2 kerX3 kerX4)
open Cert.FoldedParams
open Cert.Finite (AllReal IsNN)

theorem x1 (a0 : FVec Ideal S100000x64 .f32) (a1 : IVec S2x3200000 32) (a3 : FVec Ideal S4x64x64 .f32) (a4 a5 a6 a7 a8 : FVec Ideal S4x64 .f32)
    (h0 : AllReal a0) (h3 : AllReal a3) (h4 : AllReal a4) (h5 : AllReal a5) (h6 : AllReal a6) (h7 : AllReal a7) (hnn : ∀ i, IsNN (a8 i))
    (hew : AllReal (edgeW (F := Ideal) (rowIdx (F := Ideal) a1) (colIdx (F := Ideal) a1))) :
    kerX1 a0 a1 a3 a4 a5 a6 a7 a8 = refX1 (F := Ideal) a0 a1 a3 a4 a5 a6 a7 a8 ∧ AllReal (refX1 (F := Ideal) a0 a1 a3 a4 a5 a6 a7 a8) := by
  unfold kerX1 kerLayer refX1
  exact Cert.LayerBridge.conv_bridge (matSlice0 (F := Ideal) a3) (vecSlice0 (F := Ideal) a4) (vecSlice0 (F := Ideal) a5)
      (vecSlice0 (F := Ideal) a6) (vecSlice0 (F := Ideal) a7) (vecSlice0 (F := Ideal) a8) a0
      (rowIdx (F := Ideal) a1) (colIdx (F := Ideal) a1) (edgeW (F := Ideal) (rowIdx (F := Ideal) a1) (colIdx (F := Ideal) a1))
      _ _
      h0 (matSlice0_real a3 h3) (vecSlice0_real a4 h4) (vecSlice0_real a5 h5) (vecSlice0_real a6 h6) (vecSlice0_real a7 h7)
      (vecSlice0_nn a8 hnn) hew (wfold0 a3 a5 a8) (bfold0 _ a4 a5 a6 a7 a8)

theorem x2 (a0 : FVec Ideal S100000x64 .f32) (a1 : IVec S2x3200000 32) (a3 : FVec Ideal S4x64x64 .f32) (a4 a5 a6 a7 a8 : FVec Ideal S4x64 .f32)
    (h0 : AllReal a0) (h3 : AllReal a3) (h4 : AllReal a4) (h5 : AllReal a5) (h6 : AllReal a6) (h7 : AllReal a7) (hnn : ∀ i, IsNN (a8 i))
    (hew : AllReal (edgeW (F := Ideal) (rowIdx (F := Ideal) a1) (colIdx (F := Ideal) a1))) :
    kerX2 a0 a1 a3 a4 a5 a6 a7 a8 = refX2 (F := Ideal) a0 a1 a3 a4 a5 a6 a7 a8 ∧ AllReal (refX2 (F := Ideal) a0 a1 a3 a4 a5 a6 a7 a8) := by
  unfold kerX2 kerLayer refX2
  rw [(x1 a0 a1 a3 a4 a5 a6 a7 a8 h0 h3 h4 h5 h6 h7 hnn hew).1]
  exact Cert.LayerBridge.conv_bridge (matSlice1 (F := Ideal) a3) (vecSlice1 (F := Ideal) a4) (vecSlice1 (F := Ideal) a5)
      (vecSlice1 (F := Ideal) a6) (vecSlice1 (F := Ideal) a7) (vecSlice1 (F := Ideal) a8) (refX1 (F := Ideal) a0 a1 a3 a4 a5 a6 a7 a8)
      (rowIdx (F := Ideal) a1) (colIdx (F := Ideal) a1) (edgeW (F := Ideal) (rowIdx (F := Ideal) a1) (colIdx (F := Ideal) a1))
      _ _
      (x1 a0 a1 a3 a4 a5 a6 a7 a8 h0 h3 h4 h5 h6 h7 hnn hew).2 (matSlice1_real a3 h3) (vecSlice1_real a4 h4) (vecSlice1_real a5 h5) (vecSlice1_real a6 h6) (vecSlice1_real a7 h7)
      (vecSlice1_nn a8 hnn) hew (wfold1 a3 a5 a8) (bfold1 _ a4 a5 a6 a7 a8)

theorem x3 (a0 : FVec Ideal S100000x64 .f32) (a1 : IVec S2x3200000 32) (a3 : FVec Ideal S4x64x64 .f32) (a4 a5 a6 a7 a8 : FVec Ideal S4x64 .f32)
    (h0 : AllReal a0) (h3 : AllReal a3) (h4 : AllReal a4) (h5 : AllReal a5) (h6 : AllReal a6) (h7 : AllReal a7) (hnn : ∀ i, IsNN (a8 i))
    (hew : AllReal (edgeW (F := Ideal) (rowIdx (F := Ideal) a1) (colIdx (F := Ideal) a1))) :
    kerX3 a0 a1 a3 a4 a5 a6 a7 a8 = refX3 (F := Ideal) a0 a1 a3 a4 a5 a6 a7 a8 ∧ AllReal (refX3 (F := Ideal) a0 a1 a3 a4 a5 a6 a7 a8) := by
  have hl := Cert.LayerBridge.conv_bridge (matSlice2 (F := Ideal) a3) (vecSlice2 (F := Ideal) a4) (vecSlice2 (F := Ideal) a5)
      (vecSlice2 (F := Ideal) a6) (vecSlice2 (F := Ideal) a7) (vecSlice2 (F := Ideal) a8) (refX2 (F := Ideal) a0 a1 a3 a4 a5 a6 a7 a8)
      (rowIdx (F := Ideal) a1) (colIdx (F := Ideal) a1) (edgeW (F := Ideal) (rowIdx (F := Ideal) a1) (colIdx (F := Ideal) a1))
      (matSlice2 (F := Ideal) (wFold (F := Ideal) a3 a5 a8))
      (shapeCast S1x64 (vecSlice2 (F := Ideal) (bFold (F := Ideal) a4 a5 a6 a7 a8)) Cert.KernelIdeal.Gen.shapeCasts_S64_S1x64)
      (x2 a0 a1 a3 a4 a5 a6 a7 a8 h0 h3 h4 h5 h6 h7 hnn hew).2 (matSlice2_real a3 h3) (vecSlice2_real a4 h4) (vecSlice2_real a5 h5) (vecSlice2_real a6 h6) (vecSlice2_real a7 h7)
      (vecSlice2_nn a8 hnn) hew (wfold2 a3 a5 a8) (bfold2 _ a4 a5 a6 a7 a8)
  unfold kerX3 kerLayer refX3
  rw [(x2 a0 a1 a3 a4 a5 a6 a7 a8 h0 h3 h4 h5 h6 h7 hnn hew).1, (x1 a0 a1 a3 a4 a5 a6 a7 a8 h0 h3 h4 h5 h6 h7 hnn hew).1, hl.1]
  exact ⟨rfl, Cert.Finite.AllReal.addf hl.2 (x1 a0 a1 a3 a4 a5 a6 a7 a8 h0 h3 h4 h5 h6 h7 hnn hew).2⟩

theorem x4 (a0 : FVec Ideal S100000x64 .f32) (a1 : IVec S2x3200000 32) (a3 : FVec Ideal S4x64x64 .f32) (a4 a5 a6 a7 a8 : FVec Ideal S4x64 .f32)
    (h0 : AllReal a0) (h3 : AllReal a3) (h4 : AllReal a4) (h5 : AllReal a5) (h6 : AllReal a6) (h7 : AllReal a7) (hnn : ∀ i, IsNN (a8 i))
    (hew : AllReal (edgeW (F := Ideal) (rowIdx (F := Ideal) a1) (colIdx (F := Ideal) a1))) :
    kerX4 a0 a1 a3 a4 a5 a6 a7 a8 = refX4 (F := Ideal) a0 a1 a3 a4 a5 a6 a7 a8 ∧ AllReal (refX4 (F := Ideal) a0 a1 a3 a4 a5 a6 a7 a8) := by
  unfold kerX4 kerLayer refX4
  rw [(x3 a0 a1 a3 a4 a5 a6 a7 a8 h0 h3 h4 h5 h6 h7 hnn hew).1]
  exact Cert.LayerBridge.conv_bridge (matSlice3 (F := Ideal) a3) (vecSlice3 (F := Ideal) a4) (vecSlice3 (F := Ideal) a5)
      (vecSlice3 (F := Ideal) a6) (vecSlice3 (F := Ideal) a7) (vecSlice3 (F := Ideal) a8) (refX3 (F := Ideal) a0 a1 a3 a4 a5 a6 a7 a8)
      (rowIdx (F := Ideal) a1) (colIdx (F := Ideal) a1) (edgeW (F := Ideal) (rowIdx (F := Ideal) a1) (colIdx (F := Ideal) a1))
      _ _
      (x3 a0 a1 a3 a4 a5 a6 a7 a8 h0 h3 h4 h5 h6 h7 hnn hew).2 (matSlice3_real a3 h3) (vecSlice3_real a4 h4) (vecSlice3_real a5 h5) (vecSlice3_real a6 h6) (vecSlice3_real a7 h7)
      (vecSlice3_nn a8 hnn) hew (wfold3 a3 a5 a8) (bfold3 _ a4 a5 a6 a7 a8)

end Cert.LayersEqual

end
-- ==== Proof.CatLaw.lean ====
/-
  A PRODUCT AGAINST A FOUR-WAY COLUMN CONCATENATION IS THE SUM OF FOUR PRODUCTS AGAINST ROW CHUNKS OF THE WEIGHT.

  Four arrays  x₁ … x₄  of shape  [R, A]  joined along the columns give  X : [R, 4A]  with  X (p, A·i + k) = xᵢ₊₁ (p, k) .
  A weight  W : [4A, B]  cast to  [4, A, B] , sliced to  [1, A, B]  at offset  (i, 0, 0)  and cast to  [A, B]  is its
  chunk of rows  Wᵢ (k, j) = W (A·i + k, j) .  Then, entry by entry,

      ∑ c < 4A, X (p, c) · W (c, j)  =  ((∑ k < A, x₁ (p, k) · W₀ (k, j) + ∑ k, x₂ (p, k) · W₁ (k, j))
                                          + ∑ k, x₃ (p, k) · W₂ (k, j)) + ∑ k, x₄ (p, k) · W₃ (k, j) :

  the range of the sum on the left is cut into four consecutive ranges of  A  terms.  A finite sum in a commutative
  monoid may be cut this way, so nothing about finiteness of the entries is used.
-/
import Idealize.ShloMosaic.Lib.ValueIdx
import Idealize.ShloMosaic.Lib.ValueLayout
import Idealize.ShloMosaic.Lib.Pipeline.Value
import Idealize.ShloMosaic.PureOps.Ideal.Laws
import proofs.«127520_j50629074485391_2_alg».proof.Proof.LibProdRows

noncomputable section

open scoped BigOperators

namespace Cert.CatLaw

open Idealize.ShloMosaic Idealize.ShloMosaic.ValueIdx
open Cert.KernelIdeal.RegionValue (prodArr prodArr_apply)
open Cert.ProdRows (addArr)

/-! ## The concatenation read at an index -/

section Reads
variable {α : Type}

/-- Four `[R, A]` arrays joined along axis 1, read at `(p, c)` when column `c` is column `k` of piece `i`
    (`c = A·i + k`): piece `i` at `(p, k)`. -/
theorem cat4_apply {R A C : ℕ} (x1 x2 x3 x4 : (⟨2, ![R, A]⟩ : Shape).Idx → α)
    (h : Shape.Concatenates [(⟨2, ![R, A]⟩ : Shape), ⟨2, ![R, A]⟩, ⟨2, ![R, A]⟩, ⟨2, ![R, A]⟩] ⟨2, ![R, C]⟩ (1 : Fin 2))
    (i : Fin 4) (p : Fin R) (k : Fin A) (c : Fin C) (hc : c.val = A * i.val + k.val) :
    concatenate ⟨2, ![R, C]⟩ (1 : Fin 2)
        [⟨⟨2, ![R, A]⟩, x1⟩, ⟨⟨2, ![R, A]⟩, x2⟩, ⟨⟨2, ![R, A]⟩, x3⟩, ⟨⟨2, ![R, A]⟩, x4⟩] h (ix2 p c)
      = (![x1, x2, x3, x4] i) (ix2 p k) := by
  have hoff : ∀ b : Fin (⟨2, ![R, A]⟩ : Shape).rank, b.cast (rfl : (2 : ℕ) = 2) ≠ (1 : Fin 2) →
      ((ix2 p k) b).val = ((ix2 p c) (b.cast (rfl : (2 : ℕ) = 2))).val := fun b hb => by
    match b with
    | ⟨0, _⟩ => rfl
    | ⟨1, _⟩ => exact absurd rfl hb
  let xs : List ((s : Shape) × (s.Idx → α)) :=
    [⟨⟨2, ![R, A]⟩, x1⟩, ⟨⟨2, ![R, A]⟩, x2⟩, ⟨⟨2, ![R, A]⟩, x3⟩, ⟨⟨2, ![R, A]⟩, x4⟩]
  have hlen : xs.length = 4 := rfl
  match i with
  | ⟨0, _⟩ =>
    refine concatenate_apply_piece (t := ⟨2, ![R, C]⟩) (1 : Fin 2) xs h (ix2 p c) 0 (by rw [hlen]; omega) ⟨2, ![R, A]⟩ x1 rfl rfl 0 rfl (ix2 p k) hoff ?_
    show 0 + k.val = c.val
    rw [hc]; show 0 + k.val = A * 0 + k.val; omega
  | ⟨1, _⟩ =>
    refine concatenate_apply_piece (t := ⟨2, ![R, C]⟩) (1 : Fin 2) xs h (ix2 p c) 1 (by rw [hlen]; omega) ⟨2, ![R, A]⟩ x2 rfl rfl A rfl (ix2 p k) hoff ?_
    show A + k.val = c.val
    rw [hc]; show A + k.val = A * 1 + k.val; omega
  | ⟨2, _⟩ =>
    refine concatenate_apply_piece (t := ⟨2, ![R, C]⟩) (1 : Fin 2) xs h (ix2 p c) 2 (by rw [hlen]; omega) ⟨2, ![R, A]⟩ x3 rfl rfl (A + (A + 0)) rfl (ix2 p k) hoff ?_
    show A + (A + 0) + k.val = c.val
    rw [hc]; show A + (A + 0) + k.val = A * 2 + k.val; omega
  | ⟨3, _⟩ =>
    refine concatenate_apply_piece (t := ⟨2, ![R, C]⟩) (1 : Fin 2) xs h (ix2 p c) 3 (by rw [hlen]; omega) ⟨2, ![R, A]⟩ x4 rfl rfl (A + (A + (A + 0))) rfl (ix2 p k) hoff ?_
    show A + (A + (A + 0)) + k.val = c.val
    rw [hc]; show A + (A + (A + 0)) + k.val = A * 3 + k.val; omega

/-- Chunk `i` of a weight's rows: `[C, B]` cast to `[4, A, B]`, sliced to `[1, A, B]` at offset `(i, 0, 0)` and cast to
    `[A, B]`, read at `(k, j)`: the weight at `(c, j)` for the row `c = A·i + k`. -/
theorem chunk_apply {A B C : ℕ} (off : Fin 3 → ℕ) (i : Fin 4) (h0 : off 0 = i.val) (h1 : off 1 = 0) (h2 : off 2 = 0)
    (W : (⟨2, ![C, B]⟩ : Shape).Idx → α) (hc1 : (⟨2, ![C, B]⟩ : Shape).ShapeCasts ⟨3, ![4, A, B]⟩)
    (hs : (⟨3, ![4, A, B]⟩ : Shape).Slices off ⟨3, ![1, A, B]⟩)
    (hc2 : (⟨3, ![1, A, B]⟩ : Shape).ShapeCasts ⟨2, ![A, B]⟩) (k : Fin A) (j : Fin B) (c : Fin C)
    (hc : c.val = A * i.val + k.val) :
    shapeCast ⟨2, ![A, B]⟩ (extractStridedSlice ⟨3, ![1, A, B]⟩ off (shapeCast ⟨3, ![4, A, B]⟩ W hc1) hs) hc2 (ix2 k j)
      = W (ix2 c j) := by
  rw [shapeCast_1ab_ab_apply]
  have e : extractStridedSlice ⟨3, ![1, A, B]⟩ off (shapeCast ⟨3, ![4, A, B]⟩ W hc1) hs (ix3 (0 : Fin 1) k j)
      = shapeCast ⟨3, ![4, A, B]⟩ W hc1 (ix3 i k j) := by
    refine extractStridedSlice_apply off (shapeCast ⟨3, ![4, A, B]⟩ W hc1) hs _ _ fun ax => ?_
    match ax with
    | ⟨0, _⟩ => show i.val = off 0 + 0; rw [h0]; rfl
    | ⟨1, _⟩ => show k.val = off 1 + k.val; rw [h1, Nat.zero_add]
    | ⟨2, _⟩ => show j.val = off 2 + j.val; rw [h2, Nat.zero_add]
  rw [e]
  refine shapeCast_apply W hc1 _ _ ?_
  rw [Shape.rowMajor_val_two, Shape.rowMajor_val_three]
  show c.val * B + j.val = (i.val * A + k.val) * B + j.val
  rw [hc, Nat.mul_comm A]

end Reads

/-! ## The law -/

/-- **The product against the joined array is the sum of the four products against the chunks**, with the joined array
    `X`, the pieces, the weight and its chunks as variables and the two relations between them as hypotheses:
    `X (p, A·i + k) = xᵢ₊₁ (p, k)` and `Wᵢ (k, j) = W (A·i + k, j)`.  The sum over the `A + A + A + A` columns is cut into its
    four consecutive ranges. -/
theorem prod_cat4 {R A B C : ℕ} (hC : C = A + A + A + A)
    (X : (⟨2, ![R, C]⟩ : Shape).Idx → EReal) (W : (⟨2, ![C, B]⟩ : Shape).Idx → EReal)
    (x1 x2 x3 x4 : (⟨2, ![R, A]⟩ : Shape).Idx → EReal) (W0 W1 W2 W3 : (⟨2, ![A, B]⟩ : Shape).Idx → EReal)
    (hX : ∀ (i : Fin 4) (p : Fin R) (k : Fin A) (c : Fin C), c.val = A * i.val + k.val →
      X (ix2 p c) = (![x1, x2, x3, x4] i) (ix2 p k))
    (hW : ∀ (i : Fin 4) (k : Fin A) (j : Fin B) (c : Fin C), c.val = A * i.val + k.val →
      (![W0, W1, W2, W3] i) (ix2 k j) = W (ix2 c j)) :
    prodArr X W = addArr (addArr (addArr (prodArr x1 W0) (prodArr x2 W1)) (prodArr x3 W2)) (prodArr x4 W3) := by
  subst hC
  funext idx
  obtain ⟨p, j, rfl⟩ : ∃ (p : Fin R) (j : Fin B), idx = ix2 p j := ⟨idx 0, idx 1, eq_ix2 idx⟩
  show prodArr X W (ix2 p j)
      = ((prodArr x1 W0 (ix2 p j) + prodArr x2 W1 (ix2 p j)) + prodArr x3 W2 (ix2 p j)) + prodArr x4 W3 (ix2 p j)
  rw [prodArr_apply, prodArr_apply, prodArr_apply, prodArr_apply, prodArr_apply,
    Fin.sum_univ_add, Fin.sum_univ_add, Fin.sum_univ_add]
  refine congrArg₂ (· + ·) (congrArg₂ (· + ·) (congrArg₂ (· + ·) ?_ ?_) ?_) ?_
  · refine Finset.sum_congr rfl fun k _ => ?_
    exact congrArg₂ (· * ·) (hX 0 p k _ (by show k.val = A * 0 + k.val; omega))
      (hW 0 k j _ (by show k.val = A * 0 + k.val; omega)).symm
  · refine Finset.sum_congr rfl fun k _ => ?_
    exact congrArg₂ (· * ·) (hX 1 p k _ (by show A + k.val = A * 1 + k.val; omega))
      (hW 1 k j _ (by show A + k.val = A * 1 + k.val; omega)).symm
  · refine Finset.sum_congr rfl fun k _ => ?_
    exact congrArg₂ (· * ·) (hX 2 p k _ (by show A + A + k.val = A * 2 + k.val; omega))
      (hW 2 k j _ (by show A + A + k.val = A * 2 + k.val; omega)).symm
  · refine Finset.sum_congr rfl fun k _ => ?_
    exact congrArg₂ (· * ·) (hX 3 p k _ (by show A + A + A + k.val = A * 3 + k.val; omega))
      (hW 3 k j _ (by show A + A + A + k.val = A * 3 + k.val; omega)).symm

/-- The law for the printed terms: the library's concatenation of the four pieces on the left, the four chunks of the
    weight (cast to `[4, A, B]`, sliced at `(i, 0, 0)`, cast to `[A, B]`) on the right. -/
theorem prod_cat4_chunks {R A B C : ℕ} (hC : C = A + A + A + A)
    (x1 x2 x3 x4 : (⟨2, ![R, A]⟩ : Shape).Idx → EReal) (W : (⟨2, ![C, B]⟩ : Shape).Idx → EReal)
    (h : Shape.Concatenates [(⟨2, ![R, A]⟩ : Shape), ⟨2, ![R, A]⟩, ⟨2, ![R, A]⟩, ⟨2, ![R, A]⟩] ⟨2, ![R, C]⟩ (1 : Fin 2))
    (hc1 : (⟨2, ![C, B]⟩ : Shape).ShapeCasts ⟨3, ![4, A, B]⟩)
    (hs0 : (⟨3, ![4, A, B]⟩ : Shape).Slices ![0, 0, 0] ⟨3, ![1, A, B]⟩)
    (hs1 : (⟨3, ![4, A, B]⟩ : Shape).Slices ![1, 0, 0] ⟨3, ![1, A, B]⟩)
    (hs2 : (⟨3, ![4, A, B]⟩ : Shape).Slices ![2, 0, 0] ⟨3, ![1, A, B]⟩)
    (hs3 : (⟨3, ![4, A, B]⟩ : Shape).Slices ![3, 0, 0] ⟨3, ![1, A, B]⟩)
    (hc2 : (⟨3, ![1, A, B]⟩ : Shape).ShapeCasts ⟨2, ![A, B]⟩) :
    prodArr (concatenate ⟨2, ![R, C]⟩ (1 : Fin 2)
        [⟨⟨2, ![R, A]⟩, x1⟩, ⟨⟨2, ![R, A]⟩, x2⟩, ⟨⟨2, ![R, A]⟩, x3⟩, ⟨⟨2, ![R, A]⟩, x4⟩] h) W
      = addArr (addArr (addArr
          (prodArr x1 (shapeCast ⟨2, ![A, B]⟩
            (extractStridedSlice ⟨3, ![1, A, B]⟩ ![0, 0, 0] (shapeCast ⟨3, ![4, A, B]⟩ W hc1) hs0) hc2))
          (prodArr x2 (shapeCast ⟨2, ![A, B]⟩
            (extractStridedSlice ⟨3, ![1, A, B]⟩ ![1, 0, 0] (shapeCast ⟨3, ![4, A, B]⟩ W hc1) hs1) hc2)))
          (prodArr x3 (shapeCast ⟨2, ![A, B]⟩
            (extractStridedSlice ⟨3, ![1, A, B]⟩ ![2, 0, 0] (shapeCast ⟨3, ![4, A, B]⟩ W hc1) hs2) hc2)))
          (prodArr x4 (shapeCast ⟨2, ![A, B]⟩
            (extractStridedSlice ⟨3, ![1, A, B]⟩ ![3, 0, 0] (shapeCast ⟨3, ![4, A, B]⟩ W hc1) hs3) hc2)) := by
  refine prod_cat4 hC _ W x1 x2 x3 x4 _ _ _ _ (fun i p k c hc => cat4_apply x1 x2 x3 x4 h i p k c hc)
    (fun i k j c hc => ?_)
  match i with
  | ⟨0, _⟩ => exact chunk_apply ![0, 0, 0] 0 rfl rfl rfl W hc1 hs0 hc2 k j c hc
  | ⟨1, _⟩ => exact chunk_apply ![1, 0, 0] 1 rfl rfl rfl W hc1 hs1 hc2 k j c hc
  | ⟨2, _⟩ => exact chunk_apply ![2, 0, 0] 2 rfl rfl rfl W hc1 hs2 hc2 k j c hc
  | ⟨3, _⟩ => exact chunk_apply ![3, 0, 0] 3 rfl rfl rfl W hc1 hs3 hc2 k j c hc

end Cert.CatLaw

end
-- ==== Proof.TailBridge.lean ====
/-
  THE TAIL OF THE NETWORK IN ITS TWO SPELLINGS, at the ideal values.

  The node encoder is two dense layers, each followed by a bias on every row and a rectifier, applied to the four layer
  outputs side by side; the decoder is a dense layer with bias and rectifier followed by a dense layer to one value per
  graph.  One program writes each dense product as a `dot_general`, each bias as a vector spread over the rows in two
  steps, each rectifier as the larger of the array and a zero spread from a scalar, and the first encoder layer as one
  product against the four outputs joined along the columns.  The other writes them as the whole-array functions
  `prodArr` (product), `bcastRow` (a one-row array on every row, the bias first cast to one row), `actArr zf`
  (rectifier), `addArr` (entrywise sum), and the first encoder layer as the sum of four products against the four
  chunks of rows of the weight.  The two spellings are the same arrays: operation by operation they are the same
  function, and the one product against the joined array is the sum of the four products (the law of the joined
  product).  Nothing about finiteness of the entries is used.
-/
import proofs.«127520_j50629074485391_2_alg».proof.Proof.CatLaw
import proofs.«127520_j50629074485391_2_alg».proof.Proof.SliceReads
import proofs.«127520_j50629074485391_2_alg».proof.Proof.RegionRowBcast
import proofs.«127520_j50629074485391_2_alg».proof.Proof.RefRunStages

noncomputable section

namespace Cert.TailBridge

open Idealize.ShloMosaic Idealize.ShloMosaic.ValueIdx
open Cert.ReferenceIdeal Cert.ReferenceIdeal.Gen Cert.ReferenceIdeal.HandRun
open Cert.KernelIdeal.RegionValue (prodArr)
open Cert.KernelIdeal.RowBcast (bcastRow bcastRow_apply)
open Cert.DenseRow (actArr)
open Cert.RowBias (zf hact)
open Cert.ProdRows (addArr addf_eq hprod)

/-- A vector spread over the rows in two steps (`[C] → [1, C] → [R, C]`) is the vector cast to one row, on every row. -/
theorem bias_rows {R C : ℕ} (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![R, C]⟩ ![0, 1])
    (hc : (⟨1, ![C]⟩ : Shape).ShapeCasts ⟨2, ![1, C]⟩) :
    broadcastInDim ⟨2, ![R, C]⟩ ![0, 1] h2 (broadcastInDim ⟨2, ![1, C]⟩ ![1] h1 b)
      = bcastRow R (shapeCast ⟨2, ![1, C]⟩ b hc) := by
  funext i
  obtain ⟨p, c, rfl⟩ : ∃ (p : Fin R) (c : Fin C), i = ix2 p c := ⟨i 0, i 1, eq_ix2 i⟩
  rw [Cert.SliceReads.bcast_rows_apply, bcastRow_apply, shapeCast_a_1a_apply]

/-- THE DECODER in its two spellings. -/
theorem decoder_bridge (p : FVec Ideal S64x128 .f32) (w13 : FVec Ideal S128x64 .f32) (b14 : FVec Ideal S64 .f32)
    (w15 : FVec Ideal S64x1 .f32) (b16 : FVec Ideal S1 .f32)
    (h1 : S64.ShapeCasts S1x64) (h2 : S1.ShapeCasts S1x1) :
    decoder (F := Ideal) p w13 b14 w15 b16
      = shapeCast S64 (addArr (s := S64x1) (prodArr (actArr zf (addArr (s := S64x64) (prodArr p w13)
          (bcastRow 64 (shapeCast S1x64 b14 h1)))) w15) (bcastRow 64 (shapeCast S1x1 b16 h2))) shapeCasts_S64x1_S64 := by
  have e1 : Host.dotGeneral (F := Ideal) dot_S64x128_S128x64_S64x64_1_0_0_1_n_n none p w13 = prodArr p w13 :=
    hprod (R := 64) (K := 128) (N := 64) none p w13
  have e2 : broadcastInDim S64x64 ![0, 1] bcast_S1x64_S64x64_0_1 (broadcastInDim S1x64 ![1] bcast_S64_S1x64_1 b14)
      = bcastRow 64 (shapeCast S1x64 b14 h1) :=
    bias_rows (R := 64) (C := 64) b14 bcast_S64_S1x64_1 bcast_S1x64_S64x64_0_1 h1
  have e3 : ∀ y : FVec Ideal S64x64 .f32, maximumf y (broadcastInDim S64x64 ![] bcast_S_S64x64 (constant (F := Ideal) S_ .f32 0x00000000#32)) = actArr zf y :=
    fun y => hact y bcast_S_S64x64
  have e4 : ∀ y : FVec Ideal S64x64 .f32,
      Host.dotGeneral (F := Ideal) dot_S64x64_S64x1_S64x1_1_0_0_1_n_n none y w15 = prodArr y w15 :=
    fun y => hprod (R := 64) (K := 64) (N := 1) none y w15
  have e5 : broadcastInDim S64x1 ![0, 1] bcast_S1x1_S64x1_0_1 (broadcastInDim S1x1 ![1] bcast_S1_S1x1_1 b16)
      = bcastRow 64 (shapeCast S1x1 b16 h2) :=
    bias_rows (R := 64) (C := 1) b16 bcast_S1_S1x1_1 bcast_S1x1_S64x1_0_1 h2
  show shapeCast S64 (addf (Host.dotGeneral (F := Ideal) dot_S64x64_S64x1_S64x1_1_0_0_1_n_n none
      (maximumf (addf (Host.dotGeneral (F := Ideal) dot_S64x128_S128x64_S64x64_1_0_0_1_n_n none p w13)
        (broadcastInDim S64x64 ![0, 1] bcast_S1x64_S64x64_0_1 (broadcastInDim S1x64 ![1] bcast_S64_S1x64_1 b14)))
        (broadcastInDim S64x64 ![] bcast_S_S64x64 (constant (F := Ideal) S_ .f32 0x00000000#32))) w15)
      (broadcastInDim S64x1 ![0, 1] bcast_S1x1_S64x1_0_1 (broadcastInDim S1x1 ![1] bcast_S1_S1x1_1 b16))) shapeCasts_S64x1_S64 = _
  rw [e1, e2, e3, e4, e5]
  rfl

/-- THE ENCODER in its two spellings: the first layer's one product against the four outputs joined along the columns is
    the sum of the four products against the weight's four chunks of rows. -/
theorem encoder_bridge (h0 h1 h2 h3 : FVec Ideal S100000x64 .f32) (w9 : FVec Ideal S256x256 .f32)
    (b10 : FVec Ideal S256 .f32) (w11 : FVec Ideal S256x128 .f32) (b12 : FVec Ideal S128 .f32)
    (hc1 : S256x256.ShapeCasts ⟨3, ![4, 64, 256]⟩)
    (hs0 : (⟨3, ![4, 64, 256]⟩ : Shape).Slices ![0, 0, 0] ⟨3, ![1, 64, 256]⟩)
    (hs1 : (⟨3, ![4, 64, 256]⟩ : Shape).Slices ![1, 0, 0] ⟨3, ![1, 64, 256]⟩)
    (hs2 : (⟨3, ![4, 64, 256]⟩ : Shape).Slices ![2, 0, 0] ⟨3, ![1, 64, 256]⟩)
    (hs3 : (⟨3, ![4, 64, 256]⟩ : Shape).Slices ![3, 0, 0] ⟨3, ![1, 64, 256]⟩)
    (hc2 : (⟨3, ![1, 64, 256]⟩ : Shape).ShapeCasts ⟨2, ![64, 256]⟩)
    (hr8 : S256.ShapeCasts S1x256) (hr10 : S128.ShapeCasts S1x128) :
    encoder (F := Ideal) h0 h1 h2 h3 w9 b10 w11 b12
      = actArr zf (addArr (prodArr (actArr zf (addArr
            (addArr (addArr (addArr
              (prodArr h0 (shapeCast ⟨2, ![64, 256]⟩ (extractStridedSlice ⟨3, ![1, 64, 256]⟩ ![0, 0, 0] (shapeCast ⟨3, ![4, 64, 256]⟩ w9 hc1) hs0) hc2))
              (prodArr h1 (shapeCast ⟨2, ![64, 256]⟩ (extractStridedSlice ⟨3, ![1, 64, 256]⟩ ![1, 0, 0] (shapeCast ⟨3, ![4, 64, 256]⟩ w9 hc1) hs1) hc2)))
              (prodArr h2 (shapeCast ⟨2, ![64, 256]⟩ (extractStridedSlice ⟨3, ![1, 64, 256]⟩ ![2, 0, 0] (shapeCast ⟨3, ![4, 64, 256]⟩ w9 hc1) hs2) hc2)))
              (prodArr h3 (shapeCast ⟨2, ![64, 256]⟩ (extractStridedSlice ⟨3, ![1, 64, 256]⟩ ![3, 0, 0] (shapeCast ⟨3, ![4, 64, 256]⟩ w9 hc1) hs3) hc2)))
            (bcastRow 100000 (shapeCast S1x256 b10 hr8)))) w11) (bcastRow 100000 (shapeCast S1x128 b12 hr10))) := by
  have e1 : Host.dotGeneral (F := Ideal) dot_S100000x256_S256x256_S100000x256_1_0_0_1_n_n none
      (concatenate S100000x256 1 [⟨S100000x64, h0⟩, ⟨S100000x64, h1⟩, ⟨S100000x64, h2⟩, ⟨S100000x64, h3⟩] concatenates_S100000x64_S100000x64_S100000x64_S100000x64_S100000x256_d1) w9
      = prodArr (concatenate S100000x256 1 [⟨S100000x64, h0⟩, ⟨S100000x64, h1⟩, ⟨S100000x64, h2⟩, ⟨S100000x64, h3⟩] concatenates_S100000x64_S100000x64_S100000x64_S100000x64_S100000x256_d1) w9 :=
    hprod (R := 100000) (K := 256) (N := 256) none _ w9
  have e2 : prodArr (concatenate S100000x256 1 [⟨S100000x64, h0⟩, ⟨S100000x64, h1⟩, ⟨S100000x64, h2⟩, ⟨S100000x64, h3⟩] concatenates_S100000x64_S100000x64_S100000x64_S100000x64_S100000x256_d1) w9
      = (addArr (addArr (addArr
              (prodArr h0 (shapeCast ⟨2, ![64, 256]⟩ (extractStridedSlice ⟨3, ![1, 64, 256]⟩ ![0, 0, 0] (shapeCast ⟨3, ![4, 64, 256]⟩ w9 hc1) hs0) hc2))
              (prodArr h1 (shapeCast ⟨2, ![64, 256]⟩ (extractStridedSlice ⟨3, ![1, 64, 256]⟩ ![1, 0, 0] (shapeCast ⟨3, ![4, 64, 256]⟩ w9 hc1) hs1) hc2)))
              (prodArr h2 (shapeCast ⟨2, ![64, 256]⟩ (extractStridedSlice ⟨3, ![1, 64, 256]⟩ ![2, 0, 0] (shapeCast ⟨3, ![4, 64, 256]⟩ w9 hc1) hs2) hc2)))
              (prodArr h3 (shapeCast ⟨2, ![64, 256]⟩ (extractStridedSlice ⟨3, ![1, 64, 256]⟩ ![3, 0, 0] (shapeCast ⟨3, ![4, 64, 256]⟩ w9 hc1) hs3) hc2))) :=
    Cert.CatLaw.prod_cat4_chunks (R := 100000) (A := 64) (B := 256) (C := 256) rfl h0 h1 h2 h3 w9
      concatenates_S100000x64_S100000x64_S100000x64_S100000x64_S100000x256_d1 hc1 hs0 hs1 hs2 hs3 hc2
  have e3 : broadcastInDim S100000x256 ![0, 1] bcast_S1x256_S100000x256_0_1 (broadcastInDim S1x256 ![1] bcast_S256_S1x256_1 b10)
      = bcastRow 100000 (shapeCast S1x256 b10 hr8) :=
    bias_rows (R := 100000) (C := 256) b10 bcast_S256_S1x256_1 bcast_S1x256_S100000x256_0_1 hr8
  have e4 : ∀ y : FVec Ideal S100000x256 .f32, maximumf y (broadcastInDim S100000x256 ![] bcast_S_S100000x256 (constant (F := Ideal) S_ .f32 0x00000000#32)) = actArr zf y :=
    fun y => hact y bcast_S_S100000x256
  have e5 : ∀ y : FVec Ideal S100000x256 .f32,
      Host.dotGeneral (F := Ideal) dot_S100000x256_S256x128_S100000x128_1_0_0_1_n_n none y w11 = prodArr y w11 :=
    fun y => hprod (R := 100000) (K := 256) (N := 128) none y w11
  have e6 : broadcastInDim S100000x128 ![0, 1] bcast_S1x128_S100000x128_0_1 (broadcastInDim S1x128 ![1] bcast_S128_S1x128_1 b12)
      = bcastRow 100000 (shapeCast S1x128 b12 hr10) :=
    bias_rows (R := 100000) (C := 128) b12 bcast_S128_S1x128_1 bcast_S1x128_S100000x128_0_1 hr10
  have e7 : ∀ y : FVec Ideal S100000x128 .f32, maximumf y (broadcastInDim S100000x128 ![] bcast_S_S100000x128 (constant (F := Ideal) S_ .f32 0x00000000#32)) = actArr zf y :=
    fun y => hact y bcast_S_S100000x128
  show maximumf (addf (Host.dotGeneral (F := Ideal) dot_S100000x256_S256x128_S100000x128_1_0_0_1_n_n none
      (maximumf (addf (Host.dotGeneral (F := Ideal) dot_S100000x256_S256x256_S100000x256_1_0_0_1_n_n none
          (concatenate S100000x256 1 [⟨S100000x64, h0⟩, ⟨S100000x64, h1⟩, ⟨S100000x64, h2⟩, ⟨S100000x64, h3⟩] concatenates_S100000x64_S100000x64_S100000x64_S100000x64_S100000x256_d1) w9)
        (broadcastInDim S100000x256 ![0, 1] bcast_S1x256_S100000x256_0_1 (broadcastInDim S1x256 ![1] bcast_S256_S1x256_1 b10)))
        (broadcastInDim S100000x256 ![] bcast_S_S100000x256 (constant (F := Ideal) S_ .f32 0x00000000#32))) w11)
      (broadcastInDim S100000x128 ![0, 1] bcast_S1x128_S100000x128_0_1 (broadcastInDim S1x128 ![1] bcast_S128_S1x128_1 b12)))
      (broadcastInDim S100000x128 ![] bcast_S_S100000x128 (constant (F := Ideal) S_ .f32 0x00000000#32)) = _
  rw [e1, e2, e3, e4, e5, e6, e7]
  rfl

end Cert.TailBridge

end
-- ==== Proof.OutEqual.lean ====
/-
  THE TWO PROGRAMS' RESULTS ARE ONE FUNCTION OF THE ARGUMENTS, under finiteness of the convolution inputs, a nonnegative
  variance and real edge weights.

  The four layer outputs agree (Cert.LayersEqual).  On equal layer outputs the rest is the same computation in two spellings:
  the encoder's first product against the four outputs joined along the columns is the sum of four products against the
  four row blocks of the weight, and every product, bias and rectifier of the encoder and the decoder is the same
  whole-array function on the host and on the grid (Cert.TailBridge); the per-graph mean is the same operations.
-/
import proofs.«127520_j50629074485391_2_alg».proof.Proof.LayersEqual
import proofs.«127520_j50629074485391_2_alg».proof.Proof.TailBridge
import proofs.«127520_j50629074485391_2_alg».proof.Proof.KernelValueDefs

noncomputable section

namespace Cert.OutEqual

open Idealize.ShloMosaic Idealize.ShloMosaic.ValueIdx
open Cert.ReferenceIdeal Cert.ReferenceIdeal.Gen Cert.ReferenceIdeal.HandRun
open Cert.KernelIdeal.HandRun.Value (kerH kerOut)
open Cert.Finite (AllReal IsNN)

theorem out_eq (a0 : FVec Ideal S100000x64 .f32) (a1 : IVec S2x3200000 32) (a2 : IVec S100000 32) (a3 : FVec Ideal S4x64x64 .f32)
    (a4 a5 a6 a7 a8 : FVec Ideal S4x64 .f32) (a9 : FVec Ideal S256x256 .f32) (a10 : FVec Ideal S256 .f32) (a11 : FVec Ideal S256x128 .f32)
    (a12 : FVec Ideal S128 .f32) (a13 : FVec Ideal S128x64 .f32) (a14 : FVec Ideal S64 .f32) (a15 : FVec Ideal S64x1 .f32) (a16 : FVec Ideal S1 .f32)
    (h0 : AllReal a0) (h3 : AllReal a3) (h4 : AllReal a4) (h5 : AllReal a5) (h6 : AllReal a6) (h7 : AllReal a7) (hnn : ∀ i, IsNN (a8 i))
    (hew : AllReal (edgeW (F := Ideal) (rowIdx (F := Ideal) a1) (colIdx (F := Ideal) a1))) :
    kerOut a0 a1 a2 a3 a4 a5 a6 a7 a8 a9 a10 a11 a12 a13 a14 a15 a16 = refOut (F := Ideal) a0 a1 a2 a3 a4 a5 a6 a7 a8 a9 a10 a11 a12 a13 a14 a15 a16 := by
  have e1 := (Cert.LayersEqual.x1 a0 a1 a3 a4 a5 a6 a7 a8 h0 h3 h4 h5 h6 h7 hnn hew).1
  have e2 := (Cert.LayersEqual.x2 a0 a1 a3 a4 a5 a6 a7 a8 h0 h3 h4 h5 h6 h7 hnn hew).1
  have e3 := (Cert.LayersEqual.x3 a0 a1 a3 a4 a5 a6 a7 a8 h0 h3 h4 h5 h6 h7 hnn hew).1
  have e4 := (Cert.LayersEqual.x4 a0 a1 a3 a4 a5 a6 a7 a8 h0 h3 h4 h5 h6 h7 hnn hew).1
  unfold kerOut kerH refOut
  rw [e1, e2, e3, e4]
  rw [Cert.TailBridge.decoder_bridge _ a13 a14 a15 a16 Cert.KernelIdeal.Gen.shapeCasts_S64_S1x64 Cert.KernelIdeal.Gen.shapeCasts_S1_S1x1,
    Cert.TailBridge.encoder_bridge _ _ _ _ a9 a10 a11 a12 Cert.KernelIdeal.Gen.shapeCasts_S256x256_S4x64x256
      Cert.KernelIdeal.Gen.slices_S4x64x256_S1x64x256_0_0_0 Cert.KernelIdeal.Gen.slices_S4x64x256_S1x64x256_1_0_0
      Cert.KernelIdeal.Gen.slices_S4x64x256_S1x64x256_2_0_0 Cert.KernelIdeal.Gen.slices_S4x64x256_S1x64x256_3_0_0
      Cert.KernelIdeal.Gen.shapeCasts_S1x64x256_S64x256 Cert.KernelIdeal.Gen.shapeCasts_S256_S1x256 Cert.KernelIdeal.Gen.shapeCasts_S128_S1x128]
  rfl

end Cert.OutEqual

end
-- ==== Proof.EdgeReal.lean ====
/-
  THE EDGE WEIGHTS ARE REAL NUMBERS.  The degree of a node is the zero array with a one scatter-added at the target
  of every edge; the edge list is followed by one self loop per node, and the self loop of node n has target n whatever
  the edge list holds, so the degree of n is a natural number that is at least one.  Its reciprocal square root is
  then a real number, and an edge's weight, the product of two such entries read at the edge's two ends, is real.

  An accumulating scatter of a vector of updates into the entries of a vector at an index column (no window axes,
  the entry axis inserted, index vector along axis 1) is read at one update: the update lands on the entry its index,
  read signed, names, whenever that is an entry of the operand.
-/
import proofs.«127520_j50629074485391_2_alg».proof.Proof.RefRunStages
import proofs.«127520_j50629074485391_2_alg».proof.Proof.LibFinite
import Idealize.ShloMosaic.Lib.ValueIdx
import Idealize.ShloMosaic.Lib.Pipeline.Value
import Idealize.ShloMosaic.PureOps.Ideal.Laws

noncomputable section

open scoped BigOperators

namespace Cert.EdgeReal

open Idealize.ShloMosaic Idealize.ShloMosaic.ValueIdx Cert.Finite

/-! ## Entries of a vector scattered at an index column -/

/-- The entry scatter's dimension numbers for an operand `[N]`, scatter indices `[E, 1]` and updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e`'s window starts at `idx[e, 0]`, read signed and not clamped. -/
theorem vecScatter_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The entry axis is an inserted window axis: its window coordinate is `0`. -/
theorem vecScatter_window {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg]
  simp [ScatterDims.sKept, Shape.kept, List.mem_filter, List.mem_finRange]

/-- WHERE UPDATE `e` LANDS: on entry `n`, when its index read signed is `n`. -/
theorem vecScatter_lands {N E w : Nat} (wf : ScatterDims.WF ⟨1, ![N]⟩ ⟨2, ![E, 1]⟩ ⟨1, ![E]⟩ [] [0] [0] 1)
    (idx : IVec ⟨2, ![E, 1]⟩ w) (e : Fin E) (n : Fin N) (h : (idx (ix2 e (0 : Fin 1))).toInt = (n.val : Int)) :
    (vecScatterDims N E wf).resultIdx? (ix1 e) idx = some (ix1 n) := by
  have hn := n.isLt
  have hc : ∀ a, 0 ≤ (vecScatterDims N E wf).start (ix1 e) idx a + (vecScatterDims N E wf).window (ix1 e) a
      ∧ (vecScatterDims N E wf).start (ix1 e) idx a + (vecScatterDims N E wf).window (ix1 e) a < (⟨1, ![N]⟩ : Shape).size a := by
    intro a
    obtain rfl : a = 0 := Subsingleton.elim _ _
    rw [vecScatter_start, vecScatter_window, h]
    have hs : (⟨1, ![N]⟩ : Shape).size 0 = N := rfl
    rw [hs]
    omega
  unfold ScatterDims.resultIdx?
  rw [dif_pos hc]
  congr 1
  funext a
  obtain rfl : a = 0 := Subsingleton.elim _ _
  refine Fin.ext ?_
  show ((vecScatterDims N E wf).start (ix1 e) idx 0 + ((vecScatterDims N E wf).window (ix1 e) 0 : Nat)).toNat = n.val
  rw [vecScatter_start, vecScatter_window, h]
  omega

/-- A sum of ones over a finite set is the set's size. -/
theorem sum_ones {ι : Type*} (S : Finset ι) : ∑ _j ∈ S, (1 : EReal) = ((S.card : ℝ) : EReal) := by
  classical
  induction S using Finset.induction_on with
  | empty => simp
  | insert a s ha ih =>
    rw [Finset.sum_insert ha, ih, Finset.card_insert_of_notMem ha, Nat.cast_succ, EReal.coe_add, EReal.coe_one, add_comm]

/-- A small natural number as a 32-bit word, read signed, is the number. -/
theorem toInt_ofNat_small (n : Nat) (hn : n < 2 ^ 31) : (BitVec.ofNat 32 n).toInt = (n : Int) := by
  rw [BitVec.toInt_eq_toNat_cond, BitVec.toNat_ofNat]
  have : n % 2 ^ 32 = n := Nat.mod_eq_of_lt (by omega)
  rw [this]
  split <;> omega

/-! ## The degrees and the edge weights of this graph -/

open Cert.ReferenceIdeal Cert.ReferenceIdeal.HandRun

/-- An index vector's column, read: entry `(e, 0)` is entry `e`. -/
theorem idxCol_apply (v : (⟨S3300000, .i32⟩ : BufTy).Contents (Elt Ideal)) (e : Fin 3300000) :
    idxCol (F := Ideal) v (ix2 e (0 : Fin 1)) = v (ix1 e) := by
  unfold idxCol
  refine broadcastInDim_apply _ _ v _ (ix1 e) (fun a => ?_)
  obtain rfl : a = 0 := Subsingleton.elim _ _
  rw [if_neg (by decide : ¬ S3300000.size 0 = 1)]
  rfl

/-- The target of node `n`'s self loop is `n`, whatever the edge list holds. -/
theorem colIdx_loop (a1 : (⟨S2x3200000, .i32⟩ : BufTy).Contents (Elt Ideal)) (n : Fin 100000) :
    colIdx (F := Ideal) a1 (ix1 ⟨3200000 + n.val, by have := n.isLt; omega⟩) = BitVec.ofNat 32 n.val := by
  unfold colIdx
  refine (concatenate_pair_apply_right (t := S3300000) (s₁ := S3200000) (s₂ := S100000) 0 _ _ _ _ rfl rfl (ix1 n)
    (fun b hb => absurd (Subsingleton.elim _ _) hb) ?_).trans rfl
  show n.val + 3200000 = 3200000 + n.val
  omega

/-- The float one is the real number one. -/
theorem oneWord : Ideal.ofBits .f32 0x3F800000#32 = (1 : EReal) := by
  simp [Ideal.ofBits, Ideal.ieee, -EReal.coe_mul]; norm_num

/-- An accumulating scatter of ones into a zero entry on which at least one update lands is a positive real: the
    number of updates that land on it. Stated for any scatter, over variables. -/
theorem scatterAdd_ones_pos {s si su : Shape} {w : Nat} (d : ScatterDims s si su) (x : FVec Ideal s .f32) (idx : IVec si w)
    (u : FVec Ideal su .f32) (i : s.Idx) (hx : x i = (0 : EReal)) (hu : ∀ j, u j = (1 : EReal)) (j0 : su.Idx)
    (h0 : d.resultIdx? j0 idx = some i) : ∃ r : ℝ, 0 < r ∧ Host.scatterAdd d x idx u i = (r : EReal) := by
  show ∃ r : ℝ, 0 < r ∧ Ideal.hostScatterAdd d x idx u i = (r : EReal)
  unfold Ideal.hostScatterAdd
  rw [Finset.sum_congr rfl (fun j _ => hu j), sum_ones, hx, zero_add]
  exact ⟨_, Nat.cast_pos.2 (Finset.card_pos.2 ⟨j0, Finset.mem_filter.2 ⟨Finset.mem_univ _, h0⟩⟩), rfl⟩

/-- The degree of a node whose self loop is in the target list is a positive real. -/
theorem degree_pos (c : (⟨S3300000, .i32⟩ : BufTy).Contents (Elt Ideal))
    (hc : ∀ n : Fin 100000, c (ix1 ⟨3200000 + n.val, by have := n.isLt; omega⟩) = BitVec.ofNat 32 n.val) (n : Fin 100000) :
    ∃ r : ℝ, 0 < r ∧ degree (F := Ideal) c (ix1 n) = (r : EReal) := by
  have wf : ScatterDims.WF S100000 S3300000x1 S3300000 [] [0] [0] 1 := Facts₀.scatter_S100000_S3300000x1_S3300000_n_0_0_1_wf
  have hlands : (vecScatterDims 100000 3300000 wf).resultIdx?
      (ix1 ⟨3200000 + n.val, by have := n.isLt; omega⟩) (idxCol (F := Ideal) c) = some (ix1 n) :=
    vecScatter_lands _ _ _ n (by
      rw [idxCol_apply, hc n]
      exact toInt_ofNat_small _ (by have := n.isLt; omega))
  unfold degree
  exact scatterAdd_ones_pos _ _ _ _ (ix1 n) Ideal.ofBits_zero_f32 (fun _ => oneWord) _ hlands

/-- The host's reciprocal square root of an entry that is a positive real is real. -/
theorem isReal_host_rsqrt {s : Shape} (x : FVec Ideal s .f32) (i : s.Idx) (r : ℝ) (hr : 0 < r) (e : x i = (r : EReal)) :
    IsReal (Host.rsqrt x i) := by
  show IsReal (Ideal.rsqrt (x i))
  rw [e]
  exact isReal_rsqrt_pos hr

/-- The reciprocal square roots of the degrees are real. -/
theorem rsqrt_degree_real (a1 : (⟨S2x3200000, .i32⟩ : BufTy).Contents (Elt Ideal)) :
    AllReal (Host.rsqrt (degree (F := Ideal) (colIdx a1)) : FVec Ideal S100000 .f32) := fun i => by
  obtain ⟨k, rfl⟩ : ∃ k : Fin 100000, i = ix1 k := ⟨i 0, eq_ix1 i⟩
  obtain ⟨r, hr, e⟩ := degree_pos (colIdx a1) (colIdx_loop a1) k
  exact isReal_host_rsqrt _ _ r hr e

/-- THE EDGE WEIGHTS ARE REAL. -/
theorem edgeW_real (a1 : (⟨S2x3200000, .i32⟩ : BufTy).Contents (Elt Ideal)) :
    AllReal (edgeW (F := Ideal) (rowIdx a1) (colIdx a1)) := by
  unfold edgeW
  exact AllReal.bcast (AllReal.mulf (AllReal.gather (rsqrt_degree_real a1) _ _) (AllReal.gather (rsqrt_degree_real a1) _ _)) _ _

end Cert.EdgeReal

end
-- ==== Proof.lean ====
/-
  A FOUR-LAYER GRAPH-CONVOLUTION NETWORK: the grid program against its array reference, at the ideal values.

  Both programs take node features x [100000, 64], an edge list, a graph assignment, four convolution layers' weights,
  biases and evaluation-mode batch-norm parameters (γ, β, μ, σ²), a two-layer node encoder and a two-layer decoder.  Both add a
  self loop to every node, weight edge (r → c) by  rsqrt (deg r) · rsqrt (deg c)  and compute, layer by layer,
      xᵢ₊₁ = relu ((((A (xᵢ · wᵢ) + bᵢ) − μᵢ) · sᵢ) + βᵢ),      sᵢ = γᵢ · rsqrt (σᵢ² + ε),
  where  A  gathers rows at the edge sources, scales them by the edge weights and adds them up at the targets; layer 2 adds
  layer 0's output.  The four outputs side by side go through the encoder, are averaged per graph and decoded.

  The grid program differs in three ways.  It folds the batch norm into the parameters once,  w' = w · s ,  b' = (b − μ) · s + β ,
  and computes  relu (A (xᵢ · w'ᵢ) + b'ᵢ) .  It never joins the four outputs: the encoder's first product is four products against
  the four row blocks of its weight, added up.  And its dense stages run block of rows by block of rows on a grid.

  • Each grid region is a whole-array function of its input arrays (products, row biases, rectifiers, sums), because every
    output row depends on the same input rows only and the blocks cover the array.
  • The fold is the distributive law on a sum of finitely many terms.  On the extended reals it fails at infinities
    ( ⊤ + ⊥ = ⊥ ), so it is proved where every number is a real: the inputs are finite by the precondition, every degree is at
    least one (its self loop), and  σ² + ε  is a positive real because the variance is nonnegative - the added
    precondition, without which  rsqrt  is  ⊤  or the junk  ⊥  and the two programs differ.  Realness is carried along the layers.
  • The product against the joined outputs is the sum of the four block products: a sum over 256 indices split into four
    sums over 64; addition of extended reals is commutative and associative, nothing need be finite.
  • Everything else is the same operations in both programs.

  The kernel program's run leaves its result at  kerOut  of the arguments as launched, the reference's at  refOut ; the
  arguments agree; and under the precondition  kerOut = refOut .  The idealization rewrote nothing, so the preservation
  conjunct is trivial; the three frames are the programs' runs with the results dropped.
-/
import proofs.«127520_j50629074485391_2_alg».proof.Defs
import proofs.«127520_j50629074485391_2_alg».proof.Proof.Gen.Kernel
import proofs.«127520_j50629074485391_2_alg».proof.Proof.Gen.Kernel.Frame
import proofs.«127520_j50629074485391_2_alg».proof.Proof.Gen.KernelIdeal
import proofs.«127520_j50629074485391_2_alg».proof.Proof.Gen.KernelIdeal.Frame
import proofs.«127520_j50629074485391_2_alg».proof.Proof.Gen.ReferenceIdeal
import proofs.«127520_j50629074485391_2_alg».proof.Proof.Gen.Pre_finite_inputs
import proofs.«127520_j50629074485391_2_alg».proof.Proof.RefRunValue
import proofs.«127520_j50629074485391_2_alg».proof.Proof.RefRunFrameClaim
import proofs.«127520_j50629074485391_2_alg».proof.Proof.PreFacts
import proofs.«127520_j50629074485391_2_alg».proof.Proof.KernelValueDefs
import proofs.«127520_j50629074485391_2_alg».proof.Proof.KernelValueTail
import proofs.«127520_j50629074485391_2_alg».proof.Proof.OutEqual
import proofs.«127520_j50629074485391_2_alg».proof.Proof.EdgeReal
import Idealize.ShloMosaic.Adequacy
import Idealize.ShloMosaic.Init

noncomputable section

namespace Cert.Proof

open Idealize.ShloMosaic Idealize.SL.Sem

/-- The kernel program's frame. -/
theorem frame_p : @Cert.frame_Kernel Cert.Kernel.Gen.facts Cert.Pre_finite_inputs.Gen.facts :=
  fun m ρ _ => Cert.Kernel.Gen.frame m ρ

/-- The idealized kernel program's frame. -/
theorem frame_pi : @Cert.frame_KernelIdeal Cert.KernelIdeal.Gen.facts Cert.Pre_finite_inputs.Gen.facts :=
  fun m ρ _ => Cert.KernelIdeal.Gen.frame m ρ

/-- The idealized reference's frame. -/
theorem frame_ri : @Cert.frame_ReferenceIdeal Cert.ReferenceIdeal.Gen.facts Cert.Pre_finite_inputs.Gen.facts :=
  Cert.ReferenceIdeal.HandRun.frame_ri

/-- The two idealized programs, run from memories agreeing on the arguments, end with equal results. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.HandRun.Value.ker_value m ρ, ?_⟩
  refine (θ_run Cert.ReferenceIdeal.defs _ _).mono (fun r h c => ⟨(h c).1.trans ?_, (h c).2⟩)
    (Cert.ReferenceIdeal.HandRun.ref_value (F := Ideal) m' ρ')
  obtain ⟨e0, e1, e2, e3, e4, e5, e6, e7, e8, e9, e10, e11, e12, e13, e14, e15, e16⟩ := hagree c
  rw [e0, e1, e2, e3, e4, e5, e6, e7, e8, e9, e10, e11, e12, e13, e14, e15, e16]
  obtain ⟨h0, h3, h4, h5, h6, h7, _h8, hnn, -⟩ :=
    Cert.PreFacts.pre_facts _ _ _ _ _ _ _ _ _ _ _ _ _ _ _ _ _ (hpre c)
  exact (Cert.OutEqual.out_eq _ _ _ _ _ _ _ _ _ _ _ _ _ _ _ _ _ h0 h3 h4 h5 h6 h7 hnn (Cert.EdgeReal.edgeW_real _)).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
